-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S512x128 : Shape := ⟨2, ![512, 128]⟩
abbrev S256x128 : Shape := ⟨2, ![256, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S16384 : Shape := ⟨1, ![16384]⟩
abbrev S2048 : Shape := ⟨1, ![2048]⟩
abbrev S2048x16384 : Shape := ⟨2, ![2048, 16384]⟩
abbrev S512 : Shape := ⟨1, ![512]⟩
abbrev S512x2048 : Shape := ⟨2, ![512, 2048]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S2048x16384 : S_.BroadcastsInDim S2048x16384 (![] : Fin 0 → Fin S2048x16384.rank)
  reducesTo_S2048x16384_S_d0_1 : S2048x16384.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part4 {F : FTy → Type} [FloatOps F] (main_arg19 : FVec F S512x2048 .f32) (main_arg23 : FVec F S2048x16384 .f32) (main_arg26 : FVec F S512x2048 .f32) (main_v63 : IVec S_ 1) (main_v67 : IVec S_ 1) : IVec S_ 1 :=
  let main_v68 : IVec S_ 1 := andi main_v63 main_v67
  let main_v69 : FVec F S512x2048 .f32 := Host.absf main_arg19
  let main_cst_26 : FVec F S_ .f32 := constant S_ .f32 0x7F800000#32
  let main_v70 : FVec F S512x2048 .f32 := broadcastInDim S512x2048 ![] bcast_S_S512x2048 main_cst_26
  let main_v71 : IVec S512x2048 1 := cmpf .olt main_v69 main_v70
  let main_c_27 : IVec S_ 1 := constantI S_ 1 1#1
  let main_v72 : IVec S_ 1 := (fun x v => Host.reduce IntOp.andi x v reducesTo_S512x2048_S_d0_1 h_S_) main_v71 main_c_27
  let main_v73 : IVec S_ 1 := andi main_v68 main_v72
  let main_v74 : FVec F S2048x16384 .f32 := Host.absf main_arg23
  let main_cst_28 : FVec F S_ .f32 := constant S_ .f32 0x7F800000#32
  let main_v75 : FVec F S2048x16384 .f32 := broadcastInDim S2048x16384 ![] bcast_S_S2048x16384 main_cst_28
  let main_v76 : IVec S2048x16384 1 := cmpf .olt main_v74 main_v75
  let main_c_29 : IVec S_ 1 := constantI S_ 1 1#1
  let main_v77 : IVec S_ 1 := (fun x v => Host.reduce IntOp.andi x v reducesTo_S2048x16384_S_d0_1 h_S_) main_v76 main_c_29
  let main_v78 : IVec S_ 1 := andi main_v73 main_v77
  let main_v79 : FVec F S512x2048 .f32 := Host.absf main_arg26
  let main_cst_30 : FVec F S_ .f32 := constant S_ .f32 0x7F800000#32
  let main_v80 : FVec F S512x2048 .f32 := broadcastInDim S512x2048 ![] bcast_S_S512x2048 main_cst_30
  let main_v81 : IVec S512x2048 1 := cmpf .olt main_v79 main_v80
  let main_c_31 : IVec S_ 1 := constantI S_ 1 1#1
  let main_v82 : IVec S_ 1 := (fun x v => Host.reduce IntOp.andi x v reducesTo_S512x2048_S_d0_1 h_S_) main_v81 main_c_31
  let main_v83 : IVec S_ 1 := andi main_v78 main_v82
  main_v83

def fn_part3 {F : FTy → Type} [FloatOps F] (main_arg11 : FVec F S8x1 .f32) (main_arg12 : FVec F S1 .f32) (main_arg16 : FVec F S2048x16384 .f32) (main_arg19 : FVec F S512x2048 .f32) (main_arg23 : FVec F S2048x16384 .f32) (main_arg26 : FVec F S512x2048 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x1 .f32 := Host.absf main_arg11
  let main_cst_20 : FVec F S_ .f32 := constant S_ .f32 0x7F800000#32
  let main_v55 : FVec F S8x1 .f32 := broadcastInDim S8x1 ![] bcast_S_S8x1 main_cst_20
  let main_v56 : IVec S8x1 1 := cmpf .olt main_v54 main_v55
  let main_c_21 : IVec S_ 1 := constantI S_ 1 1#1
  let main_v57 : IVec S_ 1 := (fun x v => Host.reduce IntOp.andi x v reducesTo_S8x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S2048x16384 .f32 := Host.absf main_arg16
  let main_cst_24 : FVec F S_ .f32 := constant S_ .f32 0x7F800000#32
  let main_v65 : FVec F S2048x16384 .f32 := broadcastInDim S2048x16384 ![] bcast_S_S2048x16384 main_cst_24
  let main_v66 : IVec S2048x16384 1 := cmpf .olt main_v64 main_v65
  let main_c_25 : IVec S_ 1 := constantI S_ 1 1#1
  let main_v67 : IVec S_ 1 := (fun x v => Host.reduce IntOp.andi x v reducesTo_S2048x16384_S_d0_1 h_S_) main_v66 main_c_25
  fn_part4 (F := F) main_arg19 main_arg23 main_arg26 main_v63 main_v67

def fn_part2 {F : FTy → Type} [FloatOps F] (main_arg7 : FVec F S32x16 .f32) (main_arg8 : FVec F S16 .f32) (main_arg9 : FVec F S16x8 .f32) (main_arg10 : FVec F S8 .f32) (main_arg11 : FVec F S8x1 .f32) (main_arg12 : FVec F S1 .f32) (main_arg16 : FVec F S2048x16384 .f32) (main_arg19 : FVec F S512x2048 .f32) (main_arg23 : FVec F S2048x16384 .f32) (main_arg26 : FVec F S512x2048 .f32) (main_v33 : IVec S_ 1) : IVec S_ 1 :=
  let main_v34 : FVec F S32x16 .f32 := Host.absf main_arg7
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x8 .f32 := Host.absf main_arg9
  let main_cst_16 : FVec F S_ .f32 := constant S_ .f32 0x7F800000#32
  let main_v45 : FVec F S16x8 .f32 := broadcastInDim S16x8 ![] bcast_S_S16x8 main_cst_16
  let main_v46 : IVec S16x8 1 := cmpf .olt main_v44 main_v45
  let main_c_17 : IVec S_ 1 := constantI S_ 1 1#1
  let main_v47 : IVec S_ 1 := (fun x v => Host.reduce IntOp.andi x v reducesTo_S16x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg16 main_arg19 main_arg23 main_arg26 main_v48 main_v49 main_v50

def fn_part1 {F : FTy → Type} [FloatOps F] (main_arg4 : FVec F S64 .f32) (main_arg5 : FVec F S64x32 .f32) (main_arg6 : FVec F S32 .f32) (main_arg7 : FVec F S32x16 .f32) (main_arg8 : FVec F S16 .f32) (main_arg9 : FVec F S16x8 .f32) (main_arg10 : FVec F S8 .f32) (main_arg11 : FVec F S8x1 .f32) (main_arg12 : FVec F S1 .f32) (main_arg16 : FVec F S2048x16384 .f32) (main_arg19 : FVec F S512x2048 .f32) (main_arg23 : FVec F S2048x16384 .f32) (main_arg26 : FVec F S512x2048 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg16 main_arg19 main_arg23 main_arg26 main_v33

def fn {F : FTy → Type} [FloatOps F] (main_arg0 : FVec F S100000x256 .f32) (main_arg1 : FVec F S512x128 .f32) (main_arg2 : FVec F S256x128 .f32) (main_arg3 : FVec F S256x64 .f32) (main_arg4 : FVec F S64 .f32) (main_arg5 : FVec F S64x32 .f32) (main_arg6 : FVec F S32 .f32) (main_arg7 : FVec F S32x16 .f32) (main_arg8 : FVec F S16 .f32) (main_arg9 : FVec F S16x8 .f32) (main_arg10 : FVec F S8 .f32) (main_arg11 : FVec F S8x1 .f32) (main_arg12 : FVec F S1 .f32) (main_arg13 : IVec S16384 32) (main_arg14 : IVec S16384 32) (main_arg15 : IVec S2048 32) (main_arg16 : FVec F S2048x16384 .f32) (main_arg17 : IVec S2048 32) (main_arg18 : IVec S512 32) (main_arg19 : FVec F S512x2048 .f32) (main_arg20 : IVec S16384 32) (main_arg21 : IVec S16384 32) (main_arg22 : IVec S2048 32) (main_arg23 : FVec F S2048x16384 .f32) (main_arg24 : IVec S2048 32) (main_arg25 : IVec S512 32) (main_arg26 : FVec F S512x2048 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_arg7 main_arg8 main_arg9 main_arg10 main_arg11 main_arg12 main_arg16 main_arg19 main_arg23 main_arg26 main_v13 main_v16
-- ==== Kernel.lean ====
abbrev S100000x256 : Shape := ⟨2, ![100000, 256]⟩
abbrev S512x128 : Shape := ⟨2, ![512, 128]⟩
abbrev S256x128 : Shape := ⟨2, ![256, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S16384 : Shape := ⟨1, ![16384]⟩
abbrev S2048 : Shape := ⟨1, ![2048]⟩
abbrev S2048x16384 : Shape := ⟨2, ![2048, 16384]⟩
abbrev S512 : Shape := ⟨1, ![512]⟩
abbrev S512x2048 : Shape := ⟨2, ![512, 2048]⟩
abbrev S_ : Shape := ⟨0, ![]⟩
abbrev S16384x1 : Shape := ⟨2, ![16384, 1]⟩
abbrev S16384x256 : Shape := ⟨2, ![16384, 256]⟩
abbrev S2048x1 : Shape := ⟨2, ![2048, 1]⟩
abbrev S2048x256 : Shape := ⟨2, ![2048, 256]⟩
abbrev S2048x128 : Shape := ⟨2, ![2048, 128]⟩
abbrev S1024x4096 : Shape := ⟨2, ![1024, 4096]⟩
abbrev S4096x256 : Shape := ⟨2, ![4096, 256]⟩
abbrev S1024x256 : Shape := ⟨2, ![1024, 256]⟩
abbrev S1024x128 : Shape := ⟨2, ![1024, 128]⟩
abbrev S512x1 : Shape := ⟨2, ![512, 1]⟩
abbrev S128x128 : Shape := ⟨2, ![128, 128]⟩
abbrev S256x2048 : Shape := ⟨2, ![256, 2048]⟩
abbrev S512x256 : Shape := ⟨2, ![512, 256]⟩
abbrev S512x64 : Shape := ⟨2, ![512, 64]⟩
abbrev S1x64 : Shape := ⟨2, ![1, 64]⟩
abbrev S512x32 : Shape := ⟨2, ![512, 32]⟩
abbrev S1x32 : Shape := ⟨2, ![1, 32]⟩
abbrev S512x16 : Shape := ⟨2, ![512, 16]⟩
abbrev S1x16 : Shape := ⟨2, ![1, 16]⟩
abbrev S512x8 : Shape := ⟨2, ![512, 8]⟩
abbrev S1x8 : Shape := ⟨2, ![1, 8]⟩
abbrev S1x1 : Shape := ⟨2, ![1, 1]⟩

abbrev nBuf : Space → Nat
  | .hbm => 202
  | .vmem => 42
  | .smem => 0
  | _ => 0

abbrev hbmTy0_0 (i : Nat) : BufTy := match i % 128 with
  | 0 => ⟨S100000x256, .f32⟩
  | 1 => ⟨S512x128, .f32⟩
  | 2 => ⟨S256x128, .f32⟩
  | 3 => ⟨S256x64, .f32⟩
  | 4 => ⟨S64, .f32⟩
  | 5 => ⟨S64x32, .f32⟩
  | 6 => ⟨S32, .f32⟩
  | 7 => ⟨S32x16, .f32⟩
  | 8 => ⟨S16, .f32⟩
  | 9 => ⟨S16x8, .f32⟩
  | 10 => ⟨S8, .f32⟩
  | 11 => ⟨S8x1, .f32⟩
  | 12 => ⟨S1, .f32⟩
  | 13 => ⟨S16384, .i32⟩
  | 14 => ⟨S16384, .i32⟩
  | 15 => ⟨S2048, .i32⟩
  | 16 => ⟨S2048x16384, .f32⟩
  | 17 => ⟨S2048, .i32⟩
  | 18 => ⟨S512, .i32⟩
  | 19 => ⟨S512x2048, .f32⟩
  | 20 => ⟨S16384, .i32⟩
  | 21 => ⟨S16384, .i32⟩
  | 22 => ⟨S2048, .i32⟩
  | 23 => ⟨S2048x16384, .f32⟩
  | 24 => ⟨S2048, .i32⟩
  | 25 => ⟨S512, .i32⟩
  | 26 => ⟨S512x2048, .f32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x256, .f32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S2048, .i32⟩
  | 54 => ⟨S_, .i32⟩
  | 55 => ⟨S2048, .i32⟩
  | 56 => ⟨S2048, .i1⟩
  | 57 => ⟨S_, .i32⟩
  | 58 => ⟨S2048, .i32⟩
  | 59 => ⟨S2048, .i32⟩
  | 60 => ⟨S2048, .i32⟩
  | 61 => ⟨S2048x1, .i32⟩
  | 62 => ⟨S2048x256, .f32⟩
  | 63 => ⟨S256x128, .f32⟩
  | 64 => ⟨S256x128, .f32⟩
  | 65 => ⟨S2048x128, .f32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S2048x1, .i32⟩
  | 74 => ⟨S2048x128, .f32⟩
  | 75 => ⟨S_, .i32⟩
  | 76 => ⟨S512, .i32⟩
  | 77 => ⟨S512, .i1⟩
  | 78 => ⟨S_, .i32⟩
  | 79 => ⟨S512, .i32⟩
  | 80 => ⟨S512, .i32⟩
  | 81 => ⟨S512, .i32⟩
  | 82 => ⟨S512x1, .i32⟩
  | 83 => ⟨S512x128, .f32⟩
  | 84 => ⟨S128x128, .f32⟩
  | 85 => ⟨S128x128, .f32⟩
  | 86 => ⟨S512x128, .f32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16384x256, .f32⟩
  | 105 => ⟨S_, .i32⟩
  | 106 => ⟨S2048, .i32⟩
  | 107 => ⟨S2048, .i1⟩
  | 108 => ⟨S_, .i32⟩
  | 109 => ⟨S2048, .i32⟩
  | 110 => ⟨S2048, .i32⟩
  | 111 => ⟨S2048, .i32⟩
  | 112 => ⟨S2048x1, .i32⟩
  | 113 => ⟨S2048, .i32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S2048, .i32⟩
  | 121 => ⟨S2048x1, .i32⟩
  | 122 => ⟨S2048x256, .f32⟩
  | 123 => ⟨S256x128, .f32⟩
  | 124 => ⟨S256x128, .f32⟩
  | 125 => ⟨S2048x128, .f32⟩
  | 126 => ⟨S_, .i32⟩
  | 127 => ⟨S2048, .i32⟩
  | _ => ⟨S100000x256, .f32⟩

abbrev hbmTy0_1 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S2048x1, .i32⟩
  | 6 => ⟨S2048x128, .f32⟩
  | 7 => ⟨S_, .i32⟩
  | 8 => ⟨S512, .i32⟩
  | 9 => ⟨S512, .i1⟩
  | 10 => ⟨S_, .i32⟩
  | 11 => ⟨S512, .i32⟩
  | 12 => ⟨S512, .i32⟩
  | 13 => ⟨S512, .i32⟩
  | 14 => ⟨S512x1, .i32⟩
  | 15 => ⟨S512x128, .f32⟩
  | 16 => ⟨S128x128, .f32⟩
  | 17 => ⟨S128x128, .f32⟩
  | 18 => ⟨S512x128, .f32⟩
  | 19 => ⟨S512x256, .f32⟩
  | 20 => ⟨S512x256, .f32⟩
  | 21 => ⟨S_, .f32⟩
  | 22 => ⟨S512, .f32⟩
  | 23 => ⟨S512x1, .f32⟩
  | 24 => ⟨S_, .f32⟩
  | 25 => ⟨S512x1, .f32⟩
  | 26 => ⟨S512x1, .f32⟩
  | 27 => ⟨S512x1, .f32⟩
  | 28 => ⟨S512x256, .f32⟩
  | 29 => ⟨S512x256, .f32⟩
  | 30 => ⟨S512x64, .f32⟩
  | 31 => ⟨S1x64, .f32⟩
  | 32 => ⟨S512x64, .f32⟩
  | 33 => ⟨S512x64, .f32⟩
  | 34 => ⟨S_, .f32⟩
  | 35 => ⟨S512x64, .f32⟩
  | 36 => ⟨S512x64, .f32⟩
  | 37 => ⟨S512x32, .f32⟩
  | 38 => ⟨S1x32, .f32⟩
  | 39 => ⟨S512x32, .f32⟩
  | 40 => ⟨S512x32, .f32⟩
  | 41 => ⟨S_, .f32⟩
  | 42 => ⟨S512x32, .f32⟩
  | 43 => ⟨S512x32, .f32⟩
  | 44 => ⟨S512x16, .f32⟩
  | 45 => ⟨S1x16, .f32⟩
  | 46 => ⟨S512x16, .f32⟩
  | 47 => ⟨S512x16, .f32⟩
  | 48 => ⟨S_, .f32⟩
  | 49 => ⟨S512x16, .f32⟩
  | 50 => ⟨S512x16, .f32⟩
  | 51 => ⟨S512x8, .f32⟩
  | 52 => ⟨S1x8, .f32⟩
  | 53 => ⟨S512x8, .f32⟩
  | 54 => ⟨S512x8, .f32⟩
  | 55 => ⟨S_, .f32⟩
  | 56 => ⟨S512x8, .f32⟩
  | 57 => ⟨S512x8, .f32⟩
  | 58 => ⟨S512x1, .f32⟩
  | 59 => ⟨S1x1, .f32⟩
  | 60 => ⟨S512x1, .f32⟩
  | 61 => ⟨S512x1, .f32⟩
  | 62 => ⟨S_, .f32⟩
  | 63 => ⟨S512, .f32⟩
  | 64 => ⟨S_, .f32⟩
  | 65 => ⟨S512, .f32⟩
  | 66 => ⟨S512, .f32⟩
  | 67 => ⟨S512x1, .f32⟩
  | 68 => ⟨S512x1, .f32⟩
  | 69 => ⟨S512x1, .f32⟩
  | 70 => ⟨S_, .f32⟩
  | 71 => ⟨S512, .f32⟩
  | 72 => ⟨S512x1, .f32⟩
  | 73 => ⟨S512x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S1024x4096, .f32⟩
  | .local _ .vmem, ⟨1, _⟩ => ⟨S1024x4096, .f32⟩
  | .local _ .vmem, ⟨2, _⟩ => ⟨S4096x256, .f32⟩
  | .local _ .vmem, ⟨3, _⟩ => ⟨S4096x256, .f32⟩
  | .local _ .vmem, ⟨4, _⟩ => ⟨S1024x256, .f32⟩
  | .local _ .vmem, ⟨5, _⟩ => ⟨S1024x256, .f32⟩
  | .local _ .vmem, ⟨6, _⟩ => ⟨S256x128, .f32⟩
  | .local _ .vmem, ⟨7, _⟩ => ⟨S256x128, .f32⟩
  | .local _ .vmem, ⟨8, _⟩ => ⟨S1024x128, .f32⟩
  | .local _ .vmem, ⟨9, _⟩ => ⟨S1024x128, .f32⟩
  | .local _ .vmem, ⟨10, _⟩ => ⟨S1024x256, .f32⟩
  | .local _ .vmem, ⟨11, _⟩ => ⟨S256x2048, .f32⟩
  | .local _ .vmem, ⟨12, _⟩ => ⟨S256x2048, .f32⟩
  | .local _ .vmem, ⟨13, _⟩ => ⟨S2048x128, .f32⟩
  | .local _ .vmem, ⟨14, _⟩ => ⟨S256x128, .f32⟩
  | .local _ .vmem, ⟨15, _⟩ => ⟨S256x128, .f32⟩
  | .local _ .vmem, ⟨16, _⟩ => ⟨S128x128, .f32⟩
  | .local _ .vmem, ⟨17, _⟩ => ⟨S128x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S1024x4096, .f32⟩
  | .local _ .vmem, ⟨22, _⟩ => ⟨S1024x4096, .f32⟩
  | .local _ .vmem, ⟨23, _⟩ => ⟨S4096x256, .f32⟩
  | .local _ .vmem, ⟨24, _⟩ => ⟨S4096x256, .f32⟩
  | .local _ .vmem, ⟨25, _⟩ => ⟨S1024x256, .f32⟩
  | .local _ .vmem, ⟨26, _⟩ => ⟨S1024x256, .f32⟩
  | .local _ .vmem, ⟨27, _⟩ => ⟨S256x128, .f32⟩
  | .local _ .vmem, ⟨28, _⟩ => ⟨S256x128, .f32⟩
  | .local _ .vmem, ⟨29, _⟩ => ⟨S1024x128, .f32⟩
  | .local _ .vmem, ⟨30, _⟩ => ⟨S1024x128, .f32⟩
  | .local _ .vmem, ⟨31, _⟩ => ⟨S1024x256, .f32⟩
  | .local _ .vmem, ⟨32, _⟩ => ⟨S256x2048, .f32⟩
  | .local _ .vmem, ⟨33, _⟩ => ⟨S256x2048, .f32⟩
  | .local _ .vmem, ⟨34, _⟩ => ⟨S2048x128, .f32⟩
  | .local _ .vmem, ⟨35, _⟩ => ⟨S256x128, .f32⟩
  | .local _ .vmem, ⟨36, _⟩ => ⟨S256x128, .f32⟩
  | .local _ .vmem, ⟨37, _⟩ => ⟨S128x128, .f32⟩
  | .local _ .vmem, ⟨38, _⟩ => ⟨S128x128, .f32⟩
  | .local _ .vmem, ⟨39, _⟩ => ⟨S256x128, .f32⟩
  | .local _ .vmem, ⟨40, _⟩ => ⟨S256x128, .f32⟩
  | .local _ .vmem, ⟨41, _⟩ => ⟨S256x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_7 : Ref sig .tc := ⟨.hbm, 66, rfl⟩
abbrev main_v31 : Ref sig .tc := ⟨.hbm, 67, rfl⟩
abbrev main_v32 : Ref sig .tc := ⟨.hbm, 68, rfl⟩
abbrev main_c_8 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_9 : Ref sig .tc := ⟨.hbm, 75, rfl⟩
abbrev main_v38 : Ref sig .tc := ⟨.hbm, 76, rfl⟩
abbrev main_v39 : Ref sig .tc := ⟨.hbm, 77, rfl⟩
abbrev main_c_10 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_11 : Ref sig .tc := ⟨.hbm, 87, rfl⟩
abbrev main_v48 : Ref sig .tc := ⟨.hbm, 88, rfl⟩
abbrev main_v49 : Ref sig .tc := ⟨.hbm, 89, rfl⟩
abbrev main_c_12 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_13 : Ref sig .tc := ⟨.hbm, 96, rfl⟩
abbrev main_v55 : Ref sig .tc := ⟨.hbm, 97, rfl⟩
abbrev main_v56 : Ref sig .tc := ⟨.hbm, 98, rfl⟩
abbrev main_c_14 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_15 : Ref sig .tc := ⟨.hbm, 105, rfl⟩
abbrev main_v62 : Ref sig .tc := ⟨.hbm, 106, rfl⟩
abbrev main_v63 : Ref sig .tc := ⟨.hbm, 107, rfl⟩
abbrev main_c_16 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_17 : Ref sig .tc := ⟨.hbm, 114, rfl⟩
abbrev main_v69 : Ref sig .tc := ⟨.hbm, 115, rfl⟩
abbrev main_v70 : Ref sig .tc := ⟨.hbm, 116, rfl⟩
abbrev main_c_18 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_19 : Ref sig .tc := ⟨.hbm, 126, rfl⟩
abbrev main_v79 : Ref sig .tc := ⟨.hbm, 127, rfl⟩
abbrev main_v80 : Ref sig .tc := ⟨.hbm, 128, rfl⟩
abbrev main_c_20 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_21 : Ref sig .tc := ⟨.hbm, 135, rfl⟩
abbrev main_v86 : Ref sig .tc := ⟨.hbm, 136, rfl⟩
abbrev main_v87 : Ref sig .tc := ⟨.hbm, 137, rfl⟩
abbrev main_c_22 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst : Ref sig .tc := ⟨.hbm, 149, rfl⟩
abbrev main_v98 : Ref sig .tc := ⟨.hbm, 150, rfl⟩
abbrev main_v99 : Ref sig .tc := ⟨.hbm, 151, rfl⟩
abbrev main_cst_23 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_call0_cst : Ref sig .tc := ⟨.hbm, 162, rfl⟩
abbrev main_call0_v0 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_call1_cst : Ref sig .tc := ⟨.hbm, 169, rfl⟩
abbrev main_call1_v0 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_call2_cst : Ref sig .tc := ⟨.hbm, 176, rfl⟩
abbrev main_call2_v0 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_call3_cst : Ref sig .tc := ⟨.hbm, 183, rfl⟩
abbrev main_call3_v0 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_cst_24 : Ref sig .tc := ⟨.hbm, 190, rfl⟩
abbrev main_v129 : Ref sig .tc := ⟨.hbm, 191, rfl⟩
abbrev main_cst_25 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_26 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_scratch0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg5_1 : Ref sig .tc := ⟨.vmem, 40, rfl⟩
abbrev cc3_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 1], ![false, false]⟩

def k1_cond2 (i : grid1.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![2, 1], ![false, false]⟩

def k3_cond2 (i : grid3.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S2048 : S_.BroadcastsInDim S2048 (![] : Fin 0 → Fin S2048.rank)
  bcast_S2048_S2048x1_0 : S2048.BroadcastsInDim S2048x1 (![0] : Fin 1 → Fin S2048x1.rank)
  slices_S512x128_S256x128_0_0 : S512x128.Slices ![0, 0] S256x128
  slices_S512x128_S256x128_256_0 : S512x128.Slices ![256, 0] S256x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  bcast_S_S512 : S_.BroadcastsInDim S512 (![] : Fin 0 → Fin S512.rank)
  bcast_S512_S512x1_0 : S512.BroadcastsInDim S512x1 (![0] : Fin 1 → Fin S512x1.rank)
  slices_S256x128_S128x128_0_0 : S256x128.Slices ![0, 0] S128x128
  slices_S256x128_S128x128_128_0 : S256x128.Slices ![128, 0] S128x128
  inb_S256x2048_S256x2048_0_0 : ∀ a, (![0, 0] : Fin 2 → Nat) a + S256x2048.size a ≤ S256x2048.size a
  h_S256x2048 : 0 < S256x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S512x128_S512x128_S512x256_d1 : Shape.Concatenates [S512x128, S512x128] S512x256 1
  reducesTo_S512x256_S512_d1 : S512x256.ReducesTo [1] S512
  h_S_ : 0 < S_.numel
  bcast_S_S512x1 : S_.BroadcastsInDim S512x1 (![] : Fin 0 → Fin S512x1.rank)
  bcast_S512x1_S512x256_0_1 : S512x1.BroadcastsInDim S512x256 (![0, 1] : Fin 2 → Fin S512x256.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  bcast_S_S512x8 : S_.BroadcastsInDim S512x8 (![] : Fin 0 → Fin S512x8.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  gather_S16384_S16384x1_S16384_n_0_n_n_0_1_1_wf : GatherDims.WF S16384 S16384x1 S16384 [] [0] [] [0] [] 1 ![1]
  gather_S100000x256_S16384x1_S16384x256_1_0_n_n_0_1_1256_wf : GatherDims.WF S100000x256 S16384x1 S16384x256 [1] [0] [] [0] [] 1 ![1, 256]
  gather_S16384_S2048x1_S2048_n_0_n_n_0_1_1_wf : GatherDims.WF S16384 S2048x1 S2048 [] [0] [] [0] [] 1 ![1]
  gather_S100000x256_S2048x1_S2048x256_1_0_n_n_0_1_1256_wf : GatherDims.WF S100000x256 S2048x1 S2048x256 [1] [0] [] [0] [] 1 ![1, 256]
  dot_S1024x4096_S4096x256_S1024x256_1_0_0_1_n_n_wf : DotDims.WF S1024x4096 S4096x256 S1024x256 [1] [0] [0] [1] [] []
  dot_S1024x256_S256x128_S1024x128_1_0_0_1_n_n_wf : DotDims.WF S1024x256 S256x128 S1024x128 [1] [0] [0] [1] [] []
  gather_S2048x128_S2048x1_S2048x128_1_0_n_n_0_1_1128_wf : GatherDims.WF S2048x128 S2048x1 S2048x128 [1] [0] [] [0] [] 1 ![1, 128]
  gather_S2048x128_S512x1_S512x128_1_0_n_n_0_1_1128_wf : GatherDims.WF S2048x128 S512x1 S512x128 [1] [0] [] [0] [] 1 ![1, 128]
  dot_S256x2048_S2048x128_S256x128_1_0_0_1_n_n_wf : DotDims.WF S256x2048 S2048x128 S256x128 [1] [0] [0] [1] [] []
  dot_S256x128_S128x128_S256x128_1_0_0_1_n_n_wf : DotDims.WF S256x128 S128x128 S256x128 [1] [0] [0] [1] [] []
  dot_S512x256_S256x64_S512x64_1_0_0_1_n_n_wf : DotDims.WF S512x256 S256x64 S512x64 [1] [0] [0] [1] [] []
  dot_S512x64_S64x32_S512x32_1_0_0_1_n_n_wf : DotDims.WF S512x64 S64x32 S512x32 [1] [0] [0] [1] [] []
  dot_S512x32_S32x16_S512x16_1_0_0_1_n_n_wf : DotDims.WF S512x32 S32x16 S512x16 [1] [0] [0] [1] [] []
  dot_S512x16_S16x8_S512x8_1_0_0_1_n_n_wf : DotDims.WF S512x16 S16x8 S512x8 [1] [0] [0] [1] [] []
  dot_S512x8_S8x1_S512x1_1_0_0_1_n_n_wf : DotDims.WF S512x8 S8x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S2048x16384.size a
  hwx0_0 : ∀ i : grid0.Coords, EltTy.bits .f32 = 32 ∨ (Rect.block (s := S2048x16384) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S16384x256.size a
  hwx0_1 : ∀ i : grid0.Coords, EltTy.bits .f32 = 32 ∨ (Rect.block (s := S16384x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S2048x256.size a
  hwx0_2 : ∀ i : grid0.Coords, EltTy.bits .f32 = 32 ∨ (Rect.block (s := S2048x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S2048x128.size a
  hwx0_5 : ∀ i : grid0.Coords, EltTy.bits .f32 = 32 ∨ (Rect.block (s := S2048x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S512x2048.size a
  hwx1_0 : ∀ i : grid1.Coords, EltTy.bits .f32 = 32 ∨ (Rect.block (s := S512x2048) S256x2048.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x128.size a
  hwx1_1 : ∀ i : grid1.Coords, EltTy.bits .f32 = 32 ∨ (Rect.block (s := S2048x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S512x128.size a
  hwx1_2 : ∀ i : grid1.Coords, EltTy.bits .f32 = 32 ∨ (Rect.block (s := S512x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S512x128.size a
  hwx1_5 : ∀ i : grid1.Coords, EltTy.bits .f32 = 32 ∨ (Rect.block (s := S512x128) S256x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S2048x16384.size a
  hwx2_0 : ∀ i : grid2.Coords, EltTy.bits .f32 = 32 ∨ (Rect.block (s := S2048x16384) S1024x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S16384x256.size a
  hwx2_1 : ∀ i : grid2.Coords, EltTy.bits .f32 = 32 ∨ (Rect.block (s := S16384x256) S4096x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S2048x256.size a
  hwx2_2 : ∀ i : grid2.Coords, EltTy.bits .f32 = 32 ∨ (Rect.block (s := S2048x256) S1024x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S2048x128.size a
  hwx2_5 : ∀ i : grid2.Coords, EltTy.bits .f32 = 32 ∨ (Rect.block (s := S2048x128) S1024x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S512x2048.size a
  hwx3_0 : ∀ i : grid3.Coords, EltTy.bits .f32 = 32 ∨ (Rect.block (s := S512x2048) S256x2048.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x128.size a
  hwx3_1 : ∀ i : grid3.Coords, EltTy.bits .f32 = 32 ∨ (Rect.block (s := S2048x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S512x128.size a
  hwx3_2 : ∀ i : grid3.Coords, EltTy.bits .f32 = 32 ∨ (Rect.block (s := S512x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S512x128.size a
  hwx3_5 : ∀ i : grid3.Coords, EltTy.bits .f32 = 32 ∨ (Rect.block (s := S512x128) S256x128.size (cc3_transform_5 i) (hinb3_5 i)).WholeWords (EltTy.packing .f32)

variable [Facts₀]

def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S16384_S2048x1_S2048_n_0_n_n_0_1_1 : GatherDims S16384 S2048x1 S2048 where
  offsetDims := []
  collapsedSliceDims := [0]
  operandBatchingDims := []
  startIndicesBatchingDims := []
  startIndexMap := [0]
  indexVectorDim := 1
  sliceSizes := ![1]
  wf := gather_S16384_S2048x1_S2048_n_0_n_n_0_1_1_wf
def gather_S100000x256_S2048x1_S2048x256_1_0_n_n_0_1_1256 : GatherDims S100000x256 S2048x1 S2048x256 where
  offsetDims := [1]
  collapsedSliceDims := [0]
  operandBatchingDims := []
  startIndicesBatchingDims := []
  startIndexMap := [0]
  indexVectorDim := 1
  sliceSizes := ![1, 256]
  wf := gather_S100000x256_S2048x1_S2048x256_1_0_n_n_0_1_1256_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S2048x128_S2048x1_S2048x128_1_0_n_n_0_1_1128 : GatherDims S2048x128 S2048x1 S2048x128 where
  offsetDims := [1]
  collapsedSliceDims := [0]
  operandBatchingDims := []
  startIndicesBatchingDims := []
  startIndexMap := [0]
  indexVectorDim := 1
  sliceSizes := ![1, 128]
  wf := gather_S2048x128_S2048x1_S2048x128_1_0_n_n_0_1_1128_wf
def gather_S2048x128_S512x1_S512x128_1_0_n_n_0_1_1128 : GatherDims S2048x128 S512x1 S512x128 where
  offsetDims := [1]
  collapsedSliceDims := [0]
  operandBatchingDims := []
  startIndicesBatchingDims := []
  startIndexMap := [0]
  indexVectorDim := 1
  sliceSizes := ![1, 128]
  wf := gather_S2048x128_S512x1_S512x128_1_0_n_n_0_1_1128_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x16_S512x16_1_0_0_1_n_n : DotDims S512x32 S32x16 S512x16 where
  lhsContracting := [1]
  rhsContracting := [0]
  lhsNonContracting := [0]
  rhsNonContracting := [1]
  lhsBatch := []
  rhsBatch := []
  wf := dot_S512x32_S32x16_S512x16_1_0_0_1_n_n_wf
def dot_S512x16_S16x8_S512x8_1_0_0_1_n_n : DotDims S512x16 S16x8 S512x8 where
  lhsContracting := [1]
  rhsContracting := [0]
  lhsNonContracting := [0]
  rhsNonContracting := [1]
  lhsBatch := []
  rhsBatch := []
  wf := dot_S512x16_S16x8_S512x8_1_0_0_1_n_n_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

abbrev win0_0 : Pipeline.Window sig grid0 :=
  Pipeline.Window.ofSpec (Memref.whole main_arg16) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg19) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2048x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S256x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg23) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v76) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1024x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_arg26) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S2048x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S256x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v93) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S256x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S100000x256 : Shape := ⟨2, ![100000, 256]⟩
abbrev S512x128 : Shape := ⟨2, ![512, 128]⟩
abbrev S256x128 : Shape := ⟨2, ![256, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S16384 : Shape := ⟨1, ![16384]⟩
abbrev S2048 : Shape := ⟨1, ![2048]⟩
abbrev S2048x16384 : Shape := ⟨2, ![2048, 16384]⟩
abbrev S512 : Shape := ⟨1, ![512]⟩
abbrev S512x2048 : Shape := ⟨2, ![512, 2048]⟩
abbrev S_ : Shape := ⟨0, ![]⟩
abbrev S16384x1 : Shape := ⟨2, ![16384, 1]⟩
abbrev S16384x256 : Shape := ⟨2, ![16384, 256]⟩
abbrev S2048x1 : Shape := ⟨2, ![2048, 1]⟩
abbrev S2048x256 : Shape := ⟨2, ![2048, 256]⟩
abbrev S2048x512 : Shape := ⟨2, ![2048, 512]⟩
abbrev S2048x128 : Shape := ⟨2, ![2048, 128]⟩
abbrev S512x1 : Shape := ⟨2, ![512, 1]⟩
abbrev S512x256 : Shape := ⟨2, ![512, 256]⟩
abbrev S512x64 : Shape := ⟨2, ![512, 64]⟩
abbrev S1x64 : Shape := ⟨2, ![1, 64]⟩
abbrev S512x32 : Shape := ⟨2, ![512, 32]⟩
abbrev S1x32 : Shape := ⟨2, ![1, 32]⟩
abbrev S512x16 : Shape := ⟨2, ![512, 16]⟩
abbrev S1x16 : Shape := ⟨2, ![1, 16]⟩
abbrev S512x8 : Shape := ⟨2, ![512, 8]⟩
abbrev S1x8 : Shape := ⟨2, ![1, 8]⟩
abbrev S1x1 : Shape := ⟨2, ![1, 1]⟩

abbrev nBuf : Space → Nat
  | .hbm => 190
  | .vmem => 0
  | .smem => 0
  | _ => 0

abbrev hbmTy0_0 (i : Nat) : BufTy := match i % 128 with
  | 0 => ⟨S100000x256, .f32⟩
  | 1 => ⟨S512x128, .f32⟩
  | 2 => ⟨S256x128, .f32⟩
  | 3 => ⟨S256x64, .f32⟩
  | 4 => ⟨S64, .f32⟩
  | 5 => ⟨S64x32, .f32⟩
  | 6 => ⟨S32, .f32⟩
  | 7 => ⟨S32x16, .f32⟩
  | 8 => ⟨S16, .f32⟩
  | 9 => ⟨S16x8, .f32⟩
  | 10 => ⟨S8, .f32⟩
  | 11 => ⟨S8x1, .f32⟩
  | 12 => ⟨S1, .f32⟩
  | 13 => ⟨S16384, .i32⟩
  | 14 => ⟨S16384, .i32⟩
  | 15 => ⟨S2048, .i32⟩
  | 16 => ⟨S2048x16384, .f32⟩
  | 17 => ⟨S2048, .i32⟩
  | 18 => ⟨S512, .i32⟩
  | 19 => ⟨S512x2048, .f32⟩
  | 20 => ⟨S16384, .i32⟩
  | 21 => ⟨S16384, .i32⟩
  | 22 => ⟨S2048, .i32⟩
  | 23 => ⟨S2048x16384, .f32⟩
  | 24 => ⟨S2048, .i32⟩
  | 25 => ⟨S512, .i32⟩
  | 26 => ⟨S512x2048, .f32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S16384x256, .f32⟩
  | 36 => ⟨S_, .i32⟩
  | 37 => ⟨S2048, .i32⟩
  | 38 => ⟨S2048, .i1⟩
  | 39 => ⟨S_, .i32⟩
  | 40 => ⟨S2048, .i32⟩
  | 41 => ⟨S2048, .i32⟩
  | 42 => ⟨S2048, .i32⟩
  | 43 => ⟨S2048x1, .i32⟩
  | 44 => ⟨S2048x256, .f32⟩
  | 45 => ⟨S_, .i32⟩
  | 46 => ⟨S16384, .i32⟩
  | 47 => ⟨S16384, .i1⟩
  | 48 => ⟨S_, .i32⟩
  | 49 => ⟨S16384, .i32⟩
  | 50 => ⟨S16384, .i32⟩
  | 51 => ⟨S16384, .i32⟩
  | 52 => ⟨S16384x1, .i32⟩
  | 53 => ⟨S16384x256, .f32⟩
  | 54 => ⟨S2048x256, .f32⟩
  | 55 => ⟨S2048x512, .f32⟩
  | 56 => ⟨S2048x128, .f32⟩
  | 57 => ⟨S_, .f32⟩
  | 58 => ⟨S2048x128, .f32⟩
  | 59 => ⟨S2048x128, .f32⟩
  | 60 => ⟨S_, .i32⟩
  | 61 => ⟨S512, .i32⟩
  | 62 => ⟨S512, .i1⟩
  | 63 => ⟨S_, .i32⟩
  | 64 => ⟨S512, .i32⟩
  | 65 => ⟨S512, .i32⟩
  | 66 => ⟨S512, .i32⟩
  | 67 => ⟨S512x1, .i32⟩
  | 68 => ⟨S512x128, .f32⟩
  | 69 => ⟨S_, .i32⟩
  | 70 => ⟨S2048, .i32⟩
  | 71 => ⟨S2048, .i1⟩
  | 72 => ⟨S_, .i32⟩
  | 73 => ⟨S2048, .i32⟩
  | 74 => ⟨S2048, .i32⟩
  | 75 => ⟨S2048, .i32⟩
  | 76 => ⟨S2048x1, .i32⟩
  | 77 => ⟨S2048x128, .f32⟩
  | 78 => ⟨S512x128, .f32⟩
  | 79 => ⟨S512x256, .f32⟩
  | 80 => ⟨S512x128, .f32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S16384x256, .f32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S2048x256, .f32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S16384x1, .i32⟩
  | 107 => ⟨S16384x256, .f32⟩
  | 108 => ⟨S2048x256, .f32⟩
  | 109 => ⟨S2048x512, .f32⟩
  | 110 => ⟨S2048x128, .f32⟩
  | 111 => ⟨S_, .f32⟩
  | 112 => ⟨S2048x128, .f32⟩
  | 113 => ⟨S2048x128, .f32⟩
  | 114 => ⟨S_, .i32⟩
  | 115 => ⟨S512, .i32⟩
  | 116 => ⟨S512, .i1⟩
  | 117 => ⟨S_, .i32⟩
  | 118 => ⟨S512, .i32⟩
  | 119 => ⟨S512, .i32⟩
  | 120 => ⟨S512, .i32⟩
  | 121 => ⟨S512x1, .i32⟩
  | 122 => ⟨S512x128, .f32⟩
  | 123 => ⟨S_, .i32⟩
  | 124 => ⟨S2048, .i32⟩
  | 125 => ⟨S2048, .i1⟩
  | 126 => ⟨S_, .i32⟩
  | 127 => ⟨S2048, .i32⟩
  | _ => ⟨S100000x256, .f32⟩

abbrev hbmTy0_1 (i : Nat) : BufTy := match i % 128 with
  | 0 => ⟨S2048, .i32⟩
  | 1 => ⟨S2048, .i32⟩
  | 2 => ⟨S2048x1, .i32⟩
  | 3 => ⟨S2048x128, .f32⟩
  | 4 => ⟨S512x128, .f32⟩
  | 5 => ⟨S512x256, .f32⟩
  | 6 => ⟨S512x128, .f32⟩
  | 7 => ⟨S512x256, .f32⟩
  | 8 => ⟨S512x256, .f32⟩
  | 9 => ⟨S_, .f32⟩
  | 10 => ⟨S512, .f32⟩
  | 11 => ⟨S512x1, .f32⟩
  | 12 => ⟨S_, .f32⟩
  | 13 => ⟨S512x1, .f32⟩
  | 14 => ⟨S512x1, .f32⟩
  | 15 => ⟨S512x1, .f32⟩
  | 16 => ⟨S512x256, .f32⟩
  | 17 => ⟨S512x256, .f32⟩
  | 18 => ⟨S512x64, .f32⟩
  | 19 => ⟨S1x64, .f32⟩
  | 20 => ⟨S512x64, .f32⟩
  | 21 => ⟨S512x64, .f32⟩
  | 22 => ⟨S_, .f32⟩
  | 23 => ⟨S512x64, .f32⟩
  | 24 => ⟨S512x64, .f32⟩
  | 25 => ⟨S512x32, .f32⟩
  | 26 => ⟨S1x32, .f32⟩
  | 27 => ⟨S512x32, .f32⟩
  | 28 => ⟨S512x32, .f32⟩
  | 29 => ⟨S_, .f32⟩
  | 30 => ⟨S512x32, .f32⟩
  | 31 => ⟨S512x32, .f32⟩
  | 32 => ⟨S512x16, .f32⟩
  | 33 => ⟨S1x16, .f32⟩
  | 34 => ⟨S512x16, .f32⟩
  | 35 => ⟨S512x16, .f32⟩
  | 36 => ⟨S_, .f32⟩
  | 37 => ⟨S512x16, .f32⟩
  | 38 => ⟨S512x16, .f32⟩
  | 39 => ⟨S512x8, .f32⟩
  | 40 => ⟨S1x8, .f32⟩
  | 41 => ⟨S512x8, .f32⟩
  | 42 => ⟨S512x8, .f32⟩
  | 43 => ⟨S_, .f32⟩
  | 44 => ⟨S512x8, .f32⟩
  | 45 => ⟨S512x8, .f32⟩
  | 46 => ⟨S512x1, .f32⟩
  | 47 => ⟨S1x1, .f32⟩
  | 48 => ⟨S512x1, .f32⟩
  | 49 => ⟨S512x1, .f32⟩
  | 50 => ⟨S_, .f32⟩
  | 51 => ⟨S512, .f32⟩
  | 52 => ⟨S_, .f32⟩
  | 53 => ⟨S512, .f32⟩
  | 54 => ⟨S512, .f32⟩
  | 55 => ⟨S512x1, .f32⟩
  | 56 => ⟨S512x1, .f32⟩
  | 57 => ⟨S512x1, .f32⟩
  | 58 => ⟨S_, .f32⟩
  | 59 => ⟨S512, .f32⟩
  | 60 => ⟨S512x1, .f32⟩
  | 61 => ⟨S512x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call0_cst : Ref sig .tc := ⟨.hbm, 57, rfl⟩
abbrev main_call0_v0 : Ref sig .tc := ⟨.hbm, 58, rfl⟩
abbrev main_v24 : Ref sig .tc := ⟨.hbm, 59, rfl⟩
abbrev main_c_5 : Ref sig .tc := ⟨.hbm, 60, rfl⟩
abbrev main_v25 : Ref sig .tc := ⟨.hbm, 61, rfl⟩
abbrev main_v26 : Ref sig .tc := ⟨.hbm, 62, rfl⟩
abbrev main_c_6 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_c_7 : Ref sig .tc := ⟨.hbm, 69, rfl⟩
abbrev main_v32 : Ref sig .tc := ⟨.hbm, 70, rfl⟩
abbrev main_v33 : Ref sig .tc := ⟨.hbm, 71, rfl⟩
abbrev main_c_8 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_9 : Ref sig .tc := ⟨.hbm, 81, rfl⟩
abbrev main_v42 : Ref sig .tc := ⟨.hbm, 82, rfl⟩
abbrev main_v43 : Ref sig .tc := ⟨.hbm, 83, rfl⟩
abbrev main_c_10 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_11 : Ref sig .tc := ⟨.hbm, 90, rfl⟩
abbrev main_v49 : Ref sig .tc := ⟨.hbm, 91, rfl⟩
abbrev main_v50 : Ref sig .tc := ⟨.hbm, 92, rfl⟩
abbrev main_c_12 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_c_13 : Ref sig .tc := ⟨.hbm, 99, rfl⟩
abbrev main_v56 : Ref sig .tc := ⟨.hbm, 100, rfl⟩
abbrev main_v57 : Ref sig .tc := ⟨.hbm, 101, rfl⟩
abbrev main_c_14 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_call1_cst : Ref sig .tc := ⟨.hbm, 111, rfl⟩
abbrev main_call1_v0 : Ref sig .tc := ⟨.hbm, 112, rfl⟩
abbrev main_v66 : Ref sig .tc := ⟨.hbm, 113, rfl⟩
abbrev main_c_15 : Ref sig .tc := ⟨.hbm, 114, rfl⟩
abbrev main_v67 : Ref sig .tc := ⟨.hbm, 115, rfl⟩
abbrev main_v68 : Ref sig .tc := ⟨.hbm, 116, rfl⟩
abbrev main_c_16 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_c_17 : Ref sig .tc := ⟨.hbm, 123, rfl⟩
abbrev main_v74 : Ref sig .tc := ⟨.hbm, 124, rfl⟩
abbrev main_v75 : Ref sig .tc := ⟨.hbm, 125, rfl⟩
abbrev main_c_18 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst : Ref sig .tc := ⟨.hbm, 137, rfl⟩
abbrev main_v86 : Ref sig .tc := ⟨.hbm, 138, rfl⟩
abbrev main_v87 : Ref sig .tc := ⟨.hbm, 139, rfl⟩
abbrev main_cst_19 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_call2_cst : Ref sig .tc := ⟨.hbm, 150, rfl⟩
abbrev main_call2_v0 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_call3_cst : Ref sig .tc := ⟨.hbm, 157, rfl⟩
abbrev main_call3_v0 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_call4_cst : Ref sig .tc := ⟨.hbm, 164, rfl⟩
abbrev main_call4_v0 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_call5_cst : Ref sig .tc := ⟨.hbm, 171, rfl⟩
abbrev main_call5_v0 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_20 : Ref sig .tc := ⟨.hbm, 178, rfl⟩
abbrev main_v117 : Ref sig .tc := ⟨.hbm, 179, rfl⟩
abbrev main_cst_21 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_22 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x256_S2048x256_S2048x512_d1 : Shape.Concatenates [S2048x256, S2048x256] S2048x512 1
  bcast_S_S2048x128 : S_.BroadcastsInDim S2048x128 (![] : Fin 0 → Fin S2048x128.rank)
  bcast_S_S512 : S_.BroadcastsInDim S512 (![] : Fin 0 → Fin S512.rank)
  bcast_S512_S512x1_0 : S512.BroadcastsInDim S512x1 (![0] : Fin 1 → Fin S512x1.rank)
  concatenates_S512x128_S512x128_S512x256_d1 : Shape.Concatenates [S512x128, S512x128] S512x256 1
  reducesTo_S512x256_S512_d1 : S512x256.ReducesTo [1] S512
  h_S_ : 0 < S_.numel
  bcast_S_S512x1 : S_.BroadcastsInDim S512x1 (![] : Fin 0 → Fin S512x1.rank)
  bcast_S512x1_S512x256_0_1 : S512x1.BroadcastsInDim S512x256 (![0, 1] : Fin 2 → Fin S512x256.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S8_S1x8_1 : S8.BroadcastsInDim S1x8 (![1] : Fin 1 → Fin S1x8.rank)
  bcast_S1x8_S512x8_0_1 : S1x8.BroadcastsInDim S512x8 (![0, 1] : Fin 2 → Fin S512x8.rank)
  bcast_S_S512x8 : S_.BroadcastsInDim S512x8 (![] : Fin 0 → Fin S512x8.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  gather_S100000x256_S16384x1_S16384x256_1_0_n_n_0_1_1256_wf : GatherDims.WF S100000x256 S16384x1 S16384x256 [1] [0] [] [0] [] 1 ![1, 256]
  gather_S16384x256_S2048x1_S2048x256_1_0_n_n_0_1_1256_wf : GatherDims.WF S16384x256 S2048x1 S2048x256 [1] [0] [] [0] [] 1 ![1, 256]
  gather_S16384x256_S16384x1_S16384x256_1_0_n_n_0_1_1256_wf : GatherDims.WF S16384x256 S16384x1 S16384x256 [1] [0] [] [0] [] 1 ![1, 256]
  dot_S2048x16384_S16384x256_S2048x256_1_0_0_1_n_n_wf : DotDims.WF S2048x16384 S16384x256 S2048x256 [1] [0] [0] [1] [] []
  dot_S2048x512_S512x128_S2048x128_1_0_0_1_n_n_wf : DotDims.WF S2048x512 S512x128 S2048x128 [1] [0] [0] [1] [] []
  gather_S2048x128_S512x1_S512x128_1_0_n_n_0_1_1128_wf : GatherDims.WF S2048x128 S512x1 S512x128 [1] [0] [] [0] [] 1 ![1, 128]
  gather_S2048x128_S2048x1_S2048x128_1_0_n_n_0_1_1128_wf : GatherDims.WF S2048x128 S2048x1 S2048x128 [1] [0] [] [0] [] 1 ![1, 128]
  dot_S512x2048_S2048x128_S512x128_1_0_0_1_n_n_wf : DotDims.WF S512x2048 S2048x128 S512x128 [1] [0] [0] [1] [] []
  dot_S512x256_S256x128_S512x128_1_0_0_1_n_n_wf : DotDims.WF S512x256 S256x128 S512x128 [1] [0] [0] [1] [] []
  dot_S512x256_S256x64_S512x64_1_0_0_1_n_n_wf : DotDims.WF S512x256 S256x64 S512x64 [1] [0] [0] [1] [] []
  dot_S512x64_S64x32_S512x32_1_0_0_1_n_n_wf : DotDims.WF S512x64 S64x32 S512x32 [1] [0] [0] [1] [] []
  dot_S512x32_S32x16_S512x16_1_0_0_1_n_n_wf : DotDims.WF S512x32 S32x16 S512x16 [1] [0] [0] [1] [] []
  dot_S512x16_S16x8_S512x8_1_0_0_1_n_n_wf : DotDims.WF S512x16 S16x8 S512x8 [1] [0] [0] [1] [] []
  dot_S512x8_S8x1_S512x1_1_0_0_1_n_n_wf : DotDims.WF S512x8 S8x1 S512x1 [1] [0] [0] [1] [] []

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def gather_S16384x256_S2048x1_S2048x256_1_0_n_n_0_1_1256 : GatherDims S16384x256 S2048x1 S2048x256 where
  offsetDims := [1]
  collapsedSliceDims := [0]
  operandBatchingDims := []
  startIndicesBatchingDims := []
  startIndexMap := [0]
  indexVectorDim := 1
  sliceSizes := ![1, 256]
  wf := gather_S16384x256_S2048x1_S2048x256_1_0_n_n_0_1_1256_wf
def gather_S16384x256_S16384x1_S16384x256_1_0_n_n_0_1_1256 : GatherDims S16384x256 S16384x1 S16384x256 where
  offsetDims := [1]
  collapsedSliceDims := [0]
  operandBatchingDims := []
  startIndicesBatchingDims := []
  startIndexMap := [0]
  indexVectorDim := 1
  sliceSizes := ![1, 256]
  wf := gather_S16384x256_S16384x1_S16384x256_1_0_n_n_0_1_1256_wf
def dot_S2048x16384_S16384x256_S2048x256_1_0_0_1_n_n : DotDims S2048x16384 S16384x256 S2048x256 where
  lhsContracting := [1]
  rhsContracting := [0]
  lhsNonContracting := [0]
  rhsNonContracting := [1]
  lhsBatch := []
  rhsBatch := []
  wf := dot_S2048x16384_S16384x256_S2048x256_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def gather_S2048x128_S512x1_S512x128_1_0_n_n_0_1_1128 : GatherDims S2048x128 S512x1 S512x128 where
  offsetDims := [1]
  collapsedSliceDims := [0]
  operandBatchingDims := []
  startIndicesBatchingDims := []
  startIndexMap := [0]
  indexVectorDim := 1
  sliceSizes := ![1, 128]
  wf := gather_S2048x128_S512x1_S512x128_1_0_n_n_0_1_1128_wf
def gather_S2048x128_S2048x1_S2048x128_1_0_n_n_0_1_1128 : GatherDims S2048x128 S2048x1 S2048x128 where
  offsetDims := [1]
  collapsedSliceDims := [0]
  operandBatchingDims := []
  startIndicesBatchingDims := []
  startIndexMap := [0]
  indexVectorDim := 1
  sliceSizes := ![1, 128]
  wf := gather_S2048x128_S2048x1_S2048x128_1_0_n_n_0_1_1128_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x16_S512x16_1_0_0_1_n_n : DotDims S512x32 S32x16 S512x16 where
  lhsContracting := [1]
  rhsContracting := [0]
  lhsNonContracting := [0]
  rhsNonContracting := [1]
  lhsBatch := []
  rhsBatch := []
  wf := dot_S512x32_S32x16_S512x16_1_0_0_1_n_n_wf
def dot_S512x16_S16x8_S512x8_1_0_0_1_n_n : DotDims S512x16 S16x8 S512x8 where
  lhsContracting := [1]
  rhsContracting := [0]
  lhsNonContracting := [0]
  rhsNonContracting := [1]
  lhsBatch := []
  rhsBatch := []
  wf := dot_S512x16_S16x8_S512x8_1_0_0_1_n_n_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

class Facts : Prop extends Facts₀ where

variable [Facts]
-- ==== Proof.KI.R0Runs.lean ====
/- Region 0: the grid's branch conditions in closed form, where the result window is idle, the memrefs the body is
   called with, each input window's block at a point, and the region's invariant split at the accumulator. -/
import proofs.«118190_j89781996355909_2_alg».proof.Proof.Gen.KernelIdeal.Launch
import proofs.«118190_j89781996355909_2_alg».proof.Proof.Gen.KernelIdeal.Skeleton
import proofs.«118190_j89781996355909_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions -/

/-- The first branch (the accumulator is cleared): the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the result is computed and stored): the second grid coordinate is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S1024x128 .f32 := (Memref.whole cc0_stg5_0 : Memref sig .tc .vmem S1024x128 .f32).view
abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0 : Memref sig .tc .vmem S1024x256 .f32 := Memref.whole cc0_scratch0
abbrev VS0 : View sig .tc .vmem S1024x256 .f32 := (scM0).view

/-- The region's invariant with the accumulator as a memref owned at some contents, the other scoped buffers unopened. -/
theorem PhiA0_eq (c : Dev nD) :
    (Pipeline.ΦA spec0 c : sProp 𝕄)
      = iprop(iprop((∃ d, owns (c : Thread nD τ) (scM0) fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Fr

end
-- ==== Proof.KI.R0RunA.lean ====
/- Region 0, the body run whole in one of its three cases. -/
import proofs.«118190_j89781996355909_2_alg».proof.Proof.KI.R0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point where the accumulator is cleared first and no result is stored: what its stores leave in the accumulator, as pieces, with the run that finds them. -/
noncomputable def kernelRun0_A (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond0_0 i) (hc1 : ¬cond0_1 i)
    (x0 : Vec F S1024x4096 .f32) (x1 : Vec F S4096x256 .f32) (x2 : Vec F S1024x256 .f32) (x3 : Vec F S256x128 .f32) (x4 : Vec F S256x128 .f32) :
    { LS0 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__agg_matmul_kernel i arg2 harg2 arg3 harg3 arg4 harg4 arg5 harg5 arg6 harg6 arg7 harg7 arg8 harg8) K } := by
  refine ⟨?_, fun xi5 E K => ?run⟩
  case run =>
    simp only [cc0__agg_matmul_kernel_eq_skeleton]; unfold cc0__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R0RunB.lean ====
/- Region 0, the body run whole in one of its three cases. -/
import proofs.«118190_j89781996355909_2_alg».proof.Proof.KI.R0RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point where  no result is stored: what its stores leave in the accumulator, as pieces, with the run that finds them. -/
noncomputable def kernelRun0_B (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : ¬cond0_1 i)
    (x0 : Vec F S1024x4096 .f32) (x1 : Vec F S4096x256 .f32) (x2 : Vec F S1024x256 .f32) (x3 : Vec F S256x128 .f32) (x4 : Vec F S256x128 .f32) (xs0 : Vec F S1024x256 .f32) :
    { LS0 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__agg_matmul_kernel i arg2 harg2 arg3 harg3 arg4 harg4 arg5 harg5 arg6 harg6 arg7 harg7 arg8 harg8) K } := by
  refine ⟨?_, fun xi5 E K => ?run⟩
  case run =>
    simp only [cc0__agg_matmul_kernel_eq_skeleton]; unfold cc0__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R0RunC.lean ====
/- Region 0, the body run whole in one of its three cases. -/
import proofs.«118190_j89781996355909_2_alg».proof.Proof.KI.R0RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point where the result is stored: what its stores leave in the result's buffer and in the accumulator, as pieces, with the run that finds them. -/
noncomputable def kernelRun0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) :
    Σ' (L5 : List (View.Piece (Elt F) S1024x128 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__agg_matmul_kernel i arg2 harg2 arg3 harg3 arg4 harg4 arg5 harg5 arg6 harg6 arg7 harg7 arg8 harg8) K } := by
  refine ⟨?_, ?_, fun E K => ?run⟩
  case run =>
    simp only [cc0__agg_matmul_kernel_eq_skeleton]; unfold cc0__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.R0Frame.lean ====
/- Region 0: what the accumulator and the result's buffer hold after each point, the region's proof data, and the
   body's obligation at every point. -/
import proofs.«118190_j89781996355909_2_alg».proof.Proof.KI.R0RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The accumulator's pieces in the clearing case cover it. -/
theorem scover0_A (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond0_0 i) (hc1 : ¬cond0_1 i)
    (x0 : Vec F S1024x4096 .f32) (x1 : Vec F S4096x256 .f32) (x2 : Vec F S1024x256 .f32) (x3 : Vec F S256x128 .f32) (x4 : Vec F S256x128 .f32) (y : S1024x256.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S1024x256.size (by sl_kernel_rfl) y
/-- What the clearing case leaves in the accumulator. -/
def sout0_A (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond0_0 i) (hc1 : ¬cond0_1 i)
    (x0 : Vec F S1024x4096 .f32) (x1 : Vec F S4096x256 .f32) (x2 : Vec F S1024x256 .f32) (x3 : Vec F S256x128 .f32) (x4 : Vec F S256x128 .f32) : Vec F S1024x256 .f32 :=
  VS0.read (Elt F) (VS0.writes (Elt F) VS0.junk (kernelRun0_A c i arg2 harg2 arg3 harg3 arg4 harg4 arg5 harg5 arg6 harg6 arg7 harg7 arg8 harg8 hc0 hc1 x0 x1 x2 x3 x4).1)

theorem scover0_B (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : ¬cond0_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x256.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S1024x256.size (by sl_kernel_rfl) y
/-- What an accumulating point leaves in the accumulator. -/
def sout0_B (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : ¬cond0_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x256 .f32 :=
  VS0.read (Elt F) (VS0.writes (Elt F) VS0.junk (kernelRun0_B c i arg2 harg2 arg3 harg3 arg4 harg4 arg5 harg5 arg6 harg6 arg7 harg7 arg8 harg8 hc0 hc1 x0 x1 x2 x3 x4 xs0).1)

theorem cover0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1024x128.size (by sl_kernel_rfl) y
/-- What the storing case leaves in the result's buffer. -/
def out0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)
theorem scover0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x256.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1024x256.size (by sl_kernel_rfl) y
/-- What the storing case leaves in the accumulator. -/
def sout0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x256 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs0).2.1)

/-! ## Point by point -/

/-- What the result's buffer and the accumulator hold after the body at position `n`: the case the position is in,
    run on the position's blocks, the accumulator as the position before left it. Where no result is stored the
    first component is a placeholder nothing consults. -/
def outsAt0 (c : Dev nD) : (n : ℕ) → n < cfg0.N → Vec F S1024x128 .f32 × Vec F S1024x256 .f32
  | 0, hn => ((VO0_5.read (Elt F) (VO0_5.writes (Elt F) VO0_5.junk [])), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        ((VO0_5.read (Elt F) (VO0_5.writes (Elt F) VO0_5.junk [])), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        ((VO0_5.read (Elt F) (VO0_5.writes (Elt F) VO0_5.junk [])), sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = ((VO0_5.read (Elt F) (VO0_5.writes (Elt F) VO0_5.junk [])), sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = ((VO0_5.read (Elt F) (VO0_5.writes (Elt F) VO0_5.junk [])), sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The rest of the region's scoped buffers, unopened. -/
abbrev restBut0 (c : Dev nD) : sProp 𝕄 := Pipeline.scopedRestBut (Ix := Unit) (Name := ℕ) (U := UR sig nD τ) (Lvl := ℕ) (Val := Elt F) spec0 c [cc0_scratch0]

/-- The region's invariant before position `n`: at the start every scoped buffer at anything; afterwards the
    accumulator at what the position before left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restBut0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 c) ∗ (∃ r, prngReg c r)) := by
  cases n with
  | zero => exact absurd rfl hz
  | succ n => rfl

/-! ## The proof data -/

/-- The region's proof data on core `c`: the arrays as the region finds them; after the body each input's buffer at its
    block and the result's at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the case the point is in decides which run applies; the invariant hands the run the
    accumulator (at what the point before left, or at anything at a clearing point) and takes it back at this
    point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · have h1 : ¬ t.val % 4 = 3 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C c _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the region's starting invariant back: the accumulator's contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem Phi_last0 (c : Dev nD) : (dat0 V c).Φ (Fin.last cfg0.N) ⊢ Pipeline.ΦA spec0 c :=
  Phi_out0 V c _ (by rw [Fin.val_last]; have : cfg0.N = 8 := N_0; omega)

theorem Phi_first0 (c : Dev nD) : (dat0 V c).Φ 0 = Pipeline.ΦA spec0 c := rfl

end Cert.KernelIdeal.Fr

end
-- ==== Proof.KI.R1Runs.lean ====
/- Region 1: the grid's branch conditions (both hold at every point), the memrefs the body is called with, each
   input window's block at a point, and the region's invariant split at the accumulator. -/
import proofs.«118190_j89781996355909_2_alg».proof.Proof.Gen.KernelIdeal.Launch
import proofs.«118190_j89781996355909_2_alg».proof.Proof.Gen.KernelIdeal.Skeleton
import proofs.«118190_j89781996355909_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions: the second grid axis has one position, which is both first and last -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-! ## The memrefs the body is called with -/

abbrev VO1_5 : View sig .tc .vmem S256x128 .f32 := (Memref.whole cc1_stg5_0 : Memref sig .tc .vmem S256x128 .f32).view
abbrev ms1_0 (t : Fin cfg1.N) : Memref sig .tc .vmem S256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x128 .f32 := win1_5.stage (cfg1.slots t 5)
abbrev hs1_5 (t : Fin cfg1.N) : (ms1_5 t).IsWhole := hstage1_5 ((cfg1.slots t 5).cast nbuf1_5)
/-- The accumulator: a whole scoped buffer of the kernel's own, cleared at every point before it is read. -/
abbrev scM1 : Memref sig .tc .vmem S256x128 .f32 := Memref.whole cc1_scratch0

/-- The region's invariant with the accumulator as a memref owned at some contents, the other scoped buffers unopened. -/
theorem PhiA1_eq (c : Dev nD) :
    (Pipeline.ΦA spec1 c : sProp 𝕄)
      = iprop(iprop((∃ d, owns (c : Thread nD τ) (scM1) fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Fr

end
-- ==== Proof.KI.R1RunD.lean ====
/- Region 1, the body run whole (its one case: the accumulator cleared, one product added, the result stored). -/
import proofs.«118190_j89781996355909_2_alg».proof.Proof.KI.R1Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the result's buffer and in the accumulator, as pieces, with the run that finds them. -/
noncomputable def kernelRun1_D (c : Dev nD) (i : grid1.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond1_0 i) (hc1 : cond1_1 i)
    (x0 : Vec F S256x2048 .f32) (x1 : Vec F S2048x128 .f32) (x2 : Vec F S256x128 .f32) (x3 : Vec F S128x128 .f32) (x4 : Vec F S128x128 .f32) :
    Σ' (L5 : List (View.Piece (Elt F) S256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__agg_matmul_kernel i arg2 harg2 arg3 harg3 arg4 harg4 arg5 harg5 arg6 harg6 arg7 harg7 arg8 harg8) K } := by
  refine ⟨?_, ?_, fun E K => ?run⟩
  case run =>
    simp only [cc1__agg_matmul_kernel_eq_skeleton]; unfold cc1__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.R1Frame.lean ====
/- Region 1: what the result's buffer holds after each point, the region's proof data, and the body's obligation. -/
import proofs.«118190_j89781996355909_2_alg».proof.Proof.KI.R1RunD

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_D (c : Dev nD) (i : grid1.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond1_0 i) (hc1 : cond1_1 i)
    (x0 : Vec F S256x2048 .f32) (x1 : Vec F S2048x128 .f32) (x2 : Vec F S256x128 .f32) (x3 : Vec F S128x128 .f32) (x4 : Vec F S128x128 .f32) (y : S256x128.Idx) :
    ∃ pc ∈ (kernelRun1_D c i arg2 harg2 arg3 harg3 arg4 harg4 arg5 harg5 arg6 harg6 arg7 harg7 arg8 harg8 hc0 hc1 x0 x1 x2 x3 x4).1, y ∈ pc.1.set :=
  View.cover_of_tiledL (kernelRun1_D c i arg2 harg2 arg3 harg3 arg4 harg4 arg5 harg5 arg6 harg6 arg7 harg7 arg8 harg8 hc0 hc1 x0 x1 x2 x3 x4).1 S256x128.size (by sl_kernel_rfl) y
/-- What the body leaves in the result's buffer. -/
def out1_D (c : Dev nD) (i : grid1.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond1_0 i) (hc1 : cond1_1 i)
    (x0 : Vec F S256x2048 .f32) (x1 : Vec F S2048x128 .f32) (x2 : Vec F S256x128 .f32) (x3 : Vec F S128x128 .f32) (x4 : Vec F S128x128 .f32) : Vec F S256x128 .f32 :=
  VO1_5.read (Elt F) (VO1_5.writes (Elt F) VO1_5.junk (kernelRun1_D c i arg2 harg2 arg3 harg3 arg4 harg4 arg5 harg5 arg6 harg6 arg7 harg7 arg8 harg8 hc0 hc1 x0 x1 x2 x3 x4).1)

/-- What the result's buffer holds after the body at point `t`. -/
def outAt1 (c : Dev nD) (t : Fin cfg1.N) : Vec F S256x128 .f32 :=
  out1_D c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (hcond1_0 t) (hcond1_1 t) (iblk1 V c 0 t) (iblk1 V c 1 t) (iblk1 V c 2 t) (iblk1 V c 3 t) (iblk1 V c 4 t)

/-- The region's proof data on core `c`: the arrays as the region finds them; after the body each input's buffer at its
    block and the result's at `outAt1`; the invariant the same before every point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the invariant hands the run the accumulator at anything and takes it back at anything. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  unfold outAt1 out1_D; (try dsimp only)
  iintro ⟨⟨⟨HS0, Hrest⟩, Hg⟩, Ho, ⟨%d0, H0⟩, ⟨%d1, H1⟩, ⟨%d2, H2⟩, ⟨%d3, H3⟩, ⟨%d4, H4⟩, ⟨%d5, H5⟩⟩
  iapply ((kernelRun1_D c (grid1.coords t) _ _ _ _ _ _ _ _ _ _ _ _ _ _ (hcond1_0 t) (hcond1_1 t) (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_D c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem Phi_last1 (c : Dev nD) : (dat1 V c).Φ (Fin.last cfg1.N) ⊢ Pipeline.ΦA spec1 c := .rfl
theorem Phi_first1 (c : Dev nD) : (dat1 V c).Φ 0 = Pipeline.ΦA spec1 c := rfl

end Cert.KernelIdeal.Fr

end
-- ==== Proof.KI.R2Runs.lean ====
/- Region 2: the grid's branch conditions in closed form, where the result window is idle, the memrefs the body is
   called with, each input window's block at a point, and the region's invariant split at the accumulator. -/
import proofs.«118190_j89781996355909_2_alg».proof.Proof.Gen.KernelIdeal.Launch
import proofs.«118190_j89781996355909_2_alg».proof.Proof.Gen.KernelIdeal.Skeleton
import proofs.«118190_j89781996355909_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions -/

/-- The first branch (the accumulator is cleared): the second grid coordinate is zero. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second branch (the result is computed and stored): the second grid coordinate is the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The memrefs the body is called with -/

abbrev VO2_5 : View sig .tc .vmem S1024x128 .f32 := (Memref.whole cc2_stg5_0 : Memref sig .tc .vmem S1024x128 .f32).view
abbrev ms2_0 (t : Fin cfg2.N) : Memref sig .tc .vmem S1024x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .f32 := win2_5.stage (cfg2.slots t 5)
abbrev hs2_5 (t : Fin cfg2.N) : (ms2_5 t).IsWhole := hstage2_5 ((cfg2.slots t 5).cast nbuf2_5)
/-- The accumulator: a whole scoped buffer of the kernel's own, carried from point to point. -/
abbrev scM2 : Memref sig .tc .vmem S1024x256 .f32 := Memref.whole cc2_scratch0
abbrev VS2 : View sig .tc .vmem S1024x256 .f32 := (scM2).view

/-- The region's invariant with the accumulator as a memref owned at some contents, the other scoped buffers unopened. -/
theorem PhiA2_eq (c : Dev nD) :
    (Pipeline.ΦA spec2 c : sProp 𝕄)
      = iprop(iprop((∃ d, owns (c : Thread nD τ) (scM2) fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Fr

end
-- ==== Proof.KI.R2RunA.lean ====
/- Region 2, the body run whole in one of its three cases. -/
import proofs.«118190_j89781996355909_2_alg».proof.Proof.KI.R2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point where the accumulator is cleared first and no result is stored: what its stores leave in the accumulator, as pieces, with the run that finds them. -/
noncomputable def kernelRun2_A (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond2_0 i) (hc1 : ¬cond2_1 i)
    (x0 : Vec F S1024x4096 .f32) (x1 : Vec F S4096x256 .f32) (x2 : Vec F S1024x256 .f32) (x3 : Vec F S256x128 .f32) (x4 : Vec F S256x128 .f32) :
    { LS0 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__agg_matmul_kernel i arg2 harg2 arg3 harg3 arg4 harg4 arg5 harg5 arg6 harg6 arg7 harg7 arg8 harg8) K } := by
  refine ⟨?_, fun xi5 E K => ?run⟩
  case run =>
    simp only [cc2__agg_matmul_kernel_eq_skeleton]; unfold cc2__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R2RunB.lean ====
/- Region 2, the body run whole in one of its three cases. -/
import proofs.«118190_j89781996355909_2_alg».proof.Proof.KI.R2RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point where  no result is stored: what its stores leave in the accumulator, as pieces, with the run that finds them. -/
noncomputable def kernelRun2_B (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : ¬cond2_1 i)
    (x0 : Vec F S1024x4096 .f32) (x1 : Vec F S4096x256 .f32) (x2 : Vec F S1024x256 .f32) (x3 : Vec F S256x128 .f32) (x4 : Vec F S256x128 .f32) (xs0 : Vec F S1024x256 .f32) :
    { LS0 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__agg_matmul_kernel i arg2 harg2 arg3 harg3 arg4 harg4 arg5 harg5 arg6 harg6 arg7 harg7 arg8 harg8) K } := by
  refine ⟨?_, fun xi5 E K => ?run⟩
  case run =>
    simp only [cc2__agg_matmul_kernel_eq_skeleton]; unfold cc2__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R2RunC.lean ====
/- Region 2, the body run whole in one of its three cases. -/
import proofs.«118190_j89781996355909_2_alg».proof.Proof.KI.R2RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point where the result is stored: what its stores leave in the result's buffer and in the accumulator, as pieces, with the run that finds them. -/
noncomputable def kernelRun2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) :
    Σ' (L5 : List (View.Piece (Elt F) S1024x128 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__agg_matmul_kernel i arg2 harg2 arg3 harg3 arg4 harg4 arg5 harg5 arg6 harg6 arg7 harg7 arg8 harg8) K } := by
  refine ⟨?_, ?_, fun E K => ?run⟩
  case run =>
    simp only [cc2__agg_matmul_kernel_eq_skeleton]; unfold cc2__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.R2Frame.lean ====
/- Region 2: what the accumulator and the result's buffer hold after each point, the region's proof data, and the
   body's obligation at every point. -/
import proofs.«118190_j89781996355909_2_alg».proof.Proof.KI.R2RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The accumulator's pieces in the clearing case cover it. -/
theorem scover2_A (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond2_0 i) (hc1 : ¬cond2_1 i)
    (x0 : Vec F S1024x4096 .f32) (x1 : Vec F S4096x256 .f32) (x2 : Vec F S1024x256 .f32) (x3 : Vec F S256x128 .f32) (x4 : Vec F S256x128 .f32) (y : S1024x256.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S1024x256.size (by sl_kernel_rfl) y
/-- What the clearing case leaves in the accumulator. -/
def sout2_A (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond2_0 i) (hc1 : ¬cond2_1 i)
    (x0 : Vec F S1024x4096 .f32) (x1 : Vec F S4096x256 .f32) (x2 : Vec F S1024x256 .f32) (x3 : Vec F S256x128 .f32) (x4 : Vec F S256x128 .f32) : Vec F S1024x256 .f32 :=
  VS2.read (Elt F) (VS2.writes (Elt F) VS2.junk (kernelRun2_A c i arg2 harg2 arg3 harg3 arg4 harg4 arg5 harg5 arg6 harg6 arg7 harg7 arg8 harg8 hc0 hc1 x0 x1 x2 x3 x4).1)

theorem scover2_B (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : ¬cond2_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x256.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S1024x256.size (by sl_kernel_rfl) y
/-- What an accumulating point leaves in the accumulator. -/
def sout2_B (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : ¬cond2_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x256 .f32 :=
  VS2.read (Elt F) (VS2.writes (Elt F) VS2.junk (kernelRun2_B c i arg2 harg2 arg3 harg3 arg4 harg4 arg5 harg5 arg6 harg6 arg7 harg7 arg8 harg8 hc0 hc1 x0 x1 x2 x3 x4 xs0).1)

theorem cover2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x128.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x128.size (by sl_kernel_rfl) y
/-- What the storing case leaves in the result's buffer. -/
def out2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x128 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)
theorem scover2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x256.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x256.size (by sl_kernel_rfl) y
/-- What the storing case leaves in the accumulator. -/
def sout2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x256 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs0).2.1)

/-! ## Point by point -/

/-- What the result's buffer and the accumulator hold after the body at position `n`: the case the position is in,
    run on the position's blocks, the accumulator as the position before left it. Where no result is stored the
    first component is a placeholder nothing consults. -/
def outsAt2 (c : Dev nD) : (n : ℕ) → n < cfg2.N → Vec F S1024x128 .f32 × Vec F S1024x256 .f32
  | 0, hn => ((VO2_5.read (Elt F) (VO2_5.writes (Elt F) VO2_5.junk [])), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        ((VO2_5.read (Elt F) (VO2_5.writes (Elt F) VO2_5.junk [])), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        ((VO2_5.read (Elt F) (VO2_5.writes (Elt F) VO2_5.junk [])), sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = ((VO2_5.read (Elt F) (VO2_5.writes (Elt F) VO2_5.junk [])), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = ((VO2_5.read (Elt F) (VO2_5.writes (Elt F) VO2_5.junk [])), sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The rest of the region's scoped buffers, unopened. -/
abbrev restBut2 (c : Dev nD) : sProp 𝕄 := Pipeline.scopedRestBut (Ix := Unit) (Name := ℕ) (U := UR sig nD τ) (Lvl := ℕ) (Val := Elt F) spec2 c [cc2_scratch0]

/-- The region's invariant before position `n`: at the start every scoped buffer at anything; afterwards the
    accumulator at what the position before left in it. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restBut2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 c) ∗ (∃ r, prngReg c r)) := by
  cases n with
  | zero => exact absurd rfl hz
  | succ n => rfl

/-! ## The proof data -/

/-- The region's proof data on core `c`: the arrays as the region finds them; after the body each input's buffer at its
    block and the result's at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the case the point is in decides which run applies; the invariant hands the run the
    accumulator (at what the point before left, or at anything at a clearing point) and takes it back at this
    point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 4 = 0
  · have h1 : ¬ t.val % 4 = 3 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After any point but the first the invariant gives the region's starting invariant back: the accumulator's contents forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem Phi_last2 (c : Dev nD) : (dat2 V c).Φ (Fin.last cfg2.N) ⊢ Pipeline.ΦA spec2 c :=
  Phi_out2 V c _ (by rw [Fin.val_last]; have : cfg2.N = 8 := N_2; omega)

theorem Phi_first2 (c : Dev nD) : (dat2 V c).Φ 0 = Pipeline.ΦA spec2 c := rfl

end Cert.KernelIdeal.Fr

end
-- ==== Proof.KI.R3Runs.lean ====
/- Region 3: the grid's branch conditions (both hold at every point), the memrefs the body is called with, each
   input window's block at a point, and the region's invariant split at the accumulator. -/
import proofs.«118190_j89781996355909_2_alg».proof.Proof.Gen.KernelIdeal.Launch
import proofs.«118190_j89781996355909_2_alg».proof.Proof.Gen.KernelIdeal.Skeleton
import proofs.«118190_j89781996355909_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The branch conditions: the second grid axis has one position, which is both first and last -/

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) :=
  (by decide +kernel : ∀ t : Fin grid3.N, cond3_0 (grid3.coords t))
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

/-! ## The memrefs the body is called with -/

abbrev VO3_5 : View sig .tc .vmem S256x128 .f32 := (Memref.whole cc3_stg5_0 : Memref sig .tc .vmem S256x128 .f32).view
abbrev ms3_0 (t : Fin cfg3.N) : Memref sig .tc .vmem S256x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x128 .f32 := win3_5.stage (cfg3.slots t 5)
abbrev hs3_5 (t : Fin cfg3.N) : (ms3_5 t).IsWhole := hstage3_5 ((cfg3.slots t 5).cast nbuf3_5)
/-- The accumulator: a whole scoped buffer of the kernel's own, cleared at every point before it is read. -/
abbrev scM3 : Memref sig .tc .vmem S256x128 .f32 := Memref.whole cc3_scratch0

/-- The region's invariant with the accumulator as a memref owned at some contents, the other scoped buffers unopened. -/
theorem PhiA3_eq (c : Dev nD) :
    (Pipeline.ΦA spec3 c : sProp 𝕄)
      = iprop(iprop((∃ d, owns (c : Thread nD τ) (scM3) fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Fr

end
-- ==== Proof.KI.R3RunD.lean ====
/- Region 3, the body run whole (its one case: the accumulator cleared, one product added, the result stored). -/
import proofs.«118190_j89781996355909_2_alg».proof.Proof.KI.R3Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the result's buffer and in the accumulator, as pieces, with the run that finds them. -/
noncomputable def kernelRun3_D (c : Dev nD) (i : grid3.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond3_0 i) (hc1 : cond3_1 i)
    (x0 : Vec F S256x2048 .f32) (x1 : Vec F S2048x128 .f32) (x2 : Vec F S256x128 .f32) (x3 : Vec F S128x128 .f32) (x4 : Vec F S128x128 .f32) :
    Σ' (L5 : List (View.Piece (Elt F) S256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3__agg_matmul_kernel i arg2 harg2 arg3 harg3 arg4 harg4 arg5 harg5 arg6 harg6 arg7 harg7 arg8 harg8) K } := by
  refine ⟨?_, ?_, fun E K => ?run⟩
  case run =>
    simp only [cc3__agg_matmul_kernel_eq_skeleton]; unfold cc3__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.R3Frame.lean ====
/- Region 3: what the result's buffer holds after each point, the region's proof data, and the body's obligation. -/
import proofs.«118190_j89781996355909_2_alg».proof.Proof.KI.R3RunD

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover3_D (c : Dev nD) (i : grid3.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond3_0 i) (hc1 : cond3_1 i)
    (x0 : Vec F S256x2048 .f32) (x1 : Vec F S2048x128 .f32) (x2 : Vec F S256x128 .f32) (x3 : Vec F S128x128 .f32) (x4 : Vec F S128x128 .f32) (y : S256x128.Idx) :
    ∃ pc ∈ (kernelRun3_D c i arg2 harg2 arg3 harg3 arg4 harg4 arg5 harg5 arg6 harg6 arg7 harg7 arg8 harg8 hc0 hc1 x0 x1 x2 x3 x4).1, y ∈ pc.1.set :=
  View.cover_of_tiledL (kernelRun3_D c i arg2 harg2 arg3 harg3 arg4 harg4 arg5 harg5 arg6 harg6 arg7 harg7 arg8 harg8 hc0 hc1 x0 x1 x2 x3 x4).1 S256x128.size (by sl_kernel_rfl) y
/-- What the body leaves in the result's buffer. -/
def out3_D (c : Dev nD) (i : grid3.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond3_0 i) (hc1 : cond3_1 i)
    (x0 : Vec F S256x2048 .f32) (x1 : Vec F S2048x128 .f32) (x2 : Vec F S256x128 .f32) (x3 : Vec F S128x128 .f32) (x4 : Vec F S128x128 .f32) : Vec F S256x128 .f32 :=
  VO3_5.read (Elt F) (VO3_5.writes (Elt F) VO3_5.junk (kernelRun3_D c i arg2 harg2 arg3 harg3 arg4 harg4 arg5 harg5 arg6 harg6 arg7 harg7 arg8 harg8 hc0 hc1 x0 x1 x2 x3 x4).1)

/-- What the result's buffer holds after the body at point `t`. -/
def outAt3 (c : Dev nD) (t : Fin cfg3.N) : Vec F S256x128 .f32 :=
  out3_D c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t) (iblk3 V c 4 t)

/-- The region's proof data on core `c`: the arrays as the region finds them; after the body each input's buffer at its
    block and the result's at `outAt3`; the invariant the same before every point; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
/-- The body at any point: the invariant hands the run the accumulator at anything and takes it back at anything. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  unfold outAt3 out3_D; (try dsimp only)
  iintro ⟨⟨⟨HS0, Hrest⟩, Hg⟩, Ho, ⟨%d0, H0⟩, ⟨%d1, H1⟩, ⟨%d2, H2⟩, ⟨%d3, H3⟩, ⟨%d4, H4⟩, ⟨%d5, H5⟩⟩
  iapply ((kernelRun3_D c (grid3.coords t) _ _ _ _ _ _ _ _ _ _ _ _ _ _ (hcond3_0 t) (hcond3_1 t) (iblk3 V c 0 t) (iblk3 V c 1 t) (iblk3 V c 2 t) (iblk3 V c 3 t) (iblk3 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover3_D c _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

theorem Phi_last3 (c : Dev nD) : (dat3 V c).Φ (Fin.last cfg3.N) ⊢ Pipeline.ΦA spec3 c := .rfl
theorem Phi_first3 (c : Dev nD) : (dat3 V c).Φ 0 = Pipeline.ΦA spec3 c := rfl

end Cert.KernelIdeal.Fr

end
-- ==== Proof.KI.Run.lean ====
/- The whole program's run: what each region leaves, every region's proof data at its entry contents, the regions as
   segments of the program between the host stretches, and the run from the launch to the return with every unscoped
   buffer's final contents named. -/
import proofs.«118190_j89781996355909_2_alg».proof.Proof.Gen.KernelIdeal.Regions
import proofs.«118190_j89781996355909_2_alg».proof.Proof.KI.R0Frame
import proofs.«118190_j89781996355909_2_alg».proof.Proof.KI.R1Frame
import proofs.«118190_j89781996355909_2_alg».proof.Proof.KI.R2Frame
import proofs.«118190_j89781996355909_2_alg».proof.Proof.KI.R3Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Contents for the four buffers the regions write, and the launch contents elsewhere. -/
def outsOf (o2 : (c : Dev nD) → Buf (Elt F) ((c : Thread nD τ).loc main_v30)) (o4 : (c : Dev nD) → Buf (Elt F) ((c : Thread nD τ).loc main_v47))
    (o6 : (c : Dev nD) → Buf (Elt F) ((c : Thread nD τ).loc main_v78)) (o8 : (c : Dev nD) → Buf (Elt F) ((c : Thread nD τ).loc main_v95)) : Outs (F := F) :=
  fun _ r c => if h : r = main_v30 then h ▸ o2 c else if h : r = main_v47 then h ▸ o4 c else if h : r = main_v78 then h ▸ o6 c
    else if h : r = main_v95 then h ▸ o8 c else m ((c : Thread nD τ).loc r)

theorem outsOf_30 (o2 o4 o6 o8) (J : ℕ) (c : Dev nD) : outsOf m o2 o4 o6 o8 J main_v30 c = o2 c := by
  unfold outsOf; rw [dif_pos rfl]
theorem outsOf_47 (o2 o4 o6 o8) (J : ℕ) (c : Dev nD) : outsOf m o2 o4 o6 o8 J main_v47 c = o4 c := by
  unfold outsOf; rw [dif_neg (by decide), dif_pos rfl]
theorem outsOf_78 (o2 o4 o6 o8) (J : ℕ) (c : Dev nD) : outsOf m o2 o4 o6 o8 J main_v78 c = o6 c := by
  unfold outsOf; rw [dif_neg (by decide), dif_neg (by decide), dif_pos rfl]
theorem outsOf_95 (o2 o4 o6 o8) (J : ℕ) (c : Dev nD) : outsOf m o2 o4 o6 o8 J main_v95 c = o8 c := by
  unfold outsOf; rw [dif_neg (by decide), dif_neg (by decide), dif_neg (by decide), dif_pos rfl]

/-- A valuation read at the TensorCore's references. -/
abbrev atRefs (W : Dev nD → Valuation τ sig (Elt F)) : (c : Dev nD) → (b : Ref sig .tc) → Buf (Elt F) ((c : Thread nD τ).loc b) := fun c b => W c b

abbrev R1 := atRefs (V1 m)
/-- What region 0 leaves in its result's array. -/
def o2 (c : Dev nD) : Buf (Elt F) ((c : Thread nD τ).loc main_v30) := (dat0 (R1 m) c).arrAt 5 cfg0.N
def outsA : Outs (F := F) := outsOf m (o2 m) (fun c => m _) (fun c => m _) (fun c => m _)
abbrev R3 (o : Outs (F := F)) := atRefs (V3 m o)
def o4 (c : Dev nD) : Buf (Elt F) ((c : Thread nD τ).loc main_v47) := (dat1 (R3 m (outsA m)) c).arrAt 5 cfg1.N
def outsB : Outs (F := F) := outsOf m (o2 m) (o4 m) (fun c => m _) (fun c => m _)
abbrev R5 (o : Outs (F := F)) := atRefs (V5 m o)
def o6 (c : Dev nD) : Buf (Elt F) ((c : Thread nD τ).loc main_v78) := (dat2 (R5 m (outsB m)) c).arrAt 5 cfg2.N
def outsC : Outs (F := F) := outsOf m (o2 m) (o4 m) (o6 m) (fun c => m _)
abbrev R7 (o : Outs (F := F)) := atRefs (V7 m o)
def o8 (c : Dev nD) : Buf (Elt F) ((c : Thread nD τ).loc main_v95) := (dat3 (R7 m (outsC m)) c).arrAt 5 cfg3.N
/-- What the four regions leave. -/
def outs : Outs (F := F) := outsOf m (o2 m) (o4 m) (o6 m) (o8 m)

theorem outs_2 (c : Dev nD) : outs m 2 main_v30 c = o2 m c := outsOf_30 m _ _ _ _ _ c
theorem outs_4 (c : Dev nD) : outs m 4 main_v47 c = o4 m c := outsOf_47 m _ _ _ _ _ c
theorem outs_6 (c : Dev nD) : outs m 6 main_v78 c = o6 m c := outsOf_78 m _ _ _ _ _ c
theorem outs_8 (c : Dev nD) : outs m 8 main_v95 c = o8 m c := outsOf_95 m _ _ _ _ _ c

/-- The contents before a region depend only on what the regions before it left. -/
theorem V3_congr (o o' : Outs (F := F)) (c : Dev nD) (h2 : o 2 main_v30 c = o' 2 main_v30 c) : V3 m o c = V3 m o' c := by
  simp only [V3, V2, h2]
theorem V5_congr (o o' : Outs (F := F)) (c : Dev nD) (h2 : o 2 main_v30 c = o' 2 main_v30 c) (h4 : o 4 main_v47 c = o' 4 main_v47 c) :
    V5 m o c = V5 m o' c := by
  simp only [V5, V4, V3, V2, h2, h4]
theorem V7_congr (o o' : Outs (F := F)) (c : Dev nD) (h2 : o 2 main_v30 c = o' 2 main_v30 c) (h4 : o 4 main_v47 c = o' 4 main_v47 c)
    (h6 : o 6 main_v78 c = o' 6 main_v78 c) : V7 m o c = V7 m o' c := by
  simp only [V7, V6, V5, V4, V3, V2, h2, h4, h6]
theorem V3_outsA (c : Dev nD) : V3 m (outs m) c = V3 m (outsA m) c :=
  V3_congr m _ _ c ((outsOf_30 m _ _ _ _ _ c).trans (outsOf_30 m _ _ _ _ _ c).symm)
theorem V5_outsB (c : Dev nD) : V5 m (outs m) c = V5 m (outsB m) c :=
  V5_congr m _ _ c ((outsOf_30 m _ _ _ _ _ c).trans (outsOf_30 m _ _ _ _ _ c).symm) ((outsOf_47 m _ _ _ _ _ c).trans (outsOf_47 m _ _ _ _ _ c).symm)
theorem V7_outsC (c : Dev nD) : V7 m (outs m) c = V7 m (outsC m) c :=
  V7_congr m _ _ c ((outsOf_30 m _ _ _ _ _ c).trans (outsOf_30 m _ _ _ _ _ c).symm) ((outsOf_47 m _ _ _ _ _ c).trans (outsOf_47 m _ _ _ _ _ c).symm)
    ((outsOf_78 m _ _ _ _ _ c).trans (outsOf_78 m _ _ _ _ _ c).symm)

/-! ## The proof data family and the thread state -/

/-- Every region's proof data, each at its region's entry contents. -/
def pdats : (p : Fin 4) → (c : Dev nD) → Dat τ (Elt F) Unit ℕ (UR sig nD τ) ℕ (cfgs p) c
  | ⟨0, _⟩ => fun c => dat0 (R1 m) c
  | ⟨1, _⟩ => fun c => dat1 (R3 m (outsA m)) c
  | ⟨2, _⟩ => fun c => dat2 (R5 m (outsB m)) c
  | ⟨3, _⟩ => fun c => dat3 (R7 m (outsC m)) c

/-- No core owes another anything: no level is assigned. -/
abbrev LL : GSem nD τ sig → Finset Unit := fun _ => ∅
abbrev lvv : GSem nD τ sig → Unit → ℕ := fun _ _ => 0
/-- What rides beside the buffers through every segment: the generator register at some state, and nothing owed. -/
abbrev RR (c : Dev nD) : sProp 𝕄 := iprop((∃ r, prngReg c r) ∗ ∃ W, owes (c : Thread nD τ) (0 : CellTallies nD τ sig Unit) W)

theorem hF0_0 (c : Dev nD) : (pdats m 0 c).arrAt 0 cfg0.N = V2 m (outs m) c main_arg16 :=
  (((pdats m 0 c).arrAt_in 0 rfl _).trans (A_eq0 (R1 m) c 0)).trans (V2_of m (outs m) c main_arg16 (by decide)).symm
theorem hF0_1 (c : Dev nD) : (pdats m 0 c).arrAt 1 cfg0.N = V2 m (outs m) c main_v13 :=
  (((pdats m 0 c).arrAt_in 1 rfl _).trans (A_eq0 (R1 m) c 1)).trans (V2_of m (outs m) c main_v13 (by decide)).symm
theorem hF0_2 (c : Dev nD) : (pdats m 0 c).arrAt 2 cfg0.N = V2 m (outs m) c main_v27 :=
  (((pdats m 0 c).arrAt_in 2 rfl _).trans (A_eq0 (R1 m) c 2)).trans (V2_of m (outs m) c main_v27 (by decide)).symm
theorem hF0_3 (c : Dev nD) : (pdats m 0 c).arrAt 3 cfg0.N = V2 m (outs m) c main_v28 :=
  (((pdats m 0 c).arrAt_in 3 rfl _).trans (A_eq0 (R1 m) c 3)).trans (V2_of m (outs m) c main_v28 (by decide)).symm
theorem hF0_4 (c : Dev nD) : (pdats m 0 c).arrAt 4 cfg0.N = V2 m (outs m) c main_v29 :=
  (((pdats m 0 c).arrAt_in 4 rfl _).trans (A_eq0 (R1 m) c 4)).trans (V2_of m (outs m) c main_v29 (by decide)).symm
theorem hF0_5 (c : Dev nD) : (pdats m 0 c).arrAt 5 cfg0.N = V2 m (outs m) c main_v30 :=
  (outs_2 m c).symm.trans (by simp only [V2, Function.update_self])
/-- At region 0's exit each of its arrays holds what the pipeline leaves: an input its entry contents, the result the write-backs folded. -/
theorem hF0 (c : Dev nD) : ∀ w : Fin cfg0.W, (pdats m 0 c).arrAt w cfg0.N = V2 m (outs m) c (Pipeline.arrRef spec0 w) :=
  fun | ⟨0, _⟩ => hF0_0 m c | ⟨1, _⟩ => hF0_1 m c | ⟨2, _⟩ => hF0_2 m c | ⟨3, _⟩ => hF0_3 m c | ⟨4, _⟩ => hF0_4 m c | ⟨5, _⟩ => hF0_5 m c | ⟨_ + 6, h⟩ => absurd h (Nat.not_lt.2 (Nat.le_add_left _ _))
/-- Every other unscoped buffer is as it was at the region's entry. -/
theorem hrest0 (c : Dev nD) : ∀ b, b ∉ Finset.univ.image (Pipeline.arrRef spec0) → V2 m (outs m) c b = R1 m c b :=
  fun b hb => (V2_of m (outs m) c b (fun h => hb (Finset.mem_image.mpr ⟨5, Finset.mem_univ _, (List.mem_singleton.mp h).symm⟩))).trans rfl

theorem hF1_0 (c : Dev nD) : (pdats m 1 c).arrAt 0 cfg1.N = V4 m (outs m) c main_arg19 :=
  (((pdats m 1 c).arrAt_in 0 rfl _).trans (A_eq1 (R3 m (outsA m)) c 0)).trans ((congrFun (V3_outsA m c) _).symm.trans (V4_of m (outs m) c main_arg19 (by decide)).symm)
theorem hF1_1 (c : Dev nD) : (pdats m 1 c).arrAt 1 cfg1.N = V4 m (outs m) c main_v37 :=
  (((pdats m 1 c).arrAt_in 1 rfl _).trans (A_eq1 (R3 m (outsA m)) c 1)).trans ((congrFun (V3_outsA m c) _).symm.trans (V4_of m (outs m) c main_v37 (by decide)).symm)
theorem hF1_2 (c : Dev nD) : (pdats m 1 c).arrAt 2 cfg1.N = V4 m (outs m) c main_v44 :=
  (((pdats m 1 c).arrAt_in 2 rfl _).trans (A_eq1 (R3 m (outsA m)) c 2)).trans ((congrFun (V3_outsA m c) _).symm.trans (V4_of m (outs m) c main_v44 (by decide)).symm)
theorem hF1_3 (c : Dev nD) : (pdats m 1 c).arrAt 3 cfg1.N = V4 m (outs m) c main_v45 :=
  (((pdats m 1 c).arrAt_in 3 rfl _).trans (A_eq1 (R3 m (outsA m)) c 3)).trans ((congrFun (V3_outsA m c) _).symm.trans (V4_of m (outs m) c main_v45 (by decide)).symm)
theorem hF1_4 (c : Dev nD) : (pdats m 1 c).arrAt 4 cfg1.N = V4 m (outs m) c main_v46 :=
  (((pdats m 1 c).arrAt_in 4 rfl _).trans (A_eq1 (R3 m (outsA m)) c 4)).trans ((congrFun (V3_outsA m c) _).symm.trans (V4_of m (outs m) c main_v46 (by decide)).symm)
theorem hF1_5 (c : Dev nD) : (pdats m 1 c).arrAt 5 cfg1.N = V4 m (outs m) c main_v47 :=
  (outs_4 m c).symm.trans (by simp only [V4, Function.update_self])
/-- At region 1's exit each of its arrays holds what the pipeline leaves: an input its entry contents, the result the write-backs folded. -/
theorem hF1 (c : Dev nD) : ∀ w : Fin cfg1.W, (pdats m 1 c).arrAt w cfg1.N = V4 m (outs m) c (Pipeline.arrRef spec1 w) :=
  fun | ⟨0, _⟩ => hF1_0 m c | ⟨1, _⟩ => hF1_1 m c | ⟨2, _⟩ => hF1_2 m c | ⟨3, _⟩ => hF1_3 m c | ⟨4, _⟩ => hF1_4 m c | ⟨5, _⟩ => hF1_5 m c | ⟨_ + 6, h⟩ => absurd h (Nat.not_lt.2 (Nat.le_add_left _ _))
/-- Every other unscoped buffer is as it was at the region's entry. -/
theorem hrest1 (c : Dev nD) : ∀ b, b ∉ Finset.univ.image (Pipeline.arrRef spec1) → V4 m (outs m) c b = R3 m (outsA m) c b :=
  fun b hb => (V4_of m (outs m) c b (fun h => hb (Finset.mem_image.mpr ⟨5, Finset.mem_univ _, (List.mem_singleton.mp h).symm⟩))).trans (congrFun (V3_outsA m c) _)

theorem hF2_0 (c : Dev nD) : (pdats m 2 c).arrAt 0 cfg2.N = V6 m (outs m) c main_arg23 :=
  (((pdats m 2 c).arrAt_in 0 rfl _).trans (A_eq2 (R5 m (outsB m)) c 0)).trans ((congrFun (V5_outsB m c) _).symm.trans (V6_of m (outs m) c main_arg23 (by decide)).symm)
theorem hF2_1 (c : Dev nD) : (pdats m 2 c).arrAt 1 cfg2.N = V6 m (outs m) c main_v61 :=
  (((pdats m 2 c).arrAt_in 1 rfl _).trans (A_eq2 (R5 m (outsB m)) c 1)).trans ((congrFun (V5_outsB m c) _).symm.trans (V6_of m (outs m) c main_v61 (by decide)).symm)
theorem hF2_2 (c : Dev nD) : (pdats m 2 c).arrAt 2 cfg2.N = V6 m (outs m) c main_v75 :=
  (((pdats m 2 c).arrAt_in 2 rfl _).trans (A_eq2 (R5 m (outsB m)) c 2)).trans ((congrFun (V5_outsB m c) _).symm.trans (V6_of m (outs m) c main_v75 (by decide)).symm)
theorem hF2_3 (c : Dev nD) : (pdats m 2 c).arrAt 3 cfg2.N = V6 m (outs m) c main_v76 :=
  (((pdats m 2 c).arrAt_in 3 rfl _).trans (A_eq2 (R5 m (outsB m)) c 3)).trans ((congrFun (V5_outsB m c) _).symm.trans (V6_of m (outs m) c main_v76 (by decide)).symm)
theorem hF2_4 (c : Dev nD) : (pdats m 2 c).arrAt 4 cfg2.N = V6 m (outs m) c main_v77 :=
  (((pdats m 2 c).arrAt_in 4 rfl _).trans (A_eq2 (R5 m (outsB m)) c 4)).trans ((congrFun (V5_outsB m c) _).symm.trans (V6_of m (outs m) c main_v77 (by decide)).symm)
theorem hF2_5 (c : Dev nD) : (pdats m 2 c).arrAt 5 cfg2.N = V6 m (outs m) c main_v78 :=
  (outs_6 m c).symm.trans (by simp only [V6, Function.update_self])
/-- At region 2's exit each of its arrays holds what the pipeline leaves: an input its entry contents, the result the write-backs folded. -/
theorem hF2 (c : Dev nD) : ∀ w : Fin cfg2.W, (pdats m 2 c).arrAt w cfg2.N = V6 m (outs m) c (Pipeline.arrRef spec2 w) :=
  fun | ⟨0, _⟩ => hF2_0 m c | ⟨1, _⟩ => hF2_1 m c | ⟨2, _⟩ => hF2_2 m c | ⟨3, _⟩ => hF2_3 m c | ⟨4, _⟩ => hF2_4 m c | ⟨5, _⟩ => hF2_5 m c | ⟨_ + 6, h⟩ => absurd h (Nat.not_lt.2 (Nat.le_add_left _ _))
/-- Every other unscoped buffer is as it was at the region's entry. -/
theorem hrest2 (c : Dev nD) : ∀ b, b ∉ Finset.univ.image (Pipeline.arrRef spec2) → V6 m (outs m) c b = R5 m (outsB m) c b :=
  fun b hb => (V6_of m (outs m) c b (fun h => hb (Finset.mem_image.mpr ⟨5, Finset.mem_univ _, (List.mem_singleton.mp h).symm⟩))).trans (congrFun (V5_outsB m c) _)

theorem hF3_0 (c : Dev nD) : (pdats m 3 c).arrAt 0 cfg3.N = V8 m (outs m) c main_arg26 :=
  (((pdats m 3 c).arrAt_in 0 rfl _).trans (A_eq3 (R7 m (outsC m)) c 0)).trans ((congrFun (V7_outsC m c) _).symm.trans (V8_of m (outs m) c main_arg26 (by decide)).symm)
theorem hF3_1 (c : Dev nD) : (pdats m 3 c).arrAt 1 cfg3.N = V8 m (outs m) c main_v85 :=
  (((pdats m 3 c).arrAt_in 1 rfl _).trans (A_eq3 (R7 m (outsC m)) c 1)).trans ((congrFun (V7_outsC m c) _).symm.trans (V8_of m (outs m) c main_v85 (by decide)).symm)
theorem hF3_2 (c : Dev nD) : (pdats m 3 c).arrAt 2 cfg3.N = V8 m (outs m) c main_v92 :=
  (((pdats m 3 c).arrAt_in 2 rfl _).trans (A_eq3 (R7 m (outsC m)) c 2)).trans ((congrFun (V7_outsC m c) _).symm.trans (V8_of m (outs m) c main_v92 (by decide)).symm)
theorem hF3_3 (c : Dev nD) : (pdats m 3 c).arrAt 3 cfg3.N = V8 m (outs m) c main_v93 :=
  (((pdats m 3 c).arrAt_in 3 rfl _).trans (A_eq3 (R7 m (outsC m)) c 3)).trans ((congrFun (V7_outsC m c) _).symm.trans (V8_of m (outs m) c main_v93 (by decide)).symm)
theorem hF3_4 (c : Dev nD) : (pdats m 3 c).arrAt 4 cfg3.N = V8 m (outs m) c main_v94 :=
  (((pdats m 3 c).arrAt_in 4 rfl _).trans (A_eq3 (R7 m (outsC m)) c 4)).trans ((congrFun (V7_outsC m c) _).symm.trans (V8_of m (outs m) c main_v94 (by decide)).symm)
theorem hF3_5 (c : Dev nD) : (pdats m 3 c).arrAt 5 cfg3.N = V8 m (outs m) c main_v95 :=
  (outs_8 m c).symm.trans (by simp only [V8, Function.update_self])
/-- At region 3's exit each of its arrays holds what the pipeline leaves: an input its entry contents, the result the write-backs folded. -/
theorem hF3 (c : Dev nD) : ∀ w : Fin cfg3.W, (pdats m 3 c).arrAt w cfg3.N = V8 m (outs m) c (Pipeline.arrRef spec3 w) :=
  fun | ⟨0, _⟩ => hF3_0 m c | ⟨1, _⟩ => hF3_1 m c | ⟨2, _⟩ => hF3_2 m c | ⟨3, _⟩ => hF3_3 m c | ⟨4, _⟩ => hF3_4 m c | ⟨5, _⟩ => hF3_5 m c | ⟨_ + 6, h⟩ => absurd h (Nat.not_lt.2 (Nat.le_add_left _ _))
/-- Every other unscoped buffer is as it was at the region's entry. -/
theorem hrest3 (c : Dev nD) : ∀ b, b ∉ Finset.univ.image (Pipeline.arrRef spec3) → V8 m (outs m) c b = R7 m (outsC m) c b :=
  fun b hb => (V8_of m (outs m) c b (fun h => hb (Finset.mem_image.mpr ⟨5, Finset.mem_univ _, (List.mem_singleton.mp h).symm⟩))).trans (congrFun (V7_outsC m c) _)

/-! ## The regions as segments -/

set_option backward.isDefEq.respectTransparency.types false in
/-- Region 0 over the thread state: entered from every unscoped buffer at the contents before it, left at those contents
    with its result's array at what the pipeline leaves. Its arrays are split out of the unscoped buffers at entry and
    put back at exit; the generator register goes into the region's invariant and comes out; nothing is owed. -/
def reg0 : Pipeline.RegionSeg (pcfgs (F := F)) adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ LL lvv 0 fun _ _ => rfl
  pre c := iprop(StableHlo.held (c : Thread nD τ) (Pipeline.ucRefs τ sig) (V1 m c) ∗ RR c)
  post c := iprop(StableHlo.held (c : Thread nD τ) (Pipeline.ucRefs τ sig) (V2 m (outs m) c) ∗ RR c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi_first0 (R1 m) c]; unfold Pipeline.ΦA
    iintro ⟨Hp, -, Hr⟩
    isplitl [Hr]; · iexact Hr
    iexact Hp
  hout c := by
    rw [Pipeline.ownSems0_none]
    refine (Phi_last0 (R1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those contents
    with its result's array at what the pipeline leaves. Its arrays are split out of the unscoped buffers at entry and
    put back at exit; the generator register goes into the region's invariant and comes out; nothing is owed. -/
def reg1 : Pipeline.RegionSeg (pcfgs (F := F)) adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (R3 m (outsA m)) c).loose
  hwaits := Pipeline.hwaits_of_owed_zero _ _ _ _ LL lvv 1 fun _ _ => rfl
  pre c := iprop(StableHlo.held (c : Thread nD τ) (Pipeline.ucRefs τ sig) (V3 m (outsA m) c) ∗ RR c)
  post c := iprop(StableHlo.held (c : Thread nD τ) (Pipeline.ucRefs τ sig) (V4 m (outs m) c) ∗ RR c)
  X c := iprop(∃ r, prngReg c r)
  Y c := iprop(∃ r, prngReg c r)
  Z c := Pipeline.unscopedRest (Ix := Unit) (Name := ℕ) (U := UR sig nD τ) (Lvl := ℕ) spec1 c (R3 m (outsA m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m (outsA m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_first1 (R3 m (outsA m)) c]; unfold Pipeline.ΦA
    iintro ⟨Hp, -, Hr⟩
    isplitl [Hr]; · iexact Hr
    iexact Hp
  hout c := by
    rw [Pipeline.ownSems0_none]
    refine (Phi_last1 (R3 m (outsA m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m (outsA m) c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those contents
    with its result's array at what the pipeline leaves. Its arrays are split out of the unscoped buffers at entry and
    put back at exit; the generator register goes into the region's invariant and comes out; nothing is owed. -/
def reg2 : Pipeline.RegionSeg (pcfgs (F := F)) adm (pdats m) () defs₀ Variants.none LL lvv 2 where
  win := launch2.win.to₀
  block_pos := launch2.block_pos
  stage_whole := launch2.stage_whole
  K := PEmpty
  osem k := k.elim
  ho := Pipeline.OwnSemFacts.none _
  hbody c := (body_obligation2 (R5 m (outsB m)) c).loose
  hwaits := Pipeline.hwaits_of_owed_zero _ _ _ _ LL lvv 2 fun _ _ => rfl
  pre c := iprop(StableHlo.held (c : Thread nD τ) (Pipeline.ucRefs τ sig) (V5 m (outsB m) c) ∗ RR c)
  post c := iprop(StableHlo.held (c : Thread nD τ) (Pipeline.ucRefs τ sig) (V6 m (outs m) c) ∗ RR c)
  X c := iprop(∃ r, prngReg c r)
  Y c := iprop(∃ r, prngReg c r)
  Z c := Pipeline.unscopedRest (Ix := Unit) (Name := ℕ) (U := UR sig nD τ) (Lvl := ℕ) spec2 c (R5 m (outsB m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m (outsB m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi_first2 (R5 m (outsB m)) c]; unfold Pipeline.ΦA
    iintro ⟨Hp, -, Hr⟩
    isplitl [Hr]; · iexact Hr
    iexact Hp
  hout c := by
    rw [Pipeline.ownSems0_none]
    refine (Phi_last2 (R5 m (outsB m)) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m (outsB m) c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at those contents
    with its result's array at what the pipeline leaves. Its arrays are split out of the unscoped buffers at entry and
    put back at exit; the generator register goes into the region's invariant and comes out; nothing is owed. -/
def reg3 : Pipeline.RegionSeg (pcfgs (F := F)) adm (pdats m) () defs₀ Variants.none LL lvv 3 where
  win := launch3.win.to₀
  block_pos := launch3.block_pos
  stage_whole := launch3.stage_whole
  K := PEmpty
  osem k := k.elim
  ho := Pipeline.OwnSemFacts.none _
  hbody c := (body_obligation3 (R7 m (outsC m)) c).loose
  hwaits := Pipeline.hwaits_of_owed_zero _ _ _ _ LL lvv 3 fun _ _ => rfl
  pre c := iprop(StableHlo.held (c : Thread nD τ) (Pipeline.ucRefs τ sig) (V7 m (outsC m) c) ∗ RR c)
  post c := iprop(StableHlo.held (c : Thread nD τ) (Pipeline.ucRefs τ sig) (V8 m (outs m) c) ∗ RR c)
  X c := iprop(∃ r, prngReg c r)
  Y c := iprop(∃ r, prngReg c r)
  Z c := Pipeline.unscopedRest (Ix := Unit) (Name := ℕ) (U := UR sig nD τ) (Lvl := ℕ) spec3 c (R7 m (outsC m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7 m (outsC m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi_first3 (R7 m (outsC m)) c]; unfold Pipeline.ΦA
    iintro ⟨Hp, -, Hr⟩
    isplitl [Hr]; · iexact Hr
    iexact Hp
  hout c := by
    rw [Pipeline.ownSems0_none]
    refine (Phi_last3 (R7 m (outsC m)) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7 m (outsC m) c) (fun b => V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and in
    every final state each unscoped buffer holds what the last host stretch leaves, the regions' results being what
    their pipelines leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ Variants.none LL lvv m ρ main
    (segs m (outs m) Variants.none LL lvv (fun _ => RR) () (pdats m) (reg0 m) (reg1 m) (reg2 m) (reg3 m))
    (fun c Q => by
      rewrite [main_chain c, Pipeline.Seg.run_eq_chain,
        show (segs m (outs m) Variants.none LL lvv (fun _ => RR) () (pdats m) (reg0 m) (reg1 m) (reg2 m) (reg3 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RR c))
    (Tₙ := fun c => StableHlo.held (c : Thread nD τ) (Pipeline.ucRefs τ sig) (V17 m (outs m) c))
    (hch := fun c => ⟨.rfl, .rfl, .rfl, (show iprop(StableHlo.held (c : Thread nD τ) (Pipeline.ucRefs τ sig) (V3 m (outs m) c) ∗ RR c) ⊢ iprop(StableHlo.held (c : Thread nD τ) (Pipeline.ucRefs τ sig) (V3 m (outsA m) c) ∗ RR c) from by rw [V3_outsA m c]), .rfl,
      (show iprop(StableHlo.held (c : Thread nD τ) (Pipeline.ucRefs τ sig) (V5 m (outs m) c) ∗ RR c) ⊢ iprop(StableHlo.held (c : Thread nD τ) (Pipeline.ucRefs τ sig) (V5 m (outsB m) c) ∗ RR c) from by rw [V5_outsB m c]), .rfl,
      (show iprop(StableHlo.held (c : Thread nD τ) (Pipeline.ucRefs τ sig) (V7 m (outs m) c) ∗ RR c) ⊢ iprop(StableHlo.held (c : Thread nD τ) (Pipeline.ucRefs τ sig) (V7 m (outsC m) c) ∗ RR c) from by rw [V7_outsC m c]), .rfl, .rfl, .rfl, .rfl, .rfl, .rfl, .rfl, .rfl, .rfl,
      (show iprop(StableHlo.held (c : Thread nD τ) (Pipeline.ucRefs τ sig) (V17 m (outs m) c) ∗ RR c) ⊢ iprop(StableHlo.held (c : Thread nD τ) (Pipeline.ucRefs τ sig) (V17 m (outs m) c) ∗ ∃ W, owes (c : Thread nD τ) (0 : CellTallies nD τ sig Unit) W) from by
        iintro ⟨Hh, -, HO⟩
        isplitl [Hh] <;> iassumption)⟩)
    (hinit := by
      refine Pipeline.initEach LL lvv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨Hh, HSI⟩
      unfold StableHlo.held
      imodintro
      iapply (pointsTo_read_all (Pipeline.ucRefs τ sig) (fun b => (((c : Thread nD τ)).1, b)) (V17 m (outs m) c) s')
      isplitl [Hh] <;> iassumption)
    (hQ := fun s h c => h c)

end Cert.KernelIdeal.Fr

end
-- ==== Proof.KI.Frame.lean ====
/- The program's frame: it runs to the end, nothing faulting, and every argument array ends as launched. -/
import proofs.«118190_j89781996355909_2_alg».proof.Proof.KI.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each argument's buffer is unscoped, so the run names its final contents, and no host stretch or region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨
    (h c _ (mem_uc main_arg0 (by decide))).trans (V17_main_arg0 m (outs m) c),
    (h c _ (mem_uc main_arg1 (by decide))).trans (V17_main_arg1 m (outs m) c),
    (h c _ (mem_uc main_arg2 (by decide))).trans (V17_main_arg2 m (outs m) c),
    (h c _ (mem_uc main_arg3 (by decide))).trans (V17_main_arg3 m (outs m) c),
    (h c _ (mem_uc main_arg4 (by decide))).trans (V17_main_arg4 m (outs m) c),
    (h c _ (mem_uc main_arg5 (by decide))).trans (V17_main_arg5 m (outs m) c),
    (h c _ (mem_uc main_arg6 (by decide))).trans (V17_main_arg6 m (outs m) c),
    (h c _ (mem_uc main_arg7 (by decide))).trans (V17_main_arg7 m (outs m) c),
    (h c _ (mem_uc main_arg8 (by decide))).trans (V17_main_arg8 m (outs m) c),
    (h c _ (mem_uc main_arg9 (by decide))).trans (V17_main_arg9 m (outs m) c),
    (h c _ (mem_uc main_arg10 (by decide))).trans (V17_main_arg10 m (outs m) c),
    (h c _ (mem_uc main_arg11 (by decide))).trans (V17_main_arg11 m (outs m) c),
    (h c _ (mem_uc main_arg12 (by decide))).trans (V17_main_arg12 m (outs m) c),
    (h c _ (mem_uc main_arg13 (by decide))).trans (V17_main_arg13 m (outs m) c),
    (h c _ (mem_uc main_arg14 (by decide))).trans (V17_main_arg14 m (outs m) c),
    (h c _ (mem_uc main_arg15 (by decide))).trans (V17_main_arg15 m (outs m) c),
    (h c _ (mem_uc main_arg16 (by decide))).trans (V17_main_arg16 m (outs m) c),
    (h c _ (mem_uc main_arg17 (by decide))).trans (V17_main_arg17 m (outs m) c),
    (h c _ (mem_uc main_arg18 (by decide))).trans (V17_main_arg18 m (outs m) c),
    (h c _ (mem_uc main_arg19 (by decide))).trans (V17_main_arg19 m (outs m) c),
    (h c _ (mem_uc main_arg20 (by decide))).trans (V17_main_arg20 m (outs m) c),
    (h c _ (mem_uc main_arg21 (by decide))).trans (V17_main_arg21 m (outs m) c),
    (h c _ (mem_uc main_arg22 (by decide))).trans (V17_main_arg22 m (outs m) c),
    (h c _ (mem_uc main_arg23 (by decide))).trans (V17_main_arg23 m (outs m) c),
    (h c _ (mem_uc main_arg24 (by decide))).trans (V17_main_arg24 m (outs m) c),
    (h c _ (mem_uc main_arg25 (by decide))).trans (V17_main_arg25 m (outs m) c),
    (h c _ (mem_uc main_arg26 (by decide))).trans (V17_main_arg26 m (outs m) c)⟩) (run_all m ρ)

end Cert.KernelIdeal.Fr

end
-- ==== Proof.K.R0Runs.lean ====
/- Region 0: the grid's branch conditions in closed form, where the result window is idle, the memrefs the body is
   called with, each input window's block at a point, and the region's invariant split at the accumulator. -/
import proofs.«118190_j89781996355909_2_alg».proof.Proof.Gen.Kernel.Launch
import proofs.«118190_j89781996355909_2_alg».proof.Proof.Gen.Kernel.Skeleton
import proofs.«118190_j89781996355909_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions -/

/-- The first branch (the accumulator is cleared): the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the result is computed and stored): the second grid coordinate is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S1024x128 .f32 := (Memref.whole cc0_stg5_0 : Memref sig .tc .vmem S1024x128 .f32).view
abbrev ms0_0 (t : Fin cfg0.N) : Memref sig .tc .vmem S1024x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0 : Memref sig .tc .vmem S1024x256 .f32 := Memref.whole cc0_scratch0
abbrev VS0 : View sig .tc .vmem S1024x256 .f32 := (scM0).view

/-- The region's invariant with the accumulator as a memref owned at some contents, the other scoped buffers unopened. -/
theorem PhiA0_eq (c : Dev nD) :
    (Pipeline.ΦA spec0 c : sProp 𝕄)
      = iprop(iprop((∃ d, owns (c : Thread nD τ) (scM0) fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Fr

end
-- ==== Proof.K.R0RunA.lean ====
/- Region 0, the body run whole in one of its three cases. -/
import proofs.«118190_j89781996355909_2_alg».proof.Proof.K.R0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point where the accumulator is cleared first and no result is stored: what its stores leave in the accumulator, as pieces, with the run that finds them. -/
noncomputable def kernelRun0_A (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond0_0 i) (hc1 : ¬cond0_1 i)
    (x0 : Vec F S1024x4096 .f32) (x1 : Vec F S4096x256 .f32) (x2 : Vec F S1024x256 .f32) (x3 : Vec F S256x128 .f32) (x4 : Vec F S256x128 .f32) :
    { LS0 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__agg_matmul_kernel i arg2 harg2 arg3 harg3 arg4 harg4 arg5 harg5 arg6 harg6 arg7 harg7 arg8 harg8) K } := by
  refine ⟨?_, fun xi5 E K => ?run⟩
  case run =>
    simp only [cc0__agg_matmul_kernel_eq_skeleton]; unfold cc0__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R0RunB.lean ====
/- Region 0, the body run whole in one of its three cases. -/
import proofs.«118190_j89781996355909_2_alg».proof.Proof.K.R0RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point where  no result is stored: what its stores leave in the accumulator, as pieces, with the run that finds them. -/
noncomputable def kernelRun0_B (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : ¬cond0_1 i)
    (x0 : Vec F S1024x4096 .f32) (x1 : Vec F S4096x256 .f32) (x2 : Vec F S1024x256 .f32) (x3 : Vec F S256x128 .f32) (x4 : Vec F S256x128 .f32) (xs0 : Vec F S1024x256 .f32) :
    { LS0 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__agg_matmul_kernel i arg2 harg2 arg3 harg3 arg4 harg4 arg5 harg5 arg6 harg6 arg7 harg7 arg8 harg8) K } := by
  refine ⟨?_, fun xi5 E K => ?run⟩
  case run =>
    simp only [cc0__agg_matmul_kernel_eq_skeleton]; unfold cc0__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R0RunC.lean ====
/- Region 0, the body run whole in one of its three cases. -/
import proofs.«118190_j89781996355909_2_alg».proof.Proof.K.R0RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point where the result is stored: what its stores leave in the result's buffer and in the accumulator, as pieces, with the run that finds them. -/
noncomputable def kernelRun0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) :
    Σ' (L5 : List (View.Piece (Elt F) S1024x128 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__agg_matmul_kernel i arg2 harg2 arg3 harg3 arg4 harg4 arg5 harg5 arg6 harg6 arg7 harg7 arg8 harg8) K } := by
  refine ⟨?_, ?_, fun E K => ?run⟩
  case run =>
    simp only [cc0__agg_matmul_kernel_eq_skeleton]; unfold cc0__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.R0Frame.lean ====
/- Region 0: what the accumulator and the result's buffer hold after each point, the region's proof data, and the
   body's obligation at every point. -/
import proofs.«118190_j89781996355909_2_alg».proof.Proof.K.R0RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The accumulator's pieces in the clearing case cover it. -/
theorem scover0_A (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond0_0 i) (hc1 : ¬cond0_1 i)
    (x0 : Vec F S1024x4096 .f32) (x1 : Vec F S4096x256 .f32) (x2 : Vec F S1024x256 .f32) (x3 : Vec F S256x128 .f32) (x4 : Vec F S256x128 .f32) (y : S1024x256.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL (kernelRun0_A c i arg2 harg2 arg3 harg3 arg4 harg4 arg5 harg5 arg6 harg6 arg7 harg7 arg8 harg8 hc0 hc1 x0 x1 x2 x3 x4).1 S1024x256.size (by sl_kernel_rfl) y
/-- What the clearing case leaves in the accumulator. -/
def sout0_A (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond0_0 i) (hc1 : ¬cond0_1 i)
    (x0 : Vec F S1024x4096 .f32) (x1 : Vec F S4096x256 .f32) (x2 : Vec F S1024x256 .f32) (x3 : Vec F S256x128 .f32) (x4 : Vec F S256x128 .f32) : Vec F S1024x256 .f32 :=
  VS0.read (Elt F) (VS0.writes (Elt F) VS0.junk (kernelRun0_A c i arg2 harg2 arg3 harg3 arg4 harg4 arg5 harg5 arg6 harg6 arg7 harg7 arg8 harg8 hc0 hc1 x0 x1 x2 x3 x4).1)

theorem scover0_B (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : ¬cond0_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x256.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S1024x256.size (by sl_kernel_rfl) y
/-- What an accumulating point leaves in the accumulator. -/
def sout0_B (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : ¬cond0_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x256 .f32 :=
  VS0.read (Elt F) (VS0.writes (Elt F) VS0.junk (kernelRun0_B c i arg2 harg2 arg3 harg3 arg4 harg4 arg5 harg5 arg6 harg6 arg7 harg7 arg8 harg8 hc0 hc1 x0 x1 x2 x3 x4 xs0).1)

theorem cover0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1024x128.size (by sl_kernel_rfl) y
/-- What the storing case leaves in the result's buffer. -/
def out0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)
theorem scover0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x256.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1024x256.size (by sl_kernel_rfl) y
/-- What the storing case leaves in the accumulator. -/
def sout0_C (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x256 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs0).2.1)

/-! ## Point by point -/

/-- What the result's buffer and the accumulator hold after the body at position `n`: the case the position is in,
    run on the position's blocks, the accumulator as the position before left it. Where no result is stored the
    first component is a placeholder nothing consults. -/
def outsAt0 (c : Dev nD) : (n : ℕ) → n < cfg0.N → Vec F S1024x128 .f32 × Vec F S1024x256 .f32
  | 0, hn => ((VO0_5.read (Elt F) (VO0_5.writes (Elt F) VO0_5.junk [])), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        ((VO0_5.read (Elt F) (VO0_5.writes (Elt F) VO0_5.junk [])), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        ((VO0_5.read (Elt F) (VO0_5.writes (Elt F) VO0_5.junk [])), sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = ((VO0_5.read (Elt F) (VO0_5.writes (Elt F) VO0_5.junk [])), sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = ((VO0_5.read (Elt F) (VO0_5.writes (Elt F) VO0_5.junk [])), sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The rest of the region's scoped buffers, unopened. -/
abbrev restBut0 (c : Dev nD) : sProp 𝕄 := Pipeline.scopedRestBut (Ix := Unit) (Name := ℕ) (U := UR sig nD τ) (Lvl := ℕ) (Val := Elt F) spec0 c [cc0_scratch0]

/-- The region's invariant before position `n`: at the start every scoped buffer at anything; afterwards the
    accumulator at what the position before left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restBut0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restBut0 c) ∗ (∃ r, prngReg c r)) := by
  cases n with
  | zero => exact absurd rfl hz
  | succ n => rfl

/-! ## The proof data -/

/-- The region's proof data on core `c`: the arrays as the region finds them; after the body each input's buffer at its
    block and the result's at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the case the point is in decides which run applies; the invariant hands the run the
    accumulator (at what the point before left, or at anything at a clearing point) and takes it back at this
    point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · have h1 : ¬ t.val % 4 = 3 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C c _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the region's starting invariant back: the accumulator's contents forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem Phi_last0 (c : Dev nD) : (dat0 V c).Φ (Fin.last cfg0.N) ⊢ Pipeline.ΦA spec0 c :=
  Phi_out0 V c _ (by rw [Fin.val_last]; have : cfg0.N = 8 := N_0; omega)

theorem Phi_first0 (c : Dev nD) : (dat0 V c).Φ 0 = Pipeline.ΦA spec0 c := rfl

end Cert.Kernel.Fr

end
-- ==== Proof.K.R1Runs.lean ====
/- Region 1: the grid's branch conditions (both hold at every point), the memrefs the body is called with, each
   input window's block at a point, and the region's invariant split at the accumulator. -/
import proofs.«118190_j89781996355909_2_alg».proof.Proof.Gen.Kernel.Launch
import proofs.«118190_j89781996355909_2_alg».proof.Proof.Gen.Kernel.Skeleton
import proofs.«118190_j89781996355909_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions: the second grid axis has one position, which is both first and last -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-! ## The memrefs the body is called with -/

abbrev VO1_5 : View sig .tc .vmem S256x128 .f32 := (Memref.whole cc1_stg5_0 : Memref sig .tc .vmem S256x128 .f32).view
abbrev ms1_0 (t : Fin cfg1.N) : Memref sig .tc .vmem S256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x128 .f32 := win1_5.stage (cfg1.slots t 5)
abbrev hs1_5 (t : Fin cfg1.N) : (ms1_5 t).IsWhole := hstage1_5 ((cfg1.slots t 5).cast nbuf1_5)
/-- The accumulator: a whole scoped buffer of the kernel's own, cleared at every point before it is read. -/
abbrev scM1 : Memref sig .tc .vmem S256x128 .f32 := Memref.whole cc1_scratch0

/-- The region's invariant with the accumulator as a memref owned at some contents, the other scoped buffers unopened. -/
theorem PhiA1_eq (c : Dev nD) :
    (Pipeline.ΦA spec1 c : sProp 𝕄)
      = iprop(iprop((∃ d, owns (c : Thread nD τ) (scM1) fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Fr

end
-- ==== Proof.K.R1RunD.lean ====
/- Region 1, the body run whole (its one case: the accumulator cleared, one product added, the result stored). -/
import proofs.«118190_j89781996355909_2_alg».proof.Proof.K.R1Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the result's buffer and in the accumulator, as pieces, with the run that finds them. -/
noncomputable def kernelRun1_D (c : Dev nD) (i : grid1.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond1_0 i) (hc1 : cond1_1 i)
    (x0 : Vec F S256x2048 .f32) (x1 : Vec F S2048x128 .f32) (x2 : Vec F S256x128 .f32) (x3 : Vec F S128x128 .f32) (x4 : Vec F S128x128 .f32) :
    Σ' (L5 : List (View.Piece (Elt F) S256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__agg_matmul_kernel i arg2 harg2 arg3 harg3 arg4 harg4 arg5 harg5 arg6 harg6 arg7 harg7 arg8 harg8) K } := by
  refine ⟨?_, ?_, fun E K => ?run⟩
  case run =>
    simp only [cc1__agg_matmul_kernel_eq_skeleton]; unfold cc1__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.R1Frame.lean ====
/- Region 1: what the result's buffer holds after each point, the region's proof data, and the body's obligation. -/
import proofs.«118190_j89781996355909_2_alg».proof.Proof.K.R1RunD

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_D (c : Dev nD) (i : grid1.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond1_0 i) (hc1 : cond1_1 i)
    (x0 : Vec F S256x2048 .f32) (x1 : Vec F S2048x128 .f32) (x2 : Vec F S256x128 .f32) (x3 : Vec F S128x128 .f32) (x4 : Vec F S128x128 .f32) (y : S256x128.Idx) :
    ∃ pc ∈ (kernelRun1_D c i arg2 harg2 arg3 harg3 arg4 harg4 arg5 harg5 arg6 harg6 arg7 harg7 arg8 harg8 hc0 hc1 x0 x1 x2 x3 x4).1, y ∈ pc.1.set :=
  View.cover_of_tiledL (kernelRun1_D c i arg2 harg2 arg3 harg3 arg4 harg4 arg5 harg5 arg6 harg6 arg7 harg7 arg8 harg8 hc0 hc1 x0 x1 x2 x3 x4).1 S256x128.size (by sl_kernel_rfl) y
/-- What the body leaves in the result's buffer. -/
def out1_D (c : Dev nD) (i : grid1.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond1_0 i) (hc1 : cond1_1 i)
    (x0 : Vec F S256x2048 .f32) (x1 : Vec F S2048x128 .f32) (x2 : Vec F S256x128 .f32) (x3 : Vec F S128x128 .f32) (x4 : Vec F S128x128 .f32) : Vec F S256x128 .f32 :=
  VO1_5.read (Elt F) (VO1_5.writes (Elt F) VO1_5.junk (kernelRun1_D c i arg2 harg2 arg3 harg3 arg4 harg4 arg5 harg5 arg6 harg6 arg7 harg7 arg8 harg8 hc0 hc1 x0 x1 x2 x3 x4).1)

/-- What the result's buffer holds after the body at point `t`. -/
def outAt1 (c : Dev nD) (t : Fin cfg1.N) : Vec F S256x128 .f32 :=
  out1_D c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (hcond1_0 t) (hcond1_1 t) (iblk1 V c 0 t) (iblk1 V c 1 t) (iblk1 V c 2 t) (iblk1 V c 3 t) (iblk1 V c 4 t)

/-- The region's proof data on core `c`: the arrays as the region finds them; after the body each input's buffer at its
    block and the result's at `outAt1`; the invariant the same before every point; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the invariant hands the run the accumulator at anything and takes it back at anything. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  unfold outAt1 out1_D; (try dsimp only)
  iintro ⟨⟨⟨HS0, Hrest⟩, Hg⟩, Ho, ⟨%d0, H0⟩, ⟨%d1, H1⟩, ⟨%d2, H2⟩, ⟨%d3, H3⟩, ⟨%d4, H4⟩, ⟨%d5, H5⟩⟩
  iapply ((kernelRun1_D c (grid1.coords t) _ _ _ _ _ _ _ _ _ _ _ _ _ _ (hcond1_0 t) (hcond1_1 t) (iblk1 V c 0 t) (iblk1 V c 1 t) (iblk1 V c 2 t) (iblk1 V c 3 t) (iblk1 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_D c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem Phi_last1 (c : Dev nD) : (dat1 V c).Φ (Fin.last cfg1.N) ⊢ Pipeline.ΦA spec1 c := .rfl
theorem Phi_first1 (c : Dev nD) : (dat1 V c).Φ 0 = Pipeline.ΦA spec1 c := rfl

end Cert.Kernel.Fr

end
-- ==== Proof.K.R2Runs.lean ====
/- Region 2: the grid's branch conditions in closed form, where the result window is idle, the memrefs the body is
   called with, each input window's block at a point, and the region's invariant split at the accumulator. -/
import proofs.«118190_j89781996355909_2_alg».proof.Proof.Gen.Kernel.Launch
import proofs.«118190_j89781996355909_2_alg».proof.Proof.Gen.Kernel.Skeleton
import proofs.«118190_j89781996355909_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions -/

/-- The first branch (the accumulator is cleared): the second grid coordinate is zero. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second branch (the result is computed and stored): the second grid coordinate is the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The memrefs the body is called with -/

abbrev VO2_5 : View sig .tc .vmem S1024x128 .f32 := (Memref.whole cc2_stg5_0 : Memref sig .tc .vmem S1024x128 .f32).view
abbrev ms2_0 (t : Fin cfg2.N) : Memref sig .tc .vmem S1024x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .f32 := win2_5.stage (cfg2.slots t 5)
abbrev hs2_5 (t : Fin cfg2.N) : (ms2_5 t).IsWhole := hstage2_5 ((cfg2.slots t 5).cast nbuf2_5)
/-- The accumulator: a whole scoped buffer of the kernel's own, carried from point to point. -/
abbrev scM2 : Memref sig .tc .vmem S1024x256 .f32 := Memref.whole cc2_scratch0
abbrev VS2 : View sig .tc .vmem S1024x256 .f32 := (scM2).view

/-- The region's invariant with the accumulator as a memref owned at some contents, the other scoped buffers unopened. -/
theorem PhiA2_eq (c : Dev nD) :
    (Pipeline.ΦA spec2 c : sProp 𝕄)
      = iprop(iprop((∃ d, owns (c : Thread nD τ) (scM2) fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Fr

end
-- ==== Proof.K.R2RunA.lean ====
/- Region 2, the body run whole in one of its three cases. -/
import proofs.«118190_j89781996355909_2_alg».proof.Proof.K.R2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point where the accumulator is cleared first and no result is stored: what its stores leave in the accumulator, as pieces, with the run that finds them. -/
noncomputable def kernelRun2_A (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond2_0 i) (hc1 : ¬cond2_1 i)
    (x0 : Vec F S1024x4096 .f32) (x1 : Vec F S4096x256 .f32) (x2 : Vec F S1024x256 .f32) (x3 : Vec F S256x128 .f32) (x4 : Vec F S256x128 .f32) :
    { LS0 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__agg_matmul_kernel i arg2 harg2 arg3 harg3 arg4 harg4 arg5 harg5 arg6 harg6 arg7 harg7 arg8 harg8) K } := by
  refine ⟨?_, fun xi5 E K => ?run⟩
  case run =>
    simp only [cc2__agg_matmul_kernel_eq_skeleton]; unfold cc2__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R2RunB.lean ====
/- Region 2, the body run whole in one of its three cases. -/
import proofs.«118190_j89781996355909_2_alg».proof.Proof.K.R2RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point where  no result is stored: what its stores leave in the accumulator, as pieces, with the run that finds them. -/
noncomputable def kernelRun2_B (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : ¬cond2_1 i)
    (x0 : Vec F S1024x4096 .f32) (x1 : Vec F S4096x256 .f32) (x2 : Vec F S1024x256 .f32) (x3 : Vec F S256x128 .f32) (x4 : Vec F S256x128 .f32) (xs0 : Vec F S1024x256 .f32) :
    { LS0 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__agg_matmul_kernel i arg2 harg2 arg3 harg3 arg4 harg4 arg5 harg5 arg6 harg6 arg7 harg7 arg8 harg8) K } := by
  refine ⟨?_, fun xi5 E K => ?run⟩
  case run =>
    simp only [cc2__agg_matmul_kernel_eq_skeleton]; unfold cc2__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.R2RunC.lean ====
/- Region 2, the body run whole in one of its three cases. -/
import proofs.«118190_j89781996355909_2_alg».proof.Proof.K.R2RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point where the result is stored: what its stores leave in the result's buffer and in the accumulator, as pieces, with the run that finds them. -/
noncomputable def kernelRun2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) :
    Σ' (L5 : List (View.Piece (Elt F) S1024x128 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__agg_matmul_kernel i arg2 harg2 arg3 harg3 arg4 harg4 arg5 harg5 arg6 harg6 arg7 harg7 arg8 harg8) K } := by
  refine ⟨?_, ?_, fun E K => ?run⟩
  case run =>
    simp only [cc2__agg_matmul_kernel_eq_skeleton]; unfold cc2__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.R2Frame.lean ====
/- Region 2: what the accumulator and the result's buffer hold after each point, the region's proof data, and the
   body's obligation at every point. -/
import proofs.«118190_j89781996355909_2_alg».proof.Proof.K.R2RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The accumulator's pieces in the clearing case cover it. -/
theorem scover2_A (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond2_0 i) (hc1 : ¬cond2_1 i)
    (x0 : Vec F S1024x4096 .f32) (x1 : Vec F S4096x256 .f32) (x2 : Vec F S1024x256 .f32) (x3 : Vec F S256x128 .f32) (x4 : Vec F S256x128 .f32) (y : S1024x256.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S1024x256.size (by sl_kernel_rfl) y
/-- What the clearing case leaves in the accumulator. -/
def sout2_A (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond2_0 i) (hc1 : ¬cond2_1 i)
    (x0 : Vec F S1024x4096 .f32) (x1 : Vec F S4096x256 .f32) (x2 : Vec F S1024x256 .f32) (x3 : Vec F S256x128 .f32) (x4 : Vec F S256x128 .f32) : Vec F S1024x256 .f32 :=
  VS2.read (Elt F) (VS2.writes (Elt F) VS2.junk (kernelRun2_A c i arg2 harg2 arg3 harg3 arg4 harg4 arg5 harg5 arg6 harg6 arg7 harg7 arg8 harg8 hc0 hc1 x0 x1 x2 x3 x4).1)

theorem scover2_B (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : ¬cond2_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x256.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S1024x256.size (by sl_kernel_rfl) y
/-- What an accumulating point leaves in the accumulator. -/
def sout2_B (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : ¬cond2_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x256 .f32 :=
  VS2.read (Elt F) (VS2.writes (Elt F) VS2.junk (kernelRun2_B c i arg2 harg2 arg3 harg3 arg4 harg4 arg5 harg5 arg6 harg6 arg7 harg7 arg8 harg8 hc0 hc1 x0 x1 x2 x3 x4 xs0).1)

theorem cover2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x128.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x128.size (by sl_kernel_rfl) y
/-- What the storing case leaves in the result's buffer. -/
def out2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x128 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)
theorem scover2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) (y : S1024x256.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x256.size (by sl_kernel_rfl) y
/-- What the storing case leaves in the accumulator. -/
def sout2_C (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i)
    (x0 : Vec F S1024x4096 .f32) (x1 : Vec F S4096x256 .f32) (x2 : Vec F S1024x256 .f32) (x3 : Vec F S256x128 .f32) (x4 : Vec F S256x128 .f32) (xs0 : Vec F S1024x256 .f32) : Vec F S1024x256 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs0).2.1)

/-! ## Point by point -/

/-- What the result's buffer and the accumulator hold after the body at position `n`: the case the position is in,
    run on the position's blocks, the accumulator as the position before left it. Where no result is stored the
    first component is a placeholder nothing consults. -/
def outsAt2 (c : Dev nD) : (n : ℕ) → n < cfg2.N → Vec F S1024x128 .f32 × Vec F S1024x256 .f32
  | 0, hn => ((VO2_5.read (Elt F) (VO2_5.writes (Elt F) VO2_5.junk [])), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        ((VO2_5.read (Elt F) (VO2_5.writes (Elt F) VO2_5.junk [])), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        ((VO2_5.read (Elt F) (VO2_5.writes (Elt F) VO2_5.junk [])), sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = ((VO2_5.read (Elt F) (VO2_5.writes (Elt F) VO2_5.junk [])), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = ((VO2_5.read (Elt F) (VO2_5.writes (Elt F) VO2_5.junk [])), sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The rest of the region's scoped buffers, unopened. -/
abbrev restBut2 (c : Dev nD) : sProp 𝕄 := Pipeline.scopedRestBut (Ix := Unit) (Name := ℕ) (U := UR sig nD τ) (Lvl := ℕ) (Val := Elt F) spec2 c [cc2_scratch0]

/-- The region's invariant before position `n`: at the start every scoped buffer at anything; afterwards the
    accumulator at what the position before left in it. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restBut2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restBut2 c) ∗ (∃ r, prngReg c r)) := by
  cases n with
  | zero => exact absurd rfl hz
  | succ n => rfl

/-! ## The proof data -/

/-- The region's proof data on core `c`: the arrays as the region finds them; after the body each input's buffer at its
    block and the result's at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the case the point is in decides which run applies; the invariant hands the run the
    accumulator (at what the point before left, or at anything at a clearing point) and takes it back at this
    point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 4 = 0
  · have h1 : ¬ t.val % 4 = 3 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 4 = 3
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After any point but the first the invariant gives the region's starting invariant back: the accumulator's contents forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem Phi_last2 (c : Dev nD) : (dat2 V c).Φ (Fin.last cfg2.N) ⊢ Pipeline.ΦA spec2 c :=
  Phi_out2 V c _ (by rw [Fin.val_last]; have : cfg2.N = 8 := N_2; omega)

theorem Phi_first2 (c : Dev nD) : (dat2 V c).Φ 0 = Pipeline.ΦA spec2 c := rfl

end Cert.Kernel.Fr

end
-- ==== Proof.K.R3Runs.lean ====
/- Region 3: the grid's branch conditions (both hold at every point), the memrefs the body is called with, each
   input window's block at a point, and the region's invariant split at the accumulator. -/
import proofs.«118190_j89781996355909_2_alg».proof.Proof.Gen.Kernel.Launch
import proofs.«118190_j89781996355909_2_alg».proof.Proof.Gen.Kernel.Skeleton
import proofs.«118190_j89781996355909_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The branch conditions: the second grid axis has one position, which is both first and last -/

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) :=
  (by decide +kernel : ∀ t : Fin grid3.N, cond3_0 (grid3.coords t))
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

/-! ## The memrefs the body is called with -/

abbrev VO3_5 : View sig .tc .vmem S256x128 .f32 := (Memref.whole cc3_stg5_0 : Memref sig .tc .vmem S256x128 .f32).view
abbrev ms3_0 (t : Fin cfg3.N) : Memref sig .tc .vmem S256x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x128 .f32 := win3_5.stage (cfg3.slots t 5)
abbrev hs3_5 (t : Fin cfg3.N) : (ms3_5 t).IsWhole := hstage3_5 ((cfg3.slots t 5).cast nbuf3_5)
/-- The accumulator: a whole scoped buffer of the kernel's own, cleared at every point before it is read. -/
abbrev scM3 : Memref sig .tc .vmem S256x128 .f32 := Memref.whole cc3_scratch0

/-- The region's invariant with the accumulator as a memref owned at some contents, the other scoped buffers unopened. -/
theorem PhiA3_eq (c : Dev nD) :
    (Pipeline.ΦA spec3 c : sProp 𝕄)
      = iprop(iprop((∃ d, owns (c : Thread nD τ) (scM3) fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Fr

end
-- ==== Proof.K.R3RunD.lean ====
/- Region 3, the body run whole (its one case: the accumulator cleared, one product added, the result stored). -/
import proofs.«118190_j89781996355909_2_alg».proof.Proof.K.R3Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the result's buffer and in the accumulator, as pieces, with the run that finds them. -/
noncomputable def kernelRun3_D (c : Dev nD) (i : grid3.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond3_0 i) (hc1 : cond3_1 i)
    (x0 : Vec F S256x2048 .f32) (x1 : Vec F S2048x128 .f32) (x2 : Vec F S256x128 .f32) (x3 : Vec F S128x128 .f32) (x4 : Vec F S128x128 .f32) :
    Σ' (L5 : List (View.Piece (Elt F) S256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3__agg_matmul_kernel i arg2 harg2 arg3 harg3 arg4 harg4 arg5 harg5 arg6 harg6 arg7 harg7 arg8 harg8) K } := by
  refine ⟨?_, ?_, fun E K => ?run⟩
  case run =>
    simp only [cc3__agg_matmul_kernel_eq_skeleton]; unfold cc3__agg_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.R3Frame.lean ====
/- Region 3: what the result's buffer holds after each point, the region's proof data, and the body's obligation. -/
import proofs.«118190_j89781996355909_2_alg».proof.Proof.K.R3RunD

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover3_D (c : Dev nD) (i : grid3.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond3_0 i) (hc1 : cond3_1 i)
    (x0 : Vec F S256x2048 .f32) (x1 : Vec F S2048x128 .f32) (x2 : Vec F S256x128 .f32) (x3 : Vec F S128x128 .f32) (x4 : Vec F S128x128 .f32) (y : S256x128.Idx) :
    ∃ pc ∈ (kernelRun3_D c i arg2 harg2 arg3 harg3 arg4 harg4 arg5 harg5 arg6 harg6 arg7 harg7 arg8 harg8 hc0 hc1 x0 x1 x2 x3 x4).1, y ∈ pc.1.set :=
  View.cover_of_tiledL (kernelRun3_D c i arg2 harg2 arg3 harg3 arg4 harg4 arg5 harg5 arg6 harg6 arg7 harg7 arg8 harg8 hc0 hc1 x0 x1 x2 x3 x4).1 S256x128.size (by sl_kernel_rfl) y
/-- What the body leaves in the result's buffer. -/
def out3_D (c : Dev nD) (i : grid3.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond3_0 i) (hc1 : cond3_1 i)
    (x0 : Vec F S256x2048 .f32) (x1 : Vec F S2048x128 .f32) (x2 : Vec F S256x128 .f32) (x3 : Vec F S128x128 .f32) (x4 : Vec F S128x128 .f32) : Vec F S256x128 .f32 :=
  VO3_5.read (Elt F) (VO3_5.writes (Elt F) VO3_5.junk (kernelRun3_D c i arg2 harg2 arg3 harg3 arg4 harg4 arg5 harg5 arg6 harg6 arg7 harg7 arg8 harg8 hc0 hc1 x0 x1 x2 x3 x4).1)

/-- What the result's buffer holds after the body at point `t`. -/
def outAt3 (c : Dev nD) (t : Fin cfg3.N) : Vec F S256x128 .f32 :=
  out3_D c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t) (iblk3 V c 4 t)

/-- The region's proof data on core `c`: the arrays as the region finds them; after the body each input's buffer at its
    block and the result's at `outAt3`; the invariant the same before every point; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
/-- The body at any point: the invariant hands the run the accumulator at anything and takes it back at anything. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  unfold outAt3 out3_D; (try dsimp only)
  iintro ⟨⟨⟨HS0, Hrest⟩, Hg⟩, Ho, ⟨%d0, H0⟩, ⟨%d1, H1⟩, ⟨%d2, H2⟩, ⟨%d3, H3⟩, ⟨%d4, H4⟩, ⟨%d5, H5⟩⟩
  iapply ((kernelRun3_D c (grid3.coords t) _ _ _ _ _ _ _ _ _ _ _ _ _ _ (hcond3_0 t) (hcond3_1 t) (iblk3 V c 0 t) (iblk3 V c 1 t) (iblk3 V c 2 t) (iblk3 V c 3 t) (iblk3 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%es0, HS0⟩⟩
  isplitl [HS0 Hrest Hg]
  · isplitl [HS0 Hrest]
    · isplitl [HS0]
      · iexists _; unfold owns; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover3_D c _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

theorem Phi_last3 (c : Dev nD) : (dat3 V c).Φ (Fin.last cfg3.N) ⊢ Pipeline.ΦA spec3 c := .rfl
theorem Phi_first3 (c : Dev nD) : (dat3 V c).Φ 0 = Pipeline.ΦA spec3 c := rfl

end Cert.Kernel.Fr

end
-- ==== Proof.K.Run.lean ====
/- The whole program's run: what each region leaves, every region's proof data at its entry contents, the regions as
   segments of the program between the host stretches, and the run from the launch to the return with every unscoped
   buffer's final contents named. -/
import proofs.«118190_j89781996355909_2_alg».proof.Proof.Gen.Kernel.Regions
import proofs.«118190_j89781996355909_2_alg».proof.Proof.K.R0Frame
import proofs.«118190_j89781996355909_2_alg».proof.Proof.K.R1Frame
import proofs.«118190_j89781996355909_2_alg».proof.Proof.K.R2Frame
import proofs.«118190_j89781996355909_2_alg».proof.Proof.K.R3Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Contents for the four buffers the regions write, and the launch contents elsewhere. -/
def outsOf (o2 : (c : Dev nD) → Buf (Elt F) ((c : Thread nD τ).loc main_v30)) (o4 : (c : Dev nD) → Buf (Elt F) ((c : Thread nD τ).loc main_v47))
    (o6 : (c : Dev nD) → Buf (Elt F) ((c : Thread nD τ).loc main_v78)) (o8 : (c : Dev nD) → Buf (Elt F) ((c : Thread nD τ).loc main_v95)) : Outs (F := F) :=
  fun _ r c => if h : r = main_v30 then h ▸ o2 c else if h : r = main_v47 then h ▸ o4 c else if h : r = main_v78 then h ▸ o6 c
    else if h : r = main_v95 then h ▸ o8 c else m ((c : Thread nD τ).loc r)

theorem outsOf_30 (o2 o4 o6 o8) (J : ℕ) (c : Dev nD) : outsOf m o2 o4 o6 o8 J main_v30 c = o2 c := by
  unfold outsOf; rw [dif_pos rfl]
theorem outsOf_47 (o2 o4 o6 o8) (J : ℕ) (c : Dev nD) : outsOf m o2 o4 o6 o8 J main_v47 c = o4 c := by
  unfold outsOf; rw [dif_neg (by decide), dif_pos rfl]
theorem outsOf_78 (o2 o4 o6 o8) (J : ℕ) (c : Dev nD) : outsOf m o2 o4 o6 o8 J main_v78 c = o6 c := by
  unfold outsOf; rw [dif_neg (by decide), dif_neg (by decide), dif_pos rfl]
theorem outsOf_95 (o2 o4 o6 o8) (J : ℕ) (c : Dev nD) : outsOf m o2 o4 o6 o8 J main_v95 c = o8 c := by
  unfold outsOf; rw [dif_neg (by decide), dif_neg (by decide), dif_neg (by decide), dif_pos rfl]

/-- A valuation read at the TensorCore's references. -/
abbrev atRefs (W : Dev nD → Valuation τ sig (Elt F)) : (c : Dev nD) → (b : Ref sig .tc) → Buf (Elt F) ((c : Thread nD τ).loc b) := fun c b => W c b

abbrev R1 := atRefs (V1 m)
/-- What region 0 leaves in its result's array. -/
def o2 (c : Dev nD) : Buf (Elt F) ((c : Thread nD τ).loc main_v30) := (dat0 (R1 m) c).arrAt 5 cfg0.N
def outsA : Outs (F := F) := outsOf m (o2 m) (fun c => m _) (fun c => m _) (fun c => m _)
abbrev R3 (o : Outs (F := F)) := atRefs (V3 m o)
def o4 (c : Dev nD) : Buf (Elt F) ((c : Thread nD τ).loc main_v47) := (dat1 (R3 m (outsA m)) c).arrAt 5 cfg1.N
def outsB : Outs (F := F) := outsOf m (o2 m) (o4 m) (fun c => m _) (fun c => m _)
abbrev R5 (o : Outs (F := F)) := atRefs (V5 m o)
def o6 (c : Dev nD) : Buf (Elt F) ((c : Thread nD τ).loc main_v78) := (dat2 (R5 m (outsB m)) c).arrAt 5 cfg2.N
def outsC : Outs (F := F) := outsOf m (o2 m) (o4 m) (o6 m) (fun c => m _)
abbrev R7 (o : Outs (F := F)) := atRefs (V7 m o)
def o8 (c : Dev nD) : Buf (Elt F) ((c : Thread nD τ).loc main_v95) := (dat3 (R7 m (outsC m)) c).arrAt 5 cfg3.N
/-- What the four regions leave. -/
def outs : Outs (F := F) := outsOf m (o2 m) (o4 m) (o6 m) (o8 m)

theorem outs_2 (c : Dev nD) : outs m 2 main_v30 c = o2 m c := outsOf_30 m _ _ _ _ _ c
theorem outs_4 (c : Dev nD) : outs m 4 main_v47 c = o4 m c := outsOf_47 m _ _ _ _ _ c
theorem outs_6 (c : Dev nD) : outs m 6 main_v78 c = o6 m c := outsOf_78 m _ _ _ _ _ c
theorem outs_8 (c : Dev nD) : outs m 8 main_v95 c = o8 m c := outsOf_95 m _ _ _ _ _ c

/-- The contents before a region depend only on what the regions before it left. -/
theorem V3_congr (o o' : Outs (F := F)) (c : Dev nD) (h2 : o 2 main_v30 c = o' 2 main_v30 c) : V3 m o c = V3 m o' c := by
  simp only [V3, V2, h2]
theorem V5_congr (o o' : Outs (F := F)) (c : Dev nD) (h2 : o 2 main_v30 c = o' 2 main_v30 c) (h4 : o 4 main_v47 c = o' 4 main_v47 c) :
    V5 m o c = V5 m o' c := by
  simp only [V5, V4, V3, V2, h2, h4]
theorem V7_congr (o o' : Outs (F := F)) (c : Dev nD) (h2 : o 2 main_v30 c = o' 2 main_v30 c) (h4 : o 4 main_v47 c = o' 4 main_v47 c)
    (h6 : o 6 main_v78 c = o' 6 main_v78 c) : V7 m o c = V7 m o' c := by
  simp only [V7, V6, V5, V4, V3, V2, h2, h4, h6]
theorem V3_outsA (c : Dev nD) : V3 m (outs m) c = V3 m (outsA m) c :=
  V3_congr m _ _ c ((outsOf_30 m _ _ _ _ _ c).trans (outsOf_30 m _ _ _ _ _ c).symm)
theorem V5_outsB (c : Dev nD) : V5 m (outs m) c = V5 m (outsB m) c :=
  V5_congr m _ _ c ((outsOf_30 m _ _ _ _ _ c).trans (outsOf_30 m _ _ _ _ _ c).symm) ((outsOf_47 m _ _ _ _ _ c).trans (outsOf_47 m _ _ _ _ _ c).symm)
theorem V7_outsC (c : Dev nD) : V7 m (outs m) c = V7 m (outsC m) c :=
  V7_congr m _ _ c ((outsOf_30 m _ _ _ _ _ c).trans (outsOf_30 m _ _ _ _ _ c).symm) ((outsOf_47 m _ _ _ _ _ c).trans (outsOf_47 m _ _ _ _ _ c).symm)
    ((outsOf_78 m _ _ _ _ _ c).trans (outsOf_78 m _ _ _ _ _ c).symm)

/-! ## The proof data family and the thread state -/

/-- Every region's proof data, each at its region's entry contents. -/
def pdats : (p : Fin 4) → (c : Dev nD) → Dat τ (Elt F) Unit ℕ (UR sig nD τ) ℕ (cfgs p) c
  | ⟨0, _⟩ => fun c => dat0 (R1 m) c
  | ⟨1, _⟩ => fun c => dat1 (R3 m (outsA m)) c
  | ⟨2, _⟩ => fun c => dat2 (R5 m (outsB m)) c
  | ⟨3, _⟩ => fun c => dat3 (R7 m (outsC m)) c

/-- No core owes another anything: no level is assigned. -/
abbrev LL : GSem nD τ sig → Finset Unit := fun _ => ∅
abbrev lvv : GSem nD τ sig → Unit → ℕ := fun _ _ => 0
/-- What rides beside the buffers through every segment: the generator register at some state, and nothing owed. -/
abbrev RR (c : Dev nD) : sProp 𝕄 := iprop((∃ r, prngReg c r) ∗ ∃ W, owes (c : Thread nD τ) (0 : CellTallies nD τ sig Unit) W)

theorem hF0_0 (c : Dev nD) : (pdats m 0 c).arrAt 0 cfg0.N = V2 m (outs m) c main_arg16 :=
  (((pdats m 0 c).arrAt_in 0 rfl _).trans (A_eq0 (R1 m) c 0)).trans (V2_of m (outs m) c main_arg16 (by decide)).symm
theorem hF0_1 (c : Dev nD) : (pdats m 0 c).arrAt 1 cfg0.N = V2 m (outs m) c main_v13 :=
  (((pdats m 0 c).arrAt_in 1 rfl _).trans (A_eq0 (R1 m) c 1)).trans (V2_of m (outs m) c main_v13 (by decide)).symm
theorem hF0_2 (c : Dev nD) : (pdats m 0 c).arrAt 2 cfg0.N = V2 m (outs m) c main_v27 :=
  (((pdats m 0 c).arrAt_in 2 rfl _).trans (A_eq0 (R1 m) c 2)).trans (V2_of m (outs m) c main_v27 (by decide)).symm
theorem hF0_3 (c : Dev nD) : (pdats m 0 c).arrAt 3 cfg0.N = V2 m (outs m) c main_v28 :=
  (((pdats m 0 c).arrAt_in 3 rfl _).trans (A_eq0 (R1 m) c 3)).trans (V2_of m (outs m) c main_v28 (by decide)).symm
theorem hF0_4 (c : Dev nD) : (pdats m 0 c).arrAt 4 cfg0.N = V2 m (outs m) c main_v29 :=
  (((pdats m 0 c).arrAt_in 4 rfl _).trans (A_eq0 (R1 m) c 4)).trans (V2_of m (outs m) c main_v29 (by decide)).symm
theorem hF0_5 (c : Dev nD) : (pdats m 0 c).arrAt 5 cfg0.N = V2 m (outs m) c main_v30 :=
  (outs_2 m c).symm.trans (by simp only [V2, Function.update_self])
/-- At region 0's exit each of its arrays holds what the pipeline leaves: an input its entry contents, the result the write-backs folded. -/
theorem hF0 (c : Dev nD) : ∀ w : Fin cfg0.W, (pdats m 0 c).arrAt w cfg0.N = V2 m (outs m) c (Pipeline.arrRef spec0 w) :=
  fun | ⟨0, _⟩ => hF0_0 m c | ⟨1, _⟩ => hF0_1 m c | ⟨2, _⟩ => hF0_2 m c | ⟨3, _⟩ => hF0_3 m c | ⟨4, _⟩ => hF0_4 m c | ⟨5, _⟩ => hF0_5 m c | ⟨_ + 6, h⟩ => absurd h (Nat.not_lt.2 (Nat.le_add_left _ _))
/-- Every other unscoped buffer is as it was at the region's entry. -/
theorem hrest0 (c : Dev nD) : ∀ b, b ∉ Finset.univ.image (Pipeline.arrRef spec0) → V2 m (outs m) c b = R1 m c b :=
  fun b hb => (V2_of m (outs m) c b (fun h => hb (Finset.mem_image.mpr ⟨5, Finset.mem_univ _, (List.mem_singleton.mp h).symm⟩))).trans rfl

theorem hF1_0 (c : Dev nD) : (pdats m 1 c).arrAt 0 cfg1.N = V4 m (outs m) c main_arg19 :=
  (((pdats m 1 c).arrAt_in 0 rfl _).trans (A_eq1 (R3 m (outsA m)) c 0)).trans ((congrFun (V3_outsA m c) _).symm.trans (V4_of m (outs m) c main_arg19 (by decide)).symm)
theorem hF1_1 (c : Dev nD) : (pdats m 1 c).arrAt 1 cfg1.N = V4 m (outs m) c main_v37 :=
  (((pdats m 1 c).arrAt_in 1 rfl _).trans (A_eq1 (R3 m (outsA m)) c 1)).trans ((congrFun (V3_outsA m c) _).symm.trans (V4_of m (outs m) c main_v37 (by decide)).symm)
theorem hF1_2 (c : Dev nD) : (pdats m 1 c).arrAt 2 cfg1.N = V4 m (outs m) c main_v44 :=
  (((pdats m 1 c).arrAt_in 2 rfl _).trans (A_eq1 (R3 m (outsA m)) c 2)).trans ((congrFun (V3_outsA m c) _).symm.trans (V4_of m (outs m) c main_v44 (by decide)).symm)
theorem hF1_3 (c : Dev nD) : (pdats m 1 c).arrAt 3 cfg1.N = V4 m (outs m) c main_v45 :=
  (((pdats m 1 c).arrAt_in 3 rfl _).trans (A_eq1 (R3 m (outsA m)) c 3)).trans ((congrFun (V3_outsA m c) _).symm.trans (V4_of m (outs m) c main_v45 (by decide)).symm)
theorem hF1_4 (c : Dev nD) : (pdats m 1 c).arrAt 4 cfg1.N = V4 m (outs m) c main_v46 :=
  (((pdats m 1 c).arrAt_in 4 rfl _).trans (A_eq1 (R3 m (outsA m)) c 4)).trans ((congrFun (V3_outsA m c) _).symm.trans (V4_of m (outs m) c main_v46 (by decide)).symm)
theorem hF1_5 (c : Dev nD) : (pdats m 1 c).arrAt 5 cfg1.N = V4 m (outs m) c main_v47 :=
  (outs_4 m c).symm.trans (by simp only [V4, Function.update_self])
/-- At region 1's exit each of its arrays holds what the pipeline leaves: an input its entry contents, the result the write-backs folded. -/
theorem hF1 (c : Dev nD) : ∀ w : Fin cfg1.W, (pdats m 1 c).arrAt w cfg1.N = V4 m (outs m) c (Pipeline.arrRef spec1 w) :=
  fun | ⟨0, _⟩ => hF1_0 m c | ⟨1, _⟩ => hF1_1 m c | ⟨2, _⟩ => hF1_2 m c | ⟨3, _⟩ => hF1_3 m c | ⟨4, _⟩ => hF1_4 m c | ⟨5, _⟩ => hF1_5 m c | ⟨_ + 6, h⟩ => absurd h (Nat.not_lt.2 (Nat.le_add_left _ _))
/-- Every other unscoped buffer is as it was at the region's entry. -/
theorem hrest1 (c : Dev nD) : ∀ b, b ∉ Finset.univ.image (Pipeline.arrRef spec1) → V4 m (outs m) c b = R3 m (outsA m) c b :=
  fun b hb => (V4_of m (outs m) c b (fun h => hb (Finset.mem_image.mpr ⟨5, Finset.mem_univ _, (List.mem_singleton.mp h).symm⟩))).trans (congrFun (V3_outsA m c) _)

theorem hF2_0 (c : Dev nD) : (pdats m 2 c).arrAt 0 cfg2.N = V6 m (outs m) c main_arg23 :=
  (((pdats m 2 c).arrAt_in 0 rfl _).trans (A_eq2 (R5 m (outsB m)) c 0)).trans ((congrFun (V5_outsB m c) _).symm.trans (V6_of m (outs m) c main_arg23 (by decide)).symm)
theorem hF2_1 (c : Dev nD) : (pdats m 2 c).arrAt 1 cfg2.N = V6 m (outs m) c main_v61 :=
  (((pdats m 2 c).arrAt_in 1 rfl _).trans (A_eq2 (R5 m (outsB m)) c 1)).trans ((congrFun (V5_outsB m c) _).symm.trans (V6_of m (outs m) c main_v61 (by decide)).symm)
theorem hF2_2 (c : Dev nD) : (pdats m 2 c).arrAt 2 cfg2.N = V6 m (outs m) c main_v75 :=
  (((pdats m 2 c).arrAt_in 2 rfl _).trans (A_eq2 (R5 m (outsB m)) c 2)).trans ((congrFun (V5_outsB m c) _).symm.trans (V6_of m (outs m) c main_v75 (by decide)).symm)
theorem hF2_3 (c : Dev nD) : (pdats m 2 c).arrAt 3 cfg2.N = V6 m (outs m) c main_v76 :=
  (((pdats m 2 c).arrAt_in 3 rfl _).trans (A_eq2 (R5 m (outsB m)) c 3)).trans ((congrFun (V5_outsB m c) _).symm.trans (V6_of m (outs m) c main_v76 (by decide)).symm)
theorem hF2_4 (c : Dev nD) : (pdats m 2 c).arrAt 4 cfg2.N = V6 m (outs m) c main_v77 :=
  (((pdats m 2 c).arrAt_in 4 rfl _).trans (A_eq2 (R5 m (outsB m)) c 4)).trans ((congrFun (V5_outsB m c) _).symm.trans (V6_of m (outs m) c main_v77 (by decide)).symm)
theorem hF2_5 (c : Dev nD) : (pdats m 2 c).arrAt 5 cfg2.N = V6 m (outs m) c main_v78 :=
  (outs_6 m c).symm.trans (by simp only [V6, Function.update_self])
/-- At region 2's exit each of its arrays holds what the pipeline leaves: an input its entry contents, the result the write-backs folded. -/
theorem hF2 (c : Dev nD) : ∀ w : Fin cfg2.W, (pdats m 2 c).arrAt w cfg2.N = V6 m (outs m) c (Pipeline.arrRef spec2 w) :=
  fun | ⟨0, _⟩ => hF2_0 m c | ⟨1, _⟩ => hF2_1 m c | ⟨2, _⟩ => hF2_2 m c | ⟨3, _⟩ => hF2_3 m c | ⟨4, _⟩ => hF2_4 m c | ⟨5, _⟩ => hF2_5 m c | ⟨_ + 6, h⟩ => absurd h (Nat.not_lt.2 (Nat.le_add_left _ _))
/-- Every other unscoped buffer is as it was at the region's entry. -/
theorem hrest2 (c : Dev nD) : ∀ b, b ∉ Finset.univ.image (Pipeline.arrRef spec2) → V6 m (outs m) c b = R5 m (outsB m) c b :=
  fun b hb => (V6_of m (outs m) c b (fun h => hb (Finset.mem_image.mpr ⟨5, Finset.mem_univ _, (List.mem_singleton.mp h).symm⟩))).trans (congrFun (V5_outsB m c) _)

theorem hF3_0 (c : Dev nD) : (pdats m 3 c).arrAt 0 cfg3.N = V8 m (outs m) c main_arg26 :=
  (((pdats m 3 c).arrAt_in 0 rfl _).trans (A_eq3 (R7 m (outsC m)) c 0)).trans ((congrFun (V7_outsC m c) _).symm.trans (V8_of m (outs m) c main_arg26 (by decide)).symm)
theorem hF3_1 (c : Dev nD) : (pdats m 3 c).arrAt 1 cfg3.N = V8 m (outs m) c main_v85 :=
  (((pdats m 3 c).arrAt_in 1 rfl _).trans (A_eq3 (R7 m (outsC m)) c 1)).trans ((congrFun (V7_outsC m c) _).symm.trans (V8_of m (outs m) c main_v85 (by decide)).symm)
theorem hF3_2 (c : Dev nD) : (pdats m 3 c).arrAt 2 cfg3.N = V8 m (outs m) c main_v92 :=
  (((pdats m 3 c).arrAt_in 2 rfl _).trans (A_eq3 (R7 m (outsC m)) c 2)).trans ((congrFun (V7_outsC m c) _).symm.trans (V8_of m (outs m) c main_v92 (by decide)).symm)
theorem hF3_3 (c : Dev nD) : (pdats m 3 c).arrAt 3 cfg3.N = V8 m (outs m) c main_v93 :=
  (((pdats m 3 c).arrAt_in 3 rfl _).trans (A_eq3 (R7 m (outsC m)) c 3)).trans ((congrFun (V7_outsC m c) _).symm.trans (V8_of m (outs m) c main_v93 (by decide)).symm)
theorem hF3_4 (c : Dev nD) : (pdats m 3 c).arrAt 4 cfg3.N = V8 m (outs m) c main_v94 :=
  (((pdats m 3 c).arrAt_in 4 rfl _).trans (A_eq3 (R7 m (outsC m)) c 4)).trans ((congrFun (V7_outsC m c) _).symm.trans (V8_of m (outs m) c main_v94 (by decide)).symm)
theorem hF3_5 (c : Dev nD) : (pdats m 3 c).arrAt 5 cfg3.N = V8 m (outs m) c main_v95 :=
  (outs_8 m c).symm.trans (by simp only [V8, Function.update_self])
/-- At region 3's exit each of its arrays holds what the pipeline leaves: an input its entry contents, the result the write-backs folded. -/
theorem hF3 (c : Dev nD) : ∀ w : Fin cfg3.W, (pdats m 3 c).arrAt w cfg3.N = V8 m (outs m) c (Pipeline.arrRef spec3 w) :=
  fun | ⟨0, _⟩ => hF3_0 m c | ⟨1, _⟩ => hF3_1 m c | ⟨2, _⟩ => hF3_2 m c | ⟨3, _⟩ => hF3_3 m c | ⟨4, _⟩ => hF3_4 m c | ⟨5, _⟩ => hF3_5 m c | ⟨_ + 6, h⟩ => absurd h (Nat.not_lt.2 (Nat.le_add_left _ _))
/-- Every other unscoped buffer is as it was at the region's entry. -/
theorem hrest3 (c : Dev nD) : ∀ b, b ∉ Finset.univ.image (Pipeline.arrRef spec3) → V8 m (outs m) c b = R7 m (outsC m) c b :=
  fun b hb => (V8_of m (outs m) c b (fun h => hb (Finset.mem_image.mpr ⟨5, Finset.mem_univ _, (List.mem_singleton.mp h).symm⟩))).trans (congrFun (V7_outsC m c) _)

/-! ## The regions as segments -/

set_option backward.isDefEq.respectTransparency.types false in
/-- Region 0 over the thread state: entered from every unscoped buffer at the contents before it, left at those contents
    with its result's array at what the pipeline leaves. Its arrays are split out of the unscoped buffers at entry and
    put back at exit; the generator register goes into the region's invariant and comes out; nothing is owed. -/
def reg0 : Pipeline.RegionSeg (pcfgs (F := F)) adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ LL lvv 0 fun _ _ => rfl
  pre c := iprop(StableHlo.held (c : Thread nD τ) (Pipeline.ucRefs τ sig) (V1 m c) ∗ RR c)
  post c := iprop(StableHlo.held (c : Thread nD τ) (Pipeline.ucRefs τ sig) (V2 m (outs m) c) ∗ RR c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi_first0 (R1 m) c]; unfold Pipeline.ΦA
    iintro ⟨Hp, -, Hr⟩
    isplitl [Hr]; · iexact Hr
    iexact Hp
  hout c := by
    rw [Pipeline.ownSems0_none]
    refine (Phi_last0 (R1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those contents
    with its result's array at what the pipeline leaves. Its arrays are split out of the unscoped buffers at entry and
    put back at exit; the generator register goes into the region's invariant and comes out; nothing is owed. -/
def reg1 : Pipeline.RegionSeg (pcfgs (F := F)) adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (R3 m (outsA m)) c).loose
  hwaits := Pipeline.hwaits_of_owed_zero _ _ _ _ LL lvv 1 fun _ _ => rfl
  pre c := iprop(StableHlo.held (c : Thread nD τ) (Pipeline.ucRefs τ sig) (V3 m (outsA m) c) ∗ RR c)
  post c := iprop(StableHlo.held (c : Thread nD τ) (Pipeline.ucRefs τ sig) (V4 m (outs m) c) ∗ RR c)
  X c := iprop(∃ r, prngReg c r)
  Y c := iprop(∃ r, prngReg c r)
  Z c := Pipeline.unscopedRest (Ix := Unit) (Name := ℕ) (U := UR sig nD τ) (Lvl := ℕ) spec1 c (R3 m (outsA m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m (outsA m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_first1 (R3 m (outsA m)) c]; unfold Pipeline.ΦA
    iintro ⟨Hp, -, Hr⟩
    isplitl [Hr]; · iexact Hr
    iexact Hp
  hout c := by
    rw [Pipeline.ownSems0_none]
    refine (Phi_last1 (R3 m (outsA m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m (outsA m) c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those contents
    with its result's array at what the pipeline leaves. Its arrays are split out of the unscoped buffers at entry and
    put back at exit; the generator register goes into the region's invariant and comes out; nothing is owed. -/
def reg2 : Pipeline.RegionSeg (pcfgs (F := F)) adm (pdats m) () defs₀ Variants.none LL lvv 2 where
  win := launch2.win.to₀
  block_pos := launch2.block_pos
  stage_whole := launch2.stage_whole
  K := PEmpty
  osem k := k.elim
  ho := Pipeline.OwnSemFacts.none _
  hbody c := (body_obligation2 (R5 m (outsB m)) c).loose
  hwaits := Pipeline.hwaits_of_owed_zero _ _ _ _ LL lvv 2 fun _ _ => rfl
  pre c := iprop(StableHlo.held (c : Thread nD τ) (Pipeline.ucRefs τ sig) (V5 m (outsB m) c) ∗ RR c)
  post c := iprop(StableHlo.held (c : Thread nD τ) (Pipeline.ucRefs τ sig) (V6 m (outs m) c) ∗ RR c)
  X c := iprop(∃ r, prngReg c r)
  Y c := iprop(∃ r, prngReg c r)
  Z c := Pipeline.unscopedRest (Ix := Unit) (Name := ℕ) (U := UR sig nD τ) (Lvl := ℕ) spec2 c (R5 m (outsB m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m (outsB m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi_first2 (R5 m (outsB m)) c]; unfold Pipeline.ΦA
    iintro ⟨Hp, -, Hr⟩
    isplitl [Hr]; · iexact Hr
    iexact Hp
  hout c := by
    rw [Pipeline.ownSems0_none]
    refine (Phi_last2 (R5 m (outsB m)) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m (outsB m) c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at those contents
    with its result's array at what the pipeline leaves. Its arrays are split out of the unscoped buffers at entry and
    put back at exit; the generator register goes into the region's invariant and comes out; nothing is owed. -/
def reg3 : Pipeline.RegionSeg (pcfgs (F := F)) adm (pdats m) () defs₀ Variants.none LL lvv 3 where
  win := launch3.win.to₀
  block_pos := launch3.block_pos
  stage_whole := launch3.stage_whole
  K := PEmpty
  osem k := k.elim
  ho := Pipeline.OwnSemFacts.none _
  hbody c := (body_obligation3 (R7 m (outsC m)) c).loose
  hwaits := Pipeline.hwaits_of_owed_zero _ _ _ _ LL lvv 3 fun _ _ => rfl
  pre c := iprop(StableHlo.held (c : Thread nD τ) (Pipeline.ucRefs τ sig) (V7 m (outsC m) c) ∗ RR c)
  post c := iprop(StableHlo.held (c : Thread nD τ) (Pipeline.ucRefs τ sig) (V8 m (outs m) c) ∗ RR c)
  X c := iprop(∃ r, prngReg c r)
  Y c := iprop(∃ r, prngReg c r)
  Z c := Pipeline.unscopedRest (Ix := Unit) (Name := ℕ) (U := UR sig nD τ) (Lvl := ℕ) spec3 c (R7 m (outsC m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7 m (outsC m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi_first3 (R7 m (outsC m)) c]; unfold Pipeline.ΦA
    iintro ⟨Hp, -, Hr⟩
    isplitl [Hr]; · iexact Hr
    iexact Hp
  hout c := by
    rw [Pipeline.ownSems0_none]
    refine (Phi_last3 (R7 m (outsC m)) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7 m (outsC m) c) (fun b => V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and in
    every final state each unscoped buffer holds what the last host stretch leaves, the regions' results being what
    their pipelines leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ Variants.none LL lvv m ρ main
    (segs m (outs m) Variants.none LL lvv (fun _ => RR) () (pdats m) (reg0 m) (reg1 m) (reg2 m) (reg3 m))
    (fun c Q => by
      rewrite [main_chain c, Pipeline.Seg.run_eq_chain,
        show (segs m (outs m) Variants.none LL lvv (fun _ => RR) () (pdats m) (reg0 m) (reg1 m) (reg2 m) (reg3 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ RR c))
    (Tₙ := fun c => StableHlo.held (c : Thread nD τ) (Pipeline.ucRefs τ sig) (V17 m (outs m) c))
    (hch := fun c => ⟨.rfl, .rfl, .rfl, (show iprop(StableHlo.held (c : Thread nD τ) (Pipeline.ucRefs τ sig) (V3 m (outs m) c) ∗ RR c) ⊢ iprop(StableHlo.held (c : Thread nD τ) (Pipeline.ucRefs τ sig) (V3 m (outsA m) c) ∗ RR c) from by rw [V3_outsA m c]), .rfl,
      (show iprop(StableHlo.held (c : Thread nD τ) (Pipeline.ucRefs τ sig) (V5 m (outs m) c) ∗ RR c) ⊢ iprop(StableHlo.held (c : Thread nD τ) (Pipeline.ucRefs τ sig) (V5 m (outsB m) c) ∗ RR c) from by rw [V5_outsB m c]), .rfl,
      (show iprop(StableHlo.held (c : Thread nD τ) (Pipeline.ucRefs τ sig) (V7 m (outs m) c) ∗ RR c) ⊢ iprop(StableHlo.held (c : Thread nD τ) (Pipeline.ucRefs τ sig) (V7 m (outsC m) c) ∗ RR c) from by rw [V7_outsC m c]), .rfl, .rfl, .rfl, .rfl, .rfl, .rfl, .rfl, .rfl, .rfl,
      (show iprop(StableHlo.held (c : Thread nD τ) (Pipeline.ucRefs τ sig) (V17 m (outs m) c) ∗ RR c) ⊢ iprop(StableHlo.held (c : Thread nD τ) (Pipeline.ucRefs τ sig) (V17 m (outs m) c) ∗ ∃ W, owes (c : Thread nD τ) (0 : CellTallies nD τ sig Unit) W) from by
        iintro ⟨Hh, -, HO⟩
        isplitl [Hh] <;> iassumption)⟩)
    (hinit := by
      refine Pipeline.initEach LL lvv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨Hh, HSI⟩
      unfold StableHlo.held
      imodintro
      iapply (pointsTo_read_all (Pipeline.ucRefs τ sig) (fun b => (((c : Thread nD τ)).1, b)) (V17 m (outs m) c) s')
      isplitl [Hh] <;> iassumption)
    (hQ := fun s h c => h c)

end Cert.Kernel.Fr

end
-- ==== Proof.K.Frame.lean ====
/- The program's frame: it runs to the end, nothing faulting, and every argument array ends as launched. -/
import proofs.«118190_j89781996355909_2_alg».proof.Proof.K.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each argument's buffer is unscoped, so the run names its final contents, and no host stretch or region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨
    (h c _ (mem_uc main_arg0 (by decide))).trans (V17_main_arg0 m (outs m) c),
    (h c _ (mem_uc main_arg1 (by decide))).trans (V17_main_arg1 m (outs m) c),
    (h c _ (mem_uc main_arg2 (by decide))).trans (V17_main_arg2 m (outs m) c),
    (h c _ (mem_uc main_arg3 (by decide))).trans (V17_main_arg3 m (outs m) c),
    (h c _ (mem_uc main_arg4 (by decide))).trans (V17_main_arg4 m (outs m) c),
    (h c _ (mem_uc main_arg5 (by decide))).trans (V17_main_arg5 m (outs m) c),
    (h c _ (mem_uc main_arg6 (by decide))).trans (V17_main_arg6 m (outs m) c),
    (h c _ (mem_uc main_arg7 (by decide))).trans (V17_main_arg7 m (outs m) c),
    (h c _ (mem_uc main_arg8 (by decide))).trans (V17_main_arg8 m (outs m) c),
    (h c _ (mem_uc main_arg9 (by decide))).trans (V17_main_arg9 m (outs m) c),
    (h c _ (mem_uc main_arg10 (by decide))).trans (V17_main_arg10 m (outs m) c),
    (h c _ (mem_uc main_arg11 (by decide))).trans (V17_main_arg11 m (outs m) c),
    (h c _ (mem_uc main_arg12 (by decide))).trans (V17_main_arg12 m (outs m) c),
    (h c _ (mem_uc main_arg13 (by decide))).trans (V17_main_arg13 m (outs m) c),
    (h c _ (mem_uc main_arg14 (by decide))).trans (V17_main_arg14 m (outs m) c),
    (h c _ (mem_uc main_arg15 (by decide))).trans (V17_main_arg15 m (outs m) c),
    (h c _ (mem_uc main_arg16 (by decide))).trans (V17_main_arg16 m (outs m) c),
    (h c _ (mem_uc main_arg17 (by decide))).trans (V17_main_arg17 m (outs m) c),
    (h c _ (mem_uc main_arg18 (by decide))).trans (V17_main_arg18 m (outs m) c),
    (h c _ (mem_uc main_arg19 (by decide))).trans (V17_main_arg19 m (outs m) c),
    (h c _ (mem_uc main_arg20 (by decide))).trans (V17_main_arg20 m (outs m) c),
    (h c _ (mem_uc main_arg21 (by decide))).trans (V17_main_arg21 m (outs m) c),
    (h c _ (mem_uc main_arg22 (by decide))).trans (V17_main_arg22 m (outs m) c),
    (h c _ (mem_uc main_arg23 (by decide))).trans (V17_main_arg23 m (outs m) c),
    (h c _ (mem_uc main_arg24 (by decide))).trans (V17_main_arg24 m (outs m) c),
    (h c _ (mem_uc main_arg25 (by decide))).trans (V17_main_arg25 m (outs m) c),
    (h c _ (mem_uc main_arg26 (by decide))).trans (V17_main_arg26 m (outs m) c)⟩) (run_all m ρ)

end Cert.Kernel.Fr

end
-- ==== Proof.KIPieces.lean ====
/-
  What each control case of the two kernel bodies leaves in the accumulator and in the result's buffer, as
  the bodies' stored values of the blocks the case loads: every store and every load goes through the whole
  buffer, so a store leaves its value and a load after stores reads the last one's.
-/
import proofs.«118190_j89781996355909_2_alg».proof.Proof.KI.R0Frame
import proofs.«118190_j89781996355909_2_alg».proof.Proof.KI.R1Frame
import Idealize.ShloMosaic.Lib.Tactic
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.ShloMosaic.Tactic
open Idealize.SL Idealize.SL.Sem
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-- A load of the whole buffer after a list of stores whose last covers the whole buffer reads that store's value. -/
theorem readCov_cons_unit_zero {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

theorem hz : (![0, 0] : Fin 2 → Nat) = fun _ => 0 := funext fun a => by fin_cases a <;> rfl

/-- At a clearing point the accumulator is left at the block product added to the zero matrix. -/
theorem sout0_A_eq (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond0_0 i) (hc1 : ¬cond0_1 i) (x0 : Vec F S1024x4096 .f32) (x1 : Vec F S4096x256 .f32) (x2 : Vec F S1024x256 .f32) (x3 : Vec F S256x128 .f32) (x4 : Vec F S256x128 .f32) :
    sout0_A c i arg2 harg2 arg3 harg3 arg4 harg4 arg5 harg5 arg6 harg6 arg7 harg7 arg8 harg8 hc0 hc1 x0 x1 x2 x3 x4 = k0_pay2 x0 x1 (k0_pay1) := by
  unfold sout0_A
  rw [View.read_writes_eq_canon _ _ _ (scover0_A c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x256) hz, View.readCov_unit_zero (S := S1024x256) _ hz]
  simp only [View.readAt_eq_ld, harg2.read_unread, harg3.read_unread, View.ld_unit_zero (S := S1024x4096) hz, View.ld_unit_zero (S := S4096x256) hz]

/-- At an accumulating point the accumulator is left at the block product added to what it held. -/
theorem sout0_B_eq (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : ¬cond0_1 i) (x0 : Vec F S1024x4096 .f32) (x1 : Vec F S4096x256 .f32) (x2 : Vec F S1024x256 .f32) (x3 : Vec F S256x128 .f32) (x4 : Vec F S256x128 .f32) (xs0 : Vec F S1024x256 .f32) :
    sout0_B c i arg2 harg2 arg3 harg3 arg4 harg4 arg5 harg5 arg6 harg6 arg7 harg7 arg8 harg8 hc0 hc1 x0 x1 x2 x3 x4 xs0 = k0_pay2 x0 x1 xs0 := by
  unfold sout0_B
  rw [View.read_writes_eq_canon _ _ _ (scover0_B c i arg2 harg2 arg3 harg3 arg4 harg4 arg5 harg5 arg6 harg6 arg7 harg7 arg8 harg8 hc0 hc1 x0 x1 x2 x3 x4 xs0)]
  unfold kernelRun0_B
  dsimp only
  try sl_unfold_words
  rw [View.canon_unit_zero hz]
  simp only [View.readAt_eq_ld, harg2.read_unread, harg3.read_unread, harg8.read_unread, View.ld_unit_zero (S := S1024x4096) hz, View.ld_unit_zero (S := S4096x256) hz, View.ld_unit_zero (S := S1024x256) hz]

/-- At a storing point the accumulator is left the same way. -/
theorem sout0_C_eq (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i) (x0 : Vec F S1024x4096 .f32) (x1 : Vec F S4096x256 .f32) (x2 : Vec F S1024x256 .f32) (x3 : Vec F S256x128 .f32) (x4 : Vec F S256x128 .f32) (xs0 : Vec F S1024x256 .f32) :
    sout0_C c i arg2 harg2 arg3 harg3 arg4 harg4 arg5 harg5 arg6 harg6 arg7 harg7 arg8 harg8 hc0 hc1 x0 x1 x2 x3 x4 xs0 = k0_pay2 x0 x1 xs0 := by
  unfold sout0_C
  rw [View.read_writes_eq_canon _ _ _ (scover0_C c i arg2 harg2 arg3 harg3 arg4 harg4 arg5 harg5 arg6 harg6 arg7 harg7 arg8 harg8 hc0 hc1 x0 x1 x2 x3 x4 xs0)]
  unfold kernelRun0_C
  dsimp only
  try sl_unfold_words
  rw [View.canon_unit_zero hz]
  simp only [View.readAt_eq_ld, harg2.read_unread, harg3.read_unread, harg8.read_unread, View.ld_unit_zero (S := S1024x4096) hz, View.ld_unit_zero (S := S4096x256) hz, View.ld_unit_zero (S := S1024x256) hz, View.ld_unit_zero (S := S256x128) hz]

/-- At a storing point the result's buffer is left at the last payload of the accumulator as just updated and the
    target rows' block, against the two weight halves. -/
theorem out0_C_eq (c : Dev nD) (i : grid0.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond0_0 i) (hc1 : cond0_1 i) (x0 : Vec F S1024x4096 .f32) (x1 : Vec F S4096x256 .f32) (x2 : Vec F S1024x256 .f32) (x3 : Vec F S256x128 .f32) (x4 : Vec F S256x128 .f32) (xs0 : Vec F S1024x256 .f32) :
    out0_C c i arg2 harg2 arg3 harg3 arg4 harg4 arg5 harg5 arg6 harg6 arg7 harg7 arg8 harg8 hc0 hc1 x0 x1 x2 x3 x4 xs0 = k0_pay3 (k0_pay2 x0 x1 xs0) x2 x3 x4 := by
  unfold out0_C
  rw [View.read_writes_eq_canon _ _ _ (cover0_C c i arg2 harg2 arg3 harg3 arg4 harg4 arg5 harg5 arg6 harg6 arg7 harg7 arg8 harg8 hc0 hc1 x0 x1 x2 x3 x4 xs0)]
  unfold kernelRun0_C
  dsimp only
  try sl_unfold_words
  rw [View.canon_unit_zero hz, View.readCov_unit_zero (S := S1024x256) _ hz]
  simp only [View.readAt_eq_ld, harg2.read_unread, harg3.read_unread, harg4.read_unread, harg5.read_unread, harg6.read_unread, harg8.read_unread, View.ld_unit_zero (S := S1024x4096) hz, View.ld_unit_zero (S := S4096x256) hz, View.ld_unit_zero (S := S1024x256) hz, View.ld_unit_zero (S := S256x128) hz]

/-- In the second region every point clears, accumulates once and stores. -/
theorem out1_D_eq (c : Dev nD) (i : grid1.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond1_0 i) (hc1 : cond1_1 i) (x0 : Vec F S256x2048 .f32) (x1 : Vec F S2048x128 .f32) (x2 : Vec F S256x128 .f32) (x3 : Vec F S128x128 .f32) (x4 : Vec F S128x128 .f32) :
    out1_D c i arg2 harg2 arg3 harg3 arg4 harg4 arg5 harg5 arg6 harg6 arg7 harg7 arg8 harg8 hc0 hc1 x0 x1 x2 x3 x4 = k1_pay3 (k1_pay2 x0 x1 k1_pay1) x2 x3 x4 := by
  unfold out1_D
  rw [View.read_writes_eq_canon _ _ _ (cover1_D c i arg2 harg2 arg3 harg3 arg4 harg4 arg5 harg5 arg6 harg6 arg7 harg7 arg8 harg8 hc0 hc1 x0 x1 x2 x3 x4)]
  unfold kernelRun1_D
  dsimp only
  try sl_unfold_words
  rw [View.canon_unit_zero hz, readCov_cons_unit_zero _ hz, View.readCov_unit_zero (S := S256x128) _ hz]
  simp only [View.readAt_eq_ld, harg2.read_unread, harg3.read_unread, harg4.read_unread, harg5.read_unread, harg6.read_unread, View.ld_unit_zero (S := S256x2048) hz, View.ld_unit_zero (S := S2048x128) hz, View.ld_unit_zero (S := S256x128) hz, View.ld_unit_zero (S := S128x128) hz]

end Cert.KernelIdeal.Val

end
-- ==== Proof.KIBlocks.lean ====
/-
  Each window's block at a grid point, read at one entry, is the window's array read where the block sits:
  the block's row and column are the block index on that axis times the block's extent plus the coordinate
  inside the block.  The index maps, decided once over each grid: in the first region (2 by 4 points) the
  mixing matrix moves by row block with the first grid coordinate and by column block with the second, the
  source rows move with the second, the target rows and the result with the first, and the two weight
  halves stay; in the second region (2 points) every operand with 512 rows moves with the point and the rest stay.
-/
import proofs.«118190_j89781996355909_2_alg».proof.Proof.KI.R0Runs
import proofs.«118190_j89781996355909_2_alg».proof.Proof.KI.R1Runs
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-! ## The index maps in closed form -/

theorem idx0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0 :=
  (by decide +kernel : ∀ t : Fin grid0.N, _)

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The first region's blocks -/

/-- Window 0's block at a point, read at an entry: the array where the block sits. -/
theorem iblk0_0_apply (c : Dev nD) (t : Fin cfg0.N) (a : Fin 1024) (b : Fin 4096) (r : Fin 2048) (s : Fin 16384)
    (hr : r.val = (t.val / 4) * 1024 + a.val) (hs : s.val = (t.val % 4) * 4096 + b.val) :
    (iblk0 V c 0 t : Vec F S1024x4096 .f32) (ix2 a b) = (V c main_arg16 : S2048x16384.Idx → Elt F .f32) (ix2 r s) := by
  have e := idx0 t
  unfold iblk0
  rw [View.read_apply]
  show V c main_arg16 _ = V c main_arg16 _
  congr 1
  funext d
  apply Fin.ext
  match d with
  | ⟨0, _⟩ => show win0_0.index t 0 * 1024 + 1 * a.val = r.val; rw [hr]; omega
  | ⟨1, _⟩ => show win0_0.index t 1 * 4096 + 1 * b.val = s.val; rw [hs]; omega

/-- Window 1's block at a point, read at an entry: the array where the block sits. -/
theorem iblk0_1_apply (c : Dev nD) (t : Fin cfg0.N) (a : Fin 4096) (b : Fin 256) (r : Fin 16384) (s : Fin 256)
    (hr : r.val = (t.val % 4) * 4096 + a.val) (hs : s.val = b.val) :
    (iblk0 V c 1 t : Vec F S4096x256 .f32) (ix2 a b) = (V c main_v13 : S16384x256.Idx → Elt F .f32) (ix2 r s) := by
  have e := idx0 t
  unfold iblk0
  rw [View.read_apply]
  show V c main_v13 _ = V c main_v13 _
  congr 1
  funext d
  apply Fin.ext
  match d with
  | ⟨0, _⟩ => show win0_1.index t 0 * 4096 + 1 * a.val = r.val; rw [hr]; omega
  | ⟨1, _⟩ => show win0_1.index t 1 * 256 + 1 * b.val = s.val; rw [hs]; omega

/-- Window 2's block at a point, read at an entry: the array where the block sits. -/
theorem iblk0_2_apply (c : Dev nD) (t : Fin cfg0.N) (a : Fin 1024) (b : Fin 256) (r : Fin 2048) (s : Fin 256)
    (hr : r.val = (t.val / 4) * 1024 + a.val) (hs : s.val = b.val) :
    (iblk0 V c 2 t : Vec F S1024x256 .f32) (ix2 a b) = (V c main_v27 : S2048x256.Idx → Elt F .f32) (ix2 r s) := by
  have e := idx0 t
  unfold iblk0
  rw [View.read_apply]
  show V c main_v27 _ = V c main_v27 _
  congr 1
  funext d
  apply Fin.ext
  match d with
  | ⟨0, _⟩ => show win0_2.index t 0 * 1024 + 1 * a.val = r.val; rw [hr]; omega
  | ⟨1, _⟩ => show win0_2.index t 1 * 256 + 1 * b.val = s.val; rw [hs]; omega

/-- Window 3's block at a point, read at an entry: the array where the block sits. -/
theorem iblk0_3_apply (c : Dev nD) (t : Fin cfg0.N) (a : Fin 256) (b : Fin 128) (r : Fin 256) (s : Fin 128)
    (hr : r.val = a.val) (hs : s.val = b.val) :
    (iblk0 V c 3 t : Vec F S256x128 .f32) (ix2 a b) = (V c main_v28 : S256x128.Idx → Elt F .f32) (ix2 r s) := by
  have e := idx0 t
  unfold iblk0
  rw [View.read_apply]
  show V c main_v28 _ = V c main_v28 _
  congr 1
  funext d
  apply Fin.ext
  match d with
  | ⟨0, _⟩ => show win0_3.index t 0 * 256 + 1 * a.val = r.val; rw [hr]; omega
  | ⟨1, _⟩ => show win0_3.index t 1 * 128 + 1 * b.val = s.val; rw [hs]; omega

/-- Window 4's block at a point, read at an entry: the array where the block sits. -/
theorem iblk0_4_apply (c : Dev nD) (t : Fin cfg0.N) (a : Fin 256) (b : Fin 128) (r : Fin 256) (s : Fin 128)
    (hr : r.val = a.val) (hs : s.val = b.val) :
    (iblk0 V c 4 t : Vec F S256x128 .f32) (ix2 a b) = (V c main_v29 : S256x128.Idx → Elt F .f32) (ix2 r s) := by
  have e := idx0 t
  unfold iblk0
  rw [View.read_apply]
  show V c main_v29 _ = V c main_v29 _
  congr 1
  funext d
  apply Fin.ext
  match d with
  | ⟨0, _⟩ => show win0_4.index t 0 * 256 + 1 * a.val = r.val; rw [hr]; omega
  | ⟨1, _⟩ => show win0_4.index t 1 * 128 + 1 * b.val = s.val; rw [hs]; omega

/-! ## The second region's blocks -/

/-- Window 0's block at a point, read at an entry: the array where the block sits. -/
theorem iblk1_0_apply (c : Dev nD) (t : Fin cfg1.N) (a : Fin 256) (b : Fin 2048) (r : Fin 512) (s : Fin 2048)
    (hr : r.val = t.val * 256 + a.val) (hs : s.val = b.val) :
    (iblk1 V c 0 t : Vec F S256x2048 .f32) (ix2 a b) = (V c main_arg19 : S512x2048.Idx → Elt F .f32) (ix2 r s) := by
  have e := idx1 t
  unfold iblk1
  rw [View.read_apply]
  show V c main_arg19 _ = V c main_arg19 _
  congr 1
  funext d
  apply Fin.ext
  match d with
  | ⟨0, _⟩ => show win1_0.index t 0 * 256 + 1 * a.val = r.val; rw [hr]; omega
  | ⟨1, _⟩ => show win1_0.index t 1 * 2048 + 1 * b.val = s.val; rw [hs]; omega

/-- Window 1's block at a point, read at an entry: the array where the block sits. -/
theorem iblk1_1_apply (c : Dev nD) (t : Fin cfg1.N) (a : Fin 2048) (b : Fin 128) (r : Fin 2048) (s : Fin 128)
    (hr : r.val = a.val) (hs : s.val = b.val) :
    (iblk1 V c 1 t : Vec F S2048x128 .f32) (ix2 a b) = (V c main_v37 : S2048x128.Idx → Elt F .f32) (ix2 r s) := by
  have e := idx1 t
  unfold iblk1
  rw [View.read_apply]
  show V c main_v37 _ = V c main_v37 _
  congr 1
  funext d
  apply Fin.ext
  match d with
  | ⟨0, _⟩ => show win1_1.index t 0 * 2048 + 1 * a.val = r.val; rw [hr]; omega
  | ⟨1, _⟩ => show win1_1.index t 1 * 128 + 1 * b.val = s.val; rw [hs]; omega

/-- Window 2's block at a point, read at an entry: the array where the block sits. -/
theorem iblk1_2_apply (c : Dev nD) (t : Fin cfg1.N) (a : Fin 256) (b : Fin 128) (r : Fin 512) (s : Fin 128)
    (hr : r.val = t.val * 256 + a.val) (hs : s.val = b.val) :
    (iblk1 V c 2 t : Vec F S256x128 .f32) (ix2 a b) = (V c main_v44 : S512x128.Idx → Elt F .f32) (ix2 r s) := by
  have e := idx1 t
  unfold iblk1
  rw [View.read_apply]
  show V c main_v44 _ = V c main_v44 _
  congr 1
  funext d
  apply Fin.ext
  match d with
  | ⟨0, _⟩ => show win1_2.index t 0 * 256 + 1 * a.val = r.val; rw [hr]; omega
  | ⟨1, _⟩ => show win1_2.index t 1 * 128 + 1 * b.val = s.val; rw [hs]; omega

/-- Window 3's block at a point, read at an entry: the array where the block sits. -/
theorem iblk1_3_apply (c : Dev nD) (t : Fin cfg1.N) (a : Fin 128) (b : Fin 128) (r : Fin 128) (s : Fin 128)
    (hr : r.val = a.val) (hs : s.val = b.val) :
    (iblk1 V c 3 t : Vec F S128x128 .f32) (ix2 a b) = (V c main_v45 : S128x128.Idx → Elt F .f32) (ix2 r s) := by
  have e := idx1 t
  unfold iblk1
  rw [View.read_apply]
  show V c main_v45 _ = V c main_v45 _
  congr 1
  funext d
  apply Fin.ext
  match d with
  | ⟨0, _⟩ => show win1_3.index t 0 * 128 + 1 * a.val = r.val; rw [hr]; omega
  | ⟨1, _⟩ => show win1_3.index t 1 * 128 + 1 * b.val = s.val; rw [hs]; omega

/-- Window 4's block at a point, read at an entry: the array where the block sits. -/
theorem iblk1_4_apply (c : Dev nD) (t : Fin cfg1.N) (a : Fin 128) (b : Fin 128) (r : Fin 128) (s : Fin 128)
    (hr : r.val = a.val) (hs : s.val = b.val) :
    (iblk1 V c 4 t : Vec F S128x128 .f32) (ix2 a b) = (V c main_v46 : S128x128.Idx → Elt F .f32) (ix2 r s) := by
  have e := idx1 t
  unfold iblk1
  rw [View.read_apply]
  show V c main_v46 _ = V c main_v46 _
  congr 1
  funext d
  apply Fin.ext
  match d with
  | ⟨0, _⟩ => show win1_4.index t 0 * 128 + 1 * a.val = r.val; rw [hr]; omega
  | ⟨1, _⟩ => show win1_4.index t 1 * 128 + 1 * b.val = s.val; rw [hs]; omega

end Cert.KernelIdeal.Val

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«118190_j89781996355909_2_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.KIPayloads.lean ====
/-
  The values the four kernel bodies store, read at one entry, over the extended reals.

  Each body stores three values.  The first is the zero matrix.  The second is the running block
  product: the block already held plus the product of a row block of the left operand with a column
  block of the right operand, accumulated into the zero matrix.  The third is the sum of two such
  products (for two of the bodies followed by the maximum with zero).  Over the extended reals a
  narrowing of the float format is the identity, a reshape to the same shape is the identity, and
  the zero word is the number zero, so each of these values is, at row r and column c, a plain sum of
  products over the contraction index.

  The dimension numbers the bodies carry contract the left operand on its second axis and the right
  operand on its first, with no batch axis; they are the plain ones, and the product read at an
  entry is row r of the left operand against column c of the right.
-/
import proofs.«118190_j89781996355909_2_alg».proof.Proof.Gen.KernelIdeal.Skeleton
import proofs.«118190_j89781996355909_2_alg».proof.Proof.LibDense

noncomputable section

namespace Cert.KernelIdeal.Pay

open Idealize.ShloMosaic Idealize.ShloMosaic.ValueIdx Cert.KernelIdeal Cert.KernelIdeal.Gen

/-! ## The dimension numbers are the plain ones -/

theorem dot_1024_4096_256 : dot_S1024x4096_S4096x256_S1024x256_1_0_0_1_n_n = DotDims.plain 1024 4096 256 := rfl
theorem dot_1024_256_128 : dot_S1024x256_S256x128_S1024x128_1_0_0_1_n_n = DotDims.plain 1024 256 128 := rfl
theorem dot_256_2048_128 : dot_S256x2048_S2048x128_S256x128_1_0_0_1_n_n = DotDims.plain 256 2048 128 := rfl
theorem dot_256_128_128 : dot_S256x128_S128x128_S256x128_1_0_0_1_n_n = DotDims.plain 256 128 128 := rfl

/-- A product of matrices whose formats were narrowed, accumulated into the zero matrix, at (r, c): the sum over
    the contraction index of the products of the entries, the narrowing being the identity on extended reals. -/
theorem prod_entry {M K N : ℕ} (prec : Option ContractPrecision)
    (A : FVec Ideal ⟨2, ![M, K]⟩ .f32) (B : FVec Ideal ⟨2, ![K, N]⟩ .f32)
    (hb : FTy.bits .bf16 < FTy.bits .f32) (r : Fin M) (c : Fin N) :
    FloatOps.matmul (DotDims.plain M K N) prec (truncf .bf16 A hb) (truncf .bf16 B hb)
        (constant (F := Ideal) ⟨2, ![M, N]⟩ .f32 0x00000000#32) (ix2 r c)
      = ∑ q : Fin K, A (ix2 r q) * B (ix2 q c) :=
  Cert.Hand.Dense.matmul_entry prec (truncf .bf16 A hb) (truncf .bf16 B hb) r c

/-- The first stored value of body 0 is the zero matrix. -/
theorem pay0_1_apply (r : Fin 1024) (k : Fin 256) : k0_pay1 (F := Ideal) (ix2 r k) = 0 := by
  unfold k0_pay1
  refine (congrFun (shapeCast_self _ _) _).trans ?_
  exact Ideal.ofBits_zero_f32

/-- The second stored value of body 0: the block held plus row r of the left block against column k of the right. -/
theorem pay0_2_apply (v3 : Vec Ideal S1024x4096 .f32) (v5 : Vec Ideal S4096x256 .f32) (v8 : Vec Ideal S1024x256 .f32)
    (r : Fin 1024) (k : Fin 256) :
    k0_pay2 (F := Ideal) v3 v5 v8 (ix2 r k) = v8 (ix2 r k) + ∑ q : Fin 4096, v3 (ix2 r q) * v5 (ix2 q k) := by
  unfold k0_pay2
  refine (congrFun (shapeCast_self _ _) _).trans ?_
  refine congrArg (v8 (ix2 r k) + ·) ?_
  rw [shapeCast_self v5]
  exact prod_entry none v3 v5 _ r k

/-- The third stored value of body 0: the sum of two products, then the maximum with zero. -/
theorem pay0_3_apply (v17 v19 : Vec Ideal S1024x256 .f32) (v22 v25 : Vec Ideal S256x128 .f32)
    (r : Fin 1024) (j : Fin 128) :
    k0_pay3 (F := Ideal) v17 v19 v22 v25 (ix2 r j)
      = max ((∑ k : Fin 256, v17 (ix2 r k) * v22 (ix2 k j)) + ∑ k : Fin 256, v19 (ix2 r k) * v25 (ix2 k j)) 0 := by
  unfold k0_pay3
  rw [shapeCast_self v19, shapeCast_self v22, shapeCast_self v25]
  refine (maximumf_apply _ _ _).trans ?_
  refine congrArg₂ max ?_ Ideal.ofBits_zero_f32
  refine (addf_apply _ _ _).trans ?_
  exact congrArg₂ (· + ·) (prod_entry none v17 v22 _ r j) (prod_entry none v19 v25 _ r j)

/-- The first stored value of body 1 is the zero matrix. -/
theorem pay1_1_apply (r : Fin 256) (k : Fin 128) : k1_pay1 (F := Ideal) (ix2 r k) = 0 := by
  unfold k1_pay1
  refine (congrFun (shapeCast_self _ _) _).trans ?_
  exact Ideal.ofBits_zero_f32

/-- The second stored value of body 1: the block held plus row r of the left block against column k of the right. -/
theorem pay1_2_apply (v3 : Vec Ideal S256x2048 .f32) (v5 : Vec Ideal S2048x128 .f32) (v8 : Vec Ideal S256x128 .f32)
    (r : Fin 256) (k : Fin 128) :
    k1_pay2 (F := Ideal) v3 v5 v8 (ix2 r k) = v8 (ix2 r k) + ∑ q : Fin 2048, v3 (ix2 r q) * v5 (ix2 q k) := by
  unfold k1_pay2
  refine (congrFun (shapeCast_self _ _) _).trans ?_
  refine congrArg (v8 (ix2 r k) + ·) ?_
  rw [shapeCast_self v5]
  exact prod_entry none v3 v5 _ r k

/-- The third stored value of body 1: the sum of two products. -/
theorem pay1_3_apply (v17 v19 : Vec Ideal S256x128 .f32) (v22 v25 : Vec Ideal S128x128 .f32)
    (r : Fin 256) (j : Fin 128) :
    k1_pay3 (F := Ideal) v17 v19 v22 v25 (ix2 r j)
      = (∑ k : Fin 128, v17 (ix2 r k) * v22 (ix2 k j)) + ∑ k : Fin 128, v19 (ix2 r k) * v25 (ix2 k j) := by
  unfold k1_pay3
  rw [shapeCast_self v19, shapeCast_self v22, shapeCast_self v25]
  refine (addf_apply _ _ _).trans ?_
  exact congrArg₂ (· + ·) (prod_entry none v17 v22 _ r j) (prod_entry none v19 v25 _ r j)

/-- The first stored value of body 2 is the zero matrix. -/
theorem pay2_1_apply (r : Fin 1024) (k : Fin 256) : k2_pay1 (F := Ideal) (ix2 r k) = 0 := by
  unfold k2_pay1
  refine (congrFun (shapeCast_self _ _) _).trans ?_
  exact Ideal.ofBits_zero_f32

/-- The second stored value of body 2: the block held plus row r of the left block against column k of the right. -/
theorem pay2_2_apply (v3 : Vec Ideal S1024x4096 .f32) (v5 : Vec Ideal S4096x256 .f32) (v8 : Vec Ideal S1024x256 .f32)
    (r : Fin 1024) (k : Fin 256) :
    k2_pay2 (F := Ideal) v3 v5 v8 (ix2 r k) = v8 (ix2 r k) + ∑ q : Fin 4096, v3 (ix2 r q) * v5 (ix2 q k) := by
  unfold k2_pay2
  refine (congrFun (shapeCast_self _ _) _).trans ?_
  refine congrArg (v8 (ix2 r k) + ·) ?_
  rw [shapeCast_self v5]
  exact prod_entry none v3 v5 _ r k

/-- The third stored value of body 2: the sum of two products, then the maximum with zero. -/
theorem pay2_3_apply (v17 v19 : Vec Ideal S1024x256 .f32) (v22 v25 : Vec Ideal S256x128 .f32)
    (r : Fin 1024) (j : Fin 128) :
    k2_pay3 (F := Ideal) v17 v19 v22 v25 (ix2 r j)
      = max ((∑ k : Fin 256, v17 (ix2 r k) * v22 (ix2 k j)) + ∑ k : Fin 256, v19 (ix2 r k) * v25 (ix2 k j)) 0 := by
  unfold k2_pay3
  rw [shapeCast_self v19, shapeCast_self v22, shapeCast_self v25]
  refine (maximumf_apply _ _ _).trans ?_
  refine congrArg₂ max ?_ Ideal.ofBits_zero_f32
  refine (addf_apply _ _ _).trans ?_
  exact congrArg₂ (· + ·) (prod_entry none v17 v22 _ r j) (prod_entry none v19 v25 _ r j)

/-- The first stored value of body 3 is the zero matrix. -/
theorem pay3_1_apply (r : Fin 256) (k : Fin 128) : k3_pay1 (F := Ideal) (ix2 r k) = 0 := by
  unfold k3_pay1
  refine (congrFun (shapeCast_self _ _) _).trans ?_
  exact Ideal.ofBits_zero_f32

/-- The second stored value of body 3: the block held plus row r of the left block against column k of the right. -/
theorem pay3_2_apply (v3 : Vec Ideal S256x2048 .f32) (v5 : Vec Ideal S2048x128 .f32) (v8 : Vec Ideal S256x128 .f32)
    (r : Fin 256) (k : Fin 128) :
    k3_pay2 (F := Ideal) v3 v5 v8 (ix2 r k) = v8 (ix2 r k) + ∑ q : Fin 2048, v3 (ix2 r q) * v5 (ix2 q k) := by
  unfold k3_pay2
  refine (congrFun (shapeCast_self _ _) _).trans ?_
  refine congrArg (v8 (ix2 r k) + ·) ?_
  rw [shapeCast_self v5]
  exact prod_entry none v3 v5 _ r k

/-- The third stored value of body 3: the sum of two products. -/
theorem pay3_3_apply (v17 v19 : Vec Ideal S256x128 .f32) (v22 v25 : Vec Ideal S128x128 .f32)
    (r : Fin 256) (j : Fin 128) :
    k3_pay3 (F := Ideal) v17 v19 v22 v25 (ix2 r j)
      = (∑ k : Fin 128, v17 (ix2 r k) * v22 (ix2 k j)) + ∑ k : Fin 128, v19 (ix2 r k) * v25 (ix2 k j) := by
  unfold k3_pay3
  rw [shapeCast_self v19, shapeCast_self v22, shapeCast_self v25]
  refine (addf_apply _ _ _).trans ?_
  exact congrArg₂ (· + ·) (prod_entry none v17 v22 _ r j) (prod_entry none v19 v25 _ r j)

end Cert.KernelIdeal.Pay

end
-- ==== Proof.LibSumIdx.lean ====
/-
  General lemmas on finite sums over index sets built from coordinates.

  * a rank-3 index set is the product of its three coordinate ranges, so a sum over it is the
    triple sum over the coordinates (the rank-3 companion of the rank-2 statement);
  * a sum over `Fin (m * n)` splits into `m` consecutive tiles of `n` terms each.
-/
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The `r`-th element of the `k`-th tile of width `n`. -/
def tile {m n : Nat} (k : Fin m) (r : Fin n) : Fin (m * n) :=
  ⟨k.val * n + r.val, by
    have hk := k.isLt; have hr := r.isLt
    calc k.val * n + r.val < k.val * n + n := by omega
      _ = (k.val + 1) * n := by ring
      _ ≤ m * n := Nat.mul_le_mul_right n hk⟩

/-- A sum over `Fin (m * n)` is the sum over the `m` tiles of the sums over each tile's `n` elements. -/
theorem sum_tiles {M : Type*} [AddCommMonoid M] {m n : Nat} (f : Fin (m * n) → M) :
    ∑ i, f i = ∑ k : Fin m, ∑ r : Fin n, f (tile k r) := by
  rw [← Equiv.sum_comp (finProdFinEquiv (m := m) (n := n)) f, Fintype.sum_prod_type]
  refine Finset.sum_congr rfl fun k _ => Finset.sum_congr rfl fun r _ => congrArg f (Fin.ext ?_)
  show r.val + n * k.val = k.val * n + r.val
  rw [Nat.mul_comm, Nat.add_comm]

end Cert.LibSumIdx

end
-- ==== Proof.KIAccMath.lean ====
/-
  A long sum of products taken tile by tile.

  The first region contracts 16384 terms in four tiles of 4096: the running value after tile s is the
  value after tile s - 1 plus the sum over tile s, starting from zero plus the sum over tile 0.  After the
  fourth tile it is the sum over all 16384 terms (a sum over 4 * 4096 indices is the sum over the four
  tiles of the sums over each tile; over the extended reals addition is associative and zero is neutral).
-/
import proofs.«118190_j89781996355909_2_alg».proof.Proof.LibSumIdx

noncomputable section

open scoped BigOperators

namespace Cert.KernelIdeal.Val

open Cert.LibSumIdx

/-- The column of the long axis that entry q of tile s is (the tile number taken modulo 4, so that it is always in range). -/
def colAt (s : ℕ) (q : Fin 4096) : Fin 16384 := ⟨(s % 4) * 4096 + q.val, by have := q.isLt; omega⟩

theorem colAt_val (s : ℕ) (q : Fin 4096) : (colAt s q).val = (s % 4) * 4096 + q.val := rfl

variable {R C : ℕ} (dif : Fin R → Fin 16384 → EReal) (src : Fin 16384 → Fin C → EReal)

/-- Tile s's contribution to entry (r, k). -/
def part (s : ℕ) (r : Fin R) (k : Fin C) : EReal := ∑ q : Fin 4096, dif r (colAt s q) * src (colAt s q) k

/-- The running value after tile s, in the order the tiles are added. -/
def chain : ℕ → Fin R → Fin C → EReal
  | 0, r, k => 0 + part dif src 0 r k
  | s + 1, r, k => chain s r k + part dif src (s + 1) r k

theorem chain_zero (r : Fin R) (k : Fin C) : chain dif src 0 r k = 0 + part dif src 0 r k := rfl
theorem chain_succ (s : ℕ) (r : Fin R) (k : Fin C) :
    chain dif src (s + 1) r k = chain dif src s r k + part dif src (s + 1) r k := rfl

/-- After the fourth tile the running value is the whole sum. -/
theorem chain_three (r : Fin R) (k : Fin C) : chain dif src 3 r k = ∑ s : Fin 16384, dif r s * src s k := by
  have h := sum_tiles (m := 4) (n := 4096) (fun s : Fin (4 * 4096) => dif r s * src s k)
  refine Eq.trans ?_ h.symm
  rw [Fin.sum_univ_four]
  show ((0 + part dif src 0 r k) + part dif src 1 r k + part dif src 2 r k) + part dif src 3 r k = _
  rw [zero_add]
  rfl

end Cert.KernelIdeal.Val

end
-- ==== Proof.LibGatherScatter.lean ====
/-
  Row lookups and row accumulations read at one entry.

  A table of N rows is looked up at a list of E signed row numbers: entry e of the result is the table's row whose
  number is the e-th row number, read as a signed integer and clamped into [0, N − 1].  An accumulation adds E update
  rows into a table of N rows: update e is added to the row its signed row number names, and is dropped when that
  number names no row.  Over the extended reals the accumulated table reads, at row i, the table's own entry plus
  the sum of the updates whose row number is i.  Both are stated for tables of rows of W entries and for tables of
  single numbers, with the row numbers given as an E-by-1 array.
-/
import Idealize.ShloMosaic.PureOps.Ideal.Laws
import Idealize.ShloMosaic.Lib.ValueIdx

noncomputable section

open scoped BigOperators

namespace LibGatherScatter

open Idealize.ShloMosaic Idealize.ShloMosaic.ValueIdx

/-- A signed word clamped to a row number of a table of N rows. -/
def clampRow (N : Nat) (hN : 0 < N) {w : Nat} (v : BitVec w) : Fin N := ⟨min v.toInt.toNat (N - 1), by omega⟩

/-- A word that, read signed, is the row number i is clamped to i. -/
theorem clampRow_of_toInt {N : Nat} (hN : 0 < N) {w : Nat} (v : BitVec w) (i : Fin N) (h : v.toInt = (i.val : ℤ)) :
    clampRow N hN v = i := by
  refine Fin.ext ?_
  show min v.toInt.toNat (N - 1) = i.val
  rw [h, Int.toNat_natCast]
  have := i.isLt
  omega

/-- The one entry of the one-entry list of axes `[1]`, whatever number it is asked for under. -/
theorem getElem_single_one (n : Nat) (hn : n < ([1] : List (Fin 2)).length) : (([1] : List (Fin 2))[n]'hn) = 1 := by
  have h0 : n = 0 := by simpa using hn
  subst h0
  rfl

/-! ## Looking rows up -/

section Gather
variable {α : Type}

/-- The lookup of whole rows of an N-by-W table at an E-by-1 array of row numbers. -/
abbrev rowsDims (N E W : Nat) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Entry (e, k) of the looked-up rows is entry k of the table's row named by row number e, clamped. -/
theorem gather_rows_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowsDims N E W wf) x idx (ix2 e k) = x (ix2 (clampRow N hN (idx (ix2 e (0 : Fin 1)))) k) := by
  unfold Host.gather
  refine congrArg x (funext fun a => Fin.ext ?_)
  match a with
  | ⟨0, _⟩ =>
    show (rowsDims N E W wf).start (ix2 e k) idx 0 + (rowsDims N E W wf).batchCoord (ix2 e k) 0
      + (rowsDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E W wf).startIndexMap from List.mem_singleton.mpr rfl)]
    have hsi : (rowsDims N E W wf).siIdx (ix2 e k) ⟨List.idxOf (0 : Fin 2) (rowsDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E W wf).start (ix2 e k) idx 1 + (rowsDims N E W wf).batchCoord (ix2 e k) 1
      + (rowsDims N E W wf).offCoord (ix2 e k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N E W wf).startIndexMap from h10)]
    unfold GatherDims.offCoord
    rw [dif_pos (show (1 : Fin 2) ∈ (rowsDims N E W wf).sKept from
      (GatherDims.mem_sKept _ _).mpr ⟨h10, List.not_mem_nil⟩)]
    rw [Nat.zero_add]
    exact congrArg (fun z : Fin 2 => ((ix2 e k z).val : ℕ)) (getElem_single_one _ _)

/-- The lookup of single numbers of a table of N numbers at an E-by-1 array of row numbers. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the looked-up numbers is the table's number named by row number e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  refine congrArg x (funext fun a => Fin.ext ?_)
  obtain rfl : a = 0 := Subsingleton.elim _ _
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating rows -/

/-- An axis is among the axes outside a list exactly when it is not in the list. -/
theorem mem_kept {s : Shape} (axes : List (Fin s.rank)) (a : Fin s.rank) : a ∈ s.kept axes ↔ a ∉ axes := by
  simp [Shape.kept, List.mem_filter, List.mem_finRange]

/-- A rank-1 index set is its one coordinate range, so a sum over it is the sum over the coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section ScatterRows

/-- The accumulation of E update rows into an N-by-W table at an E-by-1 array of row numbers. -/
abbrev rowsScat (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)
  (idx : IVec ⟨2, ![E, 1]⟩ w) (e : Fin E) (k' : Fin W)

theorem one_not_mem_zero : ¬ (1 : Fin 2) ∈ ([0] : List (Fin 2)) := by decide

/-- Update (e, k') starts, along the rows, at its row number read signed … -/
theorem rowsScat_start0 : (rowsScat N E W wf).start (ix2 e k') idx 0 = (idx (ix2 e (0 : Fin 1))).toInt := by
  unfold ScatterDims.start
  rw [dif_pos (show (0 : Fin 2) ∈ (rowsScat N E W wf).scatterDimsToOperandDims from List.mem_singleton.mpr rfl)]
  have hsi : (rowsScat N E W wf).siIdx (ix2 e k') ⟨List.idxOf (0 : Fin 2) (rowsScat N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, along a row, at 0; -/
theorem rowsScat_start1 : (rowsScat N E W wf).start (ix2 e k') idx 1 = 0 := by
  unfold ScatterDims.start
  rw [dif_neg (show ¬ (1 : Fin 2) ∈ (rowsScat N E W wf).scatterDimsToOperandDims from one_not_mem_zero)]

/-- its place inside the row window is 0 along the rows … -/
theorem rowsScat_window0 : (rowsScat N E W wf).window (ix2 e k') 0 = 0 := by
  unfold ScatterDims.window
  rw [dif_neg (show ¬ (0 : Fin 2) ∈ (rowsScat N E W wf).sKept from
    fun h => ((mem_kept _ _).mp h) (List.mem_singleton.mpr rfl))]

/-- … and k' along the row. -/
theorem rowsScat_window1 : (rowsScat N E W wf).window (ix2 e k') 1 = k'.val := by
  unfold ScatterDims.window
  rw [dif_pos (show (1 : Fin 2) ∈ (rowsScat N E W wf).sKept from (mem_kept _ _).mpr one_not_mem_zero)]
  exact congrArg (fun z : Fin 2 => ((ix2 e k' z).val : ℕ)) (getElem_single_one _ _)

/-- Update (e, k') lands on entry (i, k) exactly when its row number, read signed, is i and k' is k. -/
theorem rowsScat_resultIdx_iff (i : Fin N) (k : Fin W) :
    (rowsScat N E W wf).resultIdx? (ix2 e k') idx = some (ix2 i k)
      ↔ (idx (ix2 e (0 : Fin 1))).toInt = (i.val : ℤ) ∧ k' = k := by
  have s0 := rowsScat_start0 wf idx e k'
  have s1 := rowsScat_start1 wf idx e k'
  have w0 := rowsScat_window0 wf e k'
  have w1 := rowsScat_window1 wf e k'
  have hi := i.isLt
  have hk := k.isLt
  have hk' := k'.isLt
  unfold ScatterDims.resultIdx?
  split
  · rename_i h
    rw [Option.some.injEq]
    constructor
    · intro hf
      have h0 : ((rowsScat N E W wf).start (ix2 e k') idx 0 + ((rowsScat N E W wf).window (ix2 e k') 0 : ℕ)).toNat = i.val :=
        congrArg (fun f : (⟨2, ![N, W]⟩ : Shape).Idx => (f 0).val) hf
      have h1 : ((rowsScat N E W wf).start (ix2 e k') idx 1 + ((rowsScat N E W wf).window (ix2 e k') 1 : ℕ)).toNat = k.val :=
        congrArg (fun f : (⟨2, ![N, W]⟩ : Shape).Idx => (f 1).val) hf
      have hh := (h 0).1
      rw [s0, w0] at h0 hh
      rw [s1, w1] at h1
      exact ⟨by omega, Fin.ext (by omega)⟩
    · rintro ⟨hI, rfl⟩
      funext a; refine Fin.ext ?_
      match a with
      | ⟨0, _⟩ =>
        show ((rowsScat N E W wf).start (ix2 e k') idx 0 + ((rowsScat N E W wf).window (ix2 e k') 0 : ℕ)).toNat = i.val
        rw [s0, w0, hI]; omega
      | ⟨1, _⟩ =>
        show ((rowsScat N E W wf).start (ix2 e k') idx 1 + ((rowsScat N E W wf).window (ix2 e k') 1 : ℕ)).toNat = k'.val
        rw [s1, w1]; omega
  · rename_i h
    constructor
    · intro hf; exact absurd hf (by simp)
    · rintro ⟨hI, rfl⟩
      exfalso; apply h; intro a
      match a with
      | ⟨0, _⟩ =>
        show 0 ≤ (rowsScat N E W wf).start (ix2 e k') idx 0 + ((rowsScat N E W wf).window (ix2 e k') 0 : ℕ)
          ∧ (rowsScat N E W wf).start (ix2 e k') idx 0 + ((rowsScat N E W wf).window (ix2 e k') 0 : ℕ) < (N : ℤ)
        rw [s0, w0, hI]; omega
      | ⟨1, _⟩ =>
        show 0 ≤ (rowsScat N E W wf).start (ix2 e k') idx 1 + ((rowsScat N E W wf).window (ix2 e k') 1 : ℕ)
          ∧ (rowsScat N E W wf).start (ix2 e k') idx 1 + ((rowsScat N E W wf).window (ix2 e k') 1 : ℕ) < (W : ℤ)
        rw [s1, w1]; omega

/-- Entry (i, k) of the accumulated table, over the extended reals: the table's own entry plus the sum of the
    entries k of the update rows whose row number is i. -/
theorem scatterAdd_rows_apply {φ : FTy} (x : FVec Ideal ⟨2, ![N, W]⟩ φ) (upd : FVec Ideal ⟨2, ![E, W]⟩ φ) (i : Fin N) (k : Fin W) :
    Host.scatterAdd (F := Ideal) (rowsScat N E W wf) x idx upd (ix2 i k)
      = x (ix2 i k) + ∑ e : Fin E, if (idx (ix2 e (0 : Fin 1))).toInt = (i.val : ℤ) then upd (ix2 e k) else 0 := by
  unfold Host.scatterAdd
  rw [Ideal.hostScatterAdd_def]
  unfold Ideal.hostScatterAdd
  refine congrArg (x (ix2 i k) + ·) ?_
  rw [Finset.sum_filter, sum_idx2]
  refine Finset.sum_congr rfl fun e _ => ?_
  simp only [rowsScat_resultIdx_iff wf idx e _ i k]
  by_cases hP : (idx (ix2 e (0 : Fin 1))).toInt = (i.val : ℤ)
  · simp only [hP, true_and]
    rw [Finset.sum_ite_eq' Finset.univ k (fun k' => upd (ix2 e k')), if_pos (Finset.mem_univ k), if_pos trivial]
  · simp only [hP, false_and, if_false, Finset.sum_const_zero]

end ScatterRows

section ScatterVec

/-- The accumulation of E update numbers into a table of N numbers at an E-by-1 array of row numbers. -/
abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

theorem vecScat_start0 : (vecScat N E wf).start (ix1 e) idx 0 = (idx (ix2 e (0 : Fin 1))).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScat_window0 : (vecScat N E wf).window (ix1 e) 0 = 0 := by
  unfold ScatterDims.window
  rw [dif_neg (show ¬ (0 : Fin 1) ∈ (vecScat N E wf).sKept from
    fun h => ((mem_kept _ _).mp h) (List.mem_singleton.mpr rfl))]

/-- Update e lands on entry i exactly when its row number, read signed, is i. -/
theorem vecScat_resultIdx_iff (i : Fin N) :
    (vecScat N E wf).resultIdx? (ix1 e) idx = some (ix1 i) ↔ (idx (ix2 e (0 : Fin 1))).toInt = (i.val : ℤ) := by
  have s0 := vecScat_start0 wf idx e
  have w0 := vecScat_window0 wf e
  have hi := i.isLt
  unfold ScatterDims.resultIdx?
  split
  · rename_i h
    rw [Option.some.injEq]
    constructor
    · intro hf
      have h0 : ((vecScat N E wf).start (ix1 e) idx 0 + ((vecScat N E wf).window (ix1 e) 0 : ℕ)).toNat = i.val :=
        congrArg (fun f : (⟨1, ![N]⟩ : Shape).Idx => (f 0).val) hf
      have hh := (h 0).1
      rw [s0, w0] at h0 hh
      omega
    · intro hI
      funext a; refine Fin.ext ?_
      obtain rfl : a = 0 := Subsingleton.elim _ _
      show ((vecScat N E wf).start (ix1 e) idx 0 + ((vecScat N E wf).window (ix1 e) 0 : ℕ)).toNat = i.val
      rw [s0, w0, hI]; omega
  · rename_i h
    constructor
    · intro hf; exact absurd hf (by simp)
    · intro hI
      exfalso; apply h; intro a
      obtain rfl : a = 0 := Subsingleton.elim _ _
      show 0 ≤ (vecScat N E wf).start (ix1 e) idx 0 + ((vecScat N E wf).window (ix1 e) 0 : ℕ)
        ∧ (vecScat N E wf).start (ix1 e) idx 0 + ((vecScat N E wf).window (ix1 e) 0 : ℕ) < (N : ℤ)
      rw [s0, w0, hI]; omega

/-- Entry i of the accumulated table, over the extended reals: the table's own entry plus the sum of the updates
    whose row number is i. -/
theorem scatterAdd_vec_apply {φ : FTy} (x : FVec Ideal ⟨1, ![N]⟩ φ) (upd : FVec Ideal ⟨1, ![E]⟩ φ) (i : Fin N) :
    Host.scatterAdd (F := Ideal) (vecScat N E wf) x idx upd (ix1 i)
      = x (ix1 i) + ∑ e : Fin E, if (idx (ix2 e (0 : Fin 1))).toInt = (i.val : ℤ) then upd (ix1 e) else 0 := by
  unfold Host.scatterAdd
  rw [Ideal.hostScatterAdd_def]
  unfold Ideal.hostScatterAdd
  refine congrArg (x (ix1 i) + ·) ?_
  rw [Finset.sum_filter, sum_idx1]
  refine Finset.sum_congr rfl fun e _ => ?_
  simp only [vecScat_resultIdx_iff wf idx e i]

end ScatterVec

end LibGatherScatter

end
-- ==== Proof.Spec.lean ====
/-
  What both programs compute before their common last stretch, entry by entry, over the extended reals.

  A row number, as both programs read it: a negative number counts from the end of the table (the table's
  length is added to it), and the result is then clamped into the table's range when the row is looked up.

  One aggregation layer over D target rows, S source rows, d features in and o features out: the D-by-S mixing
  matrix times the S-by-d source rows gives D aggregated rows; these against the upper half of the weights, plus the
  target rows against the lower half, give the layer's D-by-o result:
      layer(r, j) = Σ_k (Σ_s dif(r, s) · src(s, k)) · wa(k, j)  +  Σ_k dst(r, k) · wb(k, j).

  A branch is two such layers.  The first looks its source and target rows up in the feature table through two
  tables of row numbers (a table of node numbers, read at a table of positions), and clips its result below at
  zero; the second looks its source and target rows up in the first layer's result.
-/
import Idealize.ShloMosaic.PureOps.Ideal.Laws
import Idealize.ShloMosaic.Lib.ValueIdx
import proofs.«118190_j89781996355909_2_alg».proof.Proof.LibGatherScatter

noncomputable section

open scoped BigOperators

namespace Cert.Spec

open Idealize.ShloMosaic Idealize.ShloMosaic.ValueIdx LibGatherScatter

/-- A signed row number with a negative value counted from the end of a table of `n` rows. -/
def wrap (n v : BitVec 32) : BitVec 32 := Scalar.select (IntOp.cmpi .slt v 0#32) (IntOp.addi v n) v

/-- The row of a table of `N` rows that entry `e` of a list of row numbers names. -/
def rowAt {N E : Nat} (hN : 0 < N) (n : BitVec 32) (idx : IVec ⟨1, ![E]⟩ 32) (e : Fin E) : Fin N :=
  clampRow N hN (wrap n (idx (ix1 e)))

/-- One aggregation layer at entry (r, j). -/
def layer {D S d o : Nat} (dif : Fin D → Fin S → EReal) (src : Fin S → Fin d → EReal) (dst : Fin D → Fin d → EReal)
    (wa wb : Fin d → Fin o → EReal) (r : Fin D) (j : Fin o) : EReal :=
  (∑ k : Fin d, (∑ s : Fin S, dif r s * src s k) * wa k j) + ∑ k : Fin d, dst r k * wb k j

/-- The feature-table row that position `e` of a list of positions names, through the table of node numbers. -/
def nodeRow (nodes : IVec ⟨1, ![16384]⟩ 32) {E : Nat} (pos : IVec ⟨1, ![E]⟩ 32) (e : Fin E) : Fin 100000 :=
  clampRow 100000 (by decide) (wrap 100000#32 (nodes (ix1 (rowAt (N := 16384) (by decide) 16384#32 pos e))))

/-- The first layer of a branch at entry (r, j): rows of the feature table aggregated, clipped below at zero. -/
def hidden (feats : (⟨2, ![100000, 256]⟩ : Shape).Idx → EReal) (w1 : (⟨2, ![512, 128]⟩ : Shape).Idx → EReal)
    (nodes : IVec ⟨1, ![16384]⟩ 32) (s2s : IVec ⟨1, ![16384]⟩ 32) (s2d : IVec ⟨1, ![2048]⟩ 32)
    (dif : (⟨2, ![2048, 16384]⟩ : Shape).Idx → EReal) (r : Fin 2048) (j : Fin 128) : EReal :=
  max (layer (fun r s => dif (ix2 r s)) (fun s k => feats (ix2 (nodeRow nodes s2s s) k))
        (fun r k => feats (ix2 (nodeRow nodes s2d r) k))
        (fun (k : Fin 256) j => w1 (ix2 (⟨k.val, by omega⟩ : Fin 512) j))
        (fun (k : Fin 256) j => w1 (ix2 (⟨256 + k.val, by omega⟩ : Fin 512) j)) r j) 0

/-- A branch's result at entry (b, j): the second layer over the first layer's rows. -/
def branch (feats : (⟨2, ![100000, 256]⟩ : Shape).Idx → EReal) (w1 : (⟨2, ![512, 128]⟩ : Shape).Idx → EReal)
    (w2 : (⟨2, ![256, 128]⟩ : Shape).Idx → EReal)
    (nodes : IVec ⟨1, ![16384]⟩ 32) (s2s : IVec ⟨1, ![16384]⟩ 32) (s2d : IVec ⟨1, ![2048]⟩ 32)
    (dif : (⟨2, ![2048, 16384]⟩ : Shape).Idx → EReal)
    (s2s1 : IVec ⟨1, ![2048]⟩ 32) (s2d1 : IVec ⟨1, ![512]⟩ 32) (dif1 : (⟨2, ![512, 2048]⟩ : Shape).Idx → EReal)
    (b : Fin 512) (j : Fin 128) : EReal :=
  layer (fun b s => dif1 (ix2 b s))
    (fun s k => hidden feats w1 nodes s2s s2d dif (rowAt (N := 2048) (by decide) 2048#32 s2s1 s) k)
    (fun b k => hidden feats w1 nodes s2s s2d dif (rowAt (N := 2048) (by decide) 2048#32 s2d1 b) k)
    (fun (k : Fin 128) j => w2 (ix2 (⟨k.val, by omega⟩ : Fin 256) j))
    (fun (k : Fin 128) j => w2 (ix2 (⟨128 + k.val, by omega⟩ : Fin 256) j)) b j

/-- The branch's result as a 512-by-128 array. -/
def branchArr (feats : (⟨2, ![100000, 256]⟩ : Shape).Idx → EReal) (w1 : (⟨2, ![512, 128]⟩ : Shape).Idx → EReal)
    (w2 : (⟨2, ![256, 128]⟩ : Shape).Idx → EReal)
    (nodes : IVec ⟨1, ![16384]⟩ 32) (s2s : IVec ⟨1, ![16384]⟩ 32) (s2d : IVec ⟨1, ![2048]⟩ 32)
    (dif : (⟨2, ![2048, 16384]⟩ : Shape).Idx → EReal)
    (s2s1 : IVec ⟨1, ![2048]⟩ 32) (s2d1 : IVec ⟨1, ![512]⟩ 32) (dif1 : (⟨2, ![512, 2048]⟩ : Shape).Idx → EReal) :
    (⟨2, ![512, 128]⟩ : Shape).Idx → EReal :=
  fun i => branch feats w1 w2 nodes s2s s2d dif s2s1 s2d1 dif1 ⟨(i 0).val, (i 0).isLt⟩ ⟨(i 1).val, (i 1).isLt⟩

end Cert.Spec

end
-- ==== Proof.KIValue0.lean ====
/-
  What the first region leaves in its result array, entry by entry, over the extended reals.

  The region's grid is 2 row blocks by 4 contraction steps.  At step s of a row block the accumulator holds the
  running tile-by-tile sum of the mixing matrix's row against the source rows' column, through tile s; at the
  last step it holds the whole sum over the 16384 source rows, the result's block is the layer's value clipped
  below at zero, and it is written back to the rows of the result array the block stands for.  The four storing
  points' blocks cover the result array.
-/
import proofs.«118190_j89781996355909_2_alg».proof.Proof.KIPieces
import proofs.«118190_j89781996355909_2_alg».proof.Proof.KIBlocks
import proofs.«118190_j89781996355909_2_alg».proof.Proof.KIPayloads
import proofs.«118190_j89781996355909_2_alg».proof.Proof.KIAccMath
import proofs.«118190_j89781996355909_2_alg».proof.Proof.Spec
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Pay

variable (V : (c : Dev nD) → (b : Ref sig .tc) → Buf (Elt Ideal) ((c : Thread nD τ).loc b))

/-! ## The operands as functions of plain coordinates -/

abbrev dif0 (c : Dev nD) : Fin 2048 → Fin 16384 → EReal := fun r s => (V c main_arg16 : S2048x16384.Idx → EReal) (ix2 r s)
abbrev src0 (c : Dev nD) : Fin 16384 → Fin 256 → EReal := fun s k => (V c main_v13 : S16384x256.Idx → EReal) (ix2 s k)
abbrev dst0 (c : Dev nD) : Fin 2048 → Fin 256 → EReal := fun r k => (V c main_v27 : S2048x256.Idx → EReal) (ix2 r k)
abbrev wa0 (c : Dev nD) : Fin 256 → Fin 128 → EReal := fun k j => (V c main_v28 : S256x128.Idx → EReal) (ix2 k j)
abbrev wb0 (c : Dev nD) : Fin 256 → Fin 128 → EReal := fun k j => (V c main_v29 : S256x128.Idx → EReal) (ix2 k j)

/-! ## One step of the accumulation -/

/-- A tile's contribution depends on the tile number modulo 4 only. -/
theorem part_mod {R C : ℕ} (dif : Fin R → Fin 16384 → EReal) (src : Fin 16384 → Fin C → EReal) (n : ℕ) (r : Fin R) (k : Fin C) :
    part dif src n r k = part dif src (n % 4) r k := by
  unfold part
  refine Finset.sum_congr rfl fun q _ => ?_
  have e : colAt n q = colAt (n % 4) q := Fin.ext (by rw [colAt_val, colAt_val]; omega)
  rw [e]

/-- The accumulator's new value at a point, at an entry: what it held plus the point's tile of the long sum. -/
theorem accStep (c : Dev nD) (t : Fin cfg0.N) (xs0 : Vec Ideal S1024x256 .f32) (a : Fin 1024) (k : Fin 256) (r : Fin 2048)
    (hr : r.val = (t.val / 4) * 1024 + a.val) :
    k0_pay2 (F := Ideal) (iblk0 V c 0 t) (iblk0 V c 1 t) xs0 (ix2 a k) = xs0 (ix2 a k) + part (dif0 V c) (src0 V c) t.val r k := by
  refine (pay0_2_apply (iblk0 V c 0 t) (iblk0 V c 1 t) xs0 a k).trans ?_
  refine congrArg (xs0 (ix2 a k) + ·) ?_
  unfold part
  refine Finset.sum_congr rfl fun q _ => ?_
  exact congrArg₂ (· * ·) (iblk0_0_apply V c t a q r (colAt t.val q) hr (colAt_val t.val q))
    (iblk0_1_apply V c t q k (colAt t.val q) k (colAt_val t.val q) rfl)

/-- What a clearing point leaves in the accumulator, at an entry: zero plus the first tile. -/
theorem accA (c : Dev nD) (t : Fin cfg0.N) (h0 : t.val % 4 = 0) (a : Fin 1024) (k : Fin 256) (r : Fin 2048)
    (hr : r.val = (t.val / 4) * 1024 + a.val) :
    ((outsAt0 V c t.val t.isLt).2 : Vec Ideal S1024x256 .f32) (ix2 a k) = chain (dif0 V c) (src0 V c) 0 r k := by
  have h1 : ¬ t.val % 4 = 3 := by omega
  rw [outsAt0_A V c t h0 h1]
  dsimp only
  refine (congrFun (sout0_A_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)) (ix2 a k)).trans ?_
  refine (accStep V c t (k0_pay1 (F := Ideal)) a k r hr).trans ?_
  exact congrArg₂ (· + ·) (pay0_1_apply a k) ((part_mod (dif0 V c) (src0 V c) t.val r k).trans (by rw [h0]))

/-- What an accumulating point leaves in the accumulator, at an entry, over whatever it held. -/
theorem soutB_at (c : Dev nD) (t : Fin cfg0.N) (hc0 : ¬cond0_0 (grid0.coords t)) (hc1 : ¬cond0_1 (grid0.coords t))
    (xs0 : Vec Ideal S1024x256 .f32) (a : Fin 1024) (k : Fin 256) (r : Fin 2048) (hr : r.val = (t.val / 4) * 1024 + a.val) :
    sout0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) xs0 (ix2 a k)
      = xs0 (ix2 a k) + part (dif0 V c) (src0 V c) t.val r k :=
  (congrFun (sout0_B_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) xs0) (ix2 a k)).trans (accStep V c t xs0 a k r hr)

/-- What a storing point leaves in the accumulator, at an entry, over whatever it held. -/
theorem soutC_at (c : Dev nD) (t : Fin cfg0.N) (hc0 : ¬cond0_0 (grid0.coords t)) (hc1 : cond0_1 (grid0.coords t))
    (xs0 : Vec Ideal S1024x256 .f32) (a : Fin 1024) (k : Fin 256) (r : Fin 2048) (hr : r.val = (t.val / 4) * 1024 + a.val) :
    sout0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) xs0 (ix2 a k)
      = xs0 (ix2 a k) + part (dif0 V c) (src0 V c) t.val r k :=
  (congrFun (sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) xs0) (ix2 a k)).trans (accStep V c t xs0 a k r hr)

/-! ## The accumulator after every point -/

/-- After position n the accumulator holds, at row a of the position's row block, the running sum through tile n mod 4. -/
theorem acc0_eq (c : Dev nD) (n : ℕ) : ∀ (hn : n < cfg0.N) (a : Fin 1024) (k : Fin 256) (r : Fin 2048),
    r.val = (n / 4) * 1024 + a.val →
    ((outsAt0 V c n hn).2 : Vec Ideal S1024x256 .f32) (ix2 a k) = chain (dif0 V c) (src0 V c) (n % 4) r k := by
  induction n with
  | zero => intro hn a k r hr; exact accA V c ⟨0, hn⟩ rfl a k r hr
  | succ n ih =>
    intro hn a k r hr
    by_cases h0 : (n + 1) % 4 = 0
    · rw [h0]; exact accA V c ⟨n + 1, hn⟩ h0 a k r hr
    · have hm : (n + 1) % 4 = n % 4 + 1 := by omega
      have hd : (n + 1) / 4 = n / 4 := by omega
      have hprev := ih (Nat.lt_of_succ_lt hn) a k r (by rw [← hd]; exact hr)
      have hR : chain (dif0 V c) (src0 V c) ((n + 1) % 4) r k
          = chain (dif0 V c) (src0 V c) (n % 4) r k + part (dif0 V c) (src0 V c) (n + 1) r k := by
        rw [part_mod (dif0 V c) (src0 V c) (n + 1) r k, hm, chain_succ]
      by_cases h1 : (n + 1) % 4 = 3
      · rw [outsAt0_C V c ⟨n + 1, hn⟩ h0 h1]
        dsimp only
        refine (soutC_at V c ⟨n + 1, hn⟩ _ _ _ a k r hr).trans ?_
        exact (congrArg (· + part (dif0 V c) (src0 V c) (n + 1) r k) hprev).trans hR.symm
      · rw [outsAt0_B V c ⟨n + 1, hn⟩ h0 h1]
        dsimp only
        refine (soutB_at V c ⟨n + 1, hn⟩ _ _ _ a k r hr).trans ?_
        exact (congrArg (· + part (dif0 V c) (src0 V c) (n + 1) r k) hprev).trans hR.symm

/-- At a storing point the accumulator holds the whole sum over the source rows. -/
theorem acc0_full (c : Dev nD) (t : Fin cfg0.N) (h1 : t.val % 4 = 3) (a : Fin 1024) (k : Fin 256) (r : Fin 2048)
    (hr : r.val = (t.val / 4) * 1024 + a.val) :
    ((outsAt0 V c t.val t.isLt).2 : Vec Ideal S1024x256 .f32) (ix2 a k) = ∑ s : Fin 16384, dif0 V c r s * src0 V c s k :=
  (acc0_eq V c t.val t.isLt a k r hr).trans (by rw [h1]; exact chain_three (dif0 V c) (src0 V c) r k)

/-! ## The result's block at a storing point -/

/-- The layer's value clipped below at zero, at a row and a column of the result array. -/
abbrev H0 (c : Dev nD) (r : Fin 2048) (j : Fin 128) : EReal :=
  max (Cert.Spec.layer (dif0 V c) (src0 V c) (dst0 V c) (wa0 V c) (wb0 V c) r j) 0

/-- What a storing point leaves in the result's buffer, at an entry, when the accumulator as just updated holds the whole sum. -/
theorem outC_at (c : Dev nD) (t : Fin cfg0.N) (hc0 : ¬cond0_0 (grid0.coords t)) (hc1 : cond0_1 (grid0.coords t))
    (xs0 : Vec Ideal S1024x256 .f32) (a : Fin 1024) (j : Fin 128) (r : Fin 2048) (hr : r.val = (t.val / 4) * 1024 + a.val)
    (hacc : ∀ k : Fin 256, k0_pay2 (F := Ideal) (iblk0 V c 0 t) (iblk0 V c 1 t) xs0 (ix2 a k) = ∑ s : Fin 16384, dif0 V c r s * src0 V c s k) :
    out0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) xs0 (ix2 a j) = H0 V c r j := by
  refine (congrFun (out0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) hc0 hc1 (iblk0 V c 0 t) (iblk0 V c 1 t) (iblk0 V c 2 t) (iblk0 V c 3 t) (iblk0 V c 4 t) xs0) (ix2 a j)).trans ?_
  refine (pay0_3_apply (k0_pay2 (F := Ideal) (iblk0 V c 0 t) (iblk0 V c 1 t) xs0) (iblk0 V c 2 t) (iblk0 V c 3 t) (iblk0 V c 4 t) a j).trans ?_
  refine congrArg (max · 0) ?_
  unfold Cert.Spec.layer
  refine congrArg₂ (· + ·) (Finset.sum_congr rfl fun k _ => ?_) (Finset.sum_congr rfl fun k _ => ?_)
  · exact congrArg₂ (· * ·) (hacc k) (iblk0_3_apply V c t k j k j rfl rfl)
  · exact congrArg₂ (· * ·) (iblk0_2_apply V c t a k r k hr rfl) (iblk0_4_apply V c t k j k j rfl rfl)

/-- The result's block after a storing point, at an entry: the layer's clipped value at the block's row. -/
theorem out0_val (c : Dev nD) (t : Fin cfg0.N) (h1 : t.val % 4 = 3) (a : Fin 1024) (j : Fin 128) (r : Fin 2048)
    (hr : r.val = (t.val / 4) * 1024 + a.val) :
    ((outsAt0 V c t.val t.isLt).1 : Vec Ideal S1024x128 .f32) (ix2 a j) = H0 V c r j := by
  have h0 : ¬ t.val % 4 = 0 := by omega
  have hacc := fun k : Fin 256 => acc0_full V c t h1 a k r hr
  rw [outsAt0_C V c t h0 h1] at hacc ⊢
  dsimp only at hacc ⊢
  refine outC_at V c t _ _ _ a j r hr (fun k => ?_)
  refine Eq.trans ?_ (hacc k)
  exact (congrFun (sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) _ _ (iblk0 V c 0 t) (iblk0 V c 1 t) (iblk0 V c 2 t) (iblk0 V c 3 t) (iblk0 V c 4 t) _) (ix2 a k)).symm

/-! ## From the blocks to the result array -/

/-- The result array, whole: the layer's clipped value at every row and column. -/
def G0 (c : Dev nD) : Buf (Elt Ideal) ((c : Thread nD τ).loc main_v30) :=
  (fun i => H0 V c ⟨(i 0).val, (i 0).isLt⟩ ⟨(i 1).val, (i 1).isLt⟩ : S2048x128.Idx → EReal)

theorem G0_apply (c : Dev nD) (r : Fin 2048) (j : Fin 128) : (G0 V c : S2048x128.Idx → EReal) (ix2 r j) = H0 V c r j := rfl

/-- What a storing point writes back is its block of the whole result array. -/
theorem flushed0_eq (c : Dev nD) (t : Fin cfg0.N) (hf : (cfg0.win 5).flush t = true) :
    (dat0 (F := Ideal) V c).flushed 5 t = ((cfg0.win 5).blk t).view.read (Elt Ideal) (G0 V c) := by
  have h1 : t.val % 4 = 3 := (flush0_5 t).mp hf
  have hN : t.val < 8 := lt_of_lt_of_eq t.isLt N_0
  obtain ⟨-, -, -, -, -, -, -, -, -, -, e50, e51⟩ := idx0 t
  show (cfg0.win 5).cut (grid0.coords t) ((dat0 (F := Ideal) V c).after 5 t) = _
  rw [after0_5]
  funext y
  have hy0 : (y 0).val < 1024 := (y 0).isLt
  have hy1 : (y 1).val < 128 := (y 1).isLt
  have key := out0_val V c t h1 ⟨(y 0).val, hy0⟩ ⟨(y 1).val, hy1⟩ ⟨(t.val / 4) * 1024 + (y 0).val, by omega⟩ rfl
  have ey : (ix2 (⟨(y 0).val, hy0⟩ : Fin 1024) (⟨(y 1).val, hy1⟩ : Fin 128) : S1024x128.Idx) = y := by
    funext d; match d with | ⟨0, _⟩ => rfl | ⟨1, _⟩ => rfl
  rw [ey] at key
  refine key.trans ?_
  show H0 V c _ _ = H0 V c ⟨((((cfg0.win 5).blk t).view.emb y) 0).val, _⟩ ⟨((((cfg0.win 5).blk t).view.emb y) 1).val, _⟩
  refine congrArg₂ (H0 V c) (Fin.ext ?_) (Fin.ext ?_)
  · show (t.val / 4) * 1024 + (y 0).val = win0_5.index t (0 : Fin 2) * 1024 + 1 * (y 0).val
    rw [e50]; omega
  · show (y 1).val = win0_5.index t (1 : Fin 2) * 128 + 1 * (y 1).val
    rw [e51]; omega

/-- An index of the result array is in a point's block exactly when each coordinate is in the block's range. -/
theorem mem_blk0 (t : Fin cfg0.N) (i : S2048x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v30).slice (win0_5.rect t)).set ↔ _
  rw [View.set_slice_whole, Rect.mem_set_unit]
  exact Iff.rfl

/-- Row r of the result array is written back by the storing point of its row block. -/
theorem cover0 (i : S2048x128.Idx) : ∃ t : Fin cfg0.N, (cfg0.win 5).flush t = true ∧ i ∈ ((cfg0.win 5).blk t).view.set := by
  have hi0 : (i 0).val < 2048 := (i 0).isLt
  have hi1 : (i 1).val < 128 := (i 1).isLt
  have hN : cfg0.N = 8 := N_0
  obtain ⟨t, htv⟩ : ∃ t : Fin cfg0.N, t.val = ((i 0).val / 1024) * 4 + 3 := ⟨⟨((i 0).val / 1024) * 4 + 3, by rw [hN]; omega⟩, rfl⟩
  obtain ⟨-, -, -, -, -, -, -, -, -, -, e50, e51⟩ := idx0 t
  refine ⟨t, (flush0_5 t).mpr (by rw [htv]; omega), ?_⟩
  rw [mem_blk0]
  intro a
  match a with
  | ⟨0, _⟩ =>
    show win0_5.index t (0 : Fin 2) * 1024 ≤ (i 0).val ∧ (i 0).val < win0_5.index t (0 : Fin 2) * 1024 + 1024
    rw [e50, htv]; omega
  | ⟨1, _⟩ =>
    show win0_5.index t (1 : Fin 2) * 128 ≤ (i 1).val ∧ (i 1).val < win0_5.index t (1 : Fin 2) * 128 + 128
    rw [e51]; omega

/-- The result array after the region: the layer's clipped value everywhere. -/
theorem final0_arr (c : Dev nD) : (dat0 (F := Ideal) V c).arrAt 5 cfg0.N = G0 V c :=
  (dat0 (F := Ideal) V c).arrAt_eq_of_cover 5 (G0 V c) (flushed0_eq V c) (cover0)

/-- The same at an entry, with the operands spelt out. -/
theorem final0 (c : Dev nD) (r : Fin 2048) (j : Fin 128) :
    ((dat0 (F := Ideal) V c).arrAt 5 cfg0.N : S2048x128.Idx → EReal) (ix2 r j)
      = max (Cert.Spec.layer (fun r s => (V c main_arg16 : S2048x16384.Idx → EReal) (ix2 r s))
          (fun s k => (V c main_v13 : S16384x256.Idx → EReal) (ix2 s k))
          (fun r k => (V c main_v27 : S2048x256.Idx → EReal) (ix2 r k))
          (fun k j => (V c main_v28 : S256x128.Idx → EReal) (ix2 k j))
          (fun k j => (V c main_v29 : S256x128.Idx → EReal) (ix2 k j)) r j) 0 := by
  rw [final0_arr V c]
  exact G0_apply V c r j

end Cert.KernelIdeal.Val

end
-- ==== Proof.KIValue1.lean ====
/-
  What the second region leaves in its result array, entry by entry, over the extended reals.

  The region's grid is 2 row blocks with one contraction step each: every point clears the accumulator, adds
  the whole product of the mixing matrix's row block with the source rows to it, and stores the layer's value
  for its 256 rows, which is written back to those rows of the result array.  The two blocks cover the array.
-/
import proofs.«118190_j89781996355909_2_alg».proof.Proof.KIPieces
import proofs.«118190_j89781996355909_2_alg».proof.Proof.KIBlocks
import proofs.«118190_j89781996355909_2_alg».proof.Proof.KIPayloads
import proofs.«118190_j89781996355909_2_alg».proof.Proof.Spec
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Pay

variable (V : (c : Dev nD) → (b : Ref sig .tc) → Buf (Elt Ideal) ((c : Thread nD τ).loc b))

/-! ## The operands as functions of plain coordinates -/

abbrev dif1 (c : Dev nD) : Fin 512 → Fin 2048 → EReal := fun b s => (V c main_arg19 : S512x2048.Idx → EReal) (ix2 b s)
abbrev src1 (c : Dev nD) : Fin 2048 → Fin 128 → EReal := fun s k => (V c main_v37 : S2048x128.Idx → EReal) (ix2 s k)
abbrev dst1 (c : Dev nD) : Fin 512 → Fin 128 → EReal := fun b k => (V c main_v44 : S512x128.Idx → EReal) (ix2 b k)
abbrev wa1 (c : Dev nD) : Fin 128 → Fin 128 → EReal := fun k j => (V c main_v45 : S128x128.Idx → EReal) (ix2 k j)
abbrev wb1 (c : Dev nD) : Fin 128 → Fin 128 → EReal := fun k j => (V c main_v46 : S128x128.Idx → EReal) (ix2 k j)

/-- The layer's value at a row and a column of the result array. -/
abbrev H1 (c : Dev nD) (b : Fin 512) (j : Fin 128) : EReal :=
  Cert.Spec.layer (dif1 V c) (src1 V c) (dst1 V c) (wa1 V c) (wb1 V c) b j

/-! ## The result's block at a point -/

/-- The cleared accumulator plus the point's product, at an entry: the whole sum over the source rows. -/
theorem acc1_at (c : Dev nD) (t : Fin cfg1.N) (a : Fin 256) (k : Fin 128) (b : Fin 512) (hb : b.val = t.val * 256 + a.val) :
    k1_pay2 (F := Ideal) (iblk1 V c 0 t) (iblk1 V c 1 t) (k1_pay1 (F := Ideal)) (ix2 a k) = ∑ s : Fin 2048, dif1 V c b s * src1 V c s k := by
  refine (pay1_2_apply (iblk1 V c 0 t) (iblk1 V c 1 t) (k1_pay1 (F := Ideal)) a k).trans ?_
  refine (congrArg (· + _) (pay1_1_apply a k)).trans ?_
  refine (zero_add _).trans ?_
  refine Finset.sum_congr rfl fun q _ => ?_
  exact congrArg₂ (· * ·) (iblk1_0_apply V c t a q b q hb rfl) (iblk1_1_apply V c t q k q k rfl rfl)

/-- What a point leaves in the result's buffer, at an entry: the layer's value at the block's row. -/
theorem out1_val (c : Dev nD) (t : Fin cfg1.N) (a : Fin 256) (j : Fin 128) (b : Fin 512) (hb : b.val = t.val * 256 + a.val) :
    (outAt1 (F := Ideal) V c t : Vec Ideal S256x128 .f32) (ix2 a j) = H1 V c b j := by
  unfold outAt1
  refine (congrFun (out1_D_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (hcond1_0 t) (hcond1_1 t) (iblk1 V c 0 t) (iblk1 V c 1 t) (iblk1 V c 2 t) (iblk1 V c 3 t) (iblk1 V c 4 t)) (ix2 a j)).trans ?_
  refine (pay1_3_apply (k1_pay2 (F := Ideal) (iblk1 V c 0 t) (iblk1 V c 1 t) (k1_pay1 (F := Ideal))) (iblk1 V c 2 t) (iblk1 V c 3 t) (iblk1 V c 4 t) a j).trans ?_
  show _ = (∑ k : Fin 128, (∑ s : Fin 2048, dif1 V c b s * src1 V c s k) * wa1 V c k j) + ∑ k : Fin 128, dst1 V c b k * wb1 V c k j
  refine congrArg₂ (· + ·) (Finset.sum_congr rfl fun k _ => ?_) (Finset.sum_congr rfl fun k _ => ?_)
  · exact congrArg₂ (· * ·) (acc1_at V c t a k b hb) (iblk1_3_apply V c t k j k j rfl rfl)
  · exact congrArg₂ (· * ·) (iblk1_2_apply V c t a k b k hb rfl) (iblk1_4_apply V c t k j k j rfl rfl)

/-! ## From the blocks to the result array -/

/-- The result array, whole: the layer's value at every row and column. -/
def G1 (c : Dev nD) : Buf (Elt Ideal) ((c : Thread nD τ).loc main_v47) :=
  (fun i => H1 V c ⟨(i 0).val, (i 0).isLt⟩ ⟨(i 1).val, (i 1).isLt⟩ : S512x128.Idx → EReal)

theorem G1_apply (c : Dev nD) (b : Fin 512) (j : Fin 128) : (G1 V c : S512x128.Idx → EReal) (ix2 b j) = H1 V c b j := rfl

/-- What a point writes back is its block of the whole result array. -/
theorem flushed1_eq (c : Dev nD) (t : Fin cfg1.N) (hf : (cfg1.win 5).flush t = true) :
    (dat1 (F := Ideal) V c).flushed 5 t = ((cfg1.win 5).blk t).view.read (Elt Ideal) (G1 V c) := by
  have hN : t.val < 2 := lt_of_lt_of_eq t.isLt N_1
  obtain ⟨-, -, -, -, -, -, -, -, -, -, e50, e51⟩ := idx1 t
  show (cfg1.win 5).cut (grid1.coords t) ((dat1 (F := Ideal) V c).after 5 t) = _
  rw [after1_5]
  funext y
  have hy0 : (y 0).val < 256 := (y 0).isLt
  have hy1 : (y 1).val < 128 := (y 1).isLt
  have key := out1_val V c t ⟨(y 0).val, hy0⟩ ⟨(y 1).val, hy1⟩ ⟨t.val * 256 + (y 0).val, by omega⟩ rfl
  have ey : (ix2 (⟨(y 0).val, hy0⟩ : Fin 256) (⟨(y 1).val, hy1⟩ : Fin 128) : S256x128.Idx) = y := by
    funext d; match d with | ⟨0, _⟩ => rfl | ⟨1, _⟩ => rfl
  rw [ey] at key
  refine key.trans ?_
  show H1 V c _ _ = H1 V c ⟨((((cfg1.win 5).blk t).view.emb y) 0).val, _⟩ ⟨((((cfg1.win 5).blk t).view.emb y) 1).val, _⟩
  refine congrArg₂ (H1 V c) (Fin.ext ?_) (Fin.ext ?_)
  · show t.val * 256 + (y 0).val = win1_5.index t (0 : Fin 2) * 256 + 1 * (y 0).val
    rw [e50]; omega
  · show (y 1).val = win1_5.index t (1 : Fin 2) * 128 + 1 * (y 1).val
    rw [e51]; omega

/-- An index of the result array is in a point's block exactly when each coordinate is in the block's range. -/
theorem mem_blk1 (t : Fin cfg1.N) (i : S512x128.Idx) :
    i ∈ ((cfg1.win 5).blk t).view.set ↔ ∀ a : Fin 2, win1_5.index t a * S256x128.size a ≤ (i a).val ∧ (i a).val < win1_5.index t a * S256x128.size a + S256x128.size a := by
  show i ∈ ((View.whole main_v47).slice (win1_5.rect t)).set ↔ _
  rw [View.set_slice_whole, Rect.mem_set_unit]
  exact Iff.rfl

/-- Row b of the result array is written back by the point of its row block. -/
theorem cover1 (i : S512x128.Idx) : ∃ t : Fin cfg1.N, (cfg1.win 5).flush t = true ∧ i ∈ ((cfg1.win 5).blk t).view.set := by
  have hi0 : (i 0).val < 512 := (i 0).isLt
  have hi1 : (i 1).val < 128 := (i 1).isLt
  have hN : cfg1.N = 2 := N_1
  obtain ⟨t, htv⟩ : ∃ t : Fin cfg1.N, t.val = (i 0).val / 256 := ⟨⟨(i 0).val / 256, by rw [hN]; omega⟩, rfl⟩
  obtain ⟨-, -, -, -, -, -, -, -, -, -, e50, e51⟩ := idx1 t
  refine ⟨t, flush1_5 t, ?_⟩
  rw [mem_blk1]
  intro a
  match a with
  | ⟨0, _⟩ =>
    show win1_5.index t (0 : Fin 2) * 256 ≤ (i 0).val ∧ (i 0).val < win1_5.index t (0 : Fin 2) * 256 + 256
    rw [e50, htv]; omega
  | ⟨1, _⟩ =>
    show win1_5.index t (1 : Fin 2) * 128 ≤ (i 1).val ∧ (i 1).val < win1_5.index t (1 : Fin 2) * 128 + 128
    rw [e51]; omega

/-- The result array after the region: the layer's value everywhere. -/
theorem final1_arr (c : Dev nD) : (dat1 (F := Ideal) V c).arrAt 5 cfg1.N = G1 V c :=
  (dat1 (F := Ideal) V c).arrAt_eq_of_cover 5 (G1 V c) (flushed1_eq V c) (cover1)

/-- The same at an entry, with the operands spelt out. -/
theorem final1 (c : Dev nD) (b : Fin 512) (j : Fin 128) :
    ((dat1 (F := Ideal) V c).arrAt 5 cfg1.N : S512x128.Idx → EReal) (ix2 b j)
      = Cert.Spec.layer (fun b s => (V c main_arg19 : S512x2048.Idx → EReal) (ix2 b s))
          (fun s k => (V c main_v37 : S2048x128.Idx → EReal) (ix2 s k))
          (fun b k => (V c main_v44 : S512x128.Idx → EReal) (ix2 b k))
          (fun k j => (V c main_v45 : S128x128.Idx → EReal) (ix2 k j))
          (fun k j => (V c main_v46 : S128x128.Idx → EReal) (ix2 k j)) b j := by
  rw [final1_arr V c]
  exact G1_apply V c b j

end Cert.KernelIdeal.Val

end
-- ==== Proof.KIPieces23.lean ====
/-
  What each control case of the third and fourth regions' bodies leaves in the accumulator and in the result's
  buffer, as the bodies' stored values of the blocks the case loads (the same bodies as the first two regions').
-/
import proofs.«118190_j89781996355909_2_alg».proof.Proof.KI.R2Frame
import proofs.«118190_j89781996355909_2_alg».proof.Proof.KI.R3Frame
import proofs.«118190_j89781996355909_2_alg».proof.Proof.KIPieces
import Idealize.ShloMosaic.Lib.Tactic
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.ShloMosaic.Tactic
open Idealize.SL Idealize.SL.Sem
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-- At a clearing point the accumulator is left at the block product added to the zero matrix. -/
theorem sout2_A_eq (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : cond2_0 i) (hc1 : ¬cond2_1 i) (x0 : Vec F S1024x4096 .f32) (x1 : Vec F S4096x256 .f32) (x2 : Vec F S1024x256 .f32) (x3 : Vec F S256x128 .f32) (x4 : Vec F S256x128 .f32) :
    sout2_A c i arg2 harg2 arg3 harg3 arg4 harg4 arg5 harg5 arg6 harg6 arg7 harg7 arg8 harg8 hc0 hc1 x0 x1 x2 x3 x4 = k2_pay2 x0 x1 (k2_pay1) := by
  unfold sout2_A
  rw [View.read_writes_eq_canon _ _ _ (scover2_A c i arg2 harg2 arg3 harg3 arg4 harg4 arg5 harg5 arg6 harg6 arg7 harg7 arg8 harg8 hc0 hc1 x0 x1 x2 x3 x4)]
  unfold kernelRun2_A
  dsimp only
  sl_unfold_words
  rw [View.canon_cons_unit_zero (S := S1024x256) hz, View.readCov_unit_zero (S := S1024x256) _ hz]
  simp only [View.readAt_eq_ld, harg2.read_unread, harg3.read_unread, View.ld_unit_zero (S := S1024x4096) hz, View.ld_unit_zero (S := S4096x256) hz]

/-- At an accumulating point the accumulator is left at the block product added to what it held. -/
theorem sout2_B_eq (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : ¬cond2_1 i) (x0 : Vec F S1024x4096 .f32) (x1 : Vec F S4096x256 .f32) (x2 : Vec F S1024x256 .f32) (x3 : Vec F S256x128 .f32) (x4 : Vec F S256x128 .f32) (xs0 : Vec F S1024x256 .f32) :
    sout2_B c i arg2 harg2 arg3 harg3 arg4 harg4 arg5 harg5 arg6 harg6 arg7 harg7 arg8 harg8 hc0 hc1 x0 x1 x2 x3 x4 xs0 = k2_pay2 x0 x1 xs0 := by
  unfold sout2_B
  rw [View.read_writes_eq_canon _ _ _ (scover2_B c i arg2 harg2 arg3 harg3 arg4 harg4 arg5 harg5 arg6 harg6 arg7 harg7 arg8 harg8 hc0 hc1 x0 x1 x2 x3 x4 xs0)]
  unfold kernelRun2_B
  dsimp only
  try sl_unfold_words
  rw [View.canon_unit_zero hz]
  simp only [View.readAt_eq_ld, harg2.read_unread, harg3.read_unread, harg8.read_unread, View.ld_unit_zero (S := S1024x4096) hz, View.ld_unit_zero (S := S4096x256) hz, View.ld_unit_zero (S := S1024x256) hz]

/-- At a storing point the accumulator is left the same way. -/
theorem sout2_C_eq (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i) (x0 : Vec F S1024x4096 .f32) (x1 : Vec F S4096x256 .f32) (x2 : Vec F S1024x256 .f32) (x3 : Vec F S256x128 .f32) (x4 : Vec F S256x128 .f32) (xs0 : Vec F S1024x256 .f32) :
    sout2_C c i arg2 harg2 arg3 harg3 arg4 harg4 arg5 harg5 arg6 harg6 arg7 harg7 arg8 harg8 hc0 hc1 x0 x1 x2 x3 x4 xs0 = k2_pay2 x0 x1 xs0 := by
  unfold sout2_C
  rw [View.read_writes_eq_canon _ _ _ (scover2_C c i arg2 harg2 arg3 harg3 arg4 harg4 arg5 harg5 arg6 harg6 arg7 harg7 arg8 harg8 hc0 hc1 x0 x1 x2 x3 x4 xs0)]
  unfold kernelRun2_C
  dsimp only
  try sl_unfold_words
  rw [View.canon_unit_zero hz]
  simp only [View.readAt_eq_ld, harg2.read_unread, harg3.read_unread, harg8.read_unread, View.ld_unit_zero (S := S1024x4096) hz, View.ld_unit_zero (S := S4096x256) hz, View.ld_unit_zero (S := S1024x256) hz, View.ld_unit_zero (S := S256x128) hz]

/-- At a storing point the result's buffer is left at the last payload of the accumulator as just updated and the
    target rows' block, against the two weight halves. -/
theorem out2_C_eq (c : Dev nD) (i : grid2.Coords) (arg2 : Memref sig .tc .vmem S1024x4096 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x256 .f32) (harg8 : arg8.IsWhole) (hc0 : ¬cond2_0 i) (hc1 : cond2_1 i) (x0 : Vec F S1024x4096 .f32) (x1 : Vec F S4096x256 .f32) (x2 : Vec F S1024x256 .f32) (x3 : Vec F S256x128 .f32) (x4 : Vec F S256x128 .f32) (xs0 : Vec F S1024x256 .f32) :
    out2_C c i arg2 harg2 arg3 harg3 arg4 harg4 arg5 harg5 arg6 harg6 arg7 harg7 arg8 harg8 hc0 hc1 x0 x1 x2 x3 x4 xs0 = k2_pay3 (k2_pay2 x0 x1 xs0) x2 x3 x4 := by
  unfold out2_C
  rw [View.read_writes_eq_canon _ _ _ (cover2_C c i arg2 harg2 arg3 harg3 arg4 harg4 arg5 harg5 arg6 harg6 arg7 harg7 arg8 harg8 hc0 hc1 x0 x1 x2 x3 x4 xs0)]
  unfold kernelRun2_C
  dsimp only
  try sl_unfold_words
  rw [View.canon_unit_zero hz, View.readCov_unit_zero (S := S1024x256) _ hz]
  simp only [View.readAt_eq_ld, harg2.read_unread, harg3.read_unread, harg4.read_unread, harg5.read_unread, harg6.read_unread, harg8.read_unread, View.ld_unit_zero (S := S1024x4096) hz, View.ld_unit_zero (S := S4096x256) hz, View.ld_unit_zero (S := S1024x256) hz, View.ld_unit_zero (S := S256x128) hz]

/-- In the second region every point clears, accumulates once and stores. -/
theorem out3_D_eq (c : Dev nD) (i : grid3.Coords) (arg2 : Memref sig .tc .vmem S256x2048 .f32) (harg2 : arg2.IsWhole) (arg3 : Memref sig .tc .vmem S2048x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S256x128 .f32) (harg7 : arg7.IsWhole) (arg8 : Memref sig .tc .vmem S256x128 .f32) (harg8 : arg8.IsWhole) (hc0 : cond3_0 i) (hc1 : cond3_1 i) (x0 : Vec F S256x2048 .f32) (x1 : Vec F S2048x128 .f32) (x2 : Vec F S256x128 .f32) (x3 : Vec F S128x128 .f32) (x4 : Vec F S128x128 .f32) :
    out3_D c i arg2 harg2 arg3 harg3 arg4 harg4 arg5 harg5 arg6 harg6 arg7 harg7 arg8 harg8 hc0 hc1 x0 x1 x2 x3 x4 = k3_pay3 (k3_pay2 x0 x1 k3_pay1) x2 x3 x4 := by
  unfold out3_D
  rw [View.read_writes_eq_canon _ _ _ (cover3_D c i arg2 harg2 arg3 harg3 arg4 harg4 arg5 harg5 arg6 harg6 arg7 harg7 arg8 harg8 hc0 hc1 x0 x1 x2 x3 x4)]
  unfold kernelRun3_D
  dsimp only
  try sl_unfold_words
  rw [View.canon_unit_zero hz, readCov_cons_unit_zero _ hz, View.readCov_unit_zero (S := S256x128) _ hz]
  simp only [View.readAt_eq_ld, harg2.read_unread, harg3.read_unread, harg4.read_unread, harg5.read_unread, harg6.read_unread, View.ld_unit_zero (S := S256x2048) hz, View.ld_unit_zero (S := S2048x128) hz, View.ld_unit_zero (S := S256x128) hz, View.ld_unit_zero (S := S128x128) hz]

end Cert.KernelIdeal.Val

end
-- ==== Proof.KIBlocks23.lean ====
/-
  The third and fourth regions' windows, as the first and second regions': each window's block at a grid point,
  read at one entry, is the window's array read at the block index times the block's extent plus the coordinate
  inside the block, with the index maps decided once over each grid.
-/
import proofs.«118190_j89781996355909_2_alg».proof.Proof.KI.R2Runs
import proofs.«118190_j89781996355909_2_alg».proof.Proof.KI.R3Runs
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable {F : FTy → Type} [FloatOps F]
variable (V : (c : Dev nD) → (b : Ref sig .tc) → Buf (Elt F) ((c : Thread nD τ).loc b))

/-! ## The index maps in closed form -/

theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0 :=
  (by decide +kernel : ∀ t : Fin grid2.N, _)

theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-! ## The third region's blocks -/

/-- Window 0's block at a point, read at an entry: the array where the block sits. -/
theorem iblk2_0_apply (c : Dev nD) (t : Fin cfg2.N) (a : Fin 1024) (b : Fin 4096) (r : Fin 2048) (s : Fin 16384)
    (hr : r.val = (t.val / 4) * 1024 + a.val) (hs : s.val = (t.val % 4) * 4096 + b.val) :
    (iblk2 V c 0 t : Vec F S1024x4096 .f32) (ix2 a b) = (V c main_arg23 : S2048x16384.Idx → Elt F .f32) (ix2 r s) := by
  have e := idx2 t
  unfold iblk2
  rw [View.read_apply]
  show V c main_arg23 _ = V c main_arg23 _
  congr 1
  funext d
  apply Fin.ext
  match d with
  | ⟨0, _⟩ => show win2_0.index t 0 * 1024 + 1 * a.val = r.val; rw [hr]; omega
  | ⟨1, _⟩ => show win2_0.index t 1 * 4096 + 1 * b.val = s.val; rw [hs]; omega

/-- Window 1's block at a point, read at an entry: the array where the block sits. -/
theorem iblk2_1_apply (c : Dev nD) (t : Fin cfg2.N) (a : Fin 4096) (b : Fin 256) (r : Fin 16384) (s : Fin 256)
    (hr : r.val = (t.val % 4) * 4096 + a.val) (hs : s.val = b.val) :
    (iblk2 V c 1 t : Vec F S4096x256 .f32) (ix2 a b) = (V c main_v61 : S16384x256.Idx → Elt F .f32) (ix2 r s) := by
  have e := idx2 t
  unfold iblk2
  rw [View.read_apply]
  show V c main_v61 _ = V c main_v61 _
  congr 1
  funext d
  apply Fin.ext
  match d with
  | ⟨0, _⟩ => show win2_1.index t 0 * 4096 + 1 * a.val = r.val; rw [hr]; omega
  | ⟨1, _⟩ => show win2_1.index t 1 * 256 + 1 * b.val = s.val; rw [hs]; omega

/-- Window 2's block at a point, read at an entry: the array where the block sits. -/
theorem iblk2_2_apply (c : Dev nD) (t : Fin cfg2.N) (a : Fin 1024) (b : Fin 256) (r : Fin 2048) (s : Fin 256)
    (hr : r.val = (t.val / 4) * 1024 + a.val) (hs : s.val = b.val) :
    (iblk2 V c 2 t : Vec F S1024x256 .f32) (ix2 a b) = (V c main_v75 : S2048x256.Idx → Elt F .f32) (ix2 r s) := by
  have e := idx2 t
  unfold iblk2
  rw [View.read_apply]
  show V c main_v75 _ = V c main_v75 _
  congr 1
  funext d
  apply Fin.ext
  match d with
  | ⟨0, _⟩ => show win2_2.index t 0 * 1024 + 1 * a.val = r.val; rw [hr]; omega
  | ⟨1, _⟩ => show win2_2.index t 1 * 256 + 1 * b.val = s.val; rw [hs]; omega

/-- Window 3's block at a point, read at an entry: the array where the block sits. -/
theorem iblk2_3_apply (c : Dev nD) (t : Fin cfg2.N) (a : Fin 256) (b : Fin 128) (r : Fin 256) (s : Fin 128)
    (hr : r.val = a.val) (hs : s.val = b.val) :
    (iblk2 V c 3 t : Vec F S256x128 .f32) (ix2 a b) = (V c main_v76 : S256x128.Idx → Elt F .f32) (ix2 r s) := by
  have e := idx2 t
  unfold iblk2
  rw [View.read_apply]
  show V c main_v76 _ = V c main_v76 _
  congr 1
  funext d
  apply Fin.ext
  match d with
  | ⟨0, _⟩ => show win2_3.index t 0 * 256 + 1 * a.val = r.val; rw [hr]; omega
  | ⟨1, _⟩ => show win2_3.index t 1 * 128 + 1 * b.val = s.val; rw [hs]; omega

/-- Window 4's block at a point, read at an entry: the array where the block sits. -/
theorem iblk2_4_apply (c : Dev nD) (t : Fin cfg2.N) (a : Fin 256) (b : Fin 128) (r : Fin 256) (s : Fin 128)
    (hr : r.val = a.val) (hs : s.val = b.val) :
    (iblk2 V c 4 t : Vec F S256x128 .f32) (ix2 a b) = (V c main_v77 : S256x128.Idx → Elt F .f32) (ix2 r s) := by
  have e := idx2 t
  unfold iblk2
  rw [View.read_apply]
  show V c main_v77 _ = V c main_v77 _
  congr 1
  funext d
  apply Fin.ext
  match d with
  | ⟨0, _⟩ => show win2_4.index t 0 * 256 + 1 * a.val = r.val; rw [hr]; omega
  | ⟨1, _⟩ => show win2_4.index t 1 * 128 + 1 * b.val = s.val; rw [hs]; omega

/-! ## The fourth region's blocks -/

/-- Window 0's block at a point, read at an entry: the array where the block sits. -/
theorem iblk3_0_apply (c : Dev nD) (t : Fin cfg3.N) (a : Fin 256) (b : Fin 2048) (r : Fin 512) (s : Fin 2048)
    (hr : r.val = t.val * 256 + a.val) (hs : s.val = b.val) :
    (iblk3 V c 0 t : Vec F S256x2048 .f32) (ix2 a b) = (V c main_arg26 : S512x2048.Idx → Elt F .f32) (ix2 r s) := by
  have e := idx3 t
  unfold iblk3
  rw [View.read_apply]
  show V c main_arg26 _ = V c main_arg26 _
  congr 1
  funext d
  apply Fin.ext
  match d with
  | ⟨0, _⟩ => show win3_0.index t 0 * 256 + 1 * a.val = r.val; rw [hr]; omega
  | ⟨1, _⟩ => show win3_0.index t 1 * 2048 + 1 * b.val = s.val; rw [hs]; omega

/-- Window 1's block at a point, read at an entry: the array where the block sits. -/
theorem iblk3_1_apply (c : Dev nD) (t : Fin cfg3.N) (a : Fin 2048) (b : Fin 128) (r : Fin 2048) (s : Fin 128)
    (hr : r.val = a.val) (hs : s.val = b.val) :
    (iblk3 V c 1 t : Vec F S2048x128 .f32) (ix2 a b) = (V c main_v85 : S2048x128.Idx → Elt F .f32) (ix2 r s) := by
  have e := idx3 t
  unfold iblk3
  rw [View.read_apply]
  show V c main_v85 _ = V c main_v85 _
  congr 1
  funext d
  apply Fin.ext
  match d with
  | ⟨0, _⟩ => show win3_1.index t 0 * 2048 + 1 * a.val = r.val; rw [hr]; omega
  | ⟨1, _⟩ => show win3_1.index t 1 * 128 + 1 * b.val = s.val; rw [hs]; omega

/-- Window 2's block at a point, read at an entry: the array where the block sits. -/
theorem iblk3_2_apply (c : Dev nD) (t : Fin cfg3.N) (a : Fin 256) (b : Fin 128) (r : Fin 512) (s : Fin 128)
    (hr : r.val = t.val * 256 + a.val) (hs : s.val = b.val) :
    (iblk3 V c 2 t : Vec F S256x128 .f32) (ix2 a b) = (V c main_v92 : S512x128.Idx → Elt F .f32) (ix2 r s) := by
  have e := idx3 t
  unfold iblk3
  rw [View.read_apply]
  show V c main_v92 _ = V c main_v92 _
  congr 1
  funext d
  apply Fin.ext
  match d with
  | ⟨0, _⟩ => show win3_2.index t 0 * 256 + 1 * a.val = r.val; rw [hr]; omega
  | ⟨1, _⟩ => show win3_2.index t 1 * 128 + 1 * b.val = s.val; rw [hs]; omega

/-- Window 3's block at a point, read at an entry: the array where the block sits. -/
theorem iblk3_3_apply (c : Dev nD) (t : Fin cfg3.N) (a : Fin 128) (b : Fin 128) (r : Fin 128) (s : Fin 128)
    (hr : r.val = a.val) (hs : s.val = b.val) :
    (iblk3 V c 3 t : Vec F S128x128 .f32) (ix2 a b) = (V c main_v93 : S128x128.Idx → Elt F .f32) (ix2 r s) := by
  have e := idx3 t
  unfold iblk3
  rw [View.read_apply]
  show V c main_v93 _ = V c main_v93 _
  congr 1
  funext d
  apply Fin.ext
  match d with
  | ⟨0, _⟩ => show win3_3.index t 0 * 128 + 1 * a.val = r.val; rw [hr]; omega
  | ⟨1, _⟩ => show win3_3.index t 1 * 128 + 1 * b.val = s.val; rw [hs]; omega

/-- Window 4's block at a point, read at an entry: the array where the block sits. -/
theorem iblk3_4_apply (c : Dev nD) (t : Fin cfg3.N) (a : Fin 128) (b : Fin 128) (r : Fin 128) (s : Fin 128)
    (hr : r.val = a.val) (hs : s.val = b.val) :
    (iblk3 V c 4 t : Vec F S128x128 .f32) (ix2 a b) = (V c main_v94 : S128x128.Idx → Elt F .f32) (ix2 r s) := by
  have e := idx3 t
  unfold iblk3
  rw [View.read_apply]
  show V c main_v94 _ = V c main_v94 _
  congr 1
  funext d
  apply Fin.ext
  match d with
  | ⟨0, _⟩ => show win3_4.index t 0 * 128 + 1 * a.val = r.val; rw [hr]; omega
  | ⟨1, _⟩ => show win3_4.index t 1 * 128 + 1 * b.val = s.val; rw [hs]; omega

end Cert.KernelIdeal.Val

end
-- ==== Proof.KIValue2.lean ====
/-
  What the third region leaves in its result array, entry by entry, over the extended reals.

  The region's grid is 2 row blocks by 4 contraction steps.  At step s of a row block the accumulator holds the
  running tile-by-tile sum of the mixing matrix's row against the source rows' column, through tile s; at the
  last step it holds the whole sum over the 16384 source rows, the result's block is the layer's value clipped
  below at zero, and it is written back to the rows of the result array the block stands for.  The four storing
  points' blocks cover the result array.
-/
import proofs.«118190_j89781996355909_2_alg».proof.Proof.KIPieces23
import proofs.«118190_j89781996355909_2_alg».proof.Proof.KIBlocks23
import proofs.«118190_j89781996355909_2_alg».proof.Proof.KIValue0
import proofs.«118190_j89781996355909_2_alg».proof.Proof.KIPayloads
import proofs.«118190_j89781996355909_2_alg».proof.Proof.KIAccMath
import proofs.«118190_j89781996355909_2_alg».proof.Proof.Spec
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Pay

variable (V : (c : Dev nD) → (b : Ref sig .tc) → Buf (Elt Ideal) ((c : Thread nD τ).loc b))

/-! ## The operands as functions of plain coordinates -/

abbrev dif2 (c : Dev nD) : Fin 2048 → Fin 16384 → EReal := fun r s => (V c main_arg23 : S2048x16384.Idx → EReal) (ix2 r s)
abbrev src2 (c : Dev nD) : Fin 16384 → Fin 256 → EReal := fun s k => (V c main_v61 : S16384x256.Idx → EReal) (ix2 s k)
abbrev dst2 (c : Dev nD) : Fin 2048 → Fin 256 → EReal := fun r k => (V c main_v75 : S2048x256.Idx → EReal) (ix2 r k)
abbrev wa2 (c : Dev nD) : Fin 256 → Fin 128 → EReal := fun k j => (V c main_v76 : S256x128.Idx → EReal) (ix2 k j)
abbrev wb2 (c : Dev nD) : Fin 256 → Fin 128 → EReal := fun k j => (V c main_v77 : S256x128.Idx → EReal) (ix2 k j)

/-! ## One step of the accumulation -/

/-- The accumulator's new value at a point, at an entry: what it held plus the point's tile of the long sum. -/
theorem accStep2 (c : Dev nD) (t : Fin cfg2.N) (xs0 : Vec Ideal S1024x256 .f32) (a : Fin 1024) (k : Fin 256) (r : Fin 2048)
    (hr : r.val = (t.val / 4) * 1024 + a.val) :
    k2_pay2 (F := Ideal) (iblk2 V c 0 t) (iblk2 V c 1 t) xs0 (ix2 a k) = xs0 (ix2 a k) + part (dif2 V c) (src2 V c) t.val r k := by
  refine (pay2_2_apply (iblk2 V c 0 t) (iblk2 V c 1 t) xs0 a k).trans ?_
  refine congrArg (xs0 (ix2 a k) + ·) ?_
  unfold part
  refine Finset.sum_congr rfl fun q _ => ?_
  exact congrArg₂ (· * ·) (iblk2_0_apply V c t a q r (colAt t.val q) hr (colAt_val t.val q))
    (iblk2_1_apply V c t q k (colAt t.val q) k (colAt_val t.val q) rfl)

/-- What a clearing point leaves in the accumulator, at an entry: zero plus the first tile. -/
theorem accA2 (c : Dev nD) (t : Fin cfg2.N) (h0 : t.val % 4 = 0) (a : Fin 1024) (k : Fin 256) (r : Fin 2048)
    (hr : r.val = (t.val / 4) * 1024 + a.val) :
    ((outsAt2 V c t.val t.isLt).2 : Vec Ideal S1024x256 .f32) (ix2 a k) = chain (dif2 V c) (src2 V c) 0 r k := by
  have h1 : ¬ t.val % 4 = 3 := by omega
  rw [outsAt2_A V c t h0 h1]
  dsimp only
  refine (congrFun (sout2_A_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) (ix2 a k)).trans ?_
  refine (accStep2 V c t (k2_pay1 (F := Ideal)) a k r hr).trans ?_
  exact congrArg₂ (· + ·) (pay2_1_apply a k) ((part_mod (dif2 V c) (src2 V c) t.val r k).trans (by rw [h0]))

/-- What an accumulating point leaves in the accumulator, at an entry, over whatever it held. -/
theorem soutB_at2 (c : Dev nD) (t : Fin cfg2.N) (hc0 : ¬cond2_0 (grid2.coords t)) (hc1 : ¬cond2_1 (grid2.coords t))
    (xs0 : Vec Ideal S1024x256 .f32) (a : Fin 1024) (k : Fin 256) (r : Fin 2048) (hr : r.val = (t.val / 4) * 1024 + a.val) :
    sout2_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) xs0 (ix2 a k)
      = xs0 (ix2 a k) + part (dif2 V c) (src2 V c) t.val r k :=
  (congrFun (sout2_B_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) xs0) (ix2 a k)).trans (accStep2 V c t xs0 a k r hr)

/-- What a storing point leaves in the accumulator, at an entry, over whatever it held. -/
theorem soutC_at2 (c : Dev nD) (t : Fin cfg2.N) (hc0 : ¬cond2_0 (grid2.coords t)) (hc1 : cond2_1 (grid2.coords t))
    (xs0 : Vec Ideal S1024x256 .f32) (a : Fin 1024) (k : Fin 256) (r : Fin 2048) (hr : r.val = (t.val / 4) * 1024 + a.val) :
    sout2_C (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) xs0 (ix2 a k)
      = xs0 (ix2 a k) + part (dif2 V c) (src2 V c) t.val r k :=
  (congrFun (sout2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) xs0) (ix2 a k)).trans (accStep2 V c t xs0 a k r hr)

/-! ## The accumulator after every point -/

/-- After position n the accumulator holds, at row a of the position's row block, the running sum through tile n mod 4. -/
theorem acc2_eq (c : Dev nD) (n : ℕ) : ∀ (hn : n < cfg2.N) (a : Fin 1024) (k : Fin 256) (r : Fin 2048),
    r.val = (n / 4) * 1024 + a.val →
    ((outsAt2 V c n hn).2 : Vec Ideal S1024x256 .f32) (ix2 a k) = chain (dif2 V c) (src2 V c) (n % 4) r k := by
  induction n with
  | zero => intro hn a k r hr; exact accA2 V c ⟨0, hn⟩ rfl a k r hr
  | succ n ih =>
    intro hn a k r hr
    by_cases h0 : (n + 1) % 4 = 0
    · rw [h0]; exact accA2 V c ⟨n + 1, hn⟩ h0 a k r hr
    · have hm : (n + 1) % 4 = n % 4 + 1 := by omega
      have hd : (n + 1) / 4 = n / 4 := by omega
      have hprev := ih (Nat.lt_of_succ_lt hn) a k r (by rw [← hd]; exact hr)
      have hR : chain (dif2 V c) (src2 V c) ((n + 1) % 4) r k
          = chain (dif2 V c) (src2 V c) (n % 4) r k + part (dif2 V c) (src2 V c) (n + 1) r k := by
        rw [part_mod (dif2 V c) (src2 V c) (n + 1) r k, hm, chain_succ]
      by_cases h1 : (n + 1) % 4 = 3
      · rw [outsAt2_C V c ⟨n + 1, hn⟩ h0 h1]
        dsimp only
        refine (soutC_at2 V c ⟨n + 1, hn⟩ _ _ _ a k r hr).trans ?_
        exact (congrArg (· + part (dif2 V c) (src2 V c) (n + 1) r k) hprev).trans hR.symm
      · rw [outsAt2_B V c ⟨n + 1, hn⟩ h0 h1]
        dsimp only
        refine (soutB_at2 V c ⟨n + 1, hn⟩ _ _ _ a k r hr).trans ?_
        exact (congrArg (· + part (dif2 V c) (src2 V c) (n + 1) r k) hprev).trans hR.symm

/-- At a storing point the accumulator holds the whole sum over the source rows. -/
theorem acc2_full (c : Dev nD) (t : Fin cfg2.N) (h1 : t.val % 4 = 3) (a : Fin 1024) (k : Fin 256) (r : Fin 2048)
    (hr : r.val = (t.val / 4) * 1024 + a.val) :
    ((outsAt2 V c t.val t.isLt).2 : Vec Ideal S1024x256 .f32) (ix2 a k) = ∑ s : Fin 16384, dif2 V c r s * src2 V c s k :=
  (acc2_eq V c t.val t.isLt a k r hr).trans (by rw [h1]; exact chain_three (dif2 V c) (src2 V c) r k)

/-! ## The result's block at a storing point -/

/-- The layer's value clipped below at zero, at a row and a column of the result array. -/
abbrev H2 (c : Dev nD) (r : Fin 2048) (j : Fin 128) : EReal :=
  max (Cert.Spec.layer (dif2 V c) (src2 V c) (dst2 V c) (wa2 V c) (wb2 V c) r j) 0

/-- What a storing point leaves in the result's buffer, at an entry, when the accumulator as just updated holds the whole sum. -/
theorem outC_at2 (c : Dev nD) (t : Fin cfg2.N) (hc0 : ¬cond2_0 (grid2.coords t)) (hc1 : cond2_1 (grid2.coords t))
    (xs0 : Vec Ideal S1024x256 .f32) (a : Fin 1024) (j : Fin 128) (r : Fin 2048) (hr : r.val = (t.val / 4) * 1024 + a.val)
    (hacc : ∀ k : Fin 256, k2_pay2 (F := Ideal) (iblk2 V c 0 t) (iblk2 V c 1 t) xs0 (ix2 a k) = ∑ s : Fin 16384, dif2 V c r s * src2 V c s k) :
    out2_C (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) xs0 (ix2 a j) = H2 V c r j := by
  refine (congrFun (out2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (iblk2 V c 4 t) xs0) (ix2 a j)).trans ?_
  refine (pay2_3_apply (k2_pay2 (F := Ideal) (iblk2 V c 0 t) (iblk2 V c 1 t) xs0) (iblk2 V c 2 t) (iblk2 V c 3 t) (iblk2 V c 4 t) a j).trans ?_
  refine congrArg (max · 0) ?_
  unfold Cert.Spec.layer
  refine congrArg₂ (· + ·) (Finset.sum_congr rfl fun k _ => ?_) (Finset.sum_congr rfl fun k _ => ?_)
  · exact congrArg₂ (· * ·) (hacc k) (iblk2_3_apply V c t k j k j rfl rfl)
  · exact congrArg₂ (· * ·) (iblk2_2_apply V c t a k r k hr rfl) (iblk2_4_apply V c t k j k j rfl rfl)

/-- The result's block after a storing point, at an entry: the layer's clipped value at the block's row. -/
theorem out2_val (c : Dev nD) (t : Fin cfg2.N) (h1 : t.val % 4 = 3) (a : Fin 1024) (j : Fin 128) (r : Fin 2048)
    (hr : r.val = (t.val / 4) * 1024 + a.val) :
    ((outsAt2 V c t.val t.isLt).1 : Vec Ideal S1024x128 .f32) (ix2 a j) = H2 V c r j := by
  have h0 : ¬ t.val % 4 = 0 := by omega
  have hacc := fun k : Fin 256 => acc2_full V c t h1 a k r hr
  rw [outsAt2_C V c t h0 h1] at hacc ⊢
  dsimp only at hacc ⊢
  refine outC_at2 V c t _ _ _ a j r hr (fun k => ?_)
  refine Eq.trans ?_ (hacc k)
  exact (congrFun (sout2_C_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) _ _ (iblk2 V c 0 t) (iblk2 V c 1 t) (iblk2 V c 2 t) (iblk2 V c 3 t) (iblk2 V c 4 t) _) (ix2 a k)).symm

/-! ## From the blocks to the result array -/

/-- The result array, whole: the layer's clipped value at every row and column. -/
def G2 (c : Dev nD) : Buf (Elt Ideal) ((c : Thread nD τ).loc main_v78) :=
  (fun i => H2 V c ⟨(i 0).val, (i 0).isLt⟩ ⟨(i 1).val, (i 1).isLt⟩ : S2048x128.Idx → EReal)

theorem G2_apply (c : Dev nD) (r : Fin 2048) (j : Fin 128) : (G2 V c : S2048x128.Idx → EReal) (ix2 r j) = H2 V c r j := rfl

/-- What a storing point writes back is its block of the whole result array. -/
theorem flushed2_eq (c : Dev nD) (t : Fin cfg2.N) (hf : (cfg2.win 5).flush t = true) :
    (dat2 (F := Ideal) V c).flushed 5 t = ((cfg2.win 5).blk t).view.read (Elt Ideal) (G2 V c) := by
  have h1 : t.val % 4 = 3 := (flush2_5 t).mp hf
  have hN : t.val < 8 := lt_of_lt_of_eq t.isLt N_2
  obtain ⟨-, -, -, -, -, -, -, -, -, -, e50, e51⟩ := idx2 t
  show (cfg2.win 5).cut (grid2.coords t) ((dat2 (F := Ideal) V c).after 5 t) = _
  rw [after2_5]
  funext y
  have hy0 : (y 0).val < 1024 := (y 0).isLt
  have hy1 : (y 1).val < 128 := (y 1).isLt
  have key := out2_val V c t h1 ⟨(y 0).val, hy0⟩ ⟨(y 1).val, hy1⟩ ⟨(t.val / 4) * 1024 + (y 0).val, by omega⟩ rfl
  have ey : (ix2 (⟨(y 0).val, hy0⟩ : Fin 1024) (⟨(y 1).val, hy1⟩ : Fin 128) : S1024x128.Idx) = y := by
    funext d; match d with | ⟨0, _⟩ => rfl | ⟨1, _⟩ => rfl
  rw [ey] at key
  refine key.trans ?_
  show H2 V c _ _ = H2 V c ⟨((((cfg2.win 5).blk t).view.emb y) 0).val, _⟩ ⟨((((cfg2.win 5).blk t).view.emb y) 1).val, _⟩
  refine congrArg₂ (H2 V c) (Fin.ext ?_) (Fin.ext ?_)
  · show (t.val / 4) * 1024 + (y 0).val = win2_5.index t (0 : Fin 2) * 1024 + 1 * (y 0).val
    rw [e50]; omega
  · show (y 1).val = win2_5.index t (1 : Fin 2) * 128 + 1 * (y 1).val
    rw [e51]; omega

/-- An index of the result array is in a point's block exactly when each coordinate is in the block's range. -/
theorem mem_blk2 (t : Fin cfg2.N) (i : S2048x128.Idx) :
    i ∈ ((cfg2.win 5).blk t).view.set ↔ ∀ a : Fin 2, win2_5.index t a * S1024x128.size a ≤ (i a).val ∧ (i a).val < win2_5.index t a * S1024x128.size a + S1024x128.size a := by
  show i ∈ ((View.whole main_v78).slice (win2_5.rect t)).set ↔ _
  rw [View.set_slice_whole, Rect.mem_set_unit]
  exact Iff.rfl

/-- Row r of the result array is written back by the storing point of its row block. -/
theorem cover2 (i : S2048x128.Idx) : ∃ t : Fin cfg2.N, (cfg2.win 5).flush t = true ∧ i ∈ ((cfg2.win 5).blk t).view.set := by
  have hi0 : (i 0).val < 2048 := (i 0).isLt
  have hi1 : (i 1).val < 128 := (i 1).isLt
  have hN : cfg2.N = 8 := N_2
  obtain ⟨t, htv⟩ : ∃ t : Fin cfg2.N, t.val = ((i 0).val / 1024) * 4 + 3 := ⟨⟨((i 0).val / 1024) * 4 + 3, by rw [hN]; omega⟩, rfl⟩
  obtain ⟨-, -, -, -, -, -, -, -, -, -, e50, e51⟩ := idx2 t
  refine ⟨t, (flush2_5 t).mpr (by rw [htv]; omega), ?_⟩
  rw [mem_blk2]
  intro a
  match a with
  | ⟨0, _⟩ =>
    show win2_5.index t (0 : Fin 2) * 1024 ≤ (i 0).val ∧ (i 0).val < win2_5.index t (0 : Fin 2) * 1024 + 1024
    rw [e50, htv]; omega
  | ⟨1, _⟩ =>
    show win2_5.index t (1 : Fin 2) * 128 ≤ (i 1).val ∧ (i 1).val < win2_5.index t (1 : Fin 2) * 128 + 128
    rw [e51]; omega

/-- The result array after the region: the layer's clipped value everywhere. -/
theorem final2_arr (c : Dev nD) : (dat2 (F := Ideal) V c).arrAt 5 cfg2.N = G2 V c :=
  (dat2 (F := Ideal) V c).arrAt_eq_of_cover 5 (G2 V c) (flushed2_eq V c) (cover2)

/-- The same at an entry, with the operands spelt out. -/
theorem final2 (c : Dev nD) (r : Fin 2048) (j : Fin 128) :
    ((dat2 (F := Ideal) V c).arrAt 5 cfg2.N : S2048x128.Idx → EReal) (ix2 r j)
      = max (Cert.Spec.layer (fun r s => (V c main_arg23 : S2048x16384.Idx → EReal) (ix2 r s))
          (fun s k => (V c main_v61 : S16384x256.Idx → EReal) (ix2 s k))
          (fun r k => (V c main_v75 : S2048x256.Idx → EReal) (ix2 r k))
          (fun k j => (V c main_v76 : S256x128.Idx → EReal) (ix2 k j))
          (fun k j => (V c main_v77 : S256x128.Idx → EReal) (ix2 k j)) r j) 0 := by
  rw [final2_arr V c]
  exact G2_apply V c r j

end Cert.KernelIdeal.Val

end
-- ==== Proof.KIValue3.lean ====
/-
  What the fourth region leaves in its result array, entry by entry, over the extended reals.

  The region's grid is 2 row blocks with one contraction step each: every point clears the accumulator, adds
  the whole product of the mixing matrix's row block with the source rows to it, and stores the layer's value
  for its 256 rows, which is written back to those rows of the result array.  The two blocks cover the array.
-/
import proofs.«118190_j89781996355909_2_alg».proof.Proof.KIPieces23
import proofs.«118190_j89781996355909_2_alg».proof.Proof.KIBlocks23
import proofs.«118190_j89781996355909_2_alg».proof.Proof.KIPayloads
import proofs.«118190_j89781996355909_2_alg».proof.Proof.Spec
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Pay

variable (V : (c : Dev nD) → (b : Ref sig .tc) → Buf (Elt Ideal) ((c : Thread nD τ).loc b))

/-! ## The operands as functions of plain coordinates -/

abbrev dif3 (c : Dev nD) : Fin 512 → Fin 2048 → EReal := fun b s => (V c main_arg26 : S512x2048.Idx → EReal) (ix2 b s)
abbrev src3 (c : Dev nD) : Fin 2048 → Fin 128 → EReal := fun s k => (V c main_v85 : S2048x128.Idx → EReal) (ix2 s k)
abbrev dst3 (c : Dev nD) : Fin 512 → Fin 128 → EReal := fun b k => (V c main_v92 : S512x128.Idx → EReal) (ix2 b k)
abbrev wa3 (c : Dev nD) : Fin 128 → Fin 128 → EReal := fun k j => (V c main_v93 : S128x128.Idx → EReal) (ix2 k j)
abbrev wb3 (c : Dev nD) : Fin 128 → Fin 128 → EReal := fun k j => (V c main_v94 : S128x128.Idx → EReal) (ix2 k j)

/-- The layer's value at a row and a column of the result array. -/
abbrev H3 (c : Dev nD) (b : Fin 512) (j : Fin 128) : EReal :=
  Cert.Spec.layer (dif3 V c) (src3 V c) (dst3 V c) (wa3 V c) (wb3 V c) b j

/-! ## The result's block at a point -/

/-- The cleared accumulator plus the point's product, at an entry: the whole sum over the source rows. -/
theorem acc3_at (c : Dev nD) (t : Fin cfg3.N) (a : Fin 256) (k : Fin 128) (b : Fin 512) (hb : b.val = t.val * 256 + a.val) :
    k3_pay2 (F := Ideal) (iblk3 V c 0 t) (iblk3 V c 1 t) (k3_pay1 (F := Ideal)) (ix2 a k) = ∑ s : Fin 2048, dif3 V c b s * src3 V c s k := by
  refine (pay3_2_apply (iblk3 V c 0 t) (iblk3 V c 1 t) (k3_pay1 (F := Ideal)) a k).trans ?_
  refine (congrArg (· + _) (pay3_1_apply a k)).trans ?_
  refine (zero_add _).trans ?_
  refine Finset.sum_congr rfl fun q _ => ?_
  exact congrArg₂ (· * ·) (iblk3_0_apply V c t a q b q hb rfl) (iblk3_1_apply V c t q k q k rfl rfl)

/-- What a point leaves in the result's buffer, at an entry: the layer's value at the block's row. -/
theorem out3_val (c : Dev nD) (t : Fin cfg3.N) (a : Fin 256) (j : Fin 128) (b : Fin 512) (hb : b.val = t.val * 256 + a.val) :
    (outAt3 (F := Ideal) V c t : Vec Ideal S256x128 .f32) (ix2 a j) = H3 V c b j := by
  unfold outAt3
  refine (congrFun (out3_D_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (hcond3_0 t) (hcond3_1 t) (iblk3 V c 0 t) (iblk3 V c 1 t) (iblk3 V c 2 t) (iblk3 V c 3 t) (iblk3 V c 4 t)) (ix2 a j)).trans ?_
  refine (pay3_3_apply (k3_pay2 (F := Ideal) (iblk3 V c 0 t) (iblk3 V c 1 t) (k3_pay1 (F := Ideal))) (iblk3 V c 2 t) (iblk3 V c 3 t) (iblk3 V c 4 t) a j).trans ?_
  show _ = (∑ k : Fin 128, (∑ s : Fin 2048, dif3 V c b s * src3 V c s k) * wa3 V c k j) + ∑ k : Fin 128, dst3 V c b k * wb3 V c k j
  refine congrArg₂ (· + ·) (Finset.sum_congr rfl fun k _ => ?_) (Finset.sum_congr rfl fun k _ => ?_)
  · exact congrArg₂ (· * ·) (acc3_at V c t a k b hb) (iblk3_3_apply V c t k j k j rfl rfl)
  · exact congrArg₂ (· * ·) (iblk3_2_apply V c t a k b k hb rfl) (iblk3_4_apply V c t k j k j rfl rfl)

/-! ## From the blocks to the result array -/

/-- The result array, whole: the layer's value at every row and column. -/
def G3 (c : Dev nD) : Buf (Elt Ideal) ((c : Thread nD τ).loc main_v95) :=
  (fun i => H3 V c ⟨(i 0).val, (i 0).isLt⟩ ⟨(i 1).val, (i 1).isLt⟩ : S512x128.Idx → EReal)

theorem G3_apply (c : Dev nD) (b : Fin 512) (j : Fin 128) : (G3 V c : S512x128.Idx → EReal) (ix2 b j) = H3 V c b j := rfl

/-- What a point writes back is its block of the whole result array. -/
theorem flushed3_eq (c : Dev nD) (t : Fin cfg3.N) (hf : (cfg3.win 5).flush t = true) :
    (dat3 (F := Ideal) V c).flushed 5 t = ((cfg3.win 5).blk t).view.read (Elt Ideal) (G3 V c) := by
  have hN : t.val < 2 := lt_of_lt_of_eq t.isLt N_3
  obtain ⟨-, -, -, -, -, -, -, -, -, -, e50, e51⟩ := idx3 t
  show (cfg3.win 5).cut (grid3.coords t) ((dat3 (F := Ideal) V c).after 5 t) = _
  rw [after3_5]
  funext y
  have hy0 : (y 0).val < 256 := (y 0).isLt
  have hy1 : (y 1).val < 128 := (y 1).isLt
  have key := out3_val V c t ⟨(y 0).val, hy0⟩ ⟨(y 1).val, hy1⟩ ⟨t.val * 256 + (y 0).val, by omega⟩ rfl
  have ey : (ix2 (⟨(y 0).val, hy0⟩ : Fin 256) (⟨(y 1).val, hy1⟩ : Fin 128) : S256x128.Idx) = y := by
    funext d; match d with | ⟨0, _⟩ => rfl | ⟨1, _⟩ => rfl
  rw [ey] at key
  refine key.trans ?_
  show H3 V c _ _ = H3 V c ⟨((((cfg3.win 5).blk t).view.emb y) 0).val, _⟩ ⟨((((cfg3.win 5).blk t).view.emb y) 1).val, _⟩
  refine congrArg₂ (H3 V c) (Fin.ext ?_) (Fin.ext ?_)
  · show t.val * 256 + (y 0).val = win3_5.index t (0 : Fin 2) * 256 + 1 * (y 0).val
    rw [e50]; omega
  · show (y 1).val = win3_5.index t (1 : Fin 2) * 128 + 1 * (y 1).val
    rw [e51]; omega

/-- An index of the result array is in a point's block exactly when each coordinate is in the block's range. -/
theorem mem_blk3 (t : Fin cfg3.N) (i : S512x128.Idx) :
    i ∈ ((cfg3.win 5).blk t).view.set ↔ ∀ a : Fin 2, win3_5.index t a * S256x128.size a ≤ (i a).val ∧ (i a).val < win3_5.index t a * S256x128.size a + S256x128.size a := by
  show i ∈ ((View.whole main_v95).slice (win3_5.rect t)).set ↔ _
  rw [View.set_slice_whole, Rect.mem_set_unit]
  exact Iff.rfl

/-- Row b of the result array is written back by the point of its row block. -/
theorem cover3 (i : S512x128.Idx) : ∃ t : Fin cfg3.N, (cfg3.win 5).flush t = true ∧ i ∈ ((cfg3.win 5).blk t).view.set := by
  have hi0 : (i 0).val < 512 := (i 0).isLt
  have hi1 : (i 1).val < 128 := (i 1).isLt
  have hN : cfg3.N = 2 := N_3
  obtain ⟨t, htv⟩ : ∃ t : Fin cfg3.N, t.val = (i 0).val / 256 := ⟨⟨(i 0).val / 256, by rw [hN]; omega⟩, rfl⟩
  obtain ⟨-, -, -, -, -, -, -, -, -, -, e50, e51⟩ := idx3 t
  refine ⟨t, flush3_5 t, ?_⟩
  rw [mem_blk3]
  intro a
  match a with
  | ⟨0, _⟩ =>
    show win3_5.index t (0 : Fin 2) * 256 ≤ (i 0).val ∧ (i 0).val < win3_5.index t (0 : Fin 2) * 256 + 256
    rw [e50, htv]; omega
  | ⟨1, _⟩ =>
    show win3_5.index t (1 : Fin 2) * 128 ≤ (i 1).val ∧ (i 1).val < win3_5.index t (1 : Fin 2) * 128 + 128
    rw [e51]; omega

/-- The result array after the region: the layer's value everywhere. -/
theorem final3_arr (c : Dev nD) : (dat3 (F := Ideal) V c).arrAt 5 cfg3.N = G3 V c :=
  (dat3 (F := Ideal) V c).arrAt_eq_of_cover 5 (G3 V c) (flushed3_eq V c) (cover3)

/-- The same at an entry, with the operands spelt out. -/
theorem final3 (c : Dev nD) (b : Fin 512) (j : Fin 128) :
    ((dat3 (F := Ideal) V c).arrAt 5 cfg3.N : S512x128.Idx → EReal) (ix2 b j)
      = Cert.Spec.layer (fun b s => (V c main_arg26 : S512x2048.Idx → EReal) (ix2 b s))
          (fun s k => (V c main_v85 : S2048x128.Idx → EReal) (ix2 s k))
          (fun b k => (V c main_v92 : S512x128.Idx → EReal) (ix2 b k))
          (fun k j => (V c main_v93 : S128x128.Idx → EReal) (ix2 k j))
          (fun k j => (V c main_v94 : S128x128.Idx → EReal) (ix2 k j)) b j := by
  rw [final3_arr V c]
  exact G3_apply V c b j

end Cert.KernelIdeal.Val

end
-- ==== Proof.LibSlice2.lean ====
/-
  A rectangular cut of a matrix, read at an index: entry (a, b) of the cut that starts at row o₀ and column o₁ is
  entry (o₀ + a, o₁ + b) of the matrix.
-/
import Idealize.ShloMosaic.Lib.ValueIdx
import Idealize.ShloMosaic.Lib.Pipeline.Value

namespace LibSlice2

open Idealize.ShloMosaic Idealize.ShloMosaic.ValueIdx

variable {α : Type}

/-- A matrix cut from (o₀, o₁) reads, at (a, b), the matrix at (a', b') with a' = o₀ + a and b' = o₁ + b. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩)
    (a : Fin m0) (b : Fin m1) (a' : Fin n0) (b' : Fin n1) (ha : a'.val = o0 + a.val) (hb : b'.val = o1 + b.val) :
    extractStridedSlice ⟨2, ![m0, m1]⟩ ![o0, o1] X h (ix2 a b) = X (ix2 a' b') :=
  extractStridedSlice_apply _ _ _ _ _ (fun ax => by
    match ax with
    | ⟨0, _⟩ => exact ha
    | ⟨1, _⟩ => exact hb)

end LibSlice2
-- ==== Proof.Glue0.lean ====
/-
  What the host operations before each kernel call hand the call, entry by entry, over the extended reals:
  the looked-up source and target rows, the two halves of the weights, and the mixing matrix.
-/
import proofs.«118190_j89781996355909_2_alg».proof.Proof.Gen.KernelIdeal.Regions
import proofs.«118190_j89781996355909_2_alg».proof.Proof.Spec
import proofs.«118190_j89781996355909_2_alg».proof.Proof.LibSlice2
import Idealize.ShloMosaic.Lib.StableHlo.Run

set_option maxRecDepth 16384

noncomputable section

namespace Cert.KernelIdeal.Glue

open Idealize.ShloMosaic Idealize.ShloMosaic.TcCoe Idealize.ShloMosaic.ValueIdx
open Cert.KernelIdeal Cert.KernelIdeal.Gen LibGatherScatter

/-- A list of signed row numbers, each negative one counted from the end of a table of `n` rows, laid out as a
    column: entry (e, 0) of the column is the e-th row number, wrapped. -/
theorem wrapCol_apply {E : Nat} (hb0 : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2)) (n : BitVec 32)
    (v : IVec ⟨1, ![E]⟩ 32) (e : Fin E) :
    broadcastInDim ⟨2, ![E, 1]⟩ ![0] hb
        (select (cmpi .slt v (broadcastInDim ⟨1, ![E]⟩ ![] hb0 (constantI ⟨0, ![]⟩ 32 0#32)))
          (addi v (broadcastInDim ⟨1, ![E]⟩ ![] hb0 (constantI ⟨0, ![]⟩ 32 n))) v) (ix2 e (0 : Fin 1))
      = Cert.Spec.wrap n (v (ix1 e)) := by
  rw [broadcastInDim_apply _ _ _ (ix2 e (0 : Fin 1)) (ix1 e) ?_]
  · rfl
  · intro a
    obtain rfl : a = 0 := Subsingleton.elim _ _
    show e.val = if E = 1 then 0 else e.val
    split
    · rename_i h; subst h; omega
    · rfl

/-! ## Before the first call of the first branch -/

section Host0
variable (W : Valuation τ sig (Elt Ideal))

/-- The source rows: entry (e, k) is entry k of the feature-table row that position e names through the node numbers. -/
theorem host0_src (e : Fin 16384) (k : Fin 256) :
    (StableHlo.after hostOps0 W main_v13 : S16384x256.Idx → EReal) (ix2 e k)
      = (W main_arg0 : S100000x256.Idx → EReal) (ix2 (Cert.Spec.nodeRow (W main_arg13) (W main_arg14) e) k) := by
  dsimp only [hostOps0]
  after_results_simp
  rw [show gather_S100000x256_S16384x1_S16384x256_1_0_n_n_0_1_1256
        = rowsDims 100000 16384 256 Facts₀.gather_S100000x256_S16384x1_S16384x256_1_0_n_n_0_1_1256_wf from rfl,
    gather_rows_apply (by decide), wrapCol_apply,
    show gather_S16384_S16384x1_S16384_n_0_n_n_0_1_1
        = vecDims 16384 16384 Facts₀.gather_S16384_S16384x1_S16384_n_0_n_n_0_1_1_wf from rfl,
    gather_vec_apply (by decide), wrapCol_apply]
  rfl

/-- The target rows: entry (r, k) is entry k of the feature-table row that target position r names. -/
theorem host0_dst (r : Fin 2048) (k : Fin 256) :
    (StableHlo.after hostOps0 W main_v27 : S2048x256.Idx → EReal) (ix2 r k)
      = (W main_arg0 : S100000x256.Idx → EReal) (ix2 (Cert.Spec.nodeRow (W main_arg13) (W main_arg15) r) k) := by
  dsimp only [hostOps0]
  after_results_simp
  rw [show gather_S100000x256_S2048x1_S2048x256_1_0_n_n_0_1_1256
        = rowsDims 100000 2048 256 Facts₀.gather_S100000x256_S2048x1_S2048x256_1_0_n_n_0_1_1256_wf from rfl,
    gather_rows_apply (by decide), wrapCol_apply,
    show gather_S16384_S2048x1_S2048_n_0_n_n_0_1_1
        = vecDims 16384 2048 Facts₀.gather_S16384_S2048x1_S2048_n_0_n_n_0_1_1_wf from rfl,
    gather_vec_apply (by decide), wrapCol_apply]
  rfl

/-- The upper half of the first layer's weights. -/
theorem host0_wa (k : Fin 256) (j : Fin 128) :
    (StableHlo.after hostOps0 W main_v28 : S256x128.Idx → EReal) (ix2 k j)
      = (W main_arg1 : S512x128.Idx → EReal) (ix2 (⟨k.val, by omega⟩ : Fin 512) j) := by
  dsimp only [hostOps0]
  after_results_simp
  exact LibSlice2.slice2_apply 0 0 _ _ k j _ j (by simp) (by simp)

/-- The lower half of the first layer's weights. -/
theorem host0_wb (k : Fin 256) (j : Fin 128) :
    (StableHlo.after hostOps0 W main_v29 : S256x128.Idx → EReal) (ix2 k j)
      = (W main_arg1 : S512x128.Idx → EReal) (ix2 (⟨256 + k.val, by omega⟩ : Fin 512) j) := by
  dsimp only [hostOps0]
  after_results_simp
  exact LibSlice2.slice2_apply 256 0 _ _ k j _ j (by simp) (by simp)

end Host0

section Glue0
variable (m : (ℓ : Loc nD τ sig) → Buf (Elt Ideal) ℓ) (c : Dev nD)

theorem glue0_src (e : Fin 16384) (k : Fin 256) :
    (V1 m c main_v13 : S16384x256.Idx → EReal) (ix2 e k)
      = (m ((c : Thread nD τ).loc main_arg0) : S100000x256.Idx → EReal)
          (ix2 (Cert.Spec.nodeRow (m ((c : Thread nD τ).loc main_arg13)) (m ((c : Thread nD τ).loc main_arg14)) e) k) :=
  host0_src (V0 m c) e k

theorem glue0_src_fun :
    (V1 m c main_v13 : S16384x256.Idx → EReal)
      = fun i => (m ((c : Thread nD τ).loc main_arg0) : S100000x256.Idx → EReal)
          (ix2 (Cert.Spec.nodeRow (m ((c : Thread nD τ).loc main_arg13)) (m ((c : Thread nD τ).loc main_arg14))
            (⟨(i 0).val, (i 0).isLt⟩ : Fin 16384)) (⟨(i 1).val, (i 1).isLt⟩ : Fin 256)) := by
  funext i
  rw [eq_ix2 i]
  exact glue0_src m c (i 0) (i 1)

theorem glue0_dst (r : Fin 2048) (k : Fin 256) :
    (V1 m c main_v27 : S2048x256.Idx → EReal) (ix2 r k)
      = (m ((c : Thread nD τ).loc main_arg0) : S100000x256.Idx → EReal)
          (ix2 (Cert.Spec.nodeRow (m ((c : Thread nD τ).loc main_arg13)) (m ((c : Thread nD τ).loc main_arg15)) r) k) :=
  host0_dst (V0 m c) r k

theorem glue0_dst_fun :
    (V1 m c main_v27 : S2048x256.Idx → EReal)
      = fun i => (m ((c : Thread nD τ).loc main_arg0) : S100000x256.Idx → EReal)
          (ix2 (Cert.Spec.nodeRow (m ((c : Thread nD τ).loc main_arg13)) (m ((c : Thread nD τ).loc main_arg15))
            (⟨(i 0).val, (i 0).isLt⟩ : Fin 2048)) (⟨(i 1).val, (i 1).isLt⟩ : Fin 256)) := by
  funext i
  rw [eq_ix2 i]
  exact glue0_dst m c (i 0) (i 1)

theorem glue0_wa (k : Fin 256) (j : Fin 128) :
    (V1 m c main_v28 : S256x128.Idx → EReal) (ix2 k j)
      = (m ((c : Thread nD τ).loc main_arg1) : S512x128.Idx → EReal) (ix2 (⟨k.val, by omega⟩ : Fin 512) j) :=
  host0_wa (V0 m c) k j

theorem glue0_wb (k : Fin 256) (j : Fin 128) :
    (V1 m c main_v29 : S256x128.Idx → EReal) (ix2 k j)
      = (m ((c : Thread nD τ).loc main_arg1) : S512x128.Idx → EReal) (ix2 (⟨256 + k.val, by omega⟩ : Fin 512) j) :=
  host0_wb (V0 m c) k j

theorem glue0_dif : V1 m c main_arg16 = m ((c : Thread nD τ).loc main_arg16) :=
  V1_of m c main_arg16 (by decide)

end Glue0

end Cert.KernelIdeal.Glue
end
-- ==== Proof.Glue1.lean ====
/-
  What the host operations before each branch's second kernel call hand the call, entry by entry, over the
  extended reals: rows of the first call's result looked up at two lists of row numbers, and the two halves of the
  second layer's weights.
-/
import proofs.«118190_j89781996355909_2_alg».proof.Proof.Glue0

set_option maxRecDepth 16384

noncomputable section

namespace Cert.KernelIdeal.Glue

open Idealize.ShloMosaic Idealize.ShloMosaic.TcCoe Idealize.ShloMosaic.ValueIdx
open Cert.KernelIdeal Cert.KernelIdeal.Gen LibGatherScatter

/-! ## Before the second call of the first branch -/

section Host1
variable (W : Valuation τ sig (Elt Ideal))

/-- The source rows: entry (s, k) is entry k of the first layer's row that row number s names. -/
theorem host1_src (s : Fin 2048) (k : Fin 128) :
    (StableHlo.after hostOps1 W main_v37 : S2048x128.Idx → EReal) (ix2 s k)
      = (W main_v30 : S2048x128.Idx → EReal) (ix2 (Cert.Spec.rowAt (N := 2048) (by decide) 2048#32 (W main_arg17) s) k) := by
  dsimp only [hostOps1]
  after_results_simp
  rw [show gather_S2048x128_S2048x1_S2048x128_1_0_n_n_0_1_1128
        = rowsDims 2048 2048 128 Facts₀.gather_S2048x128_S2048x1_S2048x128_1_0_n_n_0_1_1128_wf from rfl,
    gather_rows_apply (by decide), wrapCol_apply]
  rfl

/-- The target rows: entry (b, k) is entry k of the first layer's row that target row number b names. -/
theorem host1_dst (b : Fin 512) (k : Fin 128) :
    (StableHlo.after hostOps1 W main_v44 : S512x128.Idx → EReal) (ix2 b k)
      = (W main_v30 : S2048x128.Idx → EReal) (ix2 (Cert.Spec.rowAt (N := 2048) (by decide) 2048#32 (W main_arg18) b) k) := by
  dsimp only [hostOps1]
  after_results_simp
  rw [show gather_S2048x128_S512x1_S512x128_1_0_n_n_0_1_1128
        = rowsDims 2048 512 128 Facts₀.gather_S2048x128_S512x1_S512x128_1_0_n_n_0_1_1128_wf from rfl,
    gather_rows_apply (by decide), wrapCol_apply]
  rfl

/-- The upper half of the second layer's weights. -/
theorem host1_wa (k : Fin 128) (j : Fin 128) :
    (StableHlo.after hostOps1 W main_v45 : S128x128.Idx → EReal) (ix2 k j)
      = (W main_arg2 : S256x128.Idx → EReal) (ix2 (⟨k.val, by omega⟩ : Fin 256) j) := by
  dsimp only [hostOps1]
  after_results_simp
  exact LibSlice2.slice2_apply 0 0 _ _ k j _ j (by simp) (by simp)

/-- The lower half of the second layer's weights. -/
theorem host1_wb (k : Fin 128) (j : Fin 128) :
    (StableHlo.after hostOps1 W main_v46 : S128x128.Idx → EReal) (ix2 k j)
      = (W main_arg2 : S256x128.Idx → EReal) (ix2 (⟨128 + k.val, by omega⟩ : Fin 256) j) := by
  dsimp only [hostOps1]
  after_results_simp
  exact LibSlice2.slice2_apply 128 0 _ _ k j _ j (by simp) (by simp)

end Host1

section Glue1
variable (m : (ℓ : Loc nD τ sig) → Buf (Elt Ideal) ℓ) (outs : Outs (F := Ideal)) (c : Dev nD)

/-- What the first call left is what the second call's lookups read. -/
theorem V2_main_v30 : V2 m outs c main_v30 = outs 2 main_v30 c := Function.update_self _ _ _

theorem V2_main_arg17 : V2 m outs c main_arg17 = m ((c : Thread nD τ).loc main_arg17) :=
  (V2_of m outs c main_arg17 (by decide)).trans <| (V1_of m c main_arg17 (by decide))

theorem V2_main_arg18 : V2 m outs c main_arg18 = m ((c : Thread nD τ).loc main_arg18) :=
  (V2_of m outs c main_arg18 (by decide)).trans <| (V1_of m c main_arg18 (by decide))

theorem V2_main_arg2 : V2 m outs c main_arg2 = m ((c : Thread nD τ).loc main_arg2) :=
  (V2_of m outs c main_arg2 (by decide)).trans <| (V1_of m c main_arg2 (by decide))

theorem V2_main_arg19 : V2 m outs c main_arg19 = m ((c : Thread nD τ).loc main_arg19) :=
  (V2_of m outs c main_arg19 (by decide)).trans <| (V1_of m c main_arg19 (by decide))

theorem glue1_src (s : Fin 2048) (k : Fin 128) :
    (V3 m outs c main_v37 : S2048x128.Idx → EReal) (ix2 s k)
      = (outs 2 main_v30 c : S2048x128.Idx → EReal)
          (ix2 (Cert.Spec.rowAt (N := 2048) (by decide) 2048#32 (m ((c : Thread nD τ).loc main_arg17)) s) k) := by
  have h := host1_src (V2 m outs c) s k
  rw [V2_main_v30, V2_main_arg17] at h
  exact h

theorem glue1_src_fun :
    (V3 m outs c main_v37 : S2048x128.Idx → EReal)
      = fun i => (outs 2 main_v30 c : S2048x128.Idx → EReal)
          (ix2 (Cert.Spec.rowAt (N := 2048) (by decide) 2048#32 (m ((c : Thread nD τ).loc main_arg17))
            (⟨(i 0).val, (i 0).isLt⟩ : Fin 2048)) (⟨(i 1).val, (i 1).isLt⟩ : Fin 128)) := by
  funext i
  rw [eq_ix2 i]
  exact glue1_src m outs c (i 0) (i 1)

theorem glue1_dst (b : Fin 512) (k : Fin 128) :
    (V3 m outs c main_v44 : S512x128.Idx → EReal) (ix2 b k)
      = (outs 2 main_v30 c : S2048x128.Idx → EReal)
          (ix2 (Cert.Spec.rowAt (N := 2048) (by decide) 2048#32 (m ((c : Thread nD τ).loc main_arg18)) b) k) := by
  have h := host1_dst (V2 m outs c) b k
  rw [V2_main_v30, V2_main_arg18] at h
  exact h

theorem glue1_dst_fun :
    (V3 m outs c main_v44 : S512x128.Idx → EReal)
      = fun i => (outs 2 main_v30 c : S2048x128.Idx → EReal)
          (ix2 (Cert.Spec.rowAt (N := 2048) (by decide) 2048#32 (m ((c : Thread nD τ).loc main_arg18))
            (⟨(i 0).val, (i 0).isLt⟩ : Fin 512)) (⟨(i 1).val, (i 1).isLt⟩ : Fin 128)) := by
  funext i
  rw [eq_ix2 i]
  exact glue1_dst m outs c (i 0) (i 1)

theorem glue1_wa (k : Fin 128) (j : Fin 128) :
    (V3 m outs c main_v45 : S128x128.Idx → EReal) (ix2 k j)
      = (m ((c : Thread nD τ).loc main_arg2) : S256x128.Idx → EReal) (ix2 (⟨k.val, by omega⟩ : Fin 256) j) := by
  have h := host1_wa (V2 m outs c) k j
  rw [V2_main_arg2] at h
  exact h

theorem glue1_wb (k : Fin 128) (j : Fin 128) :
    (V3 m outs c main_v46 : S128x128.Idx → EReal) (ix2 k j)
      = (m ((c : Thread nD τ).loc main_arg2) : S256x128.Idx → EReal) (ix2 (⟨128 + k.val, by omega⟩ : Fin 256) j) := by
  have h := host1_wb (V2 m outs c) k j
  rw [V2_main_arg2] at h
  exact h

theorem glue1_dif : V3 m outs c main_arg19 = m ((c : Thread nD τ).loc main_arg19) :=
  (V3_of m outs c main_arg19 (by decide)).trans (V2_main_arg19 m outs c)

end Glue1

/-! ## Before the second call of the second branch -/

section Host3
variable (W : Valuation τ sig (Elt Ideal))

/-- The source rows: entry (s, k) is entry k of the first layer's row that row number s names. -/
theorem host3_src (s : Fin 2048) (k : Fin 128) :
    (StableHlo.after hostOps3 W main_v85 : S2048x128.Idx → EReal) (ix2 s k)
      = (W main_v78 : S2048x128.Idx → EReal) (ix2 (Cert.Spec.rowAt (N := 2048) (by decide) 2048#32 (W main_arg24) s) k) := by
  dsimp only [hostOps3]
  after_results_simp
  rw [show gather_S2048x128_S2048x1_S2048x128_1_0_n_n_0_1_1128
        = rowsDims 2048 2048 128 Facts₀.gather_S2048x128_S2048x1_S2048x128_1_0_n_n_0_1_1128_wf from rfl,
    gather_rows_apply (by decide), wrapCol_apply]
  rfl

/-- The target rows: entry (b, k) is entry k of the first layer's row that target row number b names. -/
theorem host3_dst (b : Fin 512) (k : Fin 128) :
    (StableHlo.after hostOps3 W main_v92 : S512x128.Idx → EReal) (ix2 b k)
      = (W main_v78 : S2048x128.Idx → EReal) (ix2 (Cert.Spec.rowAt (N := 2048) (by decide) 2048#32 (W main_arg25) b) k) := by
  dsimp only [hostOps3]
  after_results_simp
  rw [show gather_S2048x128_S512x1_S512x128_1_0_n_n_0_1_1128
        = rowsDims 2048 512 128 Facts₀.gather_S2048x128_S512x1_S512x128_1_0_n_n_0_1_1128_wf from rfl,
    gather_rows_apply (by decide), wrapCol_apply]
  rfl

/-- The upper half of the second layer's weights. -/
theorem host3_wa (k : Fin 128) (j : Fin 128) :
    (StableHlo.after hostOps3 W main_v93 : S128x128.Idx → EReal) (ix2 k j)
      = (W main_arg2 : S256x128.Idx → EReal) (ix2 (⟨k.val, by omega⟩ : Fin 256) j) := by
  dsimp only [hostOps3]
  after_results_simp
  exact LibSlice2.slice2_apply 0 0 _ _ k j _ j (by simp) (by simp)

/-- The lower half of the second layer's weights. -/
theorem host3_wb (k : Fin 128) (j : Fin 128) :
    (StableHlo.after hostOps3 W main_v94 : S128x128.Idx → EReal) (ix2 k j)
      = (W main_arg2 : S256x128.Idx → EReal) (ix2 (⟨128 + k.val, by omega⟩ : Fin 256) j) := by
  dsimp only [hostOps3]
  after_results_simp
  exact LibSlice2.slice2_apply 128 0 _ _ k j _ j (by simp) (by simp)

end Host3

section Glue3
variable (m : (ℓ : Loc nD τ sig) → Buf (Elt Ideal) ℓ) (outs : Outs (F := Ideal)) (c : Dev nD)

/-- What the first call left is what the second call's lookups read. -/
theorem V6_main_v78 : V6 m outs c main_v78 = outs 6 main_v78 c := Function.update_self _ _ _

theorem V6_main_arg24 : V6 m outs c main_arg24 = m ((c : Thread nD τ).loc main_arg24) :=
  (V6_of m outs c main_arg24 (by decide)).trans <| (V5_of m outs c main_arg24 (by decide)).trans <| (V4_of m outs c main_arg24 (by decide)).trans <| (V3_of m outs c main_arg24 (by decide)).trans <| (V2_of m outs c main_arg24 (by decide)).trans <| (V1_of m c main_arg24 (by decide))

theorem V6_main_arg25 : V6 m outs c main_arg25 = m ((c : Thread nD τ).loc main_arg25) :=
  (V6_of m outs c main_arg25 (by decide)).trans <| (V5_of m outs c main_arg25 (by decide)).trans <| (V4_of m outs c main_arg25 (by decide)).trans <| (V3_of m outs c main_arg25 (by decide)).trans <| (V2_of m outs c main_arg25 (by decide)).trans <| (V1_of m c main_arg25 (by decide))

theorem V6_main_arg2 : V6 m outs c main_arg2 = m ((c : Thread nD τ).loc main_arg2) :=
  (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide))

theorem V6_main_arg26 : V6 m outs c main_arg26 = m ((c : Thread nD τ).loc main_arg26) :=
  (V6_of m outs c main_arg26 (by decide)).trans <| (V5_of m outs c main_arg26 (by decide)).trans <| (V4_of m outs c main_arg26 (by decide)).trans <| (V3_of m outs c main_arg26 (by decide)).trans <| (V2_of m outs c main_arg26 (by decide)).trans <| (V1_of m c main_arg26 (by decide))

theorem glue3_src (s : Fin 2048) (k : Fin 128) :
    (V7 m outs c main_v85 : S2048x128.Idx → EReal) (ix2 s k)
      = (outs 6 main_v78 c : S2048x128.Idx → EReal)
          (ix2 (Cert.Spec.rowAt (N := 2048) (by decide) 2048#32 (m ((c : Thread nD τ).loc main_arg24)) s) k) := by
  have h := host3_src (V6 m outs c) s k
  rw [V6_main_v78, V6_main_arg24] at h
  exact h

theorem glue3_src_fun :
    (V7 m outs c main_v85 : S2048x128.Idx → EReal)
      = fun i => (outs 6 main_v78 c : S2048x128.Idx → EReal)
          (ix2 (Cert.Spec.rowAt (N := 2048) (by decide) 2048#32 (m ((c : Thread nD τ).loc main_arg24))
            (⟨(i 0).val, (i 0).isLt⟩ : Fin 2048)) (⟨(i 1).val, (i 1).isLt⟩ : Fin 128)) := by
  funext i
  rw [eq_ix2 i]
  exact glue3_src m outs c (i 0) (i 1)

theorem glue3_dst (b : Fin 512) (k : Fin 128) :
    (V7 m outs c main_v92 : S512x128.Idx → EReal) (ix2 b k)
      = (outs 6 main_v78 c : S2048x128.Idx → EReal)
          (ix2 (Cert.Spec.rowAt (N := 2048) (by decide) 2048#32 (m ((c : Thread nD τ).loc main_arg25)) b) k) := by
  have h := host3_dst (V6 m outs c) b k
  rw [V6_main_v78, V6_main_arg25] at h
  exact h

theorem glue3_dst_fun :
    (V7 m outs c main_v92 : S512x128.Idx → EReal)
      = fun i => (outs 6 main_v78 c : S2048x128.Idx → EReal)
          (ix2 (Cert.Spec.rowAt (N := 2048) (by decide) 2048#32 (m ((c : Thread nD τ).loc main_arg25))
            (⟨(i 0).val, (i 0).isLt⟩ : Fin 512)) (⟨(i 1).val, (i 1).isLt⟩ : Fin 128)) := by
  funext i
  rw [eq_ix2 i]
  exact glue3_dst m outs c (i 0) (i 1)

theorem glue3_wa (k : Fin 128) (j : Fin 128) :
    (V7 m outs c main_v93 : S128x128.Idx → EReal) (ix2 k j)
      = (m ((c : Thread nD τ).loc main_arg2) : S256x128.Idx → EReal) (ix2 (⟨k.val, by omega⟩ : Fin 256) j) := by
  have h := host3_wa (V6 m outs c) k j
  rw [V6_main_arg2] at h
  exact h

theorem glue3_wb (k : Fin 128) (j : Fin 128) :
    (V7 m outs c main_v94 : S128x128.Idx → EReal) (ix2 k j)
      = (m ((c : Thread nD τ).loc main_arg2) : S256x128.Idx → EReal) (ix2 (⟨128 + k.val, by omega⟩ : Fin 256) j) := by
  have h := host3_wb (V6 m outs c) k j
  rw [V6_main_arg2] at h
  exact h

theorem glue3_dif : V7 m outs c main_arg26 = m ((c : Thread nD τ).loc main_arg26) :=
  (V7_of m outs c main_arg26 (by decide)).trans (V6_main_arg26 m outs c)

end Glue3

end Cert.KernelIdeal.Glue
end
-- ==== Proof.Glue2.lean ====
/-
  What the host operations before the second branch's first kernel call hand the call, entry by entry, over the
  extended reals: feature-table rows looked up through the second branch's node numbers, and the two halves of the
  first layer's weights.
-/
import proofs.«118190_j89781996355909_2_alg».proof.Proof.Glue0

set_option maxRecDepth 16384

noncomputable section

namespace Cert.KernelIdeal.Glue

open Idealize.ShloMosaic Idealize.ShloMosaic.TcCoe Idealize.ShloMosaic.ValueIdx
open Cert.KernelIdeal Cert.KernelIdeal.Gen LibGatherScatter

section Host2
variable (W : Valuation τ sig (Elt Ideal))

/-- The source rows: entry (e, k) is entry k of the feature-table row that position e names through the node numbers. -/
theorem host2_src (e : Fin 16384) (k : Fin 256) :
    (StableHlo.after hostOps2 W main_v61 : S16384x256.Idx → EReal) (ix2 e k)
      = (W main_arg0 : S100000x256.Idx → EReal) (ix2 (Cert.Spec.nodeRow (W main_arg20) (W main_arg21) e) k) := by
  dsimp only [hostOps2]
  after_results_simp
  rw [show gather_S100000x256_S16384x1_S16384x256_1_0_n_n_0_1_1256
        = rowsDims 100000 16384 256 Facts₀.gather_S100000x256_S16384x1_S16384x256_1_0_n_n_0_1_1256_wf from rfl,
    gather_rows_apply (by decide), wrapCol_apply,
    show gather_S16384_S16384x1_S16384_n_0_n_n_0_1_1
        = vecDims 16384 16384 Facts₀.gather_S16384_S16384x1_S16384_n_0_n_n_0_1_1_wf from rfl,
    gather_vec_apply (by decide), wrapCol_apply]
  rfl

/-- The target rows: entry (r, k) is entry k of the feature-table row that target position r names. -/
theorem host2_dst (r : Fin 2048) (k : Fin 256) :
    (StableHlo.after hostOps2 W main_v75 : S2048x256.Idx → EReal) (ix2 r k)
      = (W main_arg0 : S100000x256.Idx → EReal) (ix2 (Cert.Spec.nodeRow (W main_arg20) (W main_arg22) r) k) := by
  dsimp only [hostOps2]
  after_results_simp
  rw [show gather_S100000x256_S2048x1_S2048x256_1_0_n_n_0_1_1256
        = rowsDims 100000 2048 256 Facts₀.gather_S100000x256_S2048x1_S2048x256_1_0_n_n_0_1_1256_wf from rfl,
    gather_rows_apply (by decide), wrapCol_apply,
    show gather_S16384_S2048x1_S2048_n_0_n_n_0_1_1
        = vecDims 16384 2048 Facts₀.gather_S16384_S2048x1_S2048_n_0_n_n_0_1_1_wf from rfl,
    gather_vec_apply (by decide), wrapCol_apply]
  rfl

/-- The upper half of the first layer's weights. -/
theorem host2_wa (k : Fin 256) (j : Fin 128) :
    (StableHlo.after hostOps2 W main_v76 : S256x128.Idx → EReal) (ix2 k j)
      = (W main_arg1 : S512x128.Idx → EReal) (ix2 (⟨k.val, by omega⟩ : Fin 512) j) := by
  dsimp only [hostOps2]
  after_results_simp
  exact LibSlice2.slice2_apply 0 0 _ _ k j _ j (by simp) (by simp)

/-- The lower half of the first layer's weights. -/
theorem host2_wb (k : Fin 256) (j : Fin 128) :
    (StableHlo.after hostOps2 W main_v77 : S256x128.Idx → EReal) (ix2 k j)
      = (W main_arg1 : S512x128.Idx → EReal) (ix2 (⟨256 + k.val, by omega⟩ : Fin 512) j) := by
  dsimp only [hostOps2]
  after_results_simp
  exact LibSlice2.slice2_apply 256 0 _ _ k j _ j (by simp) (by simp)

end Host2

section Glue2
variable (m : (ℓ : Loc nD τ sig) → Buf (Elt Ideal) ℓ) (outs : Outs (F := Ideal)) (c : Dev nD)

theorem V4_main_arg0 : V4 m outs c main_arg0 = m ((c : Thread nD τ).loc main_arg0) :=
  (V4_of m outs c main_arg0 (by decide)).trans <| (V3_of m outs c main_arg0 (by decide)).trans <| (V2_of m outs c main_arg0 (by decide)).trans <| (V1_of m c main_arg0 (by decide))

theorem V4_main_arg1 : V4 m outs c main_arg1 = m ((c : Thread nD τ).loc main_arg1) :=
  (V4_of m outs c main_arg1 (by decide)).trans <| (V3_of m outs c main_arg1 (by decide)).trans <| (V2_of m outs c main_arg1 (by decide)).trans <| (V1_of m c main_arg1 (by decide))

theorem V4_main_arg20 : V4 m outs c main_arg20 = m ((c : Thread nD τ).loc main_arg20) :=
  (V4_of m outs c main_arg20 (by decide)).trans <| (V3_of m outs c main_arg20 (by decide)).trans <| (V2_of m outs c main_arg20 (by decide)).trans <| (V1_of m c main_arg20 (by decide))

theorem V4_main_arg21 : V4 m outs c main_arg21 = m ((c : Thread nD τ).loc main_arg21) :=
  (V4_of m outs c main_arg21 (by decide)).trans <| (V3_of m outs c main_arg21 (by decide)).trans <| (V2_of m outs c main_arg21 (by decide)).trans <| (V1_of m c main_arg21 (by decide))

theorem V4_main_arg22 : V4 m outs c main_arg22 = m ((c : Thread nD τ).loc main_arg22) :=
  (V4_of m outs c main_arg22 (by decide)).trans <| (V3_of m outs c main_arg22 (by decide)).trans <| (V2_of m outs c main_arg22 (by decide)).trans <| (V1_of m c main_arg22 (by decide))

theorem V4_main_arg23 : V4 m outs c main_arg23 = m ((c : Thread nD τ).loc main_arg23) :=
  (V4_of m outs c main_arg23 (by decide)).trans <| (V3_of m outs c main_arg23 (by decide)).trans <| (V2_of m outs c main_arg23 (by decide)).trans <| (V1_of m c main_arg23 (by decide))

theorem glue2_src (e : Fin 16384) (k : Fin 256) :
    (V5 m outs c main_v61 : S16384x256.Idx → EReal) (ix2 e k)
      = (m ((c : Thread nD τ).loc main_arg0) : S100000x256.Idx → EReal)
          (ix2 (Cert.Spec.nodeRow (m ((c : Thread nD τ).loc main_arg20)) (m ((c : Thread nD τ).loc main_arg21)) e) k) := by
  have h := host2_src (V4 m outs c) e k
  rw [V4_main_arg0, V4_main_arg20, V4_main_arg21] at h
  exact h

theorem glue2_src_fun :
    (V5 m outs c main_v61 : S16384x256.Idx → EReal)
      = fun i => (m ((c : Thread nD τ).loc main_arg0) : S100000x256.Idx → EReal)
          (ix2 (Cert.Spec.nodeRow (m ((c : Thread nD τ).loc main_arg20)) (m ((c : Thread nD τ).loc main_arg21))
            (⟨(i 0).val, (i 0).isLt⟩ : Fin 16384)) (⟨(i 1).val, (i 1).isLt⟩ : Fin 256)) := by
  funext i
  rw [eq_ix2 i]
  exact glue2_src m outs c (i 0) (i 1)

theorem glue2_dst (r : Fin 2048) (k : Fin 256) :
    (V5 m outs c main_v75 : S2048x256.Idx → EReal) (ix2 r k)
      = (m ((c : Thread nD τ).loc main_arg0) : S100000x256.Idx → EReal)
          (ix2 (Cert.Spec.nodeRow (m ((c : Thread nD τ).loc main_arg20)) (m ((c : Thread nD τ).loc main_arg22)) r) k) := by
  have h := host2_dst (V4 m outs c) r k
  rw [V4_main_arg0, V4_main_arg20, V4_main_arg22] at h
  exact h

theorem glue2_dst_fun :
    (V5 m outs c main_v75 : S2048x256.Idx → EReal)
      = fun i => (m ((c : Thread nD τ).loc main_arg0) : S100000x256.Idx → EReal)
          (ix2 (Cert.Spec.nodeRow (m ((c : Thread nD τ).loc main_arg20)) (m ((c : Thread nD τ).loc main_arg22))
            (⟨(i 0).val, (i 0).isLt⟩ : Fin 2048)) (⟨(i 1).val, (i 1).isLt⟩ : Fin 256)) := by
  funext i
  rw [eq_ix2 i]
  exact glue2_dst m outs c (i 0) (i 1)

theorem glue2_wa (k : Fin 256) (j : Fin 128) :
    (V5 m outs c main_v76 : S256x128.Idx → EReal) (ix2 k j)
      = (m ((c : Thread nD τ).loc main_arg1) : S512x128.Idx → EReal) (ix2 (⟨k.val, by omega⟩ : Fin 512) j) := by
  have h := host2_wa (V4 m outs c) k j
  rw [V4_main_arg1] at h
  exact h

theorem glue2_wb (k : Fin 256) (j : Fin 128) :
    (V5 m outs c main_v77 : S256x128.Idx → EReal) (ix2 k j)
      = (m ((c : Thread nD τ).loc main_arg1) : S512x128.Idx → EReal) (ix2 (⟨256 + k.val, by omega⟩ : Fin 512) j) := by
  have h := host2_wb (V4 m outs c) k j
  rw [V4_main_arg1] at h
  exact h

theorem glue2_dif : V5 m outs c main_arg23 = m ((c : Thread nD τ).loc main_arg23) :=
  (V5_of m outs c main_arg23 (by decide)).trans (V4_main_arg23 m outs c)

end Glue2

end Cert.KernelIdeal.Glue
end
-- ==== Proof.GlueTail.lean ====
/-
  The program's last stretch of host operations as one function of the two branches' results and the dense layers'
  weights, and what the final buffer holds in its terms.
-/
import proofs.«118190_j89781996355909_2_alg».proof.Proof.Glue0

set_option maxRecDepth 16384

noncomputable section

namespace Cert.KernelIdeal.Glue

open Idealize.ShloMosaic Idealize.ShloMosaic.TcCoe Idealize.ShloMosaic.ValueIdx
open Cert.KernelIdeal Cert.KernelIdeal.Gen LibGatherScatter

/-- The common last stretch of the program, as a function of the two branches' results and the dense layers'
    weights: the two results side by side, every row scaled by the reciprocal root of its sum of squares (bounded
    below), four dense layers each clipped below at zero, a last dense layer, and every row's entries divided by
    their sum after the row's greatest entry is subtracted and the exponential taken. -/
def KTail (a b : FVec Ideal S512x128 .f32) (x3 : FVec Ideal S256x64 .f32) (x4 : FVec Ideal S64 .f32)
    (x5 : FVec Ideal S64x32 .f32) (x6 : FVec Ideal S32 .f32) (x7 : FVec Ideal S32x16 .f32) (x8 : FVec Ideal S16 .f32)
    (x9 : FVec Ideal S16x8 .f32) (x10 : FVec Ideal S8 .f32) (x11 : FVec Ideal S8x1 .f32) (x12 : FVec Ideal S1 .f32) :
    FVec Ideal S512x1 .f32 :=
  let v96 : FVec Ideal S512x256 .f32 :=
    concatenate S512x256 1 [⟨S512x128, a⟩, ⟨S512x128, b⟩] Facts₀.concatenates_S512x128_S512x128_S512x256_d1
  let v98 : FVec Ideal S512 .f32 :=
    Host.reduceAdd (mulf v96 v96) (constant (F := Ideal) S_ .f32 0x00000000#32) Facts₀.reducesTo_S512x256_S512_d1 Facts₀.h_S_
  let v101 : FVec Ideal S512x1 .f32 :=
    maximumf (broadcastInDim S512x1 ![0] Facts₀.bcast_S512_S512x1_0 v98)
      (broadcastInDim S512x1 ![] Facts₀.bcast_S_S512x1 (constant (F := Ideal) S_ .f32 0x2B8CBCCC#32))
  let v104 : FVec Ideal S512x256 .f32 :=
    mulf v96 (broadcastInDim S512x256 ![0, 1] Facts₀.bcast_S512x1_S512x256_0_1 (Host.rsqrt v101))
  let v108 : FVec Ideal S512x64 .f32 :=
    addf (Host.dotGeneral dot_S512x256_S256x64_S512x64_1_0_0_1_n_n none v104 x3)
      (broadcastInDim S512x64 ![0, 1] Facts₀.bcast_S1x64_S512x64_0_1 (broadcastInDim S1x64 ![1] Facts₀.bcast_S64_S1x64_1 x4))
  let v109 : FVec Ideal S512x64 .f32 :=
    maximumf v108 (broadcastInDim S512x64 ![] Facts₀.bcast_S_S512x64 (constant (F := Ideal) S_ .f32 0x00000000#32))
  let v113 : FVec Ideal S512x32 .f32 :=
    addf (Host.dotGeneral dot_S512x64_S64x32_S512x32_1_0_0_1_n_n none v109 x5)
      (broadcastInDim S512x32 ![0, 1] Facts₀.bcast_S1x32_S512x32_0_1 (broadcastInDim S1x32 ![1] Facts₀.bcast_S32_S1x32_1 x6))
  let v114 : FVec Ideal S512x32 .f32 :=
    maximumf v113 (broadcastInDim S512x32 ![] Facts₀.bcast_S_S512x32 (constant (F := Ideal) S_ .f32 0x00000000#32))
  let v118 : FVec Ideal S512x16 .f32 :=
    addf (Host.dotGeneral dot_S512x32_S32x16_S512x16_1_0_0_1_n_n none v114 x7)
      (broadcastInDim S512x16 ![0, 1] Facts₀.bcast_S1x16_S512x16_0_1 (broadcastInDim S1x16 ![1] Facts₀.bcast_S16_S1x16_1 x8))
  let v119 : FVec Ideal S512x16 .f32 :=
    maximumf v118 (broadcastInDim S512x16 ![] Facts₀.bcast_S_S512x16 (constant (F := Ideal) S_ .f32 0x00000000#32))
  let v123 : FVec Ideal S512x8 .f32 :=
    addf (Host.dotGeneral dot_S512x16_S16x8_S512x8_1_0_0_1_n_n none v119 x9)
      (broadcastInDim S512x8 ![0, 1] Facts₀.bcast_S1x8_S512x8_0_1 (broadcastInDim S1x8 ![1] Facts₀.bcast_S8_S1x8_1 x10))
  let v124 : FVec Ideal S512x8 .f32 :=
    maximumf v123 (broadcastInDim S512x8 ![] Facts₀.bcast_S_S512x8 (constant (F := Ideal) S_ .f32 0x00000000#32))
  let v128 : FVec Ideal S512x1 .f32 :=
    addf (Host.dotGeneral dot_S512x8_S8x1_S512x1_1_0_0_1_n_n none v124 x11)
      (broadcastInDim S512x1 ![0, 1] Facts₀.bcast_S1x1_S512x1_0_1 (broadcastInDim S1x1 ![1] Facts₀.bcast_S1_S1x1_1 x12))
  let v129 : FVec Ideal S512 .f32 :=
    Host.reduce FloatOps.maximumf v128 (constant (F := Ideal) S_ .f32 0xFF800000#32) Facts₀.reducesTo_S512x1_S512_d1 Facts₀.h_S_
  let v131 : FVec Ideal S512 .f32 :=
    maximumf (broadcastInDim S512 ![] Facts₀.bcast_S_S512 (constant (F := Ideal) S_ .f32 0xFF800000#32)) v129
  let v134 : FVec Ideal S512x1 .f32 :=
    Host.exp (subf v128 (broadcastInDim S512x1 ![0] Facts₀.bcast_S512_S512x1_0 v131))
  let v135 : FVec Ideal S512 .f32 :=
    Host.reduceAdd v134 (constant (F := Ideal) S_ .f32 0x00000000#32) Facts₀.reducesTo_S512x1_S512_d1 Facts₀.h_S_
  Host.divf v134 (broadcastInDim S512x1 ![0] Facts₀.bcast_S512_S512x1_0 v135)

/-- The last stretch's operations, run from any contents of the buffers, leave the common last stretch of the two
    results' buffers and the weights' buffers in the final buffer. -/
theorem tail_after (W : Valuation τ sig (Elt Ideal)) :
    (StableHlo.after hostOps4_8 (StableHlo.after hostOps4_7 (StableHlo.after hostOps4_6 (StableHlo.after hostOps4_5
      (StableHlo.after hostOps4_4 (StableHlo.after hostOps4_3 (StableHlo.after hostOps4_2 (StableHlo.after hostOps4_1
      (StableHlo.after hostOps4 W)))))))) main_v137 : S512x1.Idx → EReal)
      = KTail (W main_v47) (W main_v95) (W main_arg3) (W main_arg4) (W main_arg5) (W main_arg6) (W main_arg7)
          (W main_arg8) (W main_arg9) (W main_arg10) (W main_arg11) (W main_arg12) := by
  dsimp only [hostOps4, hostOps4_1, hostOps4_2, hostOps4_3, hostOps4_4, hostOps4_5, hostOps4_6, hostOps4_7, hostOps4_8]
  after_results_simp
  rfl

section Tail
variable (m : (ℓ : Loc nD τ sig) → Buf (Elt Ideal) ℓ) (outs : Outs (F := Ideal)) (c : Dev nD)

/-- What the second branch's second call left is what the last stretch reads. -/
theorem V8_main_v95 : V8 m outs c main_v95 = outs 8 main_v95 c := Function.update_self _ _ _

/-- What the first branch's second call left is still there when the last stretch reads it. -/
theorem V8_main_v47 : V8 m outs c main_v47 = outs 4 main_v47 c :=
  (V8_of m outs c main_v47 (by decide)).trans <| (V7_of m outs c main_v47 (by decide)).trans <|
    (V6_of m outs c main_v47 (by decide)).trans <| (V5_of m outs c main_v47 (by decide)).trans <|
      Function.update_self _ _ _

theorem V8_main_arg3 : V8 m outs c main_arg3 = m ((c : Thread nD τ).loc main_arg3) :=
  (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide))

theorem V8_main_arg4 : V8 m outs c main_arg4 = m ((c : Thread nD τ).loc main_arg4) :=
  (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide))

theorem V8_main_arg5 : V8 m outs c main_arg5 = m ((c : Thread nD τ).loc main_arg5) :=
  (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))

theorem V8_main_arg6 : V8 m outs c main_arg6 = m ((c : Thread nD τ).loc main_arg6) :=
  (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))

theorem V8_main_arg7 : V8 m outs c main_arg7 = m ((c : Thread nD τ).loc main_arg7) :=
  (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide))

theorem V8_main_arg8 : V8 m outs c main_arg8 = m ((c : Thread nD τ).loc main_arg8) :=
  (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide))

theorem V8_main_arg9 : V8 m outs c main_arg9 = m ((c : Thread nD τ).loc main_arg9) :=
  (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide))

theorem V8_main_arg10 : V8 m outs c main_arg10 = m ((c : Thread nD τ).loc main_arg10) :=
  (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide))

theorem V8_main_arg11 : V8 m outs c main_arg11 = m ((c : Thread nD τ).loc main_arg11) :=
  (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))

theorem V8_main_arg12 : V8 m outs c main_arg12 = m ((c : Thread nD τ).loc main_arg12) :=
  (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide))

/-- The final buffer holds the common last stretch of what the two branches' second calls left and the dense layers'
    weights as launched. -/
theorem tail_result :
    (V17 m outs c main_v137 : S512x1.Idx → EReal)
      = KTail (outs 4 main_v47 c) (outs 8 main_v95 c)
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12)) := by
  have h := tail_after (V8 m outs c)
  rw [V8_main_v47, V8_main_v95, V8_main_arg3, V8_main_arg4, V8_main_arg5, V8_main_arg6, V8_main_arg7, V8_main_arg8, V8_main_arg9, V8_main_arg10, V8_main_arg11, V8_main_arg12] at h
  exact h

end Tail

end Cert.KernelIdeal.Glue
end
-- ==== Proof.KIBranch.lean ====
/-
  The values the four kernel calls leave, entry by entry, over the extended reals: each branch's first call leaves the
  first layer of the branch, its second call the branch's result; and the program's final buffer holds the common last
  stretch of the two branches' results.
-/
import proofs.«118190_j89781996355909_2_alg».proof.Proof.KI.Run
import proofs.«118190_j89781996355909_2_alg».proof.Proof.KIValue0
import proofs.«118190_j89781996355909_2_alg».proof.Proof.KIValue1
import proofs.«118190_j89781996355909_2_alg».proof.Proof.KIValue2
import proofs.«118190_j89781996355909_2_alg».proof.Proof.KIValue3
import proofs.«118190_j89781996355909_2_alg».proof.Proof.Glue1
import proofs.«118190_j89781996355909_2_alg».proof.Proof.Glue2
import proofs.«118190_j89781996355909_2_alg».proof.Proof.GlueTail

set_option maxRecDepth 16384

noncomputable section

namespace Cert.KernelIdeal.Br

open Idealize.ShloMosaic Idealize.ShloMosaic.TcCoe Idealize.ShloMosaic.ValueIdx
open Cert.KernelIdeal Cert.KernelIdeal.Gen Cert.KernelIdeal.Fr Cert.KernelIdeal.Glue

/-- A layer whose five tables agree entry by entry is the same layer. -/
theorem layer_congr {D S d o : Nat} {dif dif' : Fin D → Fin S → EReal} {src src' : Fin S → Fin d → EReal}
    {dst dst' : Fin D → Fin d → EReal} {wa wa' wb wb' : Fin d → Fin o → EReal}
    (h1 : ∀ r s, dif r s = dif' r s) (h2 : ∀ s k, src s k = src' s k) (h3 : ∀ r k, dst r k = dst' r k)
    (h4 : ∀ k j, wa k j = wa' k j) (h5 : ∀ k j, wb k j = wb' k j) (r : Fin D) (j : Fin o) :
    Cert.Spec.layer dif src dst wa wb r j = Cert.Spec.layer dif' src' dst' wa' wb' r j := by
  have e1 : dif = dif' := funext fun r => funext fun s => h1 r s
  have e2 : src = src' := funext fun s => funext fun k => h2 s k
  have e3 : dst = dst' := funext fun r => funext fun k => h3 r k
  have e4 : wa = wa' := funext fun k => funext fun j => h4 k j
  have e5 : wb = wb' := funext fun k => funext fun j => h5 k j
  rw [e1, e2, e3, e4, e5]

section Branches
variable (m : (ℓ : Loc nD τ sig) → Buf (Elt Ideal) ℓ) (c : Dev nD)

theorem outsA_2 : (outsA m 2 main_v30 c : S2048x128.Idx → EReal) = o2 m c := outsOf_30 m _ _ _ _ _ c
theorem outsC_6 : (outsC m 6 main_v78 c : S2048x128.Idx → EReal) = o6 m c := outsOf_78 m _ _ _ _ _ c

/-- The first branch's first call leaves the branch's first layer. -/
theorem o2_eq (r : Fin 2048) (j : Fin 128) :
    (o2 m c : S2048x128.Idx → EReal) (ix2 r j) = Cert.Spec.hidden (m ((c : Thread nD τ).loc main_arg0)) (m ((c : Thread nD τ).loc main_arg1)) (m ((c : Thread nD τ).loc main_arg13)) (m ((c : Thread nD τ).loc main_arg14)) (m ((c : Thread nD τ).loc main_arg15)) (m ((c : Thread nD τ).loc main_arg16)) r j := by
  refine (Val.final0 (R1 m) c r j).trans ?_
  unfold Cert.Spec.hidden
  refine congrArg (fun x : EReal => max x (0 : EReal)) (layer_congr ?_ ?_ ?_ ?_ ?_ r j)
  · intro r s; exact congrFun (glue0_dif m c) (ix2 r s)
  · intro s k; exact glue0_src m c s k
  · intro r k; exact glue0_dst m c r k
  · intro k j; exact glue0_wa m c k j
  · intro k j; exact glue0_wb m c k j

/-- The first branch's second call leaves the branch's result, entry by entry. -/
theorem o4_at (b : Fin 512) (j : Fin 128) :
    (o4 m c : S512x128.Idx → EReal) (ix2 b j) = Cert.Spec.branch (m ((c : Thread nD τ).loc main_arg0)) (m ((c : Thread nD τ).loc main_arg1)) (m ((c : Thread nD τ).loc main_arg2)) (m ((c : Thread nD τ).loc main_arg13)) (m ((c : Thread nD τ).loc main_arg14)) (m ((c : Thread nD τ).loc main_arg15)) (m ((c : Thread nD τ).loc main_arg16))
        (m ((c : Thread nD τ).loc main_arg17)) (m ((c : Thread nD τ).loc main_arg18)) (m ((c : Thread nD τ).loc main_arg19)) b j := by
  refine (Val.final1 (R3 m (outsA m)) c b j).trans ?_
  unfold Cert.Spec.branch
  refine layer_congr ?_ ?_ ?_ ?_ ?_ b j
  · intro b s; exact congrFun (glue1_dif m (outsA m) c) (ix2 b s)
  · intro s k
    exact (glue1_src m (outsA m) c s k).trans ((congrFun (outsA_2 m c) _).trans (o2_eq m c _ k))
  · intro b k
    exact (glue1_dst m (outsA m) c b k).trans ((congrFun (outsA_2 m c) _).trans (o2_eq m c _ k))
  · intro k j; exact glue1_wa m (outsA m) c k j
  · intro k j; exact glue1_wb m (outsA m) c k j

theorem o4_eq : (o4 m c : S512x128.Idx → EReal) = Cert.Spec.branchArr (m ((c : Thread nD τ).loc main_arg0)) (m ((c : Thread nD τ).loc main_arg1)) (m ((c : Thread nD τ).loc main_arg2)) (m ((c : Thread nD τ).loc main_arg13)) (m ((c : Thread nD τ).loc main_arg14)) (m ((c : Thread nD τ).loc main_arg15)) (m ((c : Thread nD τ).loc main_arg16))
        (m ((c : Thread nD τ).loc main_arg17)) (m ((c : Thread nD τ).loc main_arg18)) (m ((c : Thread nD τ).loc main_arg19)) := by
  funext i
  unfold Cert.Spec.branchArr
  rw [eq_ix2 i]
  exact o4_at m c (i 0) (i 1)

/-- The second branch's first call leaves the branch's first layer. -/
theorem o6_eq (r : Fin 2048) (j : Fin 128) :
    (o6 m c : S2048x128.Idx → EReal) (ix2 r j) = Cert.Spec.hidden (m ((c : Thread nD τ).loc main_arg0)) (m ((c : Thread nD τ).loc main_arg1)) (m ((c : Thread nD τ).loc main_arg20)) (m ((c : Thread nD τ).loc main_arg21)) (m ((c : Thread nD τ).loc main_arg22)) (m ((c : Thread nD τ).loc main_arg23)) r j := by
  refine (Val.final2 (R5 m (outsB m)) c r j).trans ?_
  unfold Cert.Spec.hidden
  refine congrArg (fun x : EReal => max x (0 : EReal)) (layer_congr ?_ ?_ ?_ ?_ ?_ r j)
  · intro r s; exact congrFun (glue2_dif m (outsB m) c) (ix2 r s)
  · intro s k; exact glue2_src m (outsB m) c s k
  · intro r k; exact glue2_dst m (outsB m) c r k
  · intro k j; exact glue2_wa m (outsB m) c k j
  · intro k j; exact glue2_wb m (outsB m) c k j

/-- The second branch's second call leaves the branch's result, entry by entry. -/
theorem o8_at (b : Fin 512) (j : Fin 128) :
    (o8 m c : S512x128.Idx → EReal) (ix2 b j) = Cert.Spec.branch (m ((c : Thread nD τ).loc main_arg0)) (m ((c : Thread nD τ).loc main_arg1)) (m ((c : Thread nD τ).loc main_arg2)) (m ((c : Thread nD τ).loc main_arg20)) (m ((c : Thread nD τ).loc main_arg21)) (m ((c : Thread nD τ).loc main_arg22)) (m ((c : Thread nD τ).loc main_arg23))
        (m ((c : Thread nD τ).loc main_arg24)) (m ((c : Thread nD τ).loc main_arg25)) (m ((c : Thread nD τ).loc main_arg26)) b j := by
  refine (Val.final3 (R7 m (outsC m)) c b j).trans ?_
  unfold Cert.Spec.branch
  refine layer_congr ?_ ?_ ?_ ?_ ?_ b j
  · intro b s; exact congrFun (glue3_dif m (outsC m) c) (ix2 b s)
  · intro s k
    exact (glue3_src m (outsC m) c s k).trans ((congrFun (outsC_6 m c) _).trans (o6_eq m c _ k))
  · intro b k
    exact (glue3_dst m (outsC m) c b k).trans ((congrFun (outsC_6 m c) _).trans (o6_eq m c _ k))
  · intro k j; exact glue3_wa m (outsC m) c k j
  · intro k j; exact glue3_wb m (outsC m) c k j

theorem o8_eq : (o8 m c : S512x128.Idx → EReal) = Cert.Spec.branchArr (m ((c : Thread nD τ).loc main_arg0)) (m ((c : Thread nD τ).loc main_arg1)) (m ((c : Thread nD τ).loc main_arg2)) (m ((c : Thread nD τ).loc main_arg20)) (m ((c : Thread nD τ).loc main_arg21)) (m ((c : Thread nD τ).loc main_arg22)) (m ((c : Thread nD τ).loc main_arg23))
        (m ((c : Thread nD τ).loc main_arg24)) (m ((c : Thread nD τ).loc main_arg25)) (m ((c : Thread nD τ).loc main_arg26)) := by
  funext i
  unfold Cert.Spec.branchArr
  rw [eq_ix2 i]
  exact o8_at m c (i 0) (i 1)

/-- The final buffer holds the common last stretch of the two branches' results. -/
theorem kernel_result :
    (V17 m (outs m) c main_v137 : S512x1.Idx → EReal)
      = KTail (Cert.Spec.branchArr (m ((c : Thread nD τ).loc main_arg0)) (m ((c : Thread nD τ).loc main_arg1)) (m ((c : Thread nD τ).loc main_arg2)) (m ((c : Thread nD τ).loc main_arg13)) (m ((c : Thread nD τ).loc main_arg14)) (m ((c : Thread nD τ).loc main_arg15)) (m ((c : Thread nD τ).loc main_arg16))
        (m ((c : Thread nD τ).loc main_arg17)) (m ((c : Thread nD τ).loc main_arg18)) (m ((c : Thread nD τ).loc main_arg19)))
          (Cert.Spec.branchArr (m ((c : Thread nD τ).loc main_arg0)) (m ((c : Thread nD τ).loc main_arg1)) (m ((c : Thread nD τ).loc main_arg2)) (m ((c : Thread nD τ).loc main_arg20)) (m ((c : Thread nD τ).loc main_arg21)) (m ((c : Thread nD τ).loc main_arg22)) (m ((c : Thread nD τ).loc main_arg23))
        (m ((c : Thread nD τ).loc main_arg24)) (m ((c : Thread nD τ).loc main_arg25)) (m ((c : Thread nD τ).loc main_arg26)))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [tail_result m (outs m) c, outs_4, outs_8, o4_eq m c, o8_eq m c]

end Branches

end Cert.KernelIdeal.Br

end
-- ==== Proof.EqualK.lean ====
/-
  The idealized kernel program's run with its result named: the common last stretch of operations applied to the two
  branch arrays, which are what the four regions leave read through the host stretches between them; and the frames of
  the kernel's program at its two instances.
-/
import proofs.«118190_j89781996355909_2_alg».proof.Defs
import proofs.«118190_j89781996355909_2_alg».proof.Proof.Gen.Pre_finite_inputs
import proofs.«118190_j89781996355909_2_alg».proof.Proof.KI.Frame
import proofs.«118190_j89781996355909_2_alg».proof.Proof.K.Frame
import proofs.«118190_j89781996355909_2_alg».proof.Proof.KIBranch

set_option maxRecDepth 16384

noncomputable section

namespace Cert.Proof.Parts

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ

/-- The result both programs end with, as a term of the kernel program's arguments. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v137) :=
  Cert.KernelIdeal.Glue.KTail (Cert.Spec.branchArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) (Cert.Spec.branchArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))

set_option maxHeartbeats 4000000 in
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v137) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)) :=
  (θ_run _ _ _).mono (fun r h c => ⟨(h c _ (Cert.KernelIdeal.Fr.mem_uc Cert.KernelIdeal.main_v137 (by decide))).trans (Cert.KernelIdeal.Br.kernel_result m c),
      (h c _ (Cert.KernelIdeal.Fr.mem_uc Cert.KernelIdeal.main_arg0 (by decide))).trans (Cert.KernelIdeal.Gen.V17_main_arg0 m (Cert.KernelIdeal.Fr.outs m) c),
      (h c _ (Cert.KernelIdeal.Fr.mem_uc Cert.KernelIdeal.main_arg1 (by decide))).trans (Cert.KernelIdeal.Gen.V17_main_arg1 m (Cert.KernelIdeal.Fr.outs m) c),
      (h c _ (Cert.KernelIdeal.Fr.mem_uc Cert.KernelIdeal.main_arg2 (by decide))).trans (Cert.KernelIdeal.Gen.V17_main_arg2 m (Cert.KernelIdeal.Fr.outs m) c),
      (h c _ (Cert.KernelIdeal.Fr.mem_uc Cert.KernelIdeal.main_arg3 (by decide))).trans (Cert.KernelIdeal.Gen.V17_main_arg3 m (Cert.KernelIdeal.Fr.outs m) c),
      (h c _ (Cert.KernelIdeal.Fr.mem_uc Cert.KernelIdeal.main_arg4 (by decide))).trans (Cert.KernelIdeal.Gen.V17_main_arg4 m (Cert.KernelIdeal.Fr.outs m) c),
      (h c _ (Cert.KernelIdeal.Fr.mem_uc Cert.KernelIdeal.main_arg5 (by decide))).trans (Cert.KernelIdeal.Gen.V17_main_arg5 m (Cert.KernelIdeal.Fr.outs m) c),
      (h c _ (Cert.KernelIdeal.Fr.mem_uc Cert.KernelIdeal.main_arg6 (by decide))).trans (Cert.KernelIdeal.Gen.V17_main_arg6 m (Cert.KernelIdeal.Fr.outs m) c),
      (h c _ (Cert.KernelIdeal.Fr.mem_uc Cert.KernelIdeal.main_arg7 (by decide))).trans (Cert.KernelIdeal.Gen.V17_main_arg7 m (Cert.KernelIdeal.Fr.outs m) c),
      (h c _ (Cert.KernelIdeal.Fr.mem_uc Cert.KernelIdeal.main_arg8 (by decide))).trans (Cert.KernelIdeal.Gen.V17_main_arg8 m (Cert.KernelIdeal.Fr.outs m) c),
      (h c _ (Cert.KernelIdeal.Fr.mem_uc Cert.KernelIdeal.main_arg9 (by decide))).trans (Cert.KernelIdeal.Gen.V17_main_arg9 m (Cert.KernelIdeal.Fr.outs m) c),
      (h c _ (Cert.KernelIdeal.Fr.mem_uc Cert.KernelIdeal.main_arg10 (by decide))).trans (Cert.KernelIdeal.Gen.V17_main_arg10 m (Cert.KernelIdeal.Fr.outs m) c),
      (h c _ (Cert.KernelIdeal.Fr.mem_uc Cert.KernelIdeal.main_arg11 (by decide))).trans (Cert.KernelIdeal.Gen.V17_main_arg11 m (Cert.KernelIdeal.Fr.outs m) c),
      (h c _ (Cert.KernelIdeal.Fr.mem_uc Cert.KernelIdeal.main_arg12 (by decide))).trans (Cert.KernelIdeal.Gen.V17_main_arg12 m (Cert.KernelIdeal.Fr.outs m) c),
      (h c _ (Cert.KernelIdeal.Fr.mem_uc Cert.KernelIdeal.main_arg13 (by decide))).trans (Cert.KernelIdeal.Gen.V17_main_arg13 m (Cert.KernelIdeal.Fr.outs m) c),
      (h c _ (Cert.KernelIdeal.Fr.mem_uc Cert.KernelIdeal.main_arg14 (by decide))).trans (Cert.KernelIdeal.Gen.V17_main_arg14 m (Cert.KernelIdeal.Fr.outs m) c),
      (h c _ (Cert.KernelIdeal.Fr.mem_uc Cert.KernelIdeal.main_arg15 (by decide))).trans (Cert.KernelIdeal.Gen.V17_main_arg15 m (Cert.KernelIdeal.Fr.outs m) c),
      (h c _ (Cert.KernelIdeal.Fr.mem_uc Cert.KernelIdeal.main_arg16 (by decide))).trans (Cert.KernelIdeal.Gen.V17_main_arg16 m (Cert.KernelIdeal.Fr.outs m) c),
      (h c _ (Cert.KernelIdeal.Fr.mem_uc Cert.KernelIdeal.main_arg17 (by decide))).trans (Cert.KernelIdeal.Gen.V17_main_arg17 m (Cert.KernelIdeal.Fr.outs m) c),
      (h c _ (Cert.KernelIdeal.Fr.mem_uc Cert.KernelIdeal.main_arg18 (by decide))).trans (Cert.KernelIdeal.Gen.V17_main_arg18 m (Cert.KernelIdeal.Fr.outs m) c),
      (h c _ (Cert.KernelIdeal.Fr.mem_uc Cert.KernelIdeal.main_arg19 (by decide))).trans (Cert.KernelIdeal.Gen.V17_main_arg19 m (Cert.KernelIdeal.Fr.outs m) c),
      (h c _ (Cert.KernelIdeal.Fr.mem_uc Cert.KernelIdeal.main_arg20 (by decide))).trans (Cert.KernelIdeal.Gen.V17_main_arg20 m (Cert.KernelIdeal.Fr.outs m) c),
      (h c _ (Cert.KernelIdeal.Fr.mem_uc Cert.KernelIdeal.main_arg21 (by decide))).trans (Cert.KernelIdeal.Gen.V17_main_arg21 m (Cert.KernelIdeal.Fr.outs m) c),
      (h c _ (Cert.KernelIdeal.Fr.mem_uc Cert.KernelIdeal.main_arg22 (by decide))).trans (Cert.KernelIdeal.Gen.V17_main_arg22 m (Cert.KernelIdeal.Fr.outs m) c),
      (h c _ (Cert.KernelIdeal.Fr.mem_uc Cert.KernelIdeal.main_arg23 (by decide))).trans (Cert.KernelIdeal.Gen.V17_main_arg23 m (Cert.KernelIdeal.Fr.outs m) c),
      (h c _ (Cert.KernelIdeal.Fr.mem_uc Cert.KernelIdeal.main_arg24 (by decide))).trans (Cert.KernelIdeal.Gen.V17_main_arg24 m (Cert.KernelIdeal.Fr.outs m) c),
      (h c _ (Cert.KernelIdeal.Fr.mem_uc Cert.KernelIdeal.main_arg25 (by decide))).trans (Cert.KernelIdeal.Gen.V17_main_arg25 m (Cert.KernelIdeal.Fr.outs m) c),
      (h c _ (Cert.KernelIdeal.Fr.mem_uc Cert.KernelIdeal.main_arg26 (by decide))).trans (Cert.KernelIdeal.Gen.V17_main_arg26 m (Cert.KernelIdeal.Fr.outs m) c)⟩)
    (Cert.KernelIdeal.Fr.run_all (F := Ideal) m ρ)

end Cert.Proof.Parts

end
-- ==== Proof.RefSide.Tail.lean ====
/-
  What the reference program does with its two branches' results, as one function of them.

  The two 512-by-128 results are laid side by side; every row is scaled by the reciprocal square root of the larger
  of its sum of squares and 1e-12; five dense layers follow (a matrix product plus a bias row, the first four
  clipped below at zero); the last, of one column, goes through a softmax over that column.  Nothing
  of the function's inside is ever used: both programs end in it.
-/
import proofs.«118190_j89781996355909_2_alg».proof.Proof.Gen.ReferenceIdeal
import Idealize.ShloMosaic.Lib.Pipeline.Value
import Idealize.ShloMosaic.PureOps.Ideal.Laws

noncomputable section

namespace Cert.RefSide

open Idealize.ShloMosaic Idealize.ShloMosaic.StableHlo
open Cert.ReferenceIdeal Cert.ReferenceIdeal.Gen

/-- Every row scaled by the reciprocal square root of the larger of its sum of squares and 1e-12. -/
def normalize (v : FVec Ideal S512x256 .f32) : FVec Ideal S512x256 .f32 :=
  mulf (F := Ideal) v
    (broadcastInDim S512x256 ![0, 1] bcast_S512x1_S512x256_0_1
      (Host.rsqrt (F := Ideal)
        (maximumf (F := Ideal)
          (broadcastInDim S512x1 ![0] bcast_S512_S512x1_0
            (Host.reduceAdd (F := Ideal) (mulf (F := Ideal) v v) (constant (F := Ideal) S_ .f32 0x00000000#32) reducesTo_S512x256_S512_d1 h_S_))
          (broadcastInDim S512x1 ![] bcast_S_S512x1 (constant (F := Ideal) S_ .f32 0x2B8CBCCC#32)))))

/-- The first dense layer: a product with the weights plus the bias row, clipped below at zero. -/
def dense1 (v : FVec Ideal S512x256 .f32) (w : FVec Ideal S256x64 .f32) (bias : FVec Ideal S64 .f32) : FVec Ideal S512x64 .f32 :=
  maximumf (F := Ideal)
    (addf (F := Ideal) (Host.dotGeneral (F := Ideal) dot_S512x256_S256x64_S512x64_1_0_0_1_n_n none v w)
      (broadcastInDim S512x64 ![0, 1] bcast_S1x64_S512x64_0_1 (broadcastInDim S1x64 ![1] bcast_S64_S1x64_1 bias)))
    (broadcastInDim S512x64 ![] bcast_S_S512x64 (constant (F := Ideal) S_ .f32 0x00000000#32))

/-- The second dense layer. -/
def dense2 (v : FVec Ideal S512x64 .f32) (w : FVec Ideal S64x32 .f32) (bias : FVec Ideal S32 .f32) : FVec Ideal S512x32 .f32 :=
  maximumf (F := Ideal)
    (addf (F := Ideal) (Host.dotGeneral (F := Ideal) dot_S512x64_S64x32_S512x32_1_0_0_1_n_n none v w)
      (broadcastInDim S512x32 ![0, 1] bcast_S1x32_S512x32_0_1 (broadcastInDim S1x32 ![1] bcast_S32_S1x32_1 bias)))
    (broadcastInDim S512x32 ![] bcast_S_S512x32 (constant (F := Ideal) S_ .f32 0x00000000#32))

/-- The third dense layer. -/
def dense3 (v : FVec Ideal S512x32 .f32) (w : FVec Ideal S32x16 .f32) (bias : FVec Ideal S16 .f32) : FVec Ideal S512x16 .f32 :=
  maximumf (F := Ideal)
    (addf (F := Ideal) (Host.dotGeneral (F := Ideal) dot_S512x32_S32x16_S512x16_1_0_0_1_n_n none v w)
      (broadcastInDim S512x16 ![0, 1] bcast_S1x16_S512x16_0_1 (broadcastInDim S1x16 ![1] bcast_S16_S1x16_1 bias)))
    (broadcastInDim S512x16 ![] bcast_S_S512x16 (constant (F := Ideal) S_ .f32 0x00000000#32))

/-- The fourth dense layer. -/
def dense4 (v : FVec Ideal S512x16 .f32) (w : FVec Ideal S16x8 .f32) (bias : FVec Ideal S8 .f32) : FVec Ideal S512x8 .f32 :=
  maximumf (F := Ideal)
    (addf (F := Ideal) (Host.dotGeneral (F := Ideal) dot_S512x16_S16x8_S512x8_1_0_0_1_n_n none v w)
      (broadcastInDim S512x8 ![0, 1] bcast_S1x8_S512x8_0_1 (broadcastInDim S1x8 ![1] bcast_S8_S1x8_1 bias)))
    (broadcastInDim S512x8 ![] bcast_S_S512x8 (constant (F := Ideal) S_ .f32 0x00000000#32))

/-- The last dense layer, of one column, not clipped. -/
def logits (v : FVec Ideal S512x8 .f32) (w : FVec Ideal S8x1 .f32) (bias : FVec Ideal S1 .f32) : FVec Ideal S512x1 .f32 :=
  addf (F := Ideal) (Host.dotGeneral (F := Ideal) dot_S512x8_S8x1_S512x1_1_0_0_1_n_n none v w)
    (broadcastInDim S512x1 ![0, 1] bcast_S1x1_S512x1_0_1 (broadcastInDim S1x1 ![1] bcast_S1_S1x1_1 bias))

/-- The exponentials of a one-column matrix's entries, each row's greatest entry subtracted first. -/
def expShift (v : FVec Ideal S512x1 .f32) : FVec Ideal S512x1 .f32 :=
  Host.exp (F := Ideal)
    (subf (F := Ideal) v
      (broadcastInDim S512x1 ![0] bcast_S512_S512x1_0
        (maximumf (F := Ideal) (broadcastInDim S512 ![] bcast_S_S512 (constant (F := Ideal) S_ .f32 0xFF800000#32))
          (Host.reduce (FloatOps.maximumf (F := Ideal) (φ := .f32)) v (constant (F := Ideal) S_ .f32 0xFF800000#32) reducesTo_S512x1_S512_d1 h_S_))))

/-- Every row's entries divided by their sum. -/
def rowShare (e : FVec Ideal S512x1 .f32) : FVec Ideal S512x1 .f32 :=
  Host.divf (F := Ideal) e
    (broadcastInDim S512x1 ![0] bcast_S512_S512x1_0 (Host.reduceAdd (F := Ideal) e (constant (F := Ideal) S_ .f32 0x00000000#32) reducesTo_S512x1_S512_d1 h_S_))

/-- The common last stretch: from the two branches' results to the program's result. -/
def Tail (a b : FVec Ideal S512x128 .f32) (x3 : FVec Ideal S256x64 .f32) (x4 : FVec Ideal S64 .f32) (x5 : FVec Ideal S64x32 .f32) (x6 : FVec Ideal S32 .f32)
    (x7 : FVec Ideal S32x16 .f32) (x8 : FVec Ideal S16 .f32) (x9 : FVec Ideal S16x8 .f32) (x10 : FVec Ideal S8 .f32) (x11 : FVec Ideal S8x1 .f32) (x12 : FVec Ideal S1 .f32) :
    FVec Ideal S512x1 .f32 :=
  rowShare (expShift (logits (dense4 (dense3 (dense2 (dense1
    (normalize (concatenate S512x256 1 [⟨S512x128, a⟩, ⟨S512x128, b⟩] concatenates_S512x128_S512x128_S512x256_d1))
    x3 x4) x5 x6) x7 x8) x9 x10) x11 x12))

end Cert.RefSide

end
-- ==== Proof.KTailEq.lean ====
/-
  The kernel program's last stretch and the reference program's last stretch are one function: the same operations
  in the same order, over shape facts and contraction records that are equal.
-/
import proofs.«118190_j89781996355909_2_alg».proof.Proof.GlueTail
import proofs.«118190_j89781996355909_2_alg».proof.Proof.RefSide.Tail

set_option maxRecDepth 16384

noncomputable section

namespace Cert.KTailEq

open Idealize.ShloMosaic Cert.KernelIdeal

/-- The two programs' last stretches agree on all arguments. -/
theorem ktail_eq_tail (a b : FVec Ideal S512x128 .f32) (x3 : FVec Ideal S256x64 .f32) (x4 : FVec Ideal S64 .f32)
    (x5 : FVec Ideal S64x32 .f32) (x6 : FVec Ideal S32 .f32) (x7 : FVec Ideal S32x16 .f32) (x8 : FVec Ideal S16 .f32)
    (x9 : FVec Ideal S16x8 .f32) (x10 : FVec Ideal S8 .f32) (x11 : FVec Ideal S8x1 .f32) (x12 : FVec Ideal S1 .f32) :
    Cert.KernelIdeal.Glue.KTail a b x3 x4 x5 x6 x7 x8 x9 x10 x11 x12
      = Cert.RefSide.Tail a b x3 x4 x5 x6 x7 x8 x9 x10 x11 x12 :=
  rfl

end Cert.KTailEq

end
-- ==== Proof.LibConcatCols.lean ====
/-
  Two matrices with the same number of rows laid side by side, read at an index.

  The concatenation along the column axis of an a-by-b matrix and an a-by-c matrix reads, at row p and column k,
  the first matrix at (p, k) when k < b, and the second matrix at (p, k - b) otherwise.
-/
import Idealize.ShloMosaic.Lib.ValueIdx
import Idealize.ShloMosaic.Lib.Pipeline.Value

namespace LibConcatCols

open Idealize.ShloMosaic Idealize.ShloMosaic.ValueIdx

variable {α : Type}

/-- A column in the first piece's range reads the first piece. -/
theorem concat_cols_left {a b c n : ℕ} (x₁ : (⟨2, ![a, b]⟩ : Shape).Idx → α) (x₂ : (⟨2, ![a, c]⟩ : Shape).Idx → α)
    (h : Shape.Concatenates [⟨2, ![a, b]⟩, ⟨2, ![a, c]⟩] ⟨2, ![a, n]⟩ 1) (p : Fin a) (k : Fin n) (k' : Fin b)
    (hk : k'.val = k.val) :
    concatenate ⟨2, ![a, n]⟩ 1 [⟨⟨2, ![a, b]⟩, x₁⟩, ⟨⟨2, ![a, c]⟩, x₂⟩] h (ix2 p k) = x₁ (ix2 p k') :=
  concatenate_pair_apply_left 1 x₁ x₂ h (ix2 p k) rfl (ix2 p k') (fun d => by
    match d with
    | ⟨0, _⟩ => rfl
    | ⟨1, _⟩ => exact hk)

/-- A column past the first piece's range reads the second piece, the first piece's width less. -/
theorem concat_cols_right {a b c n : ℕ} (x₁ : (⟨2, ![a, b]⟩ : Shape).Idx → α) (x₂ : (⟨2, ![a, c]⟩ : Shape).Idx → α)
    (h : Shape.Concatenates [⟨2, ![a, b]⟩, ⟨2, ![a, c]⟩] ⟨2, ![a, n]⟩ 1) (p : Fin a) (k : Fin n) (k' : Fin c)
    (hk : k'.val + b = k.val) :
    concatenate ⟨2, ![a, n]⟩ 1 [⟨⟨2, ![a, b]⟩, x₁⟩, ⟨⟨2, ![a, c]⟩, x₂⟩] h (ix2 p k) = x₂ (ix2 p k') :=
  concatenate_pair_apply_right 1 x₁ x₂ h (ix2 p k) rfl rfl (ix2 p k') (fun d hd => by
    match d, hd with
    | ⟨0, _⟩, _ => rfl
    | ⟨1, _⟩, hd => exact absurd rfl hd) hk

end LibConcatCols
-- ==== Proof.RefSide.Lib.lean ====
/-
  Two small facts used when the reference program is read entry by entry.

  A sum over the columns of two matrices laid side by side is the sum over the columns of the first plus the sum
  over the columns of the second: 512 = 256 + 256 and 256 = 128 + 128.
-/
import Mathlib.Algebra.BigOperators.Fin
import Mathlib.Data.EReal.Basic

noncomputable section

open scoped BigOperators

namespace Cert.RefSide

/-- A sum over 512 columns is the sum over the first 256 plus the sum over the last 256. -/
theorem sum_split_512 {M : Type*} [AddCommMonoid M] (f : Fin 512 → M) :
    ∑ c, f c = (∑ k : Fin 256, f (⟨k.val, by omega⟩ : Fin 512)) + ∑ k : Fin 256, f (⟨256 + k.val, by omega⟩ : Fin 512) :=
  Fin.sum_univ_add (a := 256) (b := 256) f

/-- A sum over 256 columns is the sum over the first 128 plus the sum over the last 128. -/
theorem sum_split_256 {M : Type*} [AddCommMonoid M] (f : Fin 256 → M) :
    ∑ c, f c = (∑ k : Fin 128, f (⟨k.val, by omega⟩ : Fin 256)) + ∑ k : Fin 128, f (⟨128 + k.val, by omega⟩ : Fin 256) :=
  Fin.sum_univ_add (a := 128) (b := 128) f

end Cert.RefSide

end
-- ==== Proof.RefSide.B0.lean ====
/-
  The reference program's first branch read entry by entry.

  A list of signed row numbers is first wrapped (a negative number counts from the end of the table) and then used
  to look rows up, the lookup clamping the number into the table's range.  A row looked up in a looked-up table is
  the table's row at the composed row number.  The first layer multiplies the mixing matrix by the looked-up source
  rows, lays the result side by side with the looked-up target rows, multiplies by the weights and clips below at
  zero; the sum over the 512 columns splits into the first 256 (against the upper half of the weights) and the last
  256 (against the lower half).  The second layer does the same over the first layer's rows with 128 + 128 columns
  and no clipping.
-/
import proofs.«118190_j89781996355909_2_alg».proof.Proof.RefReadP
import proofs.«118190_j89781996355909_2_alg».proof.Proof.Spec
import proofs.«118190_j89781996355909_2_alg».proof.Proof.LibGatherScatter
import proofs.«118190_j89781996355909_2_alg».proof.Proof.LibConcatCols
import proofs.«118190_j89781996355909_2_alg».proof.Proof.RefSide.Lib

noncomputable section

open scoped BigOperators

namespace Cert.RefSide.B0

open Idealize.ShloMosaic Idealize.ShloMosaic.ValueIdx LibGatherScatter
open Cert.ReferenceIdeal Cert.ReferenceIdeal.Gen Cert.ReferenceIdeal.ReadP

variable (x0 : (⟨S100000x256, .f32⟩ : BufTy).Contents (Elt Ideal)) (x1 : (⟨S512x128, .f32⟩ : BufTy).Contents (Elt Ideal)) (x2 : (⟨S256x128, .f32⟩ : BufTy).Contents (Elt Ideal))
  (x13 x14 : (⟨S16384, .i32⟩ : BufTy).Contents (Elt Ideal)) (x15 : (⟨S2048, .i32⟩ : BufTy).Contents (Elt Ideal)) (x16 : (⟨S2048x16384, .f32⟩ : BufTy).Contents (Elt Ideal))
  (x17 : (⟨S2048, .i32⟩ : BufTy).Contents (Elt Ideal)) (x18 : (⟨S512, .i32⟩ : BufTy).Contents (Elt Ideal)) (x19 : (⟨S512x2048, .f32⟩ : BufTy).Contents (Elt Ideal))

/-! ## The wrapped row numbers -/

/-- The node numbers, wrapped into the feature table. -/
theorem nodes_at (e : Fin 16384) :
    val_main_v5 (F := Ideal) x13 (ix2 e (0 : Fin 1)) = Spec.wrap 100000#32 (x13 (ix1 e)) := by
  rw [val_main_v5_apply, val_main_v4_apply, val_main_v1_apply, val_main_v3_apply, val_main_v0_apply, val_main_v2_apply, val_main_c_apply, val_main_c_0_apply]
  have hi : idx_main_v5 (ix2 e (0 : Fin 1)) = ix1 e := funext fun a => match a with | ⟨0, _⟩ => rfl
  rw [hi]
  rfl

/-- The first layer's target positions, wrapped into the table of node rows. -/
theorem s2d_at (e : Fin 2048) :
    val_main_v12 (F := Ideal) x15 (ix2 e (0 : Fin 1)) = Spec.wrap 16384#32 (x15 (ix1 e)) := by
  rw [val_main_v12_apply, val_main_v11_apply, val_main_v8_apply, val_main_v10_apply, val_main_v7_apply, val_main_v9_apply, val_main_c_1_apply, val_main_c_2_apply]
  have hi : idx_main_v12 (ix2 e (0 : Fin 1)) = ix1 e := funext fun a => match a with | ⟨0, _⟩ => rfl
  rw [hi]
  rfl

/-- The first layer's source positions, wrapped into the table of node rows. -/
theorem s2s_at (e : Fin 16384) :
    val_main_v19 (F := Ideal) x14 (ix2 e (0 : Fin 1)) = Spec.wrap 16384#32 (x14 (ix1 e)) := by
  rw [val_main_v19_apply, val_main_v18_apply, val_main_v15_apply, val_main_v17_apply, val_main_v14_apply, val_main_v16_apply, val_main_c_3_apply, val_main_c_4_apply]
  have hi : idx_main_v19 (ix2 e (0 : Fin 1)) = ix1 e := funext fun a => match a with | ⟨0, _⟩ => rfl
  rw [hi]
  rfl

/-- The second layer's target positions, wrapped into the first layer's rows. -/
theorem s2d1_at (e : Fin 512) :
    val_main_v30 (F := Ideal) x18 (ix2 e (0 : Fin 1)) = Spec.wrap 2048#32 (x18 (ix1 e)) := by
  rw [val_main_v30_apply, val_main_v29_apply, val_main_v26_apply, val_main_v28_apply, val_main_v25_apply, val_main_v27_apply, val_main_c_5_apply, val_main_c_6_apply]
  have hi : idx_main_v30 (ix2 e (0 : Fin 1)) = ix1 e := funext fun a => match a with | ⟨0, _⟩ => rfl
  rw [hi]
  rfl

/-- The second layer's source positions, wrapped into the first layer's rows. -/
theorem s2s1_at (e : Fin 2048) :
    val_main_v37 (F := Ideal) x17 (ix2 e (0 : Fin 1)) = Spec.wrap 2048#32 (x17 (ix1 e)) := by
  rw [val_main_v37_apply, val_main_v36_apply, val_main_v33_apply, val_main_v35_apply, val_main_v32_apply, val_main_v34_apply, val_main_c_7_apply, val_main_c_8_apply]
  have hi : idx_main_v37 (ix2 e (0 : Fin 1)) = ix1 e := funext fun a => match a with | ⟨0, _⟩ => rfl
  rw [hi]
  rfl

/-! ## The first layer -/

/-- The rows of the feature table at the node numbers. -/
theorem feat_at (e : Fin 16384) (k : Fin 256) :
    val_main_v6 (F := Ideal) x0 x13 (ix2 e k)
      = x0 (ix2 (clampRow 100000 (by decide) (Spec.wrap 100000#32 (x13 (ix1 e)))) k) := by
  have h := gather_rows_apply (N := 100000) (E := 16384) (W := 256) (by decide)
    gather_S100000x256_S16384x1_S16384x256_1_0_n_n_0_1_1256_wf x0 (val_main_v5 (F := Ideal) x13) e k
  rw [nodes_at] at h
  exact h

/-- The target rows: a row of the node rows is the feature table's row at the composed row number. -/
theorem dst_at (r : Fin 2048) (k : Fin 256) :
    val_main_v13 (F := Ideal) x0 x13 x15 (ix2 r k) = x0 (ix2 (Spec.nodeRow x13 x15 r) k) := by
  have h := gather_rows_apply (N := 16384) (E := 2048) (W := 256) (by decide)
    gather_S16384x256_S2048x1_S2048x256_1_0_n_n_0_1_1256_wf (val_main_v6 (F := Ideal) x0 x13) (val_main_v12 (F := Ideal) x15) r k
  rw [s2d_at, feat_at] at h
  exact h

/-- The source rows likewise. -/
theorem src_at (s : Fin 16384) (k : Fin 256) :
    val_main_v20 (F := Ideal) x0 x13 x14 (ix2 s k) = x0 (ix2 (Spec.nodeRow x13 x14 s) k) := by
  have h := gather_rows_apply (N := 16384) (E := 16384) (W := 256) (by decide)
    gather_S16384x256_S16384x1_S16384x256_1_0_n_n_0_1_1256_wf (val_main_v6 (F := Ideal) x0 x13) (val_main_v19 (F := Ideal) x14) s k
  rw [s2s_at, feat_at] at h
  exact h

/-- The aggregated rows: the mixing matrix times the source rows. -/
theorem agg_at (r : Fin 2048) (k : Fin 256) :
    val_main_v21 (F := Ideal) x0 x13 x14 x16 (ix2 r k)
      = ∑ s : Fin 16384, x16 (ix2 r s) * x0 (ix2 (Spec.nodeRow x13 x14 s) k) := by
  rw [val_main_v21_apply]
  refine Finset.sum_congr rfl fun s _ => ?_
  have hl : lidx_main_v21 (ix2 r k) s = ix2 r s := funext fun a => match a with | ⟨0, _⟩ => rfl | ⟨1, _⟩ => rfl
  have hr : ridx_main_v21 (ix2 r k) s = ix2 s k := funext fun a => match a with | ⟨0, _⟩ => rfl | ⟨1, _⟩ => rfl
  rw [hl, hr, src_at]

/-- The first 256 columns of the side-by-side matrix are the aggregated rows … -/
theorem cat_left (r : Fin 2048) (k : Fin 256) :
    val_main_v22 (F := Ideal) x0 x13 x14 x15 x16 (ix2 r (⟨k.val, by omega⟩ : Fin 512))
      = val_main_v21 (F := Ideal) x0 x13 x14 x16 (ix2 r k) := by
  unfold val_main_v22
  exact LibConcatCols.concat_cols_left _ _ concatenates_S2048x256_S2048x256_S2048x512_d1 r _ k rfl

/-- … and the last 256 the target rows. -/
theorem cat_right (r : Fin 2048) (k : Fin 256) :
    val_main_v22 (F := Ideal) x0 x13 x14 x15 x16 (ix2 r (⟨256 + k.val, by omega⟩ : Fin 512))
      = val_main_v13 (F := Ideal) x0 x13 x15 (ix2 r k) := by
  unfold val_main_v22
  exact LibConcatCols.concat_cols_right _ _ concatenates_S2048x256_S2048x256_S2048x512_d1 r _ k (Nat.add_comm _ _)

/-- The first layer before clipping. -/
theorem lin1_at (r : Fin 2048) (j : Fin 128) :
    val_main_v23 (F := Ideal) x0 x1 x13 x14 x15 x16 (ix2 r j)
      = Spec.layer (fun r s => x16 (ix2 r s)) (fun s k => x0 (ix2 (Spec.nodeRow x13 x14 s) k))
          (fun r k => x0 (ix2 (Spec.nodeRow x13 x15 r) k))
          (fun (k : Fin 256) j => x1 (ix2 (⟨k.val, by omega⟩ : Fin 512) j))
          (fun (k : Fin 256) j => x1 (ix2 (⟨256 + k.val, by omega⟩ : Fin 512) j)) r j := by
  rw [val_main_v23_apply]
  have h : ∀ c : Fin 512, val_main_v22 (F := Ideal) x0 x13 x14 x15 x16 (lidx_main_v23 (ix2 r j) c) * x1 (ridx_main_v23 (ix2 r j) c)
      = val_main_v22 (F := Ideal) x0 x13 x14 x15 x16 (ix2 r c) * x1 (ix2 c j) := fun c => by
    have hl : lidx_main_v23 (ix2 r j) c = ix2 r c := funext fun a => match a with | ⟨0, _⟩ => rfl | ⟨1, _⟩ => rfl
    have hr : ridx_main_v23 (ix2 r j) c = ix2 c j := funext fun a => match a with | ⟨0, _⟩ => rfl | ⟨1, _⟩ => rfl
    rw [hl, hr]
  rw [Fintype.sum_congr _ _ h, sum_split_512]
  unfold Spec.layer
  refine congrArg₂ (· + ·) ?_ ?_
  · refine Finset.sum_congr rfl fun k _ => ?_
    rw [cat_left, agg_at]
  · refine Finset.sum_congr rfl fun k _ => ?_
    rw [cat_right, dst_at]

/-- The first layer: clipped below at zero. -/
theorem hidden_at (r : Fin 2048) (j : Fin 128) :
    val_main_v24 (F := Ideal) x0 x1 x13 x14 x15 x16 (ix2 r j) = Spec.hidden x0 x1 x13 x14 x15 x16 r j := by
  rw [val_main_v24_apply, val_main_call0_v0_apply, val_main_call0_cst_apply, lin1_at]
  show max _ (Ideal.ofBits .f32 0x00000000#32) = _
  rw [Ideal.ofBits_zero_f32]
  rfl

/-! ## The second layer -/

/-- The target rows of the second layer: rows of the first layer's result. -/
theorem dst1_at (p : Fin 512) (k : Fin 128) :
    val_main_v31 (F := Ideal) x0 x1 x13 x14 x15 x16 x18 (ix2 p k)
      = Spec.hidden x0 x1 x13 x14 x15 x16 (Spec.rowAt (N := 2048) (by decide) 2048#32 x18 p) k := by
  have h := gather_rows_apply (N := 2048) (E := 512) (W := 128) (by decide)
    gather_S2048x128_S512x1_S512x128_1_0_n_n_0_1_1128_wf (val_main_v24 (F := Ideal) x0 x1 x13 x14 x15 x16) (val_main_v30 (F := Ideal) x18) p k
  rw [s2d1_at, hidden_at] at h
  exact h

/-- The source rows of the second layer likewise. -/
theorem src1_at (s : Fin 2048) (k : Fin 128) :
    val_main_v38 (F := Ideal) x0 x1 x13 x14 x15 x16 x17 (ix2 s k)
      = Spec.hidden x0 x1 x13 x14 x15 x16 (Spec.rowAt (N := 2048) (by decide) 2048#32 x17 s) k := by
  have h := gather_rows_apply (N := 2048) (E := 2048) (W := 128) (by decide)
    gather_S2048x128_S2048x1_S2048x128_1_0_n_n_0_1_1128_wf (val_main_v24 (F := Ideal) x0 x1 x13 x14 x15 x16) (val_main_v37 (F := Ideal) x17) s k
  rw [s2s1_at, hidden_at] at h
  exact h

/-- The second layer's aggregated rows. -/
theorem agg1_at (p : Fin 512) (k : Fin 128) :
    val_main_v39 (F := Ideal) x0 x1 x13 x14 x15 x16 x17 x19 (ix2 p k)
      = ∑ s : Fin 2048, x19 (ix2 p s)
          * Spec.hidden x0 x1 x13 x14 x15 x16 (Spec.rowAt (N := 2048) (by decide) 2048#32 x17 s) k := by
  rw [val_main_v39_apply]
  refine Finset.sum_congr rfl fun s _ => ?_
  have hl : lidx_main_v39 (ix2 p k) s = ix2 p s := funext fun a => match a with | ⟨0, _⟩ => rfl | ⟨1, _⟩ => rfl
  have hr : ridx_main_v39 (ix2 p k) s = ix2 s k := funext fun a => match a with | ⟨0, _⟩ => rfl | ⟨1, _⟩ => rfl
  rw [hl, hr, src1_at]

theorem cat1_left (p : Fin 512) (k : Fin 128) :
    val_main_v40 (F := Ideal) x0 x1 x13 x14 x15 x16 x17 x18 x19 (ix2 p (⟨k.val, by omega⟩ : Fin 256))
      = val_main_v39 (F := Ideal) x0 x1 x13 x14 x15 x16 x17 x19 (ix2 p k) := by
  unfold val_main_v40
  exact LibConcatCols.concat_cols_left _ _ concatenates_S512x128_S512x128_S512x256_d1 p _ k rfl

theorem cat1_right (p : Fin 512) (k : Fin 128) :
    val_main_v40 (F := Ideal) x0 x1 x13 x14 x15 x16 x17 x18 x19 (ix2 p (⟨128 + k.val, by omega⟩ : Fin 256))
      = val_main_v31 (F := Ideal) x0 x1 x13 x14 x15 x16 x18 (ix2 p k) := by
  unfold val_main_v40
  exact LibConcatCols.concat_cols_right _ _ concatenates_S512x128_S512x128_S512x256_d1 p _ k (Nat.add_comm _ _)

/-- The branch's result at entry (p, j). -/
theorem branch_at (p : Fin 512) (j : Fin 128) :
    val_main_v41 (F := Ideal) x0 x1 x2 x13 x14 x15 x16 x17 x18 x19 (ix2 p j)
      = Spec.branch x0 x1 x2 x13 x14 x15 x16 x17 x18 x19 p j := by
  rw [val_main_v41_apply]
  have h : ∀ c : Fin 256, val_main_v40 (F := Ideal) x0 x1 x13 x14 x15 x16 x17 x18 x19 (lidx_main_v41 (ix2 p j) c) * x2 (ridx_main_v41 (ix2 p j) c)
      = val_main_v40 (F := Ideal) x0 x1 x13 x14 x15 x16 x17 x18 x19 (ix2 p c) * x2 (ix2 c j) := fun c => by
    have hl : lidx_main_v41 (ix2 p j) c = ix2 p c := funext fun a => match a with | ⟨0, _⟩ => rfl | ⟨1, _⟩ => rfl
    have hr : ridx_main_v41 (ix2 p j) c = ix2 c j := funext fun a => match a with | ⟨0, _⟩ => rfl | ⟨1, _⟩ => rfl
    rw [hl, hr]
  rw [Fintype.sum_congr _ _ h, sum_split_256]
  unfold Spec.branch Spec.layer
  refine congrArg₂ (· + ·) ?_ ?_
  · refine Finset.sum_congr rfl fun k _ => ?_
    rw [cat1_left, agg1_at]
  · refine Finset.sum_congr rfl fun k _ => ?_
    rw [cat1_right, dst1_at]

end Cert.RefSide.B0

namespace Cert.RefSide

open Idealize.ShloMosaic Idealize.ShloMosaic.ValueIdx
open Cert.ReferenceIdeal Cert.ReferenceIdeal.ReadP

/-- The reference's first branch is the branch both programs are compared through. -/
theorem ref_branch0 (x0 : (⟨S100000x256, .f32⟩ : BufTy).Contents (Elt Ideal)) (x1 : (⟨S512x128, .f32⟩ : BufTy).Contents (Elt Ideal)) (x2 : (⟨S256x128, .f32⟩ : BufTy).Contents (Elt Ideal))
    (x13 x14 : (⟨S16384, .i32⟩ : BufTy).Contents (Elt Ideal)) (x15 : (⟨S2048, .i32⟩ : BufTy).Contents (Elt Ideal)) (x16 : (⟨S2048x16384, .f32⟩ : BufTy).Contents (Elt Ideal))
    (x17 : (⟨S2048, .i32⟩ : BufTy).Contents (Elt Ideal)) (x18 : (⟨S512, .i32⟩ : BufTy).Contents (Elt Ideal)) (x19 : (⟨S512x2048, .f32⟩ : BufTy).Contents (Elt Ideal)) :
    val_main_v41 (F := Ideal) x0 x1 x2 x13 x14 x15 x16 x17 x18 x19
      = Cert.Spec.branchArr x0 x1 x2 x13 x14 x15 x16 x17 x18 x19 := by
  funext i
  obtain ⟨p, j, rfl⟩ : ∃ p j, i = ix2 p j := ⟨i 0, i 1, eq_ix2 i⟩
  exact B0.branch_at x0 x1 x2 x13 x14 x15 x16 x17 x18 x19 p j

end Cert.RefSide

end
-- ==== Proof.RefSide.B1.lean ====
/-
  The reference program's second branch read entry by entry.

  A list of signed row numbers is first wrapped (a negative number counts from the end of the table) and then used
  to look rows up, the lookup clamping the number into the table's range.  A row looked up in a looked-up table is
  the table's row at the composed row number.  The first layer multiplies the mixing matrix by the looked-up source
  rows, lays the result side by side with the looked-up target rows, multiplies by the weights and clips below at
  zero; the sum over the 512 columns splits into the first 256 (against the upper half of the weights) and the last
  256 (against the lower half).  The second layer does the same over the first layer's rows with 128 + 128 columns
  and no clipping.
-/
import proofs.«118190_j89781996355909_2_alg».proof.Proof.RefReadP
import proofs.«118190_j89781996355909_2_alg».proof.Proof.Spec
import proofs.«118190_j89781996355909_2_alg».proof.Proof.LibGatherScatter
import proofs.«118190_j89781996355909_2_alg».proof.Proof.LibConcatCols
import proofs.«118190_j89781996355909_2_alg».proof.Proof.RefSide.Lib

noncomputable section

open scoped BigOperators

namespace Cert.RefSide.B1

open Idealize.ShloMosaic Idealize.ShloMosaic.ValueIdx LibGatherScatter
open Cert.ReferenceIdeal Cert.ReferenceIdeal.Gen Cert.ReferenceIdeal.ReadP

variable (x0 : (⟨S100000x256, .f32⟩ : BufTy).Contents (Elt Ideal)) (x1 : (⟨S512x128, .f32⟩ : BufTy).Contents (Elt Ideal)) (x2 : (⟨S256x128, .f32⟩ : BufTy).Contents (Elt Ideal))
  (x20 x21 : (⟨S16384, .i32⟩ : BufTy).Contents (Elt Ideal)) (x22 : (⟨S2048, .i32⟩ : BufTy).Contents (Elt Ideal)) (x23 : (⟨S2048x16384, .f32⟩ : BufTy).Contents (Elt Ideal))
  (x24 : (⟨S2048, .i32⟩ : BufTy).Contents (Elt Ideal)) (x25 : (⟨S512, .i32⟩ : BufTy).Contents (Elt Ideal)) (x26 : (⟨S512x2048, .f32⟩ : BufTy).Contents (Elt Ideal))

/-! ## The wrapped row numbers -/

/-- The node numbers, wrapped into the feature table. -/
theorem nodes_at (e : Fin 16384) :
    val_main_v47 (F := Ideal) x20 (ix2 e (0 : Fin 1)) = Spec.wrap 100000#32 (x20 (ix1 e)) := by
  rw [val_main_v47_apply, val_main_v46_apply, val_main_v43_apply, val_main_v45_apply, val_main_v42_apply, val_main_v44_apply, val_main_c_9_apply, val_main_c_10_apply]
  have hi : idx_main_v47 (ix2 e (0 : Fin 1)) = ix1 e := funext fun a => match a with | ⟨0, _⟩ => rfl
  rw [hi]
  rfl

/-- The first layer's target positions, wrapped into the table of node rows. -/
theorem s2d_at (e : Fin 2048) :
    val_main_v54 (F := Ideal) x22 (ix2 e (0 : Fin 1)) = Spec.wrap 16384#32 (x22 (ix1 e)) := by
  rw [val_main_v54_apply, val_main_v53_apply, val_main_v50_apply, val_main_v52_apply, val_main_v49_apply, val_main_v51_apply, val_main_c_11_apply, val_main_c_12_apply]
  have hi : idx_main_v54 (ix2 e (0 : Fin 1)) = ix1 e := funext fun a => match a with | ⟨0, _⟩ => rfl
  rw [hi]
  rfl

/-- The first layer's source positions, wrapped into the table of node rows. -/
theorem s2s_at (e : Fin 16384) :
    val_main_v61 (F := Ideal) x21 (ix2 e (0 : Fin 1)) = Spec.wrap 16384#32 (x21 (ix1 e)) := by
  rw [val_main_v61_apply, val_main_v60_apply, val_main_v57_apply, val_main_v59_apply, val_main_v56_apply, val_main_v58_apply, val_main_c_13_apply, val_main_c_14_apply]
  have hi : idx_main_v61 (ix2 e (0 : Fin 1)) = ix1 e := funext fun a => match a with | ⟨0, _⟩ => rfl
  rw [hi]
  rfl

/-- The second layer's target positions, wrapped into the first layer's rows. -/
theorem s2d1_at (e : Fin 512) :
    val_main_v72 (F := Ideal) x25 (ix2 e (0 : Fin 1)) = Spec.wrap 2048#32 (x25 (ix1 e)) := by
  rw [val_main_v72_apply, val_main_v71_apply, val_main_v68_apply, val_main_v70_apply, val_main_v67_apply, val_main_v69_apply, val_main_c_15_apply, val_main_c_16_apply]
  have hi : idx_main_v72 (ix2 e (0 : Fin 1)) = ix1 e := funext fun a => match a with | ⟨0, _⟩ => rfl
  rw [hi]
  rfl

/-- The second layer's source positions, wrapped into the first layer's rows. -/
theorem s2s1_at (e : Fin 2048) :
    val_main_v79 (F := Ideal) x24 (ix2 e (0 : Fin 1)) = Spec.wrap 2048#32 (x24 (ix1 e)) := by
  rw [val_main_v79_apply, val_main_v78_apply, val_main_v75_apply, val_main_v77_apply, val_main_v74_apply, val_main_v76_apply, val_main_c_17_apply, val_main_c_18_apply]
  have hi : idx_main_v79 (ix2 e (0 : Fin 1)) = ix1 e := funext fun a => match a with | ⟨0, _⟩ => rfl
  rw [hi]
  rfl

/-! ## The first layer -/

/-- The rows of the feature table at the node numbers. -/
theorem feat_at (e : Fin 16384) (k : Fin 256) :
    val_main_v48 (F := Ideal) x0 x20 (ix2 e k)
      = x0 (ix2 (clampRow 100000 (by decide) (Spec.wrap 100000#32 (x20 (ix1 e)))) k) := by
  have h := gather_rows_apply (N := 100000) (E := 16384) (W := 256) (by decide)
    gather_S100000x256_S16384x1_S16384x256_1_0_n_n_0_1_1256_wf x0 (val_main_v47 (F := Ideal) x20) e k
  rw [nodes_at] at h
  exact h

/-- The target rows: a row of the node rows is the feature table's row at the composed row number. -/
theorem dst_at (r : Fin 2048) (k : Fin 256) :
    val_main_v55 (F := Ideal) x0 x20 x22 (ix2 r k) = x0 (ix2 (Spec.nodeRow x20 x22 r) k) := by
  have h := gather_rows_apply (N := 16384) (E := 2048) (W := 256) (by decide)
    gather_S16384x256_S2048x1_S2048x256_1_0_n_n_0_1_1256_wf (val_main_v48 (F := Ideal) x0 x20) (val_main_v54 (F := Ideal) x22) r k
  rw [s2d_at, feat_at] at h
  exact h

/-- The source rows likewise. -/
theorem src_at (s : Fin 16384) (k : Fin 256) :
    val_main_v62 (F := Ideal) x0 x20 x21 (ix2 s k) = x0 (ix2 (Spec.nodeRow x20 x21 s) k) := by
  have h := gather_rows_apply (N := 16384) (E := 16384) (W := 256) (by decide)
    gather_S16384x256_S16384x1_S16384x256_1_0_n_n_0_1_1256_wf (val_main_v48 (F := Ideal) x0 x20) (val_main_v61 (F := Ideal) x21) s k
  rw [s2s_at, feat_at] at h
  exact h

/-- The aggregated rows: the mixing matrix times the source rows. -/
theorem agg_at (r : Fin 2048) (k : Fin 256) :
    val_main_v63 (F := Ideal) x0 x20 x21 x23 (ix2 r k)
      = ∑ s : Fin 16384, x23 (ix2 r s) * x0 (ix2 (Spec.nodeRow x20 x21 s) k) := by
  rw [val_main_v63_apply]
  refine Finset.sum_congr rfl fun s _ => ?_
  have hl : lidx_main_v63 (ix2 r k) s = ix2 r s := funext fun a => match a with | ⟨0, _⟩ => rfl | ⟨1, _⟩ => rfl
  have hr : ridx_main_v63 (ix2 r k) s = ix2 s k := funext fun a => match a with | ⟨0, _⟩ => rfl | ⟨1, _⟩ => rfl
  rw [hl, hr, src_at]

/-- The first 256 columns of the side-by-side matrix are the aggregated rows … -/
theorem cat_left (r : Fin 2048) (k : Fin 256) :
    val_main_v64 (F := Ideal) x0 x20 x21 x22 x23 (ix2 r (⟨k.val, by omega⟩ : Fin 512))
      = val_main_v63 (F := Ideal) x0 x20 x21 x23 (ix2 r k) := by
  unfold val_main_v64
  exact LibConcatCols.concat_cols_left _ _ concatenates_S2048x256_S2048x256_S2048x512_d1 r _ k rfl

/-- … and the last 256 the target rows. -/
theorem cat_right (r : Fin 2048) (k : Fin 256) :
    val_main_v64 (F := Ideal) x0 x20 x21 x22 x23 (ix2 r (⟨256 + k.val, by omega⟩ : Fin 512))
      = val_main_v55 (F := Ideal) x0 x20 x22 (ix2 r k) := by
  unfold val_main_v64
  exact LibConcatCols.concat_cols_right _ _ concatenates_S2048x256_S2048x256_S2048x512_d1 r _ k (Nat.add_comm _ _)

/-- The first layer before clipping. -/
theorem lin1_at (r : Fin 2048) (j : Fin 128) :
    val_main_v65 (F := Ideal) x0 x1 x20 x21 x22 x23 (ix2 r j)
      = Spec.layer (fun r s => x23 (ix2 r s)) (fun s k => x0 (ix2 (Spec.nodeRow x20 x21 s) k))
          (fun r k => x0 (ix2 (Spec.nodeRow x20 x22 r) k))
          (fun (k : Fin 256) j => x1 (ix2 (⟨k.val, by omega⟩ : Fin 512) j))
          (fun (k : Fin 256) j => x1 (ix2 (⟨256 + k.val, by omega⟩ : Fin 512) j)) r j := by
  rw [val_main_v65_apply]
  have h : ∀ c : Fin 512, val_main_v64 (F := Ideal) x0 x20 x21 x22 x23 (lidx_main_v65 (ix2 r j) c) * x1 (ridx_main_v65 (ix2 r j) c)
      = val_main_v64 (F := Ideal) x0 x20 x21 x22 x23 (ix2 r c) * x1 (ix2 c j) := fun c => by
    have hl : lidx_main_v65 (ix2 r j) c = ix2 r c := funext fun a => match a with | ⟨0, _⟩ => rfl | ⟨1, _⟩ => rfl
    have hr : ridx_main_v65 (ix2 r j) c = ix2 c j := funext fun a => match a with | ⟨0, _⟩ => rfl | ⟨1, _⟩ => rfl
    rw [hl, hr]
  rw [Fintype.sum_congr _ _ h, sum_split_512]
  unfold Spec.layer
  refine congrArg₂ (· + ·) ?_ ?_
  · refine Finset.sum_congr rfl fun k _ => ?_
    rw [cat_left, agg_at]
  · refine Finset.sum_congr rfl fun k _ => ?_
    rw [cat_right, dst_at]

/-- The first layer: clipped below at zero. -/
theorem hidden_at (r : Fin 2048) (j : Fin 128) :
    val_main_v66 (F := Ideal) x0 x1 x20 x21 x22 x23 (ix2 r j) = Spec.hidden x0 x1 x20 x21 x22 x23 r j := by
  rw [val_main_v66_apply, val_main_call1_v0_apply, val_main_call1_cst_apply, lin1_at]
  show max _ (Ideal.ofBits .f32 0x00000000#32) = _
  rw [Ideal.ofBits_zero_f32]
  rfl

/-! ## The second layer -/

/-- The target rows of the second layer: rows of the first layer's result. -/
theorem dst1_at (p : Fin 512) (k : Fin 128) :
    val_main_v73 (F := Ideal) x0 x1 x20 x21 x22 x23 x25 (ix2 p k)
      = Spec.hidden x0 x1 x20 x21 x22 x23 (Spec.rowAt (N := 2048) (by decide) 2048#32 x25 p) k := by
  have h := gather_rows_apply (N := 2048) (E := 512) (W := 128) (by decide)
    gather_S2048x128_S512x1_S512x128_1_0_n_n_0_1_1128_wf (val_main_v66 (F := Ideal) x0 x1 x20 x21 x22 x23) (val_main_v72 (F := Ideal) x25) p k
  rw [s2d1_at, hidden_at] at h
  exact h

/-- The source rows of the second layer likewise. -/
theorem src1_at (s : Fin 2048) (k : Fin 128) :
    val_main_v80 (F := Ideal) x0 x1 x20 x21 x22 x23 x24 (ix2 s k)
      = Spec.hidden x0 x1 x20 x21 x22 x23 (Spec.rowAt (N := 2048) (by decide) 2048#32 x24 s) k := by
  have h := gather_rows_apply (N := 2048) (E := 2048) (W := 128) (by decide)
    gather_S2048x128_S2048x1_S2048x128_1_0_n_n_0_1_1128_wf (val_main_v66 (F := Ideal) x0 x1 x20 x21 x22 x23) (val_main_v79 (F := Ideal) x24) s k
  rw [s2s1_at, hidden_at] at h
  exact h

/-- The second layer's aggregated rows. -/
theorem agg1_at (p : Fin 512) (k : Fin 128) :
    val_main_v81 (F := Ideal) x0 x1 x20 x21 x22 x23 x24 x26 (ix2 p k)
      = ∑ s : Fin 2048, x26 (ix2 p s)
          * Spec.hidden x0 x1 x20 x21 x22 x23 (Spec.rowAt (N := 2048) (by decide) 2048#32 x24 s) k := by
  rw [val_main_v81_apply]
  refine Finset.sum_congr rfl fun s _ => ?_
  have hl : lidx_main_v81 (ix2 p k) s = ix2 p s := funext fun a => match a with | ⟨0, _⟩ => rfl | ⟨1, _⟩ => rfl
  have hr : ridx_main_v81 (ix2 p k) s = ix2 s k := funext fun a => match a with | ⟨0, _⟩ => rfl | ⟨1, _⟩ => rfl
  rw [hl, hr, src1_at]

theorem cat1_left (p : Fin 512) (k : Fin 128) :
    val_main_v82 (F := Ideal) x0 x1 x20 x21 x22 x23 x24 x25 x26 (ix2 p (⟨k.val, by omega⟩ : Fin 256))
      = val_main_v81 (F := Ideal) x0 x1 x20 x21 x22 x23 x24 x26 (ix2 p k) := by
  unfold val_main_v82
  exact LibConcatCols.concat_cols_left _ _ concatenates_S512x128_S512x128_S512x256_d1 p _ k rfl

theorem cat1_right (p : Fin 512) (k : Fin 128) :
    val_main_v82 (F := Ideal) x0 x1 x20 x21 x22 x23 x24 x25 x26 (ix2 p (⟨128 + k.val, by omega⟩ : Fin 256))
      = val_main_v73 (F := Ideal) x0 x1 x20 x21 x22 x23 x25 (ix2 p k) := by
  unfold val_main_v82
  exact LibConcatCols.concat_cols_right _ _ concatenates_S512x128_S512x128_S512x256_d1 p _ k (Nat.add_comm _ _)

/-- The branch's result at entry (p, j). -/
theorem branch_at (p : Fin 512) (j : Fin 128) :
    val_main_v83 (F := Ideal) x0 x1 x2 x20 x21 x22 x23 x24 x25 x26 (ix2 p j)
      = Spec.branch x0 x1 x2 x20 x21 x22 x23 x24 x25 x26 p j := by
  rw [val_main_v83_apply]
  have h : ∀ c : Fin 256, val_main_v82 (F := Ideal) x0 x1 x20 x21 x22 x23 x24 x25 x26 (lidx_main_v83 (ix2 p j) c) * x2 (ridx_main_v83 (ix2 p j) c)
      = val_main_v82 (F := Ideal) x0 x1 x20 x21 x22 x23 x24 x25 x26 (ix2 p c) * x2 (ix2 c j) := fun c => by
    have hl : lidx_main_v83 (ix2 p j) c = ix2 p c := funext fun a => match a with | ⟨0, _⟩ => rfl | ⟨1, _⟩ => rfl
    have hr : ridx_main_v83 (ix2 p j) c = ix2 c j := funext fun a => match a with | ⟨0, _⟩ => rfl | ⟨1, _⟩ => rfl
    rw [hl, hr]
  rw [Fintype.sum_congr _ _ h, sum_split_256]
  unfold Spec.branch Spec.layer
  refine congrArg₂ (· + ·) ?_ ?_
  · refine Finset.sum_congr rfl fun k _ => ?_
    rw [cat1_left, agg1_at]
  · refine Finset.sum_congr rfl fun k _ => ?_
    rw [cat1_right, dst1_at]

end Cert.RefSide.B1

namespace Cert.RefSide

open Idealize.ShloMosaic Idealize.ShloMosaic.ValueIdx
open Cert.ReferenceIdeal Cert.ReferenceIdeal.ReadP

/-- The reference's second branch is the branch both programs are compared through. -/
theorem ref_branch1 (x0 : (⟨S100000x256, .f32⟩ : BufTy).Contents (Elt Ideal)) (x1 : (⟨S512x128, .f32⟩ : BufTy).Contents (Elt Ideal)) (x2 : (⟨S256x128, .f32⟩ : BufTy).Contents (Elt Ideal))
    (x20 x21 : (⟨S16384, .i32⟩ : BufTy).Contents (Elt Ideal)) (x22 : (⟨S2048, .i32⟩ : BufTy).Contents (Elt Ideal)) (x23 : (⟨S2048x16384, .f32⟩ : BufTy).Contents (Elt Ideal))
    (x24 : (⟨S2048, .i32⟩ : BufTy).Contents (Elt Ideal)) (x25 : (⟨S512, .i32⟩ : BufTy).Contents (Elt Ideal)) (x26 : (⟨S512x2048, .f32⟩ : BufTy).Contents (Elt Ideal)) :
    val_main_v83 (F := Ideal) x0 x1 x2 x20 x21 x22 x23 x24 x25 x26
      = Cert.Spec.branchArr x0 x1 x2 x20 x21 x22 x23 x24 x25 x26 := by
  funext i
  obtain ⟨p, j, rfl⟩ : ∃ p j, i = ix2 p j := ⟨i 0, i 1, eq_ix2 i⟩
  exact B1.branch_at x0 x1 x2 x20 x21 x22 x23 x24 x25 x26 p j

end Cert.RefSide

end
-- ==== Proof.RefSide.Cut.lean ====
/-
  The reference program's operations, cut in two where its two branches' results are laid side by side: the
  operations before the cut compute the two branches' results from the arguments, and the operations from the cut on
  are the common last stretch of the two results and the dense layers' weights.
-/
import proofs.«118190_j89781996355909_2_alg».proof.Proof.RefRunP
import proofs.«118190_j89781996355909_2_alg».proof.Proof.RefReadP
import proofs.«118190_j89781996355909_2_alg».proof.Proof.RefSide.Tail

set_option maxRecDepth 16384

noncomputable section

namespace Cert.RefSide

open Cert.ReferenceIdeal Cert.ReferenceIdeal.Gen Idealize.ShloMosaic Idealize.ShloMosaic.TcCoe Idealize.SL.Sem Idealize.ShloMosaic.StableHlo

/-- Two lines of operations run one after the other leave what their concatenation leaves. -/
theorem after_append {τ : Topo} {sig : RefSig} {Val : EltTy → Type} (l₁ l₂ : List (HloOp τ sig Val)) :
    ∀ W : Valuation τ sig Val, after (l₁ ++ l₂) W = after l₂ (after l₁ W) := by
  induction l₁ with
  | nil => intro W; rfl
  | cons op l ih => intro W; simp only [List.cons_append, after_cons, ih]

variable {F : FTy → Type} [FloatOps F]

/-- The operations before the two branches' results are laid side by side. -/
abbrev opsP : List (HloOp τ sig (Elt F)) :=
  [ nullary main_c (constantI S_ 32 0#32),
    unary main_c main_v0 (broadcastInDim S16384 ![] bcast_S_S16384 : (⟨S_, .i32⟩ : BufTy).Contents (Elt F) → (⟨S16384, .i32⟩ : BufTy).Contents (Elt F)),
    binary main_arg13 main_v0 main_v1 (cmpi .slt : (⟨S16384, .i32⟩ : BufTy).Contents (Elt F) → (⟨S16384, .i32⟩ : BufTy).Contents (Elt F) → (⟨S16384, .i1⟩ : BufTy).Contents (Elt F)),
    nullary main_c_0 (constantI S_ 32 100000#32),
    unary main_c_0 main_v2 (broadcastInDim S16384 ![] bcast_S_S16384 : (⟨S_, .i32⟩ : BufTy).Contents (Elt F) → (⟨S16384, .i32⟩ : BufTy).Contents (Elt F)),
    binary main_arg13 main_v2 main_v3 (addi : (⟨S16384, .i32⟩ : BufTy).Contents (Elt F) → (⟨S16384, .i32⟩ : BufTy).Contents (Elt F) → (⟨S16384, .i32⟩ : BufTy).Contents (Elt F)),
    ternary main_v1 main_v3 main_arg13 main_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v4 main_v5 (broadcastInDim S16384x1 ![0] bcast_S16384_S16384x1_0 : (⟨S16384, .i32⟩ : BufTy).Contents (Elt F) → (⟨S16384x1, .i32⟩ : BufTy).Contents (Elt F)),
    binary main_arg0 main_v5 main_v6 ((fun x i => Host.gather gather_S100000x256_S16384x1_S16384x256_1_0_n_n_0_1_1256 x i) : (⟨S100000x256, .f32⟩ : BufTy).Contents (Elt F) → (⟨S16384x1, .i32⟩ : BufTy).Contents (Elt F) → (⟨S16384x256, .f32⟩ : BufTy).Contents (Elt F)),
    nullary main_c_1 (constantI S_ 32 0#32),
    unary main_c_1 main_v7 (broadcastInDim S2048 ![] bcast_S_S2048 : (⟨S_, .i32⟩ : BufTy).Contents (Elt F) → (⟨S2048, .i32⟩ : BufTy).Contents (Elt F)),
    binary main_arg15 main_v7 main_v8 (cmpi .slt : (⟨S2048, .i32⟩ : BufTy).Contents (Elt F) → (⟨S2048, .i32⟩ : BufTy).Contents (Elt F) → (⟨S2048, .i1⟩ : BufTy).Contents (Elt F)),
    nullary main_c_2 (constantI S_ 32 16384#32),
    unary main_c_2 main_v9 (broadcastInDim S2048 ![] bcast_S_S2048 : (⟨S_, .i32⟩ : BufTy).Contents (Elt F) → (⟨S2048, .i32⟩ : BufTy).Contents (Elt F)),
    binary main_arg15 main_v9 main_v10 (addi : (⟨S2048, .i32⟩ : BufTy).Contents (Elt F) → (⟨S2048, .i32⟩ : BufTy).Contents (Elt F) → (⟨S2048, .i32⟩ : BufTy).Contents (Elt F)),
    ternary main_v8 main_v10 main_arg15 main_v11 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v11 main_v12 (broadcastInDim S2048x1 ![0] bcast_S2048_S2048x1_0 : (⟨S2048, .i32⟩ : BufTy).Contents (Elt F) → (⟨S2048x1, .i32⟩ : BufTy).Contents (Elt F)),
    binary main_v6 main_v12 main_v13 ((fun x i => Host.gather gather_S16384x256_S2048x1_S2048x256_1_0_n_n_0_1_1256 x i) : (⟨S16384x256, .f32⟩ : BufTy).Contents (Elt F) → (⟨S2048x1, .i32⟩ : BufTy).Contents (Elt F) → (⟨S2048x256, .f32⟩ : BufTy).Contents (Elt F)),
    nullary main_c_3 (constantI S_ 32 0#32),
    unary main_c_3 main_v14 (broadcastInDim S16384 ![] bcast_S_S16384 : (⟨S_, .i32⟩ : BufTy).Contents (Elt F) → (⟨S16384, .i32⟩ : BufTy).Contents (Elt F)),
    binary main_arg14 main_v14 main_v15 (cmpi .slt : (⟨S16384, .i32⟩ : BufTy).Contents (Elt F) → (⟨S16384, .i32⟩ : BufTy).Contents (Elt F) → (⟨S16384, .i1⟩ : BufTy).Contents (Elt F)),
    nullary main_c_4 (constantI S_ 32 16384#32),
    unary main_c_4 main_v16 (broadcastInDim S16384 ![] bcast_S_S16384 : (⟨S_, .i32⟩ : BufTy).Contents (Elt F) → (⟨S16384, .i32⟩ : BufTy).Contents (Elt F)),
    binary main_arg14 main_v16 main_v17 (addi : (⟨S16384, .i32⟩ : BufTy).Contents (Elt F) → (⟨S16384, .i32⟩ : BufTy).Contents (Elt F) → (⟨S16384, .i32⟩ : BufTy).Contents (Elt F)),
    ternary main_v15 main_v17 main_arg14 main_v18 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v18 main_v19 (broadcastInDim S16384x1 ![0] bcast_S16384_S16384x1_0 : (⟨S16384, .i32⟩ : BufTy).Contents (Elt F) → (⟨S16384x1, .i32⟩ : BufTy).Contents (Elt F)),
    binary main_v6 main_v19 main_v20 ((fun x i => Host.gather gather_S16384x256_S16384x1_S16384x256_1_0_n_n_0_1_1256 x i) : (⟨S16384x256, .f32⟩ : BufTy).Contents (Elt F) → (⟨S16384x1, .i32⟩ : BufTy).Contents (Elt F) → (⟨S16384x256, .f32⟩ : BufTy).Contents (Elt F)),
    binary main_arg16 main_v20 main_v21 ((fun l r => Host.dotGeneral dot_S2048x16384_S16384x256_S2048x256_1_0_0_1_n_n none l r) : (⟨S2048x16384, .f32⟩ : BufTy).Contents (Elt F) → (⟨S16384x256, .f32⟩ : BufTy).Contents (Elt F) → (⟨S2048x256, .f32⟩ : BufTy).Contents (Elt F)),
    binary main_v21 main_v13 main_v22 ((fun a b => concatenate S2048x512 1 [⟨S2048x256, a⟩, ⟨S2048x256, b⟩] concatenates_S2048x256_S2048x256_S2048x512_d1) : (⟨S2048x256, .f32⟩ : BufTy).Contents (Elt F) → (⟨S2048x256, .f32⟩ : BufTy).Contents (Elt F) → (⟨S2048x512, .f32⟩ : BufTy).Contents (Elt F)),
    binary main_v22 main_arg1 main_v23 ((fun l r => Host.dotGeneral dot_S2048x512_S512x128_S2048x128_1_0_0_1_n_n none l r) : (⟨S2048x512, .f32⟩ : BufTy).Contents (Elt F) → (⟨S512x128, .f32⟩ : BufTy).Contents (Elt F) → (⟨S2048x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x128, .f32⟩) main_call0_v0) (broadcastInDim S2048x128 ![] bcast_S_S2048x128),
    TRef.binary (TRef.of (T := ⟨S2048x128, .f32⟩) main_v23) (TRef.of (T := ⟨S2048x128, .f32⟩) main_call0_v0) (TRef.of (T := ⟨S2048x128, .f32⟩) main_v24) maximumf,
    nullary main_c_5 (constantI S_ 32 0#32),
    unary main_c_5 main_v25 (broadcastInDim S512 ![] bcast_S_S512 : (⟨S_, .i32⟩ : BufTy).Contents (Elt F) → (⟨S512, .i32⟩ : BufTy).Contents (Elt F)),
    binary main_arg18 main_v25 main_v26 (cmpi .slt : (⟨S512, .i32⟩ : BufTy).Contents (Elt F) → (⟨S512, .i32⟩ : BufTy).Contents (Elt F) → (⟨S512, .i1⟩ : BufTy).Contents (Elt F)),
    nullary main_c_6 (constantI S_ 32 2048#32),
    unary main_c_6 main_v27 (broadcastInDim S512 ![] bcast_S_S512 : (⟨S_, .i32⟩ : BufTy).Contents (Elt F) → (⟨S512, .i32⟩ : BufTy).Contents (Elt F)),
    binary main_arg18 main_v27 main_v28 (addi : (⟨S512, .i32⟩ : BufTy).Contents (Elt F) → (⟨S512, .i32⟩ : BufTy).Contents (Elt F) → (⟨S512, .i32⟩ : BufTy).Contents (Elt F)),
    ternary main_v26 main_v28 main_arg18 main_v29 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v29 main_v30 (broadcastInDim S512x1 ![0] bcast_S512_S512x1_0 : (⟨S512, .i32⟩ : BufTy).Contents (Elt F) → (⟨S512x1, .i32⟩ : BufTy).Contents (Elt F)),
    binary main_v24 main_v30 main_v31 ((fun x i => Host.gather gather_S2048x128_S512x1_S512x128_1_0_n_n_0_1_1128 x i) : (⟨S2048x128, .f32⟩ : BufTy).Contents (Elt F) → (⟨S512x1, .i32⟩ : BufTy).Contents (Elt F) → (⟨S512x128, .f32⟩ : BufTy).Contents (Elt F)),
    nullary main_c_7 (constantI S_ 32 0#32),
    unary main_c_7 main_v32 (broadcastInDim S2048 ![] bcast_S_S2048 : (⟨S_, .i32⟩ : BufTy).Contents (Elt F) → (⟨S2048, .i32⟩ : BufTy).Contents (Elt F)),
    binary main_arg17 main_v32 main_v33 (cmpi .slt : (⟨S2048, .i32⟩ : BufTy).Contents (Elt F) → (⟨S2048, .i32⟩ : BufTy).Contents (Elt F) → (⟨S2048, .i1⟩ : BufTy).Contents (Elt F)),
    nullary main_c_8 (constantI S_ 32 2048#32),
    unary main_c_8 main_v34 (broadcastInDim S2048 ![] bcast_S_S2048 : (⟨S_, .i32⟩ : BufTy).Contents (Elt F) → (⟨S2048, .i32⟩ : BufTy).Contents (Elt F)),
    binary main_arg17 main_v34 main_v35 (addi : (⟨S2048, .i32⟩ : BufTy).Contents (Elt F) → (⟨S2048, .i32⟩ : BufTy).Contents (Elt F) → (⟨S2048, .i32⟩ : BufTy).Contents (Elt F)),
    ternary main_v33 main_v35 main_arg17 main_v36 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v36 main_v37 (broadcastInDim S2048x1 ![0] bcast_S2048_S2048x1_0 : (⟨S2048, .i32⟩ : BufTy).Contents (Elt F) → (⟨S2048x1, .i32⟩ : BufTy).Contents (Elt F)),
    binary main_v24 main_v37 main_v38 ((fun x i => Host.gather gather_S2048x128_S2048x1_S2048x128_1_0_n_n_0_1_1128 x i) : (⟨S2048x128, .f32⟩ : BufTy).Contents (Elt F) → (⟨S2048x1, .i32⟩ : BufTy).Contents (Elt F) → (⟨S2048x128, .f32⟩ : BufTy).Contents (Elt F)),
    binary main_arg19 main_v38 main_v39 ((fun l r => Host.dotGeneral dot_S512x2048_S2048x128_S512x128_1_0_0_1_n_n none l r) : (⟨S512x2048, .f32⟩ : BufTy).Contents (Elt F) → (⟨S2048x128, .f32⟩ : BufTy).Contents (Elt F) → (⟨S512x128, .f32⟩ : BufTy).Contents (Elt F)),
    binary main_v39 main_v31 main_v40 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)),
    binary main_v40 main_arg2 main_v41 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    nullary main_c_9 (constantI S_ 32 0#32),
    unary main_c_9 main_v42 (broadcastInDim S16384 ![] bcast_S_S16384 : (⟨S_, .i32⟩ : BufTy).Contents (Elt F) → (⟨S16384, .i32⟩ : BufTy).Contents (Elt F)),
    binary main_arg20 main_v42 main_v43 (cmpi .slt : (⟨S16384, .i32⟩ : BufTy).Contents (Elt F) → (⟨S16384, .i32⟩ : BufTy).Contents (Elt F) → (⟨S16384, .i1⟩ : BufTy).Contents (Elt F)),
    nullary main_c_10 (constantI S_ 32 100000#32),
    unary main_c_10 main_v44 (broadcastInDim S16384 ![] bcast_S_S16384 : (⟨S_, .i32⟩ : BufTy).Contents (Elt F) → (⟨S16384, .i32⟩ : BufTy).Contents (Elt F)),
    binary main_arg20 main_v44 main_v45 (addi : (⟨S16384, .i32⟩ : BufTy).Contents (Elt F) → (⟨S16384, .i32⟩ : BufTy).Contents (Elt F) → (⟨S16384, .i32⟩ : BufTy).Contents (Elt F)),
    ternary main_v43 main_v45 main_arg20 main_v46 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v46 main_v47 (broadcastInDim S16384x1 ![0] bcast_S16384_S16384x1_0 : (⟨S16384, .i32⟩ : BufTy).Contents (Elt F) → (⟨S16384x1, .i32⟩ : BufTy).Contents (Elt F)),
    binary main_arg0 main_v47 main_v48 ((fun x i => Host.gather gather_S100000x256_S16384x1_S16384x256_1_0_n_n_0_1_1256 x i) : (⟨S100000x256, .f32⟩ : BufTy).Contents (Elt F) → (⟨S16384x1, .i32⟩ : BufTy).Contents (Elt F) → (⟨S16384x256, .f32⟩ : BufTy).Contents (Elt F)),
    nullary main_c_11 (constantI S_ 32 0#32),
    unary main_c_11 main_v49 (broadcastInDim S2048 ![] bcast_S_S2048 : (⟨S_, .i32⟩ : BufTy).Contents (Elt F) → (⟨S2048, .i32⟩ : BufTy).Contents (Elt F)),
    binary main_arg22 main_v49 main_v50 (cmpi .slt : (⟨S2048, .i32⟩ : BufTy).Contents (Elt F) → (⟨S2048, .i32⟩ : BufTy).Contents (Elt F) → (⟨S2048, .i1⟩ : BufTy).Contents (Elt F)),
    nullary main_c_12 (constantI S_ 32 16384#32),
    unary main_c_12 main_v51 (broadcastInDim S2048 ![] bcast_S_S2048 : (⟨S_, .i32⟩ : BufTy).Contents (Elt F) → (⟨S2048, .i32⟩ : BufTy).Contents (Elt F)),
    binary main_arg22 main_v51 main_v52 (addi : (⟨S2048, .i32⟩ : BufTy).Contents (Elt F) → (⟨S2048, .i32⟩ : BufTy).Contents (Elt F) → (⟨S2048, .i32⟩ : BufTy).Contents (Elt F)),
    ternary main_v50 main_v52 main_arg22 main_v53 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v53 main_v54 (broadcastInDim S2048x1 ![0] bcast_S2048_S2048x1_0 : (⟨S2048, .i32⟩ : BufTy).Contents (Elt F) → (⟨S2048x1, .i32⟩ : BufTy).Contents (Elt F)),
    binary main_v48 main_v54 main_v55 ((fun x i => Host.gather gather_S16384x256_S2048x1_S2048x256_1_0_n_n_0_1_1256 x i) : (⟨S16384x256, .f32⟩ : BufTy).Contents (Elt F) → (⟨S2048x1, .i32⟩ : BufTy).Contents (Elt F) → (⟨S2048x256, .f32⟩ : BufTy).Contents (Elt F)),
    nullary main_c_13 (constantI S_ 32 0#32),
    unary main_c_13 main_v56 (broadcastInDim S16384 ![] bcast_S_S16384 : (⟨S_, .i32⟩ : BufTy).Contents (Elt F) → (⟨S16384, .i32⟩ : BufTy).Contents (Elt F)),
    binary main_arg21 main_v56 main_v57 (cmpi .slt : (⟨S16384, .i32⟩ : BufTy).Contents (Elt F) → (⟨S16384, .i32⟩ : BufTy).Contents (Elt F) → (⟨S16384, .i1⟩ : BufTy).Contents (Elt F)),
    nullary main_c_14 (constantI S_ 32 16384#32),
    unary main_c_14 main_v58 (broadcastInDim S16384 ![] bcast_S_S16384 : (⟨S_, .i32⟩ : BufTy).Contents (Elt F) → (⟨S16384, .i32⟩ : BufTy).Contents (Elt F)),
    binary main_arg21 main_v58 main_v59 (addi : (⟨S16384, .i32⟩ : BufTy).Contents (Elt F) → (⟨S16384, .i32⟩ : BufTy).Contents (Elt F) → (⟨S16384, .i32⟩ : BufTy).Contents (Elt F)),
    ternary main_v57 main_v59 main_arg21 main_v60 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v60 main_v61 (broadcastInDim S16384x1 ![0] bcast_S16384_S16384x1_0 : (⟨S16384, .i32⟩ : BufTy).Contents (Elt F) → (⟨S16384x1, .i32⟩ : BufTy).Contents (Elt F)),
    binary main_v48 main_v61 main_v62 ((fun x i => Host.gather gather_S16384x256_S16384x1_S16384x256_1_0_n_n_0_1_1256 x i) : (⟨S16384x256, .f32⟩ : BufTy).Contents (Elt F) → (⟨S16384x1, .i32⟩ : BufTy).Contents (Elt F) → (⟨S16384x256, .f32⟩ : BufTy).Contents (Elt F)),
    binary main_arg23 main_v62 main_v63 ((fun l r => Host.dotGeneral dot_S2048x16384_S16384x256_S2048x256_1_0_0_1_n_n none l r) : (⟨S2048x16384, .f32⟩ : BufTy).Contents (Elt F) → (⟨S16384x256, .f32⟩ : BufTy).Contents (Elt F) → (⟨S2048x256, .f32⟩ : BufTy).Contents (Elt F)),
    binary main_v63 main_v55 main_v64 ((fun a b => concatenate S2048x512 1 [⟨S2048x256, a⟩, ⟨S2048x256, b⟩] concatenates_S2048x256_S2048x256_S2048x512_d1) : (⟨S2048x256, .f32⟩ : BufTy).Contents (Elt F) → (⟨S2048x256, .f32⟩ : BufTy).Contents (Elt F) → (⟨S2048x512, .f32⟩ : BufTy).Contents (Elt F)),
    binary main_v64 main_arg1 main_v65 ((fun l r => Host.dotGeneral dot_S2048x512_S512x128_S2048x128_1_0_0_1_n_n none l r) : (⟨S2048x512, .f32⟩ : BufTy).Contents (Elt F) → (⟨S512x128, .f32⟩ : BufTy).Contents (Elt F) → (⟨S2048x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x128, .f32⟩) main_call1_v0) (broadcastInDim S2048x128 ![] bcast_S_S2048x128),
    TRef.binary (TRef.of (T := ⟨S2048x128, .f32⟩) main_v65) (TRef.of (T := ⟨S2048x128, .f32⟩) main_call1_v0) (TRef.of (T := ⟨S2048x128, .f32⟩) main_v66) maximumf,
    nullary main_c_15 (constantI S_ 32 0#32),
    unary main_c_15 main_v67 (broadcastInDim S512 ![] bcast_S_S512 : (⟨S_, .i32⟩ : BufTy).Contents (Elt F) → (⟨S512, .i32⟩ : BufTy).Contents (Elt F)),
    binary main_arg25 main_v67 main_v68 (cmpi .slt : (⟨S512, .i32⟩ : BufTy).Contents (Elt F) → (⟨S512, .i32⟩ : BufTy).Contents (Elt F) → (⟨S512, .i1⟩ : BufTy).Contents (Elt F)),
    nullary main_c_16 (constantI S_ 32 2048#32),
    unary main_c_16 main_v69 (broadcastInDim S512 ![] bcast_S_S512 : (⟨S_, .i32⟩ : BufTy).Contents (Elt F) → (⟨S512, .i32⟩ : BufTy).Contents (Elt F)),
    binary main_arg25 main_v69 main_v70 (addi : (⟨S512, .i32⟩ : BufTy).Contents (Elt F) → (⟨S512, .i32⟩ : BufTy).Contents (Elt F) → (⟨S512, .i32⟩ : BufTy).Contents (Elt F)),
    ternary main_v68 main_v70 main_arg25 main_v71 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v71 main_v72 (broadcastInDim S512x1 ![0] bcast_S512_S512x1_0 : (⟨S512, .i32⟩ : BufTy).Contents (Elt F) → (⟨S512x1, .i32⟩ : BufTy).Contents (Elt F)),
    binary main_v66 main_v72 main_v73 ((fun x i => Host.gather gather_S2048x128_S512x1_S512x128_1_0_n_n_0_1_1128 x i) : (⟨S2048x128, .f32⟩ : BufTy).Contents (Elt F) → (⟨S512x1, .i32⟩ : BufTy).Contents (Elt F) → (⟨S512x128, .f32⟩ : BufTy).Contents (Elt F)),
    nullary main_c_17 (constantI S_ 32 0#32),
    unary main_c_17 main_v74 (broadcastInDim S2048 ![] bcast_S_S2048 : (⟨S_, .i32⟩ : BufTy).Contents (Elt F) → (⟨S2048, .i32⟩ : BufTy).Contents (Elt F)),
    binary main_arg24 main_v74 main_v75 (cmpi .slt : (⟨S2048, .i32⟩ : BufTy).Contents (Elt F) → (⟨S2048, .i32⟩ : BufTy).Contents (Elt F) → (⟨S2048, .i1⟩ : BufTy).Contents (Elt F)),
    nullary main_c_18 (constantI S_ 32 2048#32),
    unary main_c_18 main_v76 (broadcastInDim S2048 ![] bcast_S_S2048 : (⟨S_, .i32⟩ : BufTy).Contents (Elt F) → (⟨S2048, .i32⟩ : BufTy).Contents (Elt F)),
    binary main_arg24 main_v76 main_v77 (addi : (⟨S2048, .i32⟩ : BufTy).Contents (Elt F) → (⟨S2048, .i32⟩ : BufTy).Contents (Elt F) → (⟨S2048, .i32⟩ : BufTy).Contents (Elt F)),
    ternary main_v75 main_v77 main_arg24 main_v78 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v78 main_v79 (broadcastInDim S2048x1 ![0] bcast_S2048_S2048x1_0 : (⟨S2048, .i32⟩ : BufTy).Contents (Elt F) → (⟨S2048x1, .i32⟩ : BufTy).Contents (Elt F)),
    binary main_v66 main_v79 main_v80 ((fun x i => Host.gather gather_S2048x128_S2048x1_S2048x128_1_0_n_n_0_1_1128 x i) : (⟨S2048x128, .f32⟩ : BufTy).Contents (Elt F) → (⟨S2048x1, .i32⟩ : BufTy).Contents (Elt F) → (⟨S2048x128, .f32⟩ : BufTy).Contents (Elt F)),
    binary main_arg26 main_v80 main_v81 ((fun l r => Host.dotGeneral dot_S512x2048_S2048x128_S512x128_1_0_0_1_n_n none l r) : (⟨S512x2048, .f32⟩ : BufTy).Contents (Elt F) → (⟨S2048x128, .f32⟩ : BufTy).Contents (Elt F) → (⟨S512x128, .f32⟩ : BufTy).Contents (Elt F)),
    binary main_v81 main_v73 main_v82 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)),
    binary main_v82 main_arg2 main_v83 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)) ]

/-- The operations from there on: the common last stretch. -/
abbrev opsT : List (HloOp τ sig (Elt F)) :=
  [ binary main_v41 main_v83 main_v84 ((fun a b => concatenate S512x256 1 [⟨S512x128, a⟩, ⟨S512x128, b⟩] concatenates_S512x128_S512x128_S512x256_d1) : (⟨S512x128, .f32⟩ : BufTy).Contents (Elt F) → (⟨S512x128, .f32⟩ : BufTy).Contents (Elt F) → (⟨S512x256, .f32⟩ : BufTy).Contents (Elt F)),
    binary main_v84 main_v84 main_v85 (mulf : (⟨S512x256, .f32⟩ : BufTy).Contents (Elt F) → (⟨S512x256, .f32⟩ : BufTy).Contents (Elt F) → (⟨S512x256, .f32⟩ : BufTy).Contents (Elt F)),
    nullary main_cst (constant S_ .f32 0x00000000#32),
    binary main_v85 main_cst main_v86 ((fun x v => Host.reduceAdd x v reducesTo_S512x256_S512_d1 h_S_) : (⟨S512x256, .f32⟩ : BufTy).Contents (Elt F) → (⟨S_, .f32⟩ : BufTy).Contents (Elt F) → (⟨S512, .f32⟩ : BufTy).Contents (Elt F)),
    unary main_v86 main_v87 (broadcastInDim S512x1 ![0] bcast_S512_S512x1_0 : (⟨S512, .f32⟩ : BufTy).Contents (Elt F) → (⟨S512x1, .f32⟩ : BufTy).Contents (Elt F)),
    nullary main_cst_19 (constant S_ .f32 0x2B8CBCCC#32),
    unary main_cst_19 main_v88 (broadcastInDim S512x1 ![] bcast_S_S512x1 : (⟨S_, .f32⟩ : BufTy).Contents (Elt F) → (⟨S512x1, .f32⟩ : BufTy).Contents (Elt F)),
    binary main_v87 main_v88 main_v89 (maximumf : (⟨S512x1, .f32⟩ : BufTy).Contents (Elt F) → (⟨S512x1, .f32⟩ : BufTy).Contents (Elt F) → (⟨S512x1, .f32⟩ : BufTy).Contents (Elt F)),
    unary main_v89 main_v90 (Host.rsqrt : (⟨S512x1, .f32⟩ : BufTy).Contents (Elt F) → (⟨S512x1, .f32⟩ : BufTy).Contents (Elt F)),
    unary main_v90 main_v91 (broadcastInDim S512x256 ![0, 1] bcast_S512x1_S512x256_0_1 : (⟨S512x1, .f32⟩ : BufTy).Contents (Elt F) → (⟨S512x256, .f32⟩ : BufTy).Contents (Elt F)),
    binary main_v84 main_v91 main_v92 (mulf : (⟨S512x256, .f32⟩ : BufTy).Contents (Elt F) → (⟨S512x256, .f32⟩ : BufTy).Contents (Elt F) → (⟨S512x256, .f32⟩ : BufTy).Contents (Elt F)),
    binary main_v92 main_arg3 main_v93 ((fun l r => Host.dotGeneral dot_S512x256_S256x64_S512x64_1_0_0_1_n_n none l r) : (⟨S512x256, .f32⟩ : BufTy).Contents (Elt F) → (⟨S256x64, .f32⟩ : BufTy).Contents (Elt F) → (⟨S512x64, .f32⟩ : BufTy).Contents (Elt F)),
    unary main_arg4 main_v94 (broadcastInDim S1x64 ![1] bcast_S64_S1x64_1 : (⟨S64, .f32⟩ : BufTy).Contents (Elt F) → (⟨S1x64, .f32⟩ : BufTy).Contents (Elt F)),
    unary main_v94 main_v95 (broadcastInDim S512x64 ![0, 1] bcast_S1x64_S512x64_0_1 : (⟨S1x64, .f32⟩ : BufTy).Contents (Elt F) → (⟨S512x64, .f32⟩ : BufTy).Contents (Elt F)),
    binary main_v93 main_v95 main_v96 (addf : (⟨S512x64, .f32⟩ : BufTy).Contents (Elt F) → (⟨S512x64, .f32⟩ : BufTy).Contents (Elt F) → (⟨S512x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S512x64, .f32⟩) main_call2_v0) (broadcastInDim S512x64 ![] bcast_S_S512x64),
    TRef.binary (TRef.of (T := ⟨S512x64, .f32⟩) main_v96) (TRef.of (T := ⟨S512x64, .f32⟩) main_call2_v0) (TRef.of (T := ⟨S512x64, .f32⟩) main_v97) maximumf,
    binary main_v97 main_arg5 main_v98 ((fun l r => Host.dotGeneral dot_S512x64_S64x32_S512x32_1_0_0_1_n_n none l r) : (⟨S512x64, .f32⟩ : BufTy).Contents (Elt F) → (⟨S64x32, .f32⟩ : BufTy).Contents (Elt F) → (⟨S512x32, .f32⟩ : BufTy).Contents (Elt F)),
    unary main_arg6 main_v99 (broadcastInDim S1x32 ![1] bcast_S32_S1x32_1 : (⟨S32, .f32⟩ : BufTy).Contents (Elt F) → (⟨S1x32, .f32⟩ : BufTy).Contents (Elt F)),
    unary main_v99 main_v100 (broadcastInDim S512x32 ![0, 1] bcast_S1x32_S512x32_0_1 : (⟨S1x32, .f32⟩ : BufTy).Contents (Elt F) → (⟨S512x32, .f32⟩ : BufTy).Contents (Elt F)),
    binary main_v98 main_v100 main_v101 (addf : (⟨S512x32, .f32⟩ : BufTy).Contents (Elt F) → (⟨S512x32, .f32⟩ : BufTy).Contents (Elt F) → (⟨S512x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S512x32, .f32⟩) main_call3_v0) (broadcastInDim S512x32 ![] bcast_S_S512x32),
    TRef.binary (TRef.of (T := ⟨S512x32, .f32⟩) main_v101) (TRef.of (T := ⟨S512x32, .f32⟩) main_call3_v0) (TRef.of (T := ⟨S512x32, .f32⟩) main_v102) maximumf,
    binary main_v102 main_arg7 main_v103 ((fun l r => Host.dotGeneral dot_S512x32_S32x16_S512x16_1_0_0_1_n_n none l r) : (⟨S512x32, .f32⟩ : BufTy).Contents (Elt F) → (⟨S32x16, .f32⟩ : BufTy).Contents (Elt F) → (⟨S512x16, .f32⟩ : BufTy).Contents (Elt F)),
    unary main_arg8 main_v104 (broadcastInDim S1x16 ![1] bcast_S16_S1x16_1 : (⟨S16, .f32⟩ : BufTy).Contents (Elt F) → (⟨S1x16, .f32⟩ : BufTy).Contents (Elt F)),
    unary main_v104 main_v105 (broadcastInDim S512x16 ![0, 1] bcast_S1x16_S512x16_0_1 : (⟨S1x16, .f32⟩ : BufTy).Contents (Elt F) → (⟨S512x16, .f32⟩ : BufTy).Contents (Elt F)),
    binary main_v103 main_v105 main_v106 (addf : (⟨S512x16, .f32⟩ : BufTy).Contents (Elt F) → (⟨S512x16, .f32⟩ : BufTy).Contents (Elt F) → (⟨S512x16, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S512x16, .f32⟩) main_call4_v0) (broadcastInDim S512x16 ![] bcast_S_S512x16),
    TRef.binary (TRef.of (T := ⟨S512x16, .f32⟩) main_v106) (TRef.of (T := ⟨S512x16, .f32⟩) main_call4_v0) (TRef.of (T := ⟨S512x16, .f32⟩) main_v107) maximumf,
    binary main_v107 main_arg9 main_v108 ((fun l r => Host.dotGeneral dot_S512x16_S16x8_S512x8_1_0_0_1_n_n none l r) : (⟨S512x16, .f32⟩ : BufTy).Contents (Elt F) → (⟨S16x8, .f32⟩ : BufTy).Contents (Elt F) → (⟨S512x8, .f32⟩ : BufTy).Contents (Elt F)),
    unary main_arg10 main_v109 (broadcastInDim S1x8 ![1] bcast_S8_S1x8_1 : (⟨S8, .f32⟩ : BufTy).Contents (Elt F) → (⟨S1x8, .f32⟩ : BufTy).Contents (Elt F)),
    unary main_v109 main_v110 (broadcastInDim S512x8 ![0, 1] bcast_S1x8_S512x8_0_1 : (⟨S1x8, .f32⟩ : BufTy).Contents (Elt F) → (⟨S512x8, .f32⟩ : BufTy).Contents (Elt F)),
    binary main_v108 main_v110 main_v111 (addf : (⟨S512x8, .f32⟩ : BufTy).Contents (Elt F) → (⟨S512x8, .f32⟩ : BufTy).Contents (Elt F) → (⟨S512x8, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S512x8, .f32⟩) main_call5_v0) (broadcastInDim S512x8 ![] bcast_S_S512x8),
    TRef.binary (TRef.of (T := ⟨S512x8, .f32⟩) main_v111) (TRef.of (T := ⟨S512x8, .f32⟩) main_call5_v0) (TRef.of (T := ⟨S512x8, .f32⟩) main_v112) maximumf,
    binary main_v112 main_arg11 main_v113 ((fun l r => Host.dotGeneral dot_S512x8_S8x1_S512x1_1_0_0_1_n_n none l r) : (⟨S512x8, .f32⟩ : BufTy).Contents (Elt F) → (⟨S8x1, .f32⟩ : BufTy).Contents (Elt F) → (⟨S512x1, .f32⟩ : BufTy).Contents (Elt F)),
    unary main_arg12 main_v114 (broadcastInDim S1x1 ![1] bcast_S1_S1x1_1 : (⟨S1, .f32⟩ : BufTy).Contents (Elt F) → (⟨S1x1, .f32⟩ : BufTy).Contents (Elt F)),
    unary main_v114 main_v115 (broadcastInDim S512x1 ![0, 1] bcast_S1x1_S512x1_0_1 : (⟨S1x1, .f32⟩ : BufTy).Contents (Elt F) → (⟨S512x1, .f32⟩ : BufTy).Contents (Elt F)),
    binary main_v113 main_v115 main_v116 (addf : (⟨S512x1, .f32⟩ : BufTy).Contents (Elt F) → (⟨S512x1, .f32⟩ : BufTy).Contents (Elt F) → (⟨S512x1, .f32⟩ : BufTy).Contents (Elt F)),
    nullary main_cst_20 (constant S_ .f32 0xFF800000#32),
    binary main_v116 main_cst_20 main_v117 ((fun x v => Host.reduce FloatOps.maximumf x v reducesTo_S512x1_S512_d1 h_S_) : (⟨S512x1, .f32⟩ : BufTy).Contents (Elt F) → (⟨S_, .f32⟩ : BufTy).Contents (Elt F) → (⟨S512, .f32⟩ : BufTy).Contents (Elt F)),
    nullary main_cst_21 (constant S_ .f32 0xFF800000#32),
    unary main_cst_21 main_v118 (broadcastInDim S512 ![] bcast_S_S512 : (⟨S_, .f32⟩ : BufTy).Contents (Elt F) → (⟨S512, .f32⟩ : BufTy).Contents (Elt F)),
    binary main_v118 main_v117 main_v119 (maximumf : (⟨S512, .f32⟩ : BufTy).Contents (Elt F) → (⟨S512, .f32⟩ : BufTy).Contents (Elt F) → (⟨S512, .f32⟩ : BufTy).Contents (Elt F)),
    unary main_v119 main_v120 (broadcastInDim S512x1 ![0] bcast_S512_S512x1_0 : (⟨S512, .f32⟩ : BufTy).Contents (Elt F) → (⟨S512x1, .f32⟩ : BufTy).Contents (Elt F)),
    binary main_v116 main_v120 main_v121 (subf : (⟨S512x1, .f32⟩ : BufTy).Contents (Elt F) → (⟨S512x1, .f32⟩ : BufTy).Contents (Elt F) → (⟨S512x1, .f32⟩ : BufTy).Contents (Elt F)),
    unary main_v121 main_v122 (Host.exp : (⟨S512x1, .f32⟩ : BufTy).Contents (Elt F) → (⟨S512x1, .f32⟩ : BufTy).Contents (Elt F)),
    nullary main_cst_22 (constant S_ .f32 0x00000000#32),
    binary main_v122 main_cst_22 main_v123 ((fun x v => Host.reduceAdd x v reducesTo_S512x1_S512_d1 h_S_) : (⟨S512x1, .f32⟩ : BufTy).Contents (Elt F) → (⟨S_, .f32⟩ : BufTy).Contents (Elt F) → (⟨S512, .f32⟩ : BufTy).Contents (Elt F)),
    unary main_v123 main_v124 (broadcastInDim S512x1 ![0] bcast_S512_S512x1_0 : (⟨S512, .f32⟩ : BufTy).Contents (Elt F) → (⟨S512x1, .f32⟩ : BufTy).Contents (Elt F)),
    binary main_v122 main_v124 main_v125 (Host.divf : (⟨S512x1, .f32⟩ : BufTy).Contents (Elt F) → (⟨S512x1, .f32⟩ : BufTy).Contents (Elt F) → (⟨S512x1, .f32⟩ : BufTy).Contents (Elt F)) ]

set_option maxHeartbeats 4000000 in
/-- The program's operations are the two parts in order. -/
theorem ops_cut : (ValueP.ops : List (HloOp τ sig (Elt F))) = opsP ++ opsT := rfl

/-- Every buffer the first part writes is one the whole program writes. -/
theorem opsP_writes : (opsP : List (HloOp τ sig (Elt F))).Forall fun op => op.writes ⊆ (ValueP.ops_W.map (Proc.devRef (τ := τ) .tc)).toFinset :=
  List.forall_iff_forall_mem.mpr fun op hop =>
    (List.forall_iff_forall_mem.mp (ValueP.ops_writes (F := F))) op (by rw [ops_cut]; exact List.mem_append_left _ hop)

/-- A buffer the program never writes is as it was after the first part. -/
theorem afterP_kept (W : Valuation τ sig (Elt F)) (r : Ref sig .tc) (h : r ∉ ValueP.ops_W) :
    after (opsP (F := F)) W (Proc.devRef .tc r) = W (Proc.devRef .tc r) :=
  after_of_writes_sub opsP W opsP_writes h

section AtIdeal
variable (W : Valuation τ sig (Elt Ideal))

set_option maxHeartbeats 4000000 in
/-- The last stretch's operations, run from any contents, leave the common last stretch of the two results' buffers
    and the weights' buffers in the result's buffer. -/
theorem tail_after_ref :
    (after (opsT (F := Ideal)) W main_v125 : S512x1.Idx → EReal)
      = Tail (W main_v41) (W main_v83) (W main_arg3) (W main_arg4) (W main_arg5) (W main_arg6) (W main_arg7) (W main_arg8) (W main_arg9) (W main_arg10) (W main_arg11) (W main_arg12) := by
  dsimp only [opsT]
  after_results_simp
  rfl

set_option maxHeartbeats 4000000 in
/-- The first part leaves the first branch's result in its buffer. -/
theorem afterP_v41 :
    after (opsP (F := Ideal)) W main_v41
      = ReadP.val_main_v41 (F := Ideal) (W main_arg0) (W main_arg1) (W main_arg2) (W main_arg13) (W main_arg14) (W main_arg15)
          (W main_arg16) (W main_arg17) (W main_arg18) (W main_arg19) := by
  dsimp only [opsP]
  after_results_simp
  rfl

set_option maxHeartbeats 4000000 in
/-- The first part leaves the second branch's result in its buffer. -/
theorem afterP_v83 :
    after (opsP (F := Ideal)) W main_v83
      = ReadP.val_main_v83 (F := Ideal) (W main_arg0) (W main_arg1) (W main_arg2) (W main_arg20) (W main_arg21) (W main_arg22)
          (W main_arg23) (W main_arg24) (W main_arg25) (W main_arg26) := by
  dsimp only [opsP]
  after_results_simp
  rfl

theorem afterP_arg3 : after (opsP (F := Ideal)) W main_arg3 = W main_arg3 := afterP_kept W main_arg3 (by decide)
theorem afterP_arg4 : after (opsP (F := Ideal)) W main_arg4 = W main_arg4 := afterP_kept W main_arg4 (by decide)
theorem afterP_arg5 : after (opsP (F := Ideal)) W main_arg5 = W main_arg5 := afterP_kept W main_arg5 (by decide)
theorem afterP_arg6 : after (opsP (F := Ideal)) W main_arg6 = W main_arg6 := afterP_kept W main_arg6 (by decide)
theorem afterP_arg7 : after (opsP (F := Ideal)) W main_arg7 = W main_arg7 := afterP_kept W main_arg7 (by decide)
theorem afterP_arg8 : after (opsP (F := Ideal)) W main_arg8 = W main_arg8 := afterP_kept W main_arg8 (by decide)
theorem afterP_arg9 : after (opsP (F := Ideal)) W main_arg9 = W main_arg9 := afterP_kept W main_arg9 (by decide)
theorem afterP_arg10 : after (opsP (F := Ideal)) W main_arg10 = W main_arg10 := afterP_kept W main_arg10 (by decide)
theorem afterP_arg11 : after (opsP (F := Ideal)) W main_arg11 = W main_arg11 := afterP_kept W main_arg11 (by decide)
theorem afterP_arg12 : after (opsP (F := Ideal)) W main_arg12 = W main_arg12 := afterP_kept W main_arg12 (by decide)

/-- The whole program leaves, in its result's buffer, the common last stretch of the two branches' results, each a
    function of the arguments, and the dense layers' weights. -/
theorem after_ops_result :
    (after (ValueP.ops (F := Ideal)) W main_v125 : S512x1.Idx → EReal)
      = Tail
          (ReadP.val_main_v41 (F := Ideal) (W main_arg0) (W main_arg1) (W main_arg2) (W main_arg13) (W main_arg14) (W main_arg15)
            (W main_arg16) (W main_arg17) (W main_arg18) (W main_arg19))
          (ReadP.val_main_v83 (F := Ideal) (W main_arg0) (W main_arg1) (W main_arg2) (W main_arg20) (W main_arg21) (W main_arg22)
            (W main_arg23) (W main_arg24) (W main_arg25) (W main_arg26))
          (W main_arg3) (W main_arg4) (W main_arg5) (W main_arg6) (W main_arg7) (W main_arg8) (W main_arg9) (W main_arg10) (W main_arg11) (W main_arg12) := by
  rw [ops_cut, after_append, tail_after_ref, afterP_v41, afterP_v83, afterP_arg3, afterP_arg4, afterP_arg5, afterP_arg6, afterP_arg7, afterP_arg8, afterP_arg9, afterP_arg10, afterP_arg11, afterP_arg12]

end AtIdeal

end Cert.RefSide

end
-- ==== Proof.RefSide.Run.lean ====
/-
  The reference program's run, with its result written through the two branches both programs are compared through.

  Every execution of the reference terminates with every buffer at the operations' results over the launch
  contents.  The arguments are written by no operation, so they end unchanged; the result buffer holds the common
  last stretch at the two branches' results, and each branch's result is the branch both programs are compared
  through.
-/
import proofs.«118190_j89781996355909_2_alg».proof.Defs
import proofs.«118190_j89781996355909_2_alg».proof.Proof.Gen.Pre_finite_inputs
import proofs.«118190_j89781996355909_2_alg».proof.Proof.RefRunP
import proofs.«118190_j89781996355909_2_alg».proof.Proof.Spec
import proofs.«118190_j89781996355909_2_alg».proof.Proof.RefSide.B0
import proofs.«118190_j89781996355909_2_alg».proof.Proof.RefSide.B1
import proofs.«118190_j89781996355909_2_alg».proof.Proof.RefSide.Tail
import proofs.«118190_j89781996355909_2_alg».proof.Proof.RefSide.Cut

noncomputable section

namespace Cert.RefSide

open Idealize.ShloMosaic Idealize.ShloMosaic.TcCoe Idealize.SL.Sem Idealize.ShloMosaic.StableHlo
open Cert.ReferenceIdeal Cert.ReferenceIdeal.Gen

/-- What the result buffer holds after the operations, from the launch contents: the common last stretch at the two
    branches both programs are compared through. -/
theorem ref_value (m : (ℓ : Loc nD τ sig) → Buf (Elt Ideal) ℓ) (c : Dev nD) :
    (StableHlo.after (ValueP.ops (F := Ideal)) (launchContents m c) (Proc.devRef .tc main_v125) : S512x1.Idx → EReal)
      = Tail (Cert.Spec.branchArr (m ((c.tc : Thread nD τ).loc main_arg0)) (m ((c.tc : Thread nD τ).loc main_arg1)) (m ((c.tc : Thread nD τ).loc main_arg2)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
          (Cert.Spec.branchArr (m ((c.tc : Thread nD τ).loc main_arg0)) (m ((c.tc : Thread nD τ).loc main_arg1)) (m ((c.tc : Thread nD τ).loc main_arg2)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have h := after_ops_result (launchContents m c)
  rw [ref_branch0, ref_branch1] at h
  exact h

/-- The reference's run with its result at the common last stretch of the two branches' results. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v125)
        = Tail (Cert.Spec.branchArr (m ((c.tc : Thread nD τ).loc main_arg0)) (m ((c.tc : Thread nD τ).loc main_arg1)) (m ((c.tc : Thread nD τ).loc main_arg2)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
          (Cert.Spec.branchArr (m ((c.tc : Thread nD τ).loc main_arg0)) (m ((c.tc : Thread nD τ).loc main_arg1)) (m ((c.tc : Thread nD τ).loc main_arg2)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run (defs (F := Ideal)) _ _).mono (fun _ h c => ⟨(h c main_v125).trans (ref_value m c),
      (h c main_arg0).trans (ValueP.main_arg0_kept (launchContents m c)),
      (h c main_arg1).trans (ValueP.main_arg1_kept (launchContents m c)),
      (h c main_arg2).trans (ValueP.main_arg2_kept (launchContents m c)),
      (h c main_arg3).trans (ValueP.main_arg3_kept (launchContents m c)),
      (h c main_arg4).trans (ValueP.main_arg4_kept (launchContents m c)),
      (h c main_arg5).trans (ValueP.main_arg5_kept (launchContents m c)),
      (h c main_arg6).trans (ValueP.main_arg6_kept (launchContents m c)),
      (h c main_arg7).trans (ValueP.main_arg7_kept (launchContents m c)),
      (h c main_arg8).trans (ValueP.main_arg8_kept (launchContents m c)),
      (h c main_arg9).trans (ValueP.main_arg9_kept (launchContents m c)),
      (h c main_arg10).trans (ValueP.main_arg10_kept (launchContents m c)),
      (h c main_arg11).trans (ValueP.main_arg11_kept (launchContents m c)),
      (h c main_arg12).trans (ValueP.main_arg12_kept (launchContents m c)),
      (h c main_arg13).trans (ValueP.main_arg13_kept (launchContents m c)),
      (h c main_arg14).trans (ValueP.main_arg14_kept (launchContents m c)),
      (h c main_arg15).trans (ValueP.main_arg15_kept (launchContents m c)),
      (h c main_arg16).trans (ValueP.main_arg16_kept (launchContents m c)),
      (h c main_arg17).trans (ValueP.main_arg17_kept (launchContents m c)),
      (h c main_arg18).trans (ValueP.main_arg18_kept (launchContents m c)),
      (h c main_arg19).trans (ValueP.main_arg19_kept (launchContents m c)),
      (h c main_arg20).trans (ValueP.main_arg20_kept (launchContents m c)),
      (h c main_arg21).trans (ValueP.main_arg21_kept (launchContents m c)),
      (h c main_arg22).trans (ValueP.main_arg22_kept (launchContents m c)),
      (h c main_arg23).trans (ValueP.main_arg23_kept (launchContents m c)),
      (h c main_arg24).trans (ValueP.main_arg24_kept (launchContents m c)),
      (h c main_arg25).trans (ValueP.main_arg25_kept (launchContents m c)),
      (h c main_arg26).trans (ValueP.main_arg26_kept (launchContents m c))⟩)
    (ValueP.run_after (F := Ideal) m ρ)

/-- The reference runs and leaves its arguments unchanged. -/
theorem frame_ri : Cert.frame_ReferenceIdeal := fun m ρ _ =>
  (θ_run (Cert.ReferenceIdeal.defs (F := Ideal)) _ _).mono (fun _ h c => (h c).2) (ref_run m ρ)

end Cert.RefSide

end
-- ==== Proof.Equal.lean ====
/-
  The two idealized programs end with equal results.

  Both compute the same two branch arrays from their arguments (each region of the kernel's program leaves one
  aggregation layer; the reference computes the same layers by whole matrix products) and then apply the same last
  stretch of operations to them; from memories that agree on the arguments the two results are therefore one term.
-/
import proofs.«118190_j89781996355909_2_alg».proof.Proof.EqualK
import proofs.«118190_j89781996355909_2_alg».proof.Proof.KTailEq
import proofs.«118190_j89781996355909_2_alg».proof.Proof.RefSide.Run

set_option maxRecDepth 16384

noncomputable section

namespace Cert.Proof.Parts

open Idealize.ShloMosaic Idealize.ShloMosaic.TcCoe Idealize.SL.Sem

theorem frame_ri : Cert.frame_ReferenceIdeal := Cert.RefSide.frame_ri

set_option maxHeartbeats 4000000 in
theorem algebraic : Cert.algebraic_KernelIdeal_ReferenceIdeal := by
  intro m ρ m' ρ' _ hagree
  refine ⟨result m, kernel_run m ρ, ?_⟩
  refine (θ_run _ _ _).mono (fun r h c => ⟨(h c).1.trans ?_, (h c).2⟩) (Cert.RefSide.ref_run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2]
  exact (Cert.KTailEq.ktail_eq_tail _ _ _ _ _ _ _ _ _ _ _ _).symm

end Cert.Proof.Parts

end
-- ==== Proof.lean ====
/- The proof of the certificate's claim: the three programs' frames, the idealization (which rewrote nothing), and the
   equality of the two idealized programs' results, assembled behind the witnesses of the programs' stated facts. -/
import proofs.«118190_j89781996355909_2_alg».proof.Defs
import proofs.«118190_j89781996355909_2_alg».proof.Proof.Gen.Kernel
import proofs.«118190_j89781996355909_2_alg».proof.Proof.Gen.KernelIdeal
import proofs.«118190_j89781996355909_2_alg».proof.Proof.Gen.ReferenceIdeal
import proofs.«118190_j89781996355909_2_alg».proof.Proof.Gen.Pre_finite_inputs
import proofs.«118190_j89781996355909_2_alg».proof.Proof.Equal
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, trivial, Parts.algebraic⟩

end Cert.Proof

end
